-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x320000 : S_.BroadcastsInDim S2x320000 (![] : Fin 0 → Fin S2x320000.rank)
  reducesTo_S2x320000_S_d0_1 : S2x320000.ReducesTo [0, 1] S_

variable [Facts]

def fn_part2 {F : FTy → Type} [FloatOps F] (main_arg3 : IVec S2x320000 32) (main_v33 : IVec S_ 1) : IVec S_ 1 :=
  let main_c_12 : IVec S_ 32 := constantI S_ 32 0#32
  let main_v34 : IVec S2x320000 32 := broadcastInDim S2x320000 ![] bcast_S_S2x320000 main_c_12
  let main_v35 : IVec S2x320000 1 := cmpi .sge main_arg3 main_v34
  let main_c_13 : IVec S_ 32 := constantI S_ 32 9999#32
  let main_v36 : IVec S2x320000 32 := broadcastInDim S2x320000 ![] bcast_S_S2x320000 main_c_13
  let main_v37 : IVec S2x320000 1 := cmpi .sle main_arg3 main_v36
  let main_v38 : IVec S2x320000 1 := andi main_v35 main_v37
  let main_c_14 : IVec S_ 1 := constantI S_ 1 1#1
  let main_v39 : IVec S_ 1 := (fun x v => Host.reduce IntOp.andi x v reducesTo_S2x320000_S_d0_1 h_S_) main_v38 main_c_14
  let main_v40 : IVec S_ 1 := andi main_v33 main_v39
  main_v40

def fn_part1 {F : FTy → Type} [FloatOps F] (main_arg3 : IVec S2x320000 32) (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg3 main_v33

def fn {F : FTy → Type} [FloatOps F] (main_arg0 : FVec F S10000x128 .f32) (main_arg1 : FVec F S10000x128 .f32) (main_arg2 : FVec F S10000x128 .f32) (main_arg3 : IVec S2x320000 32) (main_arg4 : FVec F S128x128 .f32) (main_arg5 : FVec F S128 .f32) (main_arg6 : FVec F S128x1 .f32) (main_arg7 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg5 main_arg6 main_arg7 main_v13 main_v16
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1000x128 : Shape := ⟨2, ![1000, 128]⟩
abbrev S1x320000 : Shape := ⟨2, ![1, 320000]⟩
abbrev S320000 : Shape := ⟨1, ![320000]⟩
abbrev S_ : Shape := ⟨0, ![]⟩
abbrev S3584 : Shape := ⟨1, ![3584]⟩
abbrev S323584 : Shape := ⟨1, ![323584]⟩
abbrev S323584x128 : Shape := ⟨2, ![323584, 128]⟩
abbrev S1x1 : Shape := ⟨2, ![1, 1]⟩
abbrev S323584x1 : Shape := ⟨2, ![323584, 1]⟩
abbrev S2048x128 : Shape := ⟨2, ![2048, 128]⟩
abbrev S2048x1 : Shape := ⟨2, ![2048, 1]⟩
abbrev S320000x1 : Shape := ⟨2, ![320000, 1]⟩

abbrev nBuf : Table → Nat
  | .hbm => 26
  | .local .tc .vmem => 20
  | .local .scVector .vmem => 4
  | _ => 0

abbrev bufTy : (tb : Table) → Fin (nBuf tb) → BufTy
  | .hbm, ⟨0, _⟩ => ⟨S10000x128, .f32⟩
  | .hbm, ⟨1, _⟩ => ⟨S10000x128, .f32⟩
  | .hbm, ⟨2, _⟩ => ⟨S10000x128, .f32⟩
  | .hbm, ⟨3, _⟩ => ⟨S2x320000, .i32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S1x320000, .i32⟩
  | .hbm, ⟨12, _⟩ => ⟨S320000, .i32⟩
  | .hbm, ⟨13, _⟩ => ⟨S_, .i32⟩
  | .hbm, ⟨14, _⟩ => ⟨S3584, .i32⟩
  | .hbm, ⟨15, _⟩ => ⟨S323584, .i32⟩
  | .hbm, ⟨16, _⟩ => ⟨S1x320000, .i32⟩
  | .hbm, ⟨17, _⟩ => ⟨S320000, .i32⟩
  | .hbm, ⟨18, _⟩ => ⟨S_, .i32⟩
  | .hbm, ⟨19, _⟩ => ⟨S3584, .i32⟩
  | .hbm, ⟨20, _⟩ => ⟨S323584, .i32⟩
  | .hbm, ⟨21, _⟩ => ⟨S323584x128, .f32⟩
  | .hbm, ⟨22, _⟩ => ⟨S323584x128, .f32⟩
  | .hbm, ⟨23, _⟩ => ⟨S1x1, .f32⟩
  | .hbm, ⟨24, _⟩ => ⟨S323584x1, .f32⟩
  | .hbm, ⟨25, _⟩ => ⟨S320000x1, .f32⟩
  | .local .tc .vmem, ⟨0, _⟩ => ⟨S1000x128, .f32⟩
  | .local .tc .vmem, ⟨1, _⟩ => ⟨S1000x128, .f32⟩
  | .local .tc .vmem, ⟨2, _⟩ => ⟨S1000x128, .f32⟩
  | .local .tc .vmem, ⟨3, _⟩ => ⟨S1000x128, .f32⟩
  | .local .tc .vmem, ⟨4, _⟩ => ⟨S1000x128, .f32⟩
  | .local .tc .vmem, ⟨5, _⟩ => ⟨S1000x128, .f32⟩
  | .local .tc .vmem, ⟨6, _⟩ => ⟨S128x128, .f32⟩
  | .local .tc .vmem, ⟨7, _⟩ => ⟨S1x128, .f32⟩
  | .local .tc .vmem, ⟨8, _⟩ => ⟨S1000x128, .f32⟩
  | .local .tc .vmem, ⟨9, _⟩ => ⟨S1000x128, .f32⟩
  | .local .tc .vmem, ⟨10, _⟩ => ⟨S1000x128, .f32⟩
  | .local .tc .vmem, ⟨11, _⟩ => ⟨S1000x128, .f32⟩
  | .local .tc .vmem, ⟨12, _⟩ => ⟨S2048x128, .f32⟩
  | .local .tc .vmem, ⟨13, _⟩ => ⟨S2048x128, .f32⟩
  | .local .tc .vmem, ⟨14, _⟩ => ⟨S2048x128, .f32⟩
  | .local .tc .vmem, ⟨15, _⟩ => ⟨S2048x128, .f32⟩
  | .local .tc .vmem, ⟨16, _⟩ => ⟨S128x1, .f32⟩
  | .local .tc .vmem, ⟨17, _⟩ => ⟨S1x1, .f32⟩
  | .local .tc .vmem, ⟨18, _⟩ => ⟨S2048x1, .f32⟩
  | .local .tc .vmem, ⟨19, _⟩ => ⟨S2048x1, .f32⟩
  | .local .scVector .vmem, ⟨0, _⟩ => ⟨S128, .i32⟩
  | .local .scVector .vmem, ⟨1, _⟩ => ⟨S128, .i32⟩
  | .local .scVector .vmem, ⟨2, _⟩ => ⟨S128x128, .f32⟩
  | .local .scVector .vmem, ⟨3, _⟩ => ⟨S128x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v1_0_scv : Ref sig .scVector := ⟨.hbm, 9, rfl⟩
abbrev main_v1_1_scv : Ref sig .scVector := ⟨.hbm, 10, rfl⟩
abbrev main_v5_scv : Ref sig .scVector := ⟨.hbm, 15, rfl⟩
abbrev main_v9_scv : Ref sig .scVector := ⟨.hbm, 20, rfl⟩
abbrev main_v10_0_scv : Ref sig .scVector := ⟨.hbm, 21, rfl⟩
abbrev main_v10_1_scv : Ref sig .scVector := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 16], ![false, false]⟩

@[reducible] def k1_t1_loop : Scf.Loop 32 :=
  let c0_i32_0 : BitVec 32 := 0#32
  let c79_i32 : BitVec 32 := 79#32
  let v3 : BitVec 32 := Scalar.addi c0_i32_0 c79_i32
  let c1_i32 : BitVec 32 := 1#32
  ⟨c0_i32_0, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10112_i32 : BitVec 32 := 10112#32
  let v2 : BitVec 32 := Scalar.muli v1 c10112_i32
  let c0_i32_0 : BitVec 32 := 0#32
  let c1_i32 : BitVec 32 := 1#32
  let arg14 : BitVec 32 := Scf.iv c0_i32_0 c1_i32 k1_t1
  let c128_i32 : BitVec 32 := 128#32
  let v4 : BitVec 32 := Scalar.muli arg14 c128_i32
  let v5 : BitVec 32 := Scalar.addi v2 v4
  ![v5.toNat]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10112_i32 : BitVec 32 := 10112#32
  let v2 : BitVec 32 := Scalar.muli v1 c10112_i32
  let c0_i32_0 : BitVec 32 := 0#32
  let c1_i32 : BitVec 32 := 1#32
  let arg14 : BitVec 32 := Scf.iv c0_i32_0 c1_i32 k1_t1
  let c128_i32 : BitVec 32 := 128#32
  let v4 : BitVec 32 := Scalar.muli arg14 c128_i32
  let v5 : BitVec 32 := Scalar.addi v2 v4
  let c0_i32_10_r2 : BitVec 32 := 0#32
  ![v5.toNat, 0]
abbrev grid2 : Pipeline.Grid := ⟨1, ![158], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2048x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  slices_S2x320000_S1x320000_0_0 : S2x320000.Slices ![0, 0] S1x320000
  shapeCasts_S1x320000_S320000 : S1x320000.ShapeCasts S320000
  bcast_S_S3584 : S_.BroadcastsInDim S3584 (![] : Fin 0 → Fin S3584.rank)
  concatenates_S320000_S3584_S323584_d0 : Shape.Concatenates [S320000, S3584] S323584 0
  slices_S2x320000_S1x320000_1_0 : S2x320000.Slices ![1, 0] S1x320000
  inb_S10000x128_S10000x128_0_0 : ∀ a, (![0, 0] : Fin 2 → Nat) a + S10000x128.size a ≤ S10000x128.size a
  gathers_S10000x128_S128x128 : S10000x128.Gathers 0 S128x128
  shapeCasts_S1_S1x1 : S1.ShapeCasts S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  slices_S323584x1_S320000x1_0_0 : S323584x1.Slices ![0, 0] S320000x1
  dot_S1000x128_S128x128_S1000x128_1_0_0_1_n_n_wf : DotDims.WF S1000x128 S128x128 S1000x128 [1] [0] [0] [1] [] []
  dot_S2048x128_S128x1_S2048x1_1_0_0_1_n_n_wf : DotDims.WF S2048x128 S128x1 S2048x1 [1] [0] [0] [1] [] []
  hcc1_scratch4 : 12 + S_.numel ≤ 26
  hcc1_scratch5 : 13 + S_.numel ≤ 26
  hcc1_scoped0 : 14 + S_.numel ≤ 26
  hcc1_scoped1 : 15 + S_.numel ≤ 26
  hcc1_scoped2 : 16 + S_.numel ≤ 26
  hcc1_scoped3 : 17 + S_.numel ≤ 26
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S10000x128.size a
  hwx0_1 : ∀ i : grid0.Coords, EltTy.bits .f32 = 32 ∨ (Rect.block (s := S10000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S10000x128.size a
  hwx0_2 : ∀ i : grid0.Coords, EltTy.bits .f32 = 32 ∨ (Rect.block (s := S10000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S10000x128.size a
  hwx0_5 : ∀ i : grid0.Coords, EltTy.bits .f32 = 32 ∨ (Rect.block (s := S10000x128) S1000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x128.size a ≤ S10000x128.size a
  hwx0_6 : ∀ i : grid0.Coords, EltTy.bits .f32 = 32 ∨ (Rect.block (s := S10000x128) S1000x128.size (cc0_transform_6 i) (hinb0_6 i)).WholeWords (EltTy.packing .f32)
  hcore1 : grid1.bound 0 ≤ τ.nSC
  hsub1 : grid1.bound 1 ≤ τ.nSub
  k1_t1_ok : k1_t1_loop.OK
  k1_off1_inb : ∀ (i : grid1.Coords) (k1_t1 : Fin k1_t1_loop.trips), ∀ a, (k1_off1 i k1_t1) a + S128.size a ≤ S323584.size a
  k1_off2_inb : ∀ (i : grid1.Coords) (k1_t1 : Fin k1_t1_loop.trips), ∀ a, (k1_off2 i k1_t1) a + S128x128.size a ≤ S323584x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S323584x128.size a
  hwx2_0 : ∀ i : grid2.Coords, EltTy.bits .f32 = 32 ∨ (Rect.block (s := S323584x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S323584x128.size a
  hwx2_1 : ∀ i : grid2.Coords, EltTy.bits .f32 = 32 ∨ (Rect.block (s := S323584x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S128x1.size a
  hwx2_2 : ∀ i : grid2.Coords, EltTy.bits .f32 = 32 ∨ (Rect.block (s := S128x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x1.size a ≤ S323584x1.size a
  hwx2_4 : ∀ i : grid2.Coords, EltTy.bits .f32 = 32 ∨ (Rect.block (s := S323584x1) S2048x1.size (cc2_transform_4 i) (hinb2_4 i)).WholeWords (EltTy.packing .f32)

variable [Facts₀]

abbrev cc1_scratch4 : DmaSems sig S_ := SemArray.consecutive 12 S_ hcc1_scratch4
abbrev cc1_scratch5 : DmaSems sig S_ := SemArray.consecutive 13 S_ hcc1_scratch5
abbrev cc1_scoped0 : DmaSems sig S_ := SemArray.consecutive 14 S_ hcc1_scoped0
abbrev cc1_scoped1 : DmaSems sig S_ := SemArray.consecutive 15 S_ hcc1_scoped1
abbrev cc1_scoped2 : DmaSems sig S_ := SemArray.consecutive 16 S_ hcc1_scoped2
abbrev cc1_scoped3 : DmaSems sig S_ := SemArray.consecutive 17 S_ hcc1_scoped3
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S1000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S1000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win2_0 : Pipeline.Window sig grid2 :=
  Pipeline.Window.ofSpec (Memref.whole main_v10_0) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10_1) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S2048x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1x1 : Shape := ⟨2, ![1, 1]⟩
abbrev S320000x128 : Shape := ⟨2, ![320000, 128]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x128, .f32⟩
  | .hbm, ⟨3, _⟩ => ⟨S2x320000, .i32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S1, .i32⟩
  | .hbm, ⟨21, _⟩ => ⟨S_, .i32⟩
  | .hbm, ⟨22, _⟩ => ⟨S320000x1, .i32⟩
  | .hbm, ⟨23, _⟩ => ⟨S320000x1, .i1⟩
  | .hbm, ⟨24, _⟩ => ⟨S1x1, .i32⟩
  | .hbm, ⟨25, _⟩ => ⟨S320000x1, .i32⟩
  | .hbm, ⟨26, _⟩ => ⟨S320000x1, .i1⟩
  | .hbm, ⟨27, _⟩ => ⟨S320000x1, .i1⟩
  | .hbm, ⟨28, _⟩ => ⟨S_, .i1⟩
  | .hbm, ⟨29, _⟩ => ⟨S320000, .i1⟩
  | .hbm, ⟨30, _⟩ => ⟨S320000x128, .f32⟩
  | .hbm, ⟨31, _⟩ => ⟨S320000x128, .i1⟩
  | .hbm, ⟨32, _⟩ => ⟨S_, .f32⟩
  | .hbm, ⟨33, _⟩ => ⟨S320000x128, .f32⟩
  | .hbm, ⟨34, _⟩ => ⟨S320000x128, .f32⟩
  | .hbm, ⟨35, _⟩ => ⟨S_, .i32⟩
  | .hbm, ⟨36, _⟩ => ⟨S320000, .i32⟩
  | .hbm, ⟨37, _⟩ => ⟨S320000, .i1⟩
  | .hbm, ⟨38, _⟩ => ⟨S_, .i32⟩
  | .hbm, ⟨39, _⟩ => ⟨S320000, .i32⟩
  | .hbm, ⟨40, _⟩ => ⟨S320000, .i32⟩
  | .hbm, ⟨41, _⟩ => ⟨S320000, .i32⟩
  | .hbm, ⟨42, _⟩ => ⟨S320000x1, .i32⟩
  | .hbm, ⟨43, _⟩ => ⟨S1, .i32⟩
  | .hbm, ⟨44, _⟩ => ⟨S_, .i32⟩
  | .hbm, ⟨45, _⟩ => ⟨S320000x1, .i32⟩
  | .hbm, ⟨46, _⟩ => ⟨S320000x1, .i1⟩
  | .hbm, ⟨47, _⟩ => ⟨S1x1, .i32⟩
  | .hbm, ⟨48, _⟩ => ⟨S320000x1, .i32⟩
  | .hbm, ⟨49, _⟩ => ⟨S320000x1, .i1⟩
  | .hbm, ⟨50, _⟩ => ⟨S320000x1, .i1⟩
  | .hbm, ⟨51, _⟩ => ⟨S_, .i1⟩
  | .hbm, ⟨52, _⟩ => ⟨S320000, .i1⟩
  | .hbm, ⟨53, _⟩ => ⟨S320000x128, .f32⟩
  | .hbm, ⟨54, _⟩ => ⟨S320000x128, .i1⟩
  | .hbm, ⟨55, _⟩ => ⟨S_, .f32⟩
  | .hbm, ⟨56, _⟩ => ⟨S320000x128, .f32⟩
  | .hbm, ⟨57, _⟩ => ⟨S320000x128, .f32⟩
  | .hbm, ⟨58, _⟩ => ⟨S320000x128, .f32⟩
  | .hbm, ⟨59, _⟩ => ⟨S_, .i32⟩
  | .hbm, ⟨60, _⟩ => ⟨S320000, .i32⟩
  | .hbm, ⟨61, _⟩ => ⟨S320000, .i1⟩
  | .hbm, ⟨62, _⟩ => ⟨S_, .i32⟩
  | .hbm, ⟨63, _⟩ => ⟨S320000, .i32⟩
  | .hbm, ⟨64, _⟩ => ⟨S320000, .i32⟩
  | .hbm, ⟨65, _⟩ => ⟨S320000, .i32⟩
  | .hbm, ⟨66, _⟩ => ⟨S320000x1, .i32⟩
  | .hbm, ⟨67, _⟩ => ⟨S1, .i32⟩
  | .hbm, ⟨68, _⟩ => ⟨S_, .i32⟩
  | .hbm, ⟨69, _⟩ => ⟨S320000x1, .i32⟩
  | .hbm, ⟨70, _⟩ => ⟨S320000x1, .i1⟩
  | .hbm, ⟨71, _⟩ => ⟨S1x1, .i32⟩
  | .hbm, ⟨72, _⟩ => ⟨S320000x1, .i32⟩
  | .hbm, ⟨73, _⟩ => ⟨S320000x1, .i1⟩
  | .hbm, ⟨74, _⟩ => ⟨S320000x1, .i1⟩
  | .hbm, ⟨75, _⟩ => ⟨S_, .i1⟩
  | .hbm, ⟨76, _⟩ => ⟨S320000, .i1⟩
  | .hbm, ⟨77, _⟩ => ⟨S320000x128, .f32⟩
  | .hbm, ⟨78, _⟩ => ⟨S320000x128, .i1⟩
  | .hbm, ⟨79, _⟩ => ⟨S_, .f32⟩
  | .hbm, ⟨80, _⟩ => ⟨S320000x128, .f32⟩
  | .hbm, ⟨81, _⟩ => ⟨S320000x128, .f32⟩
  | .hbm, ⟨82, _⟩ => ⟨S320000x128, .f32⟩
  | .hbm, ⟨83, _⟩ => ⟨S320000x128, .f32⟩
  | .hbm, ⟨84, _⟩ => ⟨S1x128, .f32⟩
  | .hbm, ⟨85, _⟩ => ⟨S320000x128, .f32⟩
  | .hbm, ⟨86, _⟩ => ⟨S320000x128, .f32⟩
  | .hbm, ⟨87, _⟩ => ⟨S_, .f32⟩
  | .hbm, ⟨88, _⟩ => ⟨S320000x128, .f32⟩
  | .hbm, ⟨89, _⟩ => ⟨S320000x128, .f32⟩
  | .hbm, ⟨90, _⟩ => ⟨S320000x1, .f32⟩
  | .hbm, ⟨91, _⟩ => ⟨S1x1, .f32⟩
  | .hbm, ⟨92, _⟩ => ⟨S320000x1, .f32⟩
  | .hbm, ⟨93, _⟩ => ⟨S320000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v5 : Ref sig .tc := ⟨.hbm, 57, rfl⟩
abbrev main_v6 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v7 : Ref sig .tc := ⟨.hbm, 81, rfl⟩
abbrev main_v8 : Ref sig .tc := ⟨.hbm, 82, rfl⟩
abbrev main_v9 : Ref sig .tc := ⟨.hbm, 83, rfl⟩
abbrev main_v10 : Ref sig .tc := ⟨.hbm, 84, rfl⟩
abbrev main_v11 : Ref sig .tc := ⟨.hbm, 85, rfl⟩
abbrev main_v12 : Ref sig .tc := ⟨.hbm, 86, rfl⟩
abbrev main_cst : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_v17 : Ref sig .tc := ⟨.hbm, 92, rfl⟩
abbrev main_v18 : Ref sig .tc := ⟨.hbm, 93, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  gather_S10000x128_S320000x1_S320000x128_1_0_n_n_0_1_1128_wf : GatherDims.WF S10000x128 S320000x1 S320000x128 [1] [0] [] [0] [] 1 ![1, 128]
  dot_S320000x128_S128x128_S320000x128_1_0_0_1_n_n_wf : DotDims.WF S320000x128 S128x128 S320000x128 [1] [0] [0] [1] [] []
  dot_S320000x128_S128x1_S320000x1_1_0_0_1_n_n_wf : DotDims.WF S320000x128 S128x1 S320000x1 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def dot_S320000x128_S128x1_S320000x1_1_0_0_1_n_n : DotDims S320000x128 S128x1 S320000x1 where
  lhsContracting := [1]
  rhsContracting := [0]
  lhsNonContracting := [0]
  rhsNonContracting := [1]
  lhsBatch := []
  rhsBatch := []
  wf := dot_S320000x128_S128x1_S320000x1_1_0_0_1_n_n_wf

class Facts : Prop extends Facts₀ where

variable [Facts]
-- ==== Proof.KISetup.lean ====
/-
  The shared vocabulary of the kernel's run, at any float instance.

  The program is @main on the TensorCore — two pipelined calls, one before and one after a gather — and, between them, one
  call that runs on the 2 × 16 vector subcores ("tiles") of the device's two SparseCores. This module fixes how the launch
  theorem for such a program reads it, the ghost state (the launch handshakes' rounds, the two pipelines' rounds, and the
  counters of the tiles' own copies, which need no schedule: every copy a tile starts it waits for before the next), the
  six arrays the gather call works on, and how their rows are dealt out: tile (c, s) has number 2·s + c and owns the 10112
  rows from 10112·(2·s + c) on, which it treats in 79 chunks of 128 rows; chunk k of tile (c, s) starts at row
  20224·s + 10112·c + 128·k (the printed offset function, whose closed form the generated facts module proves).

  What the call hands a tile: a read share of each node table and of each index list, and the tile's rows of the two
  gathered arrays, chunk by chunk, at whatever they hold. What comes back: the same shares, and those rows written — row e
  of the first gathered array with row src[e] of the first table, row e of the second with row dst[e] of the second table.
  A SparseCore's part of the call is the sixteen tiles' parts side by side, so that dealing a SparseCore's operands to its
  tiles is the identity and the splitting of the whole arrays happens once, on the TensorCore's side of the call.
-/
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«211135_g34514357191071_cont_8to1_b_641_23_alg».proof.Proof.Gen.KernelIdeal
import proofs.«211135_g34514357191071_cont_8to1_b_641_23_alg».proof.Proof.Gen.KernelIdeal.Skeleton
import proofs.«211135_g34514357191071_cont_8to1_b_641_23_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the tiles' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library is the left factor; the counters are found by instance in the right. -/
abbrev EH : Emb UH (MT nD τ sig (HIx 1) (Elt F) ℕ UU ℕ) := embL
/-- The pipelines' rounds library: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The six arrays of the gather call -/

abbrev aLoc (d : Dev nD) : Loc nD τ sig := (SparseCore.T d).loc main_v1_0
abbrev bLoc (d : Dev nD) : Loc nD τ sig := (SparseCore.T d).loc main_v1_1
abbrev sLoc (d : Dev nD) : Loc nD τ sig := (SparseCore.T d).loc main_v5
abbrev tLoc (d : Dev nD) : Loc nD τ sig := (SparseCore.T d).loc main_v9
abbrev gaLoc (d : Dev nD) : Loc nD τ sig := (SparseCore.T d).loc main_v10_0
abbrev gbLoc (d : Dev nD) : Loc nD τ sig := (SparseCore.T d).loc main_v10_1

/-- The four operands' contents when the call is made: the two node tables and the two padded index lists. -/
structure CallVals (F : FTy → Type) (d : Dev nD) where
  A : Buf (Elt F) (aLoc d)
  B : Buf (Elt F) (bLoc d)
  s : Buf (Elt F) (sLoc d)
  t : Buf (Elt F) (tLoc d)

/-- Every index names a row of the tables. -/
def IdxOK (cv : (d : Dev nD) → CallVals F d) : Prop :=
  ∀ (d : Dev nD) (x : S323584.Idx), ((cv d).s x).toNat < 10000 ∧ ((cv d).t x).toNat < 10000

/-- The row an index word names (any word, so that the gathered arrays are total functions of the operands). -/
def rowIx (w : BitVec 32) : Fin 10000 := ⟨w.toNat % 10000, Nat.mod_lt _ (by decide)⟩
theorem rowIx_val {w : BitVec 32} (h : w.toNat < 10000) : (rowIx w).val = w.toNat := Nat.mod_eq_of_lt h

/-- The two gathered arrays: row e is row src[e] of the first table, row dst[e] of the second. -/
def GAof (cv : (d : Dev nD) → CallVals F d) (d : Dev nD) : Buf (Elt F) (gaLoc d) :=
  fun x : S323584x128.Idx => (cv d).A (ValueIdx.ix2 (rowIx ((cv d).s (ValueIdx.ix1 (x 0)))) (x 1))
def GBof (cv : (d : Dev nD) → CallVals F d) (d : Dev nD) : Buf (Elt F) (gbLoc d) :=
  fun x : S323584x128.Idx => (cv d).B (ValueIdx.ix2 (rowIx ((cv d).t (ValueIdx.ix1 (x 0)))) (x 1))

/-! ## Tiles, chunks, shares -/

theorem bound0 : 2 = grid1.bound 0 := rfl
theorem bound1 : 16 = grid1.bound 1 := rfl
/-- The grid point of SparseCore c's vector subcore s. -/
def pt (c : Fin 2) (s : Fin 16) : grid1.Coords :=
  fun | 0 => Fin.cast bound0 c | 1 => Fin.cast bound1 s | ⟨_ + 2, h⟩ => absurd h (Nat.not_lt.2 (Nat.le_add_left _ _))
/-- The same from the grid's own coordinate types, as the body table passes it. -/
def coordsV (c : Fin (grid1.bound 0)) (s : Fin (grid1.bound 1)) : grid1.Coords :=
  fun | 0 => c | 1 => s | ⟨_ + 2, h⟩ => absurd h (Nat.not_lt.2 (Nat.le_add_left _ _))
theorem coordsV_eq_pt (c : Fin (grid1.bound 0)) (s : Fin (grid1.bound 1)) : coordsV c s = pt (Fin.cast bound0.symm c) (Fin.cast bound1.symm s) := by
  funext a; match a with | ⟨0, _⟩ => rfl | ⟨1, _⟩ => rfl

abbrev gaV : Memref sig .scVector .hbm S323584x128 .f32 := Memref.whole main_v10_0_scv
/-- Chunk k of the tile at L: 128 whole rows of a gathered array, from the printed offset on. -/
abbrev chunkRect (L : grid1.Coords) (k : Fin k1_t1_loop.trips) : Rect S323584x128 :=
  Rect.unit (s := S323584x128) (k1_off2 L k) S128x128.size (k1_off2_inb L k)
abbrev chunkSet (L : grid1.Coords) (k : Fin k1_t1_loop.trips) : Finset S323584x128.Idx :=
  ((gaV : Memref sig .scVector .hbm S323584x128 .f32).slice (chunkRect L k) (fun _ => rfl)).view.set

/-- The read share of a table or list that goes to the tile at L: the SparseCore's token of the whole, then the tile's
    token of that. -/
def qV (L : grid1.Coords) : PosShare TreeShare :=
  Transfers.shareTok (Transfers.shareTok fullShare (grid1.bound 0) (L 0)) (grid1.bound 1) (L 1)

/-! ## What the handshakes carry -/

variable (cv : (d : Dev nD) → CallVals F d)

/-- The four operands' read shares for the tile at L. -/
def tileReads (d : Dev nD) (L : grid1.Coords) : sProp 𝕄 :=
  iprop((aLoc d ↦{qV L} (cv d).A) ∗ (bLoc d ↦{qV L} (cv d).B) ∗ (sLoc d ↦{qV L} (cv d).s) ∗ (tLoc d ↦{qV L} (cv d).t))

/-- What a tile is handed: the read shares, and its rows of the two gathered arrays chunk by chunk, at any contents. -/
def tileIn (d : Dev nD) (L : grid1.Coords) : sProp 𝕄 :=
  iprop(tileReads cv d L
    ∗ (bigSep Finset.univ fun k : Fin k1_t1_loop.trips => iprop(∃ f : Buf (Elt F) (gaLoc d), gaLoc d ↦[chunkSet L k]{fullShare} f))
    ∗ (bigSep Finset.univ fun k : Fin k1_t1_loop.trips => iprop(∃ f : Buf (Elt F) (gbLoc d), gbLoc d ↦[chunkSet L k]{fullShare} f)))

/-- What it hands back: the read shares, and its rows of the two gathered arrays written. -/
def tileOut (d : Dev nD) (L : grid1.Coords) : sProp 𝕄 :=
  iprop(tileReads cv d L
    ∗ (bigSep Finset.univ fun k : Fin k1_t1_loop.trips => gaLoc d ↦[chunkSet L k]{fullShare} GAof cv d)
    ∗ (bigSep Finset.univ fun k : Fin k1_t1_loop.trips => gbLoc d ↦[chunkSet L k]{fullShare} GBof cv d))

instance tileIn_storable (d : Dev nD) (L : grid1.Coords) : BI.Storable (upEmb : UEmb _ 𝕄) (tileIn cv d L) := by
  unfold tileIn tileReads; infer_instance
instance tileOut_storable (d : Dev nD) (L : grid1.Coords) : BI.Storable (upEmb : UEmb _ 𝕄) (tileOut cv d L) := by
  unfold tileOut tileReads; infer_instance

/-- A SparseCore's part of the call: its sixteen tiles' parts side by side. -/
def coreIn (d : Dev nD) (c : Fin 2) : sProp 𝕄 := bigSep Finset.univ fun s : Fin 16 => tileIn cv d (pt c s)
def coreOut (d : Dev nD) (c : Fin 2) : sProp 𝕄 := bigSep Finset.univ fun s : Fin 16 => tileOut cv d (pt c s)
instance coreIn_storable (d : Dev nD) (c : Fin 2) : BI.Storable (upEmb : UEmb _ 𝕄) (coreIn cv d c) := by
  unfold coreIn; infer_instance
instance coreOut_storable (d : Dev nD) (c : Fin 2) : BI.Storable (upEmb : UEmb _ 𝕄) (coreOut cv d c) := by
  unfold coreOut; infer_instance

theorem nCore_eq (q : Fin 1) : (K (F := F)).nCore q = 2 := by match q with | 0 => rfl
theorem nSub_eq (q : Fin 1) : (K (F := F)).nSub q = 16 := by match q with | 0 => rfl

/-- The one SparseCore call: a tile's part both ways, a SparseCore's the sixteen side by side; no kernel proof consumes
    anything of the launch's. -/
def P : (K (F := F)).Pay (nD := nD) (Val := Elt F) (Name := ℕ) (U := UU) where
  st := fun q d c => coreIn cv d (Fin.cast (nCore_eq q) c)
  dn := fun q d c => coreOut cv d (Fin.cast (nCore_eq q) c)
  go := fun q d c i => tileIn cv d (pt (Fin.cast (nCore_eq q) c) (Fin.cast (nSub_eq q) i))
  td := fun q d c i => tileOut cv d (pt (Fin.cast (nCore_eq q) c) (Fin.cast (nSub_eq q) i))
  x := fun _ _ => iprop(emp)

theorem P_st (q : Fin 1) (d : Dev nD) (c : Fin ((K (F := F)).nCore q)) : (P cv).st q d c = coreIn cv d (Fin.cast (nCore_eq q) c) := rfl
theorem P_dn (q : Fin 1) (d : Dev nD) (c : Fin ((K (F := F)).nCore q)) : (P cv).dn q d c = coreOut cv d (Fin.cast (nCore_eq q) c) := rfl
theorem P_go (q : Fin 1) (d : Dev nD) (c : Fin ((K (F := F)).nCore q)) (i : Fin ((K (F := F)).nSub q)) :
    (P cv).go q d c i = tileIn cv d (pt (Fin.cast (nCore_eq q) c) (Fin.cast (nSub_eq q) i)) := rfl
theorem P_td (q : Fin 1) (d : Dev nD) (c : Fin ((K (F := F)).nCore q)) (i : Fin ((K (F := F)).nSub q)) :
    (P cv).td q d c i = tileOut cv d (pt (Fin.cast (nCore_eq q) c) (Fin.cast (nSub_eq q) i)) := rfl

instance P_storable : (P (F := F) cv).IsStorable where
  st q d c := coreIn_storable cv d _
  dn q d c := coreOut_storable cv d _
  go q d c i := tileIn_storable cv d _
  td q d c i := tileOut_storable cv d _

omit cv in
/-- Handing a thing over whole, and taking whatever comes back as it comes. -/
theorem hand_over {X Y : sProp 𝕄} : X ⊢ |={Set.univ}=> iprop(X ∗ (Y -∗ Y)) := by
  iintro H; imodintro
  isplitl [H]; · iexact H
  iintro H; iexact H

omit cv in
/-- A family over the call's vector subcores is the family over sixteen. -/
theorem bigSep_tiles (Φ : Fin 16 → sProp 𝕄) :
    (bigSep Finset.univ fun i : Fin ((K (F := F)).nSub 0) => Φ (Fin.cast (nSub_eq 0) i)) = bigSep Finset.univ Φ := rfl

/-- Dealing a SparseCore's operands to its tiles is the identity. -/
theorem vecSplit : (K (F := F)).VecSplit' (P cv) 0 := by
  intro d c
  simp only [P_st, P_dn, P_go, P_td]
  rw [bigSep_tiles (F := F) (fun s => tileIn cv d (pt (Fin.cast (nCore_eq 0) c) s)),
    bigSep_tiles (F := F) (fun s => tileOut cv d (pt (Fin.cast (nCore_eq 0) c) s))]
  exact hand_over

end Cert.Proof.KI

end
-- ==== Proof.KIMainData.lean ====
/-
  The two pipelined calls of @main — the node tables before the gather, the scores after it — as the pipeline rule
  reads them, each at any contents `V` of the TensorCore's arrays when the call is entered, and at any float instance.

  The first call walks the 10 000 node rows in 10 blocks of 1000. At block t its body adds the key rows to the
  edge-side rows, multiplies by the first weight matrix and adds the bias row (the first table's block), and multiplies
  the query rows by the same matrix (the second table's block). The second call walks the 323 584 padded edge rows in
  158 blocks of 2048: at block t its body subtracts the second gathered block from the first, clamps at zero,
  multiplies by the second weight column and adds the second bias. Every result block is stored whole, so what a body
  leaves in a result window is one function of its operand blocks. A weight or bias operand is fetched once and stays;
  an operand block a step does not fetch is the block already there, the blocks tiling the arrays exactly.

  The TensorCore owes a constant tally `O` throughout a call (what the launch has it owe the vector subcores' call
  still to come; nothing after it), its recorded waits within a constant bound `B`; a body neither pays nor takes on
  anything. The invariant is the scratch no window stages and the generator register, untouched.
-/
import proofs.«211135_g34514357191071_cont_8to1_b_641_23_alg».proof.Proof.KISetup
import proofs.«211135_g34514357191071_cont_8to1_b_641_23_alg».proof.Proof.Gen.KernelIdeal.Points
import Idealize.ShloMosaic.Lib.Pipeline.FrameBody
import Idealize.ShloMosaic.Lib.Pipeline.RegionsLoop
import Idealize.ShloMosaic.Lib.Pipeline.FrameSuffix

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))
variable (O : Dev nD → CellTallies nD τ sig (HIx 1)) (B : Dev nD → Set (SemLoc sig × HIx 1))

/-- The invariant of either call on core `c`: the scoped buffers no window of the call stages, at some contents each,
    and the generator register at some state. -/
def ΦR {gr : Nat} {W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

/-! # The first call (the node tables) -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An operand window's current buffer holds its block at every point, fetched there or not. -/
theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) (HIx 1) ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) (HIx 1) ℕ UU ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) (HIx 1) ℕ UU ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev rN : Rect S1000x128 := Rect.unit (s := S1000x128) ![0, 0] S1000x128.size inb_S1000x128_S1000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The first table's block: (keys + edge side) · W1 + b1, stored whole. -/
def out0_5 (x0 x1 : Vec F S1000x128 .f32) (x3 : Vec F S128x128 .f32) (x4 : Vec F S1x128 .f32) : Vec F S1000x128 .f32 :=
  View.canon [⟨rN, k0_pay1 (View.ld x0 rN) (View.ld x1 rN) (View.ld x3 rW) (View.ld x4 rB)⟩]
/-- The second table's block: queries · W1, stored whole. -/
def out0_6 (x2 : Vec F S1000x128 .f32) (x3 : Vec F S128x128 .f32) : Vec F S1000x128 .f32 :=
  View.canon [⟨rN, k0_pay2 (View.ld x3 rW) (View.ld x2 rN)⟩]

theorem cover0 (p0 : Vec F S1000x128 .f32) (y : S1000x128.Idx) :
    ∃ pc ∈ ([⟨rN, p0⟩] : List (View.Piece (Elt F) S1000x128 .f32)), y ∈ pc.1.set :=
  View.cover_of_tiled [⟨rN, p0⟩] S1000x128.size (by rfl) y

set_option maxHeartbeats 1000000 in
/-- The body on whole staging memrefs, the operands' at read contents and the results' at anything, runs to the
    continuation holding the operands' as they were and each result's at its one function of them. -/
theorem sound_kernel0 (c : Dev nD) (E : Set ℕ) (i : grid0.Coords)
    (arg1 : Memref sig .tc .vmem S1000x128 .f32) (harg1 : arg1.IsWhole) (arg2 : Memref sig .tc .vmem S1000x128 .f32) (harg2 : arg2.IsWhole)
    (arg3 : Memref sig .tc .vmem S1000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1000x128 .f32) (harg6 : arg6.IsWhole)
    (arg7 : Memref sig .tc .vmem S1000x128 .f32) (harg7 : arg7.IsWhole)
    (x0 x1 x2 : Vec F S1000x128 .f32) (x3 : Vec F S128x128 .f32) (x4 : Vec F S1x128 .f32) (K' : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x3 x4) ∗ owns (c : Thread nD τ) arg7 fullShare (out0_6 x2 x3)) -∗ K' ⟨⟩))
      ⊢ wp frame (wpE (defs₀ (F := F)) Variants.none c none) E (cc0__tables_body i arg1 harg1 arg2 harg2 arg3 harg3 arg4 harg4 arg5 harg5 arg6 harg6 arg7 harg7) K' := by
  simp only [cc0__tables_body_eq_skeleton]; unfold cc0__tables_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-- The proof data of the first call on core `c`. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 3 t) (iblk0 V c 4 t)
    | ⟨6, _⟩ => out0_6 (iblk0 V c 2 t) (iblk0 V c 3 t)
  Φ _ := ΦR spec0 c
  q _ := fullShare
  owed _ := O c
  recorded _ := B c

theorem A_eq0 (c : Dev nD) (w : Fin cfg0.W) : (dat0 V O B c).A w = V c (Pipeline.arrRef spec0 w) := by
  dsimp only [dat0]
theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) : (dat0 V O B c).after 2 t = iblk0 V c 2 t := by dsimp only [dat0]
theorem after0_3 (c : Dev nD) (t : Fin cfg0.N) : (dat0 V O B c).after 3 t = iblk0 V c 3 t := by dsimp only [dat0]
theorem after0_4 (c : Dev nD) (t : Fin cfg0.N) : (dat0 V O B c).after 4 t = iblk0 V c 4 t := by dsimp only [dat0]
theorem after0_5 (c : Dev nD) (t : Fin cfg0.N) : (dat0 V O B c).after 5 t = out0_5 (iblk0 V c 0 t) (iblk0 V c 1 t) (iblk0 V c 3 t) (iblk0 V c 4 t) := by dsimp only [dat0]
theorem after0_6 (c : Dev nD) (t : Fin cfg0.N) : (dat0 V O B c).after 6 t = out0_6 (iblk0 V c 2 t) (iblk0 V c 3 t) := by dsimp only [dat0]
theorem before0_0 (c : Dev nD) (t : Fin cfg0.N) (d) : (dat0 V O B c).before 0 t d = iblk0 V c 0 t :=
  before0_0_of V (dat0 V O B c) (A_eq0 V O B c 0) (after0_0 V O B c) t d
theorem before0_1 (c : Dev nD) (t : Fin cfg0.N) (d) : (dat0 V O B c).before 1 t d = iblk0 V c 1 t :=
  before0_1_of V (dat0 V O B c) (A_eq0 V O B c 1) (after0_1 V O B c) t d
theorem before0_2 (c : Dev nD) (t : Fin cfg0.N) (d) : (dat0 V O B c).before 2 t d = iblk0 V c 2 t :=
  before0_2_of V (dat0 V O B c) (A_eq0 V O B c 2) (after0_2 V O B c) t d
theorem before0_3 (c : Dev nD) (t : Fin cfg0.N) (d) : (dat0 V O B c).before 3 t d = iblk0 V c 3 t :=
  before0_3_of V (dat0 V O B c) (A_eq0 V O B c 3) (after0_3 V O B c) t d
theorem before0_4 (c : Dev nD) (t : Fin cfg0.N) (d) : (dat0 V O B c).before 4 t d = iblk0 V c 4 t :=
  before0_4_of V (dat0 V O B c) (A_eq0 V O B c 4) (after0_4 V O B c) t d

/-- What the body is called with at point `t`, the windows one by one, -/
def bodyPre0 (c : Dev nD) (t : Fin cfg0.N) : sProp 𝕄 :=
  iprop((dat0 V O B c).Φ t.castSucc ∗ (dat0 V O B c).owesAt none t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d))
    ∗ (∃ d, owns (c : Thread nD τ) (st0_3 t) fullShare ((dat0 V O B c).before 3 t d))
    ∗ (∃ d, owns (c : Thread nD τ) (st0_4 t) fullShare ((dat0 V O B c).before 4 t d))
    ∗ (∃ d, owns (c : Thread nD τ) (st0_5 t) fullShare ((dat0 V O B c).before 5 t d))
    ∗ (∃ d, owns (c : Thread nD τ) (st0_6 t) fullShare ((dat0 V O B c).before 6 t d)))

/-- and what it returns. -/
def bodyPost0 (c : Dev nD) (t : Fin cfg0.N) : sProp 𝕄 :=
  iprop((dat0 V O B c).Φ t.succ ∗ (dat0 V O B c).owesAt none t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t)
    ∗ owns (c : Thread nD τ) (st0_3 t) fullShare ((dat0 V O B c).after 3 t)
    ∗ owns (c : Thread nD τ) (st0_4 t) fullShare ((dat0 V O B c).after 4 t)
    ∗ owns (c : Thread nD τ) (st0_5 t) fullShare ((dat0 V O B c).after 5 t)
    ∗ owns (c : Thread nD τ) (st0_6 t) fullShare ((dat0 V O B c).after 6 t))

/-- The body at any point: the operands' memrefs hold their blocks, so the body's triple applies; the invariant and
    the core's debts pass through unread. -/
theorem sound_body0 (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1, before0_2, before0_3, before0_4]
  rw [show (dat0 V O B c).Φ t.succ = (dat0 V O B c).Φ t.castSucc from rfl,
    show (dat0 V O B c).owesAt none t.succ = (dat0 V O B c).owesAt none t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline rule's body obligation for the first call, at every point. -/
theorem body_obligation0 (c : Dev nD) : BodyObligation (dat0 (F := F) V O B c) (defs₀ (F := F)) Variants.none (none : HIx 1) Set.univ := fun t => by
  rw [bigSep_W0, bigSep_W0]
  exact sound_body0 V O B c t

/-! # The second call (the scores) -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev rE : Rect S2048x128 := Rect.unit (s := S2048x128) ![0, 0] S2048x128.size inb_S2048x128_S2048x128_0_0
abbrev rC : Rect S128x1 := Rect.unit (s := S128x1) ![0, 0] S128x1.size inb_S128x1_S128x1_0_0
abbrev rS : Rect S1x1 := Rect.unit (s := S1x1) ![0, 0] S1x1.size inb_S1x1_S1x1_0_0
abbrev rO : Rect S2048x1 := Rect.unit (s := S2048x1) ![0, 0] S2048x1.size inb_S2048x1_S2048x1_0_0

/-- The score block: max(first gathered − second gathered, 0) · W2 + b2, stored whole. -/
def out2_4 (x0 x1 : Vec F S2048x128 .f32) (x2 : Vec F S128x1 .f32) (x3 : Vec F S1x1 .f32) : Vec F S2048x1 .f32 :=
  View.canon [⟨rO, k2_pay1 (View.ld x0 rE) (View.ld x1 rE) (View.ld x2 rC) (View.ld x3 rS)⟩]

theorem cover2 (p0 : Vec F S2048x1 .f32) (y : S2048x1.Idx) :
    ∃ pc ∈ ([⟨rO, p0⟩] : List (View.Piece (Elt F) S2048x1 .f32)), y ∈ pc.1.set :=
  View.cover_of_tiled [⟨rO, p0⟩] S2048x1.size (by rfl) y

set_option maxHeartbeats 1000000 in
/-- The body on whole staging memrefs, the operands' at read contents and the result's at anything, runs to the
    continuation holding the operands' as they were and the result's at its one function of them. -/
theorem sound_kernel2 (c : Dev nD) (E : Set ℕ) (i : grid2.Coords)
    (arg1 : Memref sig .tc .vmem S2048x128 .f32) (harg1 : arg1.IsWhole) (arg2 : Memref sig .tc .vmem S2048x128 .f32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S2048x1 .f32) (harg5 : arg5.IsWhole)
    (x0 x1 : Vec F S2048x128 .f32) (x2 : Vec F S128x1 .f32) (x3 : Vec F S1x1 .f32) (K' : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K' ⟨⟩))
      ⊢ wp frame (wpE (defs₀ (F := F)) Variants.none c none) E (cc2__score_body i arg1 harg1 arg2 harg2 arg3 harg3 arg4 harg4 arg5 harg5) K' := by
  simp only [cc2__score_body_eq_skeleton]; unfold cc2__score_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-- The proof data of the second call on core `c`. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := ΦR spec2 c
  q _ := fullShare
  owed _ := O c
  recorded _ := B c

theorem A_eq2 (c : Dev nD) (w : Fin cfg2.W) : (dat2 V O B c).A w = V c (Pipeline.arrRef spec2 w) := by
  dsimp only [dat2]
theorem after2_0 (c : Dev nD) (t : Fin cfg2.N) : (dat2 V O B c).after 0 t = iblk2 V c 0 t := by dsimp only [dat2]
theorem after2_1 (c : Dev nD) (t : Fin cfg2.N) : (dat2 V O B c).after 1 t = iblk2 V c 1 t := by dsimp only [dat2]
theorem after2_2 (c : Dev nD) (t : Fin cfg2.N) : (dat2 V O B c).after 2 t = iblk2 V c 2 t := by dsimp only [dat2]
theorem after2_3 (c : Dev nD) (t : Fin cfg2.N) : (dat2 V O B c).after 3 t = iblk2 V c 3 t := by dsimp only [dat2]
theorem after2_4 (c : Dev nD) (t : Fin cfg2.N) : (dat2 V O B c).after 4 t = out2_4 (iblk2 V c 0 t) (iblk2 V c 1 t) (iblk2 V c 2 t) (iblk2 V c 3 t) := by dsimp only [dat2]
theorem before2_0 (c : Dev nD) (t : Fin cfg2.N) (d) : (dat2 V O B c).before 0 t d = iblk2 V c 0 t :=
  before2_0_of V (dat2 V O B c) (A_eq2 V O B c 0) (after2_0 V O B c) t d
theorem before2_1 (c : Dev nD) (t : Fin cfg2.N) (d) : (dat2 V O B c).before 1 t d = iblk2 V c 1 t :=
  before2_1_of V (dat2 V O B c) (A_eq2 V O B c 1) (after2_1 V O B c) t d
theorem before2_2 (c : Dev nD) (t : Fin cfg2.N) (d) : (dat2 V O B c).before 2 t d = iblk2 V c 2 t :=
  before2_2_of V (dat2 V O B c) (A_eq2 V O B c 2) (after2_2 V O B c) t d
theorem before2_3 (c : Dev nD) (t : Fin cfg2.N) (d) : (dat2 V O B c).before 3 t d = iblk2 V c 3 t :=
  before2_3_of V (dat2 V O B c) (A_eq2 V O B c 3) (after2_3 V O B c) t d

/-- What the body is called with at point `t`, the windows one by one, -/
def bodyPre2 (c : Dev nD) (t : Fin cfg2.N) : sProp 𝕄 :=
  iprop((dat2 V O B c).Φ t.castSucc ∗ (dat2 V O B c).owesAt none t.castSucc
    ∗ (∃ d, owns (c : Thread nD τ) (st2_0 t) fullShare ((dat2 V O B c).before 0 t d))
    ∗ (∃ d, owns (c : Thread nD τ) (st2_1 t) fullShare ((dat2 V O B c).before 1 t d))
    ∗ (∃ d, owns (c : Thread nD τ) (st2_2 t) fullShare ((dat2 V O B c).before 2 t d))
    ∗ (∃ d, owns (c : Thread nD τ) (st2_3 t) fullShare ((dat2 V O B c).before 3 t d))
    ∗ (∃ d, owns (c : Thread nD τ) (st2_4 t) fullShare ((dat2 V O B c).before 4 t d)))

/-- and what it returns. -/
def bodyPost2 (c : Dev nD) (t : Fin cfg2.N) : sProp 𝕄 :=
  iprop((dat2 V O B c).Φ t.succ ∗ (dat2 V O B c).owesAt none t.succ
    ∗ owns (c : Thread nD τ) (st2_0 t) fullShare ((dat2 V O B c).after 0 t)
    ∗ owns (c : Thread nD τ) (st2_1 t) fullShare ((dat2 V O B c).after 1 t)
    ∗ owns (c : Thread nD τ) (st2_2 t) fullShare ((dat2 V O B c).after 2 t)
    ∗ owns (c : Thread nD τ) (st2_3 t) fullShare ((dat2 V O B c).after 3 t)
    ∗ owns (c : Thread nD τ) (st2_4 t) fullShare ((dat2 V O B c).after 4 t))

theorem sound_body2 (c : Dev nD) (t : Fin cfg2.N) :
    bodyPre2 V O B c t ⊢ wp frame (wpE (defs₀ (F := F)) Variants.none c none) Set.univ (bodyAt2 t) (fun _ => bodyPost2 V O B c t) := by
  unfold bodyPre2 bodyPost2 bodyAt2
  simp only [before2_0, before2_1, before2_2, before2_3]
  rw [show (dat2 V O B c).Φ t.succ = (dat2 V O B c).Φ t.castSucc from rfl,
    show (dat2 V O B c).owesAt none t.succ = (dat2 V O B c).owesAt none t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline rule's body obligation for the second call, at every point. -/
theorem body_obligation2 (c : Dev nD) : BodyObligation (dat2 (F := F) V O B c) (defs₀ (F := F)) Variants.none (none : HIx 1) Set.univ := fun t => by
  rw [bigSep_W2, bigSep_W2]
  exact sound_body2 V O B c t

end Cert.Proof.KI

end
-- ==== Proof.KIMainRegions.lean ====
/-
  @main on the TensorCore between the launch and the return, as a walk through the contents of its arrays: a reshape of
  the first bias, the first pipelined call (the node tables), the ten operations that cut the two rows of the edge list
  out, flatten them and pad each with 3584 zeros, the gather call on the vector subcores, a reshape of the second bias,
  the second pipelined call (the scores), and the slice that drops the padding rows.

  `W0` … `W7` are the contents of the TensorCore's arrays at those boundaries, each a function of the launch memory: a
  host stretch rewrites what its operations write; a pipelined call leaves its result arrays at what its write-backs
  fold to and everything else alone; the gather call leaves the two gathered arrays at row src[e] of the first table
  and row dst[e] of the second. `cv` names the four operands of the gather call.

  Each pipelined call is then a region of the pipeline rule over the thread state "every unscoped array at the boundary's
  contents, the generator register at some state, the TensorCore owing what the handshake protocol has it owe at that
  stage, every wait it has recorded at a level the protocol allows": the TensorCore owes its start signals for the
  gather call across the first region and nothing across the second, and the pipelines' own waits sit at the protocol's
  lowest level, below every such debt.
-/
import proofs.«211135_g34514357191071_cont_8to1_b_641_23_alg».proof.Proof.KIMainData
import proofs.«211135_g34514357191071_cont_8to1_b_641_23_alg».proof.Proof.Gen.KernelIdeal.Launch

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo (held)

variable (m : (ℓ : Loc nD τ sig) → Buf (Elt F) ℓ)

/-! ## The host stretches -/

abbrev opsA : List (HloOp τ sig (Elt F)) :=
  [StableHlo.reshape main_arg5 main_v0 rfl shapeCasts_S128_S1x128]
abbrev opsB : List (HloOp τ sig (Elt F)) :=
  [StableHlo.unary main_arg3 main_v2 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v2 main_v3 rfl shapeCasts_S1x320000_S320000,
    StableHlo.nullary main_c (constantI S_ 32 0#32),
    StableHlo.unary main_c main_v4 (broadcastInDim S3584 ![] bcast_S_S3584 : (⟨S_, .i32⟩ : BufTy).Contents (Elt F) → (⟨S3584, .i32⟩ : BufTy).Contents (Elt F)),
    StableHlo.binary main_v3 main_v4 main_v5 ((fun a b => concatenate S323584 0 [⟨S320000, a⟩, ⟨S3584, b⟩] concatenates_S320000_S3584_S323584_d0) : (⟨S320000, .i32⟩ : BufTy).Contents (Elt F) → (⟨S3584, .i32⟩ : BufTy).Contents (Elt F) → (⟨S323584, .i32⟩ : BufTy).Contents (Elt F)),
    StableHlo.unary main_arg3 main_v6 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v6 main_v7 rfl shapeCasts_S1x320000_S320000,
    StableHlo.nullary main_c_0 (constantI S_ 32 0#32),
    StableHlo.unary main_c_0 main_v8 (broadcastInDim S3584 ![] bcast_S_S3584 : (⟨S_, .i32⟩ : BufTy).Contents (Elt F) → (⟨S3584, .i32⟩ : BufTy).Contents (Elt F)),
    StableHlo.binary main_v7 main_v8 main_v9 ((fun a b => concatenate S323584 0 [⟨S320000, a⟩, ⟨S3584, b⟩] concatenates_S320000_S3584_S323584_d0) : (⟨S320000, .i32⟩ : BufTy).Contents (Elt F) → (⟨S3584, .i32⟩ : BufTy).Contents (Elt F) → (⟨S323584, .i32⟩ : BufTy).Contents (Elt F))]
abbrev opsC : List (HloOp τ sig (Elt F)) :=
  [StableHlo.reshape main_arg7 main_v11 rfl shapeCasts_S1_S1x1]
abbrev opsD : List (HloOp τ sig (Elt F)) :=
  [StableHlo.unary main_v12 main_v13 ((extractStridedSlice S320000x1 ![0, 0] · slices_S323584x1_S320000x1_0_0) : (⟨S323584x1, .f32⟩ : BufTy).Contents (Elt F) → (⟨S320000x1, .f32⟩ : BufTy).Contents (Elt F))]

/-! ## What the TensorCore owes at each stage, and the bound on its recorded waits -/

/-- Before call `n` of the handshake protocol (0: the gather call still to come; 1: done). -/
abbrev Ow (n : ℕ) (c : Dev nD) : CellTallies nD τ sig (HIx 1) := (K (F := F)).Otc c n
abbrev Bw (n : ℕ) (c : Dev nD) : Set (SemLoc sig × HIx 1) := {p | (K (F := F)).lev (T c, p.1) p.2 ≤ 8 * n}

/-- The protocol's debts are all at a call's index. -/
theorem Ow_none (n : ℕ) (c : Dev nD) (g : GSem nD τ sig) : Ow (F := F) n c g none = 0 := by
  by_contra h
  have := SparseCore.Cfg.lev_of_Otc_pos (K := K (F := F)) (Nat.pos_of_ne_zero h); rw [SparseCore.Cfg.lev_none] at this; omega

/-! ## The contents at each boundary -/

abbrev a' : DevRef τ sig := Proc.devRef .tc (main_v1_0 : Ref sig .tc)
abbrev b' : DevRef τ sig := Proc.devRef .tc (main_v1_1 : Ref sig .tc)
abbrev s' : DevRef τ sig := Proc.devRef .tc (main_v5 : Ref sig .tc)
abbrev t' : DevRef τ sig := Proc.devRef .tc (main_v9 : Ref sig .tc)
abbrev ga' : DevRef τ sig := Proc.devRef .tc (main_v10_0 : Ref sig .tc)
abbrev gb' : DevRef τ sig := Proc.devRef .tc (main_v10_1 : Ref sig .tc)

/-- At launch. -/
abbrev W0 : Dev nD → Valuation τ sig (Elt F) := fun c b => m (c, b)
/-- After the first bias is reshaped (the first call's entry). -/
abbrev W1 : Dev nD → Valuation τ sig (Elt F) := fun c => StableHlo.after opsA (W0 m c)
abbrev V1 : (c : Dev nD) → (b : Ref sig .tc) → Buf (Elt F) ((c : Thread nD τ).loc b) := fun c b => W1 m c b
/-- At the first call's exit: its arrays at what the pipeline leaves, every other as entered. -/
def W2 (c : Dev nD) : Valuation τ sig (Elt F) :=
  Pipeline.withArrays spec0 c (W1 m c) fun w => (dat0 (V1 m) (Ow (F := F) 0) (Bw (F := F) 0) c).arrAt w cfg0.N
theorem W2_arr (c : Dev nD) (w : Fin cfg0.W) :
    W2 m c (Proc.devRef .tc (Pipeline.arrRef spec0 w)) = (dat0 (V1 m) (Ow (F := F) 0) (Bw (F := F) 0) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) (Ow (F := F) 0) (Bw (F := F) 0) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the index lists are cut out and padded (the gather call's entry). -/
abbrev W3 : Dev nD → Valuation τ sig (Elt F) := fun c => StableHlo.after opsB (W2 m c)

/-- The gather call's four operands: the two node tables as the first call left them, the two padded index lists. -/
def cv (d : Dev nD) : CallVals F d := ⟨W3 m d a', W3 m d b', W3 m d s', W3 m d t'⟩

/-- After the gather call: the two gathered arrays written, every other as before. -/
def W4 (c : Dev nD) : Valuation τ sig (Elt F) :=
  Function.update (Function.update (W3 m c) ga' (GAof (cv m) c)) gb' (GBof (cv m) c)
/-- After the second bias is reshaped (the second call's entry). -/
abbrev W5 : Dev nD → Valuation τ sig (Elt F) := fun c => StableHlo.after opsC (W4 m c)
abbrev V5 : (c : Dev nD) → (b : Ref sig .tc) → Buf (Elt F) ((c : Thread nD τ).loc b) := fun c b => W5 m c b
/-- At the second call's exit. -/
def W6 (c : Dev nD) : Valuation τ sig (Elt F) :=
  Pipeline.withArrays spec2 c (W5 m c) fun w => (dat2 (V5 m) (Ow (F := F) 1) (Bw (F := F) 1) c).arrAt w cfg2.N
theorem W6_arr (c : Dev nD) (w : Fin cfg2.W) :
    W6 m c (Proc.devRef .tc (Pipeline.arrRef spec2 w)) = (dat2 (V5 m) (Ow (F := F) 1) (Bw (F := F) 1) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) (Ow (F := F) 1) (Bw (F := F) 1) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After the padding rows are dropped (the return). -/
abbrev W7 : Dev nD → Valuation τ sig (Elt F) := fun c => StableHlo.after opsD (W6 m c)

/-! ## The proof data family and the thread state -/

abbrev adm : (p : Fin 2) → (pcfgs (F := F) p).Adm := fun p => (cfgs p).toPCfg_adm
/-- Every pipeline's proof data, each at its call's entry contents: a literal match. -/
def pdats : (p : Fin 2) → (c : Dev nD) → Dat τ (Elt F) (HIx 1) ℕ UU ℕ (Pipeline.pin (pcfgs (F := F)) adm p) c
  | ⟨0, _⟩ => fun c => dat0 (V1 m) (Ow (F := F) 0) (Bw (F := F) 0) c
  | ⟨1, _⟩ => fun c => dat2 (V5 m) (Ow (F := F) 1) (Bw (F := F) 1) c

/-- What rides beside the arrays: the generator register, and the TensorCore's debts before call `n` with every
    recorded wait at a level the protocol allows there. -/
abbrev Rw (n : ℕ) (c : Dev nD) : sProp 𝕄 :=
  iprop((∃ r, prngReg c r) ∗ ∃ W, ⌜(K (F := F)).WBelow (T c) W (8 * n)⌝ ∗ owes (T c) ((K (F := F)).Otc c n) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A pipeline's own waits are admissible under the protocol's debts: they sit at the lowest level. -/
theorem hwaitsK (p : Fin 2) (n : ℕ) (howed : ∀ c t, (pdats m p c).owed t = Ow (F := F) n c) (c : Dev nD) :
    (levAts (K (F := F)).L (K (F := F)).lev : sProp 𝕄) ⊢ Pipeline.cellsWaits (Pipeline.pin (pcfgs (F := F)) adm) (pdats m) (none : HIx 1) p c :=
  Pipeline.cellsWaits_intro _ _ _ p c fun w s t => by
    rw [howed c t]
    exact (K (F := F)).mayWait_none (thr := T c) _ (Ow_none (F := F) n c)

set_option backward.isDefEq.respectTransparency.types false in
/-- The first pipelined call over the thread state: entered at `W1`, left at `W2`. -/
def reg0 : Pipeline.RegionSeg (pcfgs (F := F)) adm (pdats m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V1 m) (Ow (F := F) 0) (Bw (F := F) 0) c).loose
  hwaits := hwaitsK m 0 0 fun _ _ => rfl
  pre c := iprop(held (c : Thread nD τ) (Pipeline.ucRefs τ sig) (W1 m c) ∗ Rw 0 c)
  post c := iprop(held (c : Thread nD τ) (Pipeline.ucRefs τ sig) (W2 m c) ∗ Rw 0 c)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p (Finset.mem_coe.mp hp))
      iexact HO
    isplitl [Hp]; · iexact Hp
    iexact Hrest
  hin c := by
    rw [show (pdats m 0 c).Φ 0 = ΦR spec0 c from rfl]; unfold ΦR
    iintro ⟨Hp, -, Hr⟩
    isplitl [Hr]; · iexact Hr
    iexact Hp
  hout c := by
    rw [Pipeline.ownSems0_none, show (pdats m 0 c).Φ (Fin.last _) = ΦR spec0 c from rfl]; unfold ΦR
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW (Finset.mem_coe.mpr hp) with h | ⟨w, s, rfl⟩
      · exact h
      · show (K (F := F)).lev _ none ≤ _; rw [SparseCore.Cfg.lev_none]
    iexact HO

set_option backward.isDefEq.respectTransparency.types false in
/-- The second pipelined call over the thread state: entered at `W5`, left at `W6`. -/
def reg2 : Pipeline.RegionSeg (pcfgs (F := F)) adm (pdats m) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (V5 m) (Ow (F := F) 1) (Bw (F := F) 1) c).loose
  hwaits := hwaitsK m 1 1 fun _ _ => rfl
  pre c := iprop(held (c : Thread nD τ) (Pipeline.ucRefs τ sig) (W5 m c) ∗ Rw 1 c)
  post c := iprop(held (c : Thread nD τ) (Pipeline.ucRefs τ sig) (W6 m c) ∗ Rw 1 c)
  X c := iprop(∃ r, prngReg c r)
  Y c := iprop(∃ r, prngReg c r)
  Z c := Pipeline.unscopedRest (Ix := HIx 1) (Name := ℕ) (U := UU) (Lvl := ℕ) spec2 c (V5 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V5 m c) fun _ => rfl
    rw [Pipeline.unscopedBufs_held] at hsplit
    iintro ⟨⟨Hub, Hp, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p (Finset.mem_coe.mp hp))
      iexact HO
    isplitl [Hp]; · iexact Hp
    iexact Hrest
  hin c := by
    rw [show (pdats m 1 c).Φ 0 = ΦR spec2 c from rfl]; unfold ΦR
    iintro ⟨Hp, -, Hr⟩
    isplitl [Hr]; · iexact Hr
    iexact Hp
  hout c := by
    rw [Pipeline.ownSems0_none, show (pdats m 1 c).Φ (Fin.last _) = ΦR spec2 c from rfl]; unfold ΦR
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V5 m c) (V6 m c) ((pdats m 1 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW (Finset.mem_coe.mpr hp) with h | ⟨w, s, rfl⟩
      · exact h
      · show (K (F := F)).lev _ none ≤ _; rw [SparseCore.Cfg.lev_none]; exact Nat.zero_le _
    iexact HO

end Cert.Proof.KI

end
-- ==== Proof.KIMainPre.lean ====
/-
  @main on the TensorCore, prepared: the printed program respelt as host stretches bound around its three calls; the
  stretches' side conditions (each operation touches unscoped TensorCore arrays only and allocates none); the six arrays
  of the gather call taken out of the set of all unscoped arrays and put back with the two gathered arrays rewritten;
  the handshake state with the TensorCore's debts apart; what the launch element funds for the pipelined calls; and
  what @main leaves at the return.
-/
import proofs.«211135_g34514357191071_cont_8to1_b_641_23_alg».proof.Proof.KIMainRegions

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo (held held_sub_split held_congr wp_seq)

variable (m : (ℓ : Loc nD τ sig) → Buf (Elt F) ℓ) (g : Dev nD → PrngReg)

/-! ## @main, respelt as stretches around the three calls -/

theorem main_eq (d : Dev nD) : main (F := F) d =
    (StableHlo.seq opsA >>= fun _ => SparseCore.liftProg (Q := 1) (Prog.op (.customCall (Pipeline.entry 0) ()) (fun _ => Prog.ret PUnit.unit) : Prog (TpuEff nD τ sig (Elt F) (ΛP (F := F)) .tc) PUnit) >>= fun _ =>
      StableHlo.seq opsB >>= fun _ => sc.run d 0 >>= fun _ =>
      StableHlo.seq opsC >>= fun _ => SparseCore.liftProg (Q := 1) (Prog.op (.customCall (Pipeline.entry 1) ()) (fun _ => Prog.ret PUnit.unit) : Prog (TpuEff nD τ sig (Elt F) (ΛP (F := F)) .tc) PUnit) >>= fun _ =>
      StableHlo.seq opsD >>= fun _ => pure ⟨⟩) := rfl

/-! ## The host stretches' side conditions -/

theorem opsA_sub : (opsA : List (HloOp τ sig (Elt F))).Forall fun op => op.bufs ⊆ StableHlo.tcRefs τ sig :=
  StableHlo.reshape_bufs_sub ..
theorem opsB_sub : (opsB : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..,
    StableHlo.unary_bufs_sub .., StableHlo.reshape_bufs_sub .., StableHlo.nullary_bufs_sub .., StableHlo.unary_bufs_sub .., StableHlo.binary_bufs_sub ..⟩
theorem opsC_sub : (opsC : List (HloOp τ sig (Elt F))).Forall fun op => op.bufs ⊆ StableHlo.tcRefs τ sig :=
  StableHlo.reshape_bufs_sub ..
theorem opsD_sub : (opsD : List (HloOp τ sig (Elt F))).Forall fun op => op.bufs ⊆ StableHlo.tcRefs τ sig :=
  StableHlo.unary_bufs_sub ..
theorem opsA_fresh : (opsA : List (HloOp τ sig (Elt F))).Forall fun op => op.fresh = ∅ := by
  simp only [List.Forall]; repeat' constructor
theorem opsB_fresh : (opsB : List (HloOp τ sig (Elt F))).Forall fun op => op.fresh = ∅ := by
  simp only [List.Forall]; repeat' constructor
theorem opsC_fresh : (opsC : List (HloOp τ sig (Elt F))).Forall fun op => op.fresh = ∅ := by
  simp only [List.Forall]; repeat' constructor
theorem opsD_fresh : (opsD : List (HloOp τ sig (Elt F))).Forall fun op => op.fresh = ∅ := by
  simp only [List.Forall]; repeat' constructor

theorem sub_uc {ops : List (HloOp τ sig (Elt F))} (h : ops.Forall fun op => op.bufs ⊆ StableHlo.tcRefs τ sig) :
    ∀ op ∈ ops, op.bufs ⊆ Pipeline.ucRefs τ sig :=
  fun op hop => Pipeline.sub_ucRefs op ((List.forall_iff_forall_mem.mp h) op hop)

/-! ## The six arrays of the gather call, out of the held set and back -/

abbrev six : Finset (DevRef τ sig) := {a', b', s', t', ga', gb'}

theorem six_sub : six ⊆ Pipeline.ucRefs τ sig := by
  intro x hx
  simp only [six, Finset.mem_insert, Finset.mem_singleton] at hx
  rcases hx with rfl | rfl | rfl | rfl | rfl | rfl <;> exact mem_uc _ (by decide)

theorem held_six (d : Dev nD) (Wv : Valuation τ sig (Elt F)) :
    (held (T d) six Wv : sProp 𝕄) = iprop((aLoc d ↦{fullShare} Wv a') ∗ (bLoc d ↦{fullShare} Wv b') ∗ (sLoc d ↦{fullShare} Wv s')
      ∗ (tLoc d ↦{fullShare} Wv t') ∗ (gaLoc d ↦{fullShare} Wv ga') ∗ (gbLoc d ↦{fullShare} Wv gb')) := by
  unfold held six
  rw [SparseCore.bigSep_insert' (by decide), SparseCore.bigSep_insert' (by decide), SparseCore.bigSep_insert' (by decide),
    SparseCore.bigSep_insert' (by decide), SparseCore.bigSep_insert' (by decide), bigSep_singleton]

theorem W4_a (d : Dev nD) : W4 m d a' = (cv m d).A :=
  (Function.update_of_ne (show a' ≠ gb' by decide) _ _).trans (Function.update_of_ne (show a' ≠ ga' by decide) _ _)
theorem W4_b (d : Dev nD) : W4 m d b' = (cv m d).B :=
  (Function.update_of_ne (show b' ≠ gb' by decide) _ _).trans (Function.update_of_ne (show b' ≠ ga' by decide) _ _)
theorem W4_s (d : Dev nD) : W4 m d s' = (cv m d).s :=
  (Function.update_of_ne (show s' ≠ gb' by decide) _ _).trans (Function.update_of_ne (show s' ≠ ga' by decide) _ _)
theorem W4_t (d : Dev nD) : W4 m d t' = (cv m d).t :=
  (Function.update_of_ne (show t' ≠ gb' by decide) _ _).trans (Function.update_of_ne (show t' ≠ ga' by decide) _ _)
theorem W4_ga (d : Dev nD) : W4 m d ga' = GAof (cv m) d :=
  (Function.update_of_ne (show ga' ≠ gb' by decide) _ _).trans (Function.update_self _ _ _)
theorem W4_gb (d : Dev nD) : W4 m d gb' = GBof (cv m) d := Function.update_self _ _ _
theorem W4_rest (d : Dev nD) : (held (T d) (Pipeline.ucRefs τ sig \ six) (W4 m d) : sProp 𝕄) = held (T d) (Pipeline.ucRefs τ sig \ six) (W3 m d) :=
  held_congr (T d) fun x hx => by
    have hx' := (Finset.mem_sdiff.mp hx).2
    simp only [six, Finset.mem_insert, Finset.mem_singleton, not_or] at hx'
    exact (Function.update_of_ne hx'.2.2.2.2.2 _ _).trans (Function.update_of_ne hx'.2.2.2.2.1 _ _)

/-! ## The handshake state, its debts apart -/

theorem tcSt_split (d : Dev nD) (n : ℕ) : ∃ Rest : sProp 𝕄,
    (K (F := F)).tcSt EH d n = iprop((∃ W, ⌜(K (F := F)).WBelow (T d) W (8 * n)⌝ ∗ owes (T d) ((K (F := F)).Otc d n) W) ∗ Rest) := by
  unfold SparseCore.Cfg.tcSt; exact ⟨_, rfl⟩

/-! ## What the launch element funds for a pipelined call, and what @main leaves -/

abbrev Gp (p : Fin 2) (d : Dev nD) : sProp 𝕄 :=
  iprop(Pipeline.cellsGhost (Pipeline.pin (pcfgs (F := F)) adm) EP p d ∗ Pipeline.toksInit (Pipeline.pin (pcfgs (F := F)) adm) EP p d)
abbrev G (d : Dev nD) : sProp 𝕄 := iprop(Gp (F := F) 0 d ∗ Gp (F := F) 1 d)

/-- Every unscoped array of the TensorCore at its contents at the return. -/
abbrev FIN (d : Dev nD) : sProp 𝕄 := held (T d) (Pipeline.ucRefs τ sig) (W7 m d)

end Cert.Proof.KI

end
-- ==== Proof.KIMainSteps.lean ====
/-
  The three calls of @main as steps of its walk, each from what @main holds before it to what it holds after.

  A pipelined call is a program over the certificate's own body table; the launch runs @main over the table extended
  with the SparseCore calls' dispatch, so the call is entered through the lifting of proofs from the one table to the
  other and then run by the pipeline rule for a region, from the region boundary, the region's thread state, the level
  facts and the ghost state of that pipeline's staging cells. The gather call is the handshake rule: the six arrays
  it works on are taken out of the set of all unscoped arrays, split for the two SparseCores, and put back when their
  results return, the two gathered arrays rewritten.
-/
import proofs.«211135_g34514357191071_cont_8to1_b_641_23_alg».proof.Proof.KIMainPre

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo (held held_sub_split held_congr wp_seq)

variable (m : (ℓ : Loc nD τ sig) → Buf (Elt F) ℓ)
variable [∀ e, Nonempty (Elt F e)]

theorem reg0_pre (d : Dev nD) : (reg0 m).pre d = iprop(held (T d) (Pipeline.ucRefs τ sig) (W1 m d) ∗ Rw (F := F) 0 d) := rfl
theorem reg0_post (d : Dev nD) : (reg0 m).post d = iprop(held (T d) (Pipeline.ucRefs τ sig) (W2 m d) ∗ Rw (F := F) 0 d) := rfl

set_option backward.isDefEq.respectTransparency.types false in
set_option maxHeartbeats 1000000 in
/-- Pipelined call 0, entered from the boundary with every unscoped array at `W1` and left with them at `W2`. -/
theorem step_region0 (d : Dev nD) (Φ : PUnit → sProp 𝕄) :
    iprop(boundary (T d) ∗ held (T d) (Pipeline.ucRefs τ sig) (W1 m d) ∗ Rw (F := F) 0 d ∗ levAts (K (F := F)).L (K (F := F)).lev ∗ Gp (F := F) 0 d
        ∗ (iprop(boundary (T d) ∗ held (T d) (Pipeline.ucRefs τ sig) (W2 m d) ∗ Rw (F := F) 0 d) -∗ Φ ⟨⟩))
      ⊢ wp frame (wpE ((K (F := F)).defs (D (F := F))) 𝒱 (T d) none) Set.univ
          (SparseCore.liftProg (Q := 1) (Prog.op (.customCall (Pipeline.entry 0) ()) (fun _ => Prog.ret PUnit.unit) : Prog (TpuEff nD τ sig (Elt F) (ΛP (F := F)) .tc) PUnit)) Φ := by
  iintro ⟨Hb, Hh, HR, #Hlv, ⟨Hcg, Htk⟩, Hk⟩
  iapply ((K (F := F)).wp_liftProg (D (F := F)) 𝒱 (T d) Set.univ none _ _)
  iapply (Pipeline.RegionSeg.wp (pcfgs (F := F)) adm (pdats m) (none : HIx 1) cellOf_inj EP defs₀ 𝒱₀ (K (F := F)).L (K (F := F)).lev (reg0 m) d none
    (fun u hu => nomatch hu) (fun _ => Prog.ret PUnit.unit) Φ)
  rw [reg0_pre m d, reg0_post m d]
  isplitl [Hk]
  · iintro ⟨Hb, Hh, HR⟩
    rw [wp_ret]; imodintro
    iapply Hk
    isplitl [Hb]; · iexact Hb
    isplitl [Hh]; · iexact Hh
    iexact HR
  isplitl [Hb]; · iexact Hb
  isplitl [Hh HR]
  · isplitl [Hh]; · iexact Hh
    iexact HR
  isplitr; · iexact Hlv
  isplitl [Hcg]; · iexact Hcg
  iexact Htk

theorem reg2_pre (d : Dev nD) : (reg2 m).pre d = iprop(held (T d) (Pipeline.ucRefs τ sig) (W5 m d) ∗ Rw (F := F) 1 d) := rfl
theorem reg2_post (d : Dev nD) : (reg2 m).post d = iprop(held (T d) (Pipeline.ucRefs τ sig) (W6 m d) ∗ Rw (F := F) 1 d) := rfl

set_option backward.isDefEq.respectTransparency.types false in
set_option maxHeartbeats 1000000 in
/-- Pipelined call 1, entered from the boundary with every unscoped array at `W5` and left with them at `W6`. -/
theorem step_region2 (d : Dev nD) (Φ : PUnit → sProp 𝕄) :
    iprop(boundary (T d) ∗ held (T d) (Pipeline.ucRefs τ sig) (W5 m d) ∗ Rw (F := F) 1 d ∗ levAts (K (F := F)).L (K (F := F)).lev ∗ Gp (F := F) 1 d
        ∗ (iprop(boundary (T d) ∗ held (T d) (Pipeline.ucRefs τ sig) (W6 m d) ∗ Rw (F := F) 1 d) -∗ Φ ⟨⟩))
      ⊢ wp frame (wpE ((K (F := F)).defs (D (F := F))) 𝒱 (T d) none) Set.univ
          (SparseCore.liftProg (Q := 1) (Prog.op (.customCall (Pipeline.entry 1) ()) (fun _ => Prog.ret PUnit.unit) : Prog (TpuEff nD τ sig (Elt F) (ΛP (F := F)) .tc) PUnit)) Φ := by
  iintro ⟨Hb, Hh, HR, #Hlv, ⟨Hcg, Htk⟩, Hk⟩
  iapply ((K (F := F)).wp_liftProg (D (F := F)) 𝒱 (T d) Set.univ none _ _)
  iapply (Pipeline.RegionSeg.wp (pcfgs (F := F)) adm (pdats m) (none : HIx 1) cellOf_inj EP defs₀ 𝒱₀ (K (F := F)).L (K (F := F)).lev (reg2 m) d none
    (fun u hu => nomatch hu) (fun _ => Prog.ret PUnit.unit) Φ)
  rw [reg2_pre m d, reg2_post m d]
  isplitl [Hk]
  · iintro ⟨Hb, Hh, HR⟩
    rw [wp_ret]; imodintro
    iapply Hk
    isplitl [Hb]; · iexact Hb
    isplitl [Hh]; · iexact Hh
    iexact HR
  isplitl [Hb]; · iexact Hb
  isplitl [Hh HR]
  · isplitl [Hh]; · iexact Hh
    iexact HR
  isplitr; · iexact Hlv
  isplitl [Hcg]; · iexact Hcg
  iexact Htk

set_option backward.isDefEq.respectTransparency.types false in
set_option maxHeartbeats 1000000 in
/-- The gather call: its six arrays out of the held set, dealt to the two SparseCores, gathered back with the two
    gathered arrays written; the handshake state moves from before the call to after it. -/
theorem step_call (R : Dev nD → sProp 𝕄)
    (hsplit : ∀ d, iprop((aLoc d ↦{fullShare} (cv m d).A) ∗ (bLoc d ↦{fullShare} (cv m d).B) ∗ (sLoc d ↦{fullShare} (cv m d).s) ∗ (tLoc d ↦{fullShare} (cv m d).t)
        ∗ (∃ f, gaLoc d ↦{fullShare} f) ∗ (∃ f, gbLoc d ↦{fullShare} f))
      ⊢ iprop(R d ∗ bigSep Finset.univ fun c : Fin ((K (F := F)).nCore 0) => (P (cv m)).st 0 d c))
    (hjoin : ∀ d, iprop(R d ∗ bigSep Finset.univ fun c : Fin ((K (F := F)).nCore 0) => (P (cv m)).dn 0 d c)
      ⊢ iprop((aLoc d ↦{fullShare} (cv m d).A) ∗ (bLoc d ↦{fullShare} (cv m d).B) ∗ (sLoc d ↦{fullShare} (cv m d).s) ∗ (tLoc d ↦{fullShare} (cv m d).t)
        ∗ (gaLoc d ↦{fullShare} GAof (cv m) d) ∗ (gbLoc d ↦{fullShare} GBof (cv m) d)))
    (κ : GSem nD τ sig → ℕ) (d : Dev nD) (Φ : PUnit → sProp 𝕄) :
    iprop((K (F := F)).ctx EH (P (cv m)) κ ∗ (K (F := F)).tcSt EH d 0 ∗ held (T d) (Pipeline.ucRefs τ sig) (W3 m d)
        ∗ (iprop((K (F := F)).tcSt EH d 1 ∗ held (T d) (Pipeline.ucRefs τ sig) (W4 m d)) -∗ Φ ⟨⟩))
      ⊢ wp frame (wpE ((K (F := F)).defs (D (F := F))) 𝒱 (T d) none) Set.univ (sc.run d 0) Φ := by
  iintro ⟨#Hctx, Htc, Hh, Hk⟩
  ihave Hs := (Entails.of_eq (held_sub_split (T d) six_sub (W3 m d))) $$ Hh
  icases Hs with ⟨H6, Hrest⟩
  ihave H6' := (Entails.of_eq (held_six d (W3 m d))) $$ H6
  icases H6' with ⟨Ha, Hbb, Hs, Ht, Hga, Hgb⟩
  ihave Hsp := (hsplit d) $$ [Ha Hbb Hs Ht Hga Hgb]
  · isplitl [Ha]; · iexact Ha
    isplitl [Hbb]; · iexact Hbb
    isplitl [Hs]; · iexact Hs
    isplitl [Ht]; · iexact Ht
    isplitl [Hga]; · iexists _; iexact Hga
    iexists _; iexact Hgb
  icases Hsp with ⟨HR, Hst0⟩
  iapply ((K (F := F)).wp_run (D (F := F)) 𝒱 (EH := EH) (P := P (cv m)) κ d 0) $$ [Htc Hst0 Hrest HR Hk]
  isplitr; · iexact Hctx
  isplitl [Htc]; · iexact Htc
  isplitl [Hst0]; · iexact Hst0
  iintro ⟨Htc1, Hdn⟩
  ihave Hj := (hjoin d) $$ [HR Hdn]
  · isplitl [HR] <;> iassumption
  icases Hj with ⟨Ha, Hbb, Hs, Ht, Hga, Hgb⟩
  iapply Hk
  isplitl [Htc1]; · iexact Htc1
  iapply (Entails.of_eq (held_sub_split (T d) six_sub (W4 m d)).symm)
  isplitl [Ha Hbb Hs Ht Hga Hgb]
  · rw [held_six, W4_a, W4_b, W4_s, W4_t, W4_ga, W4_gb]
    isplitl [Ha]; · iexact Ha
    isplitl [Hbb]; · iexact Hbb
    isplitl [Hs]; · iexact Hs
    isplitl [Ht]; · iexact Ht
    isplitl [Hga]; · iexact Hga
    iexact Hgb
  · rw [W4_rest]; iexact Hrest

end Cert.Proof.KI

end
-- ==== Proof.KIMain.lean ====
/-
  @main on the TensorCore, run from what the launch deals it to the handshake state after the gather call and every
  unscoped array at its final contents.

  The walk: each host stretch by the rule for a line of host operations, over all the unscoped arrays held whole; each
  pipelined call by the pipeline rule for a region, entered through the lifting of a proof over the certificate's body
  table to the launch's extended one, its staging cells' ghost state taken from what the launch element funded; the
  gather call by the handshake rule, the six arrays it works on split out of the held set, dealt to the two
  SparseCores and gathered back with the two gathered arrays written. The TensorCore's debts ride in its handshake
  state between the steps and in the region's thread state across a pipelined call.
-/
import proofs.«211135_g34514357191071_cont_8to1_b_641_23_alg».proof.Proof.KIMainSteps

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo (held held_sub_split held_congr wp_seq)

variable (m : (ℓ : Loc nD τ sig) → Buf (Elt F) ℓ) (g : Dev nD → PrngReg)

/-- What the launch deals the TensorCore of its arrays is every unscoped array held whole at the launch memory. -/
theorem launch_held (d : Dev nD) :
    (unscopedBufs (Ix := HIx 1) (Name := ℕ) (U := UU) (Lvl := ℕ) d (fun b => m ((SparseCore.T d).loc b)) : sProp 𝕄)
      = held (SparseCore.T d) (Pipeline.ucRefs τ sig) (W0 m d) :=
  Pipeline.unscopedBufs_held d (W0 m d)

variable [∀ e, Nonempty (Elt F e)]

set_option maxHeartbeats 1000000 in
/-- @main on device `d`'s TensorCore. -/
theorem hmain (R : Dev nD → sProp 𝕄)
    (hsplit : ∀ d, iprop((aLoc d ↦{fullShare} (cv m d).A) ∗ (bLoc d ↦{fullShare} (cv m d).B) ∗ (sLoc d ↦{fullShare} (cv m d).s) ∗ (tLoc d ↦{fullShare} (cv m d).t)
        ∗ (∃ f, gaLoc d ↦{fullShare} f) ∗ (∃ f, gbLoc d ↦{fullShare} f))
      ⊢ iprop(R d ∗ bigSep Finset.univ fun c : Fin ((K (F := F)).nCore 0) => (P (cv m)).st 0 d c))
    (hjoin : ∀ d, iprop(R d ∗ bigSep Finset.univ fun c : Fin ((K (F := F)).nCore 0) => (P (cv m)).dn 0 d c)
      ⊢ iprop((aLoc d ↦{fullShare} (cv m d).A) ∗ (bLoc d ↦{fullShare} (cv m d).B) ∗ (sLoc d ↦{fullShare} (cv m d).s) ∗ (tLoc d ↦{fullShare} (cv m d).t)
        ∗ (gaLoc d ↦{fullShare} GAof (cv m) d) ∗ (gbLoc d ↦{fullShare} GBof (cv m) d)))
    (κ : GSem nD τ sig → ℕ) (d : Dev nD) :
    iprop((K (F := F)).ctx EH (P (cv m)) κ ∗ (K (F := F)).tcSt EH d 0 ∗ (K (F := F)).tcRes m g d ∗ G (F := F) d)
      ⊢ wp frame (wpE ((K (F := F)).defs (D (F := F))) 𝒱 (T d) none) Set.univ (main d)
          fun _ => iprop((K (F := F)).tcSt EH d 1 ∗ FIN m d) := by
  obtain ⟨Rest0, h0⟩ := tcSt_split (F := F) d 0
  obtain ⟨Rest1, h1⟩ := tcSt_split (F := F) d 1
  unfold SparseCore.Cfg.tcRes
  rw [launch_held, main_eq]
  iintro ⟨#Hctx, Htc, ⟨Hb, Hh, -, Hp0⟩, ⟨HG0, HG1⟩⟩
  ihave #Hlv := (SparseCore.Cfg.ctx_levAts κ) $$ Hctx
  ihave Hp := (show (prngReg d (g d) : sProp 𝕄) ⊢ iprop(∃ r, prngReg d r) from by iintro H; iexists _; iexact H) $$ Hp0
  ihave Htc' := (Entails.of_eq h0) $$ Htc
  icases Htc' with ⟨HO, Hst⟩
  -- the first bias reshaped
  iapply (wp_seq 𝒱 none Set.univ d (Pipeline.ucRefs τ sig) _ opsA (sub_uc opsA_sub) (List.forall_iff_forall_mem.mp opsA_fresh) (W0 m d)) $$ [Hb Hh]
  · isplitl [Hb] <;> iassumption
  iintro ⟨Hb, Hh⟩
  -- the first pipelined call
  rw [wp_bind]
  iapply (step_region0 m d _)
  isplitl [Hb]; · iexact Hb
  isplitl [Hh]; · iexact Hh
  isplitl [Hp HO]
  · isplitl [Hp]; · iexact Hp
    iexact HO
  isplitr; · iexact Hlv
  isplitl [HG0]; · iexact HG0
  iintro ⟨Hb, Hh, Hp, HO⟩
  -- the index lists cut out and padded
  iapply (wp_seq 𝒱 none Set.univ d (Pipeline.ucRefs τ sig) _ opsB (sub_uc opsB_sub) (List.forall_iff_forall_mem.mp opsB_fresh) (W2 m d)) $$ [Hb Hh]
  · isplitl [Hb] <;> iassumption
  iintro ⟨Hb, Hh⟩
  -- the gather call
  rw [wp_bind]
  iapply (step_call m R hsplit hjoin κ d _)
  isplitr; · iexact Hctx
  isplitl [HO Hst]
  · iapply (Entails.of_eq h0.symm); isplitl [HO] <;> iassumption
  isplitl [Hh]; · iexact Hh
  iintro ⟨Htc1, Hh⟩
  ihave Htc1' := (Entails.of_eq h1) $$ Htc1
  icases Htc1' with ⟨HO, Hst⟩
  -- the second bias reshaped
  iapply (wp_seq 𝒱 none Set.univ d (Pipeline.ucRefs τ sig) _ opsC (sub_uc opsC_sub) (List.forall_iff_forall_mem.mp opsC_fresh) (W4 m d)) $$ [Hb Hh]
  · isplitl [Hb] <;> iassumption
  iintro ⟨Hb, Hh⟩
  -- the second pipelined call
  rw [wp_bind]
  iapply (step_region2 m d _)
  isplitl [Hb]; · iexact Hb
  isplitl [Hh]; · iexact Hh
  isplitl [Hp HO]
  · isplitl [Hp]; · iexact Hp
    iexact HO
  isplitr; · iexact Hlv
  isplitl [HG1]; · iexact HG1
  iintro ⟨Hb, Hh, Hp, HO⟩
  -- the padding rows dropped, and the return
  iapply (wp_seq 𝒱 none Set.univ d (Pipeline.ucRefs τ sig) _ opsD (sub_uc opsD_sub) (List.forall_iff_forall_mem.mp opsD_fresh) (W6 m d)) $$ [Hb Hh]
  · isplitl [Hb] <;> iassumption
  iintro ⟨Hb, Hh⟩
  rw [wp_pure]; imodintro
  isplitl [HO Hst]
  · iapply (Entails.of_eq h1.symm); isplitl [HO] <;> iassumption
  iexact Hh

end Cert.Proof.KI

end
-- ==== Proof.KILaunch.lean ====
/-
  The launch element of the kernel's run, and how the final memory is read.

  The ghost state is three side by side: the handshakes' rounds, the two pipelines' rounds, and the counters of the
  tiles' own copies. Its launch element is the handshake cells' initial rounds, the pipelines' staging cells' initial
  rounds, and the counters' unit. From it the launch hands the handshake protocol its cells, funds for each TensorCore
  the ghost state of both pipelined calls' staging cells and their transfer tokens (no counter is consumed: the
  TensorCore runs host operations before either call), and drops the counters, which need no schedule. No kernel proof
  consumes anything of the launch's.

  At the end each TensorCore holds every unscoped array at its last contents; held beside the final state's
  interpretation, that says the final memory has those contents.
-/
import proofs.«211135_g34514357191071_cont_8to1_b_641_23_alg».proof.Proof.KIMainPre

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo (held)

variable (m : (ℓ : Loc nD τ sig) → Buf (Elt F) ℓ) (g : Dev nD → PrngReg)

/-! ## The launch element -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem bigSep_emp' {I : Type} (s : Finset I) : (bigSep s fun _ => iprop(emp)) = (iprop(emp) : sProp 𝕄) := bigSep_emp_const s

/-- A TensorCore's share of the funded ghost state, pipeline by pipeline. -/
theorem G_of (d : Dev nD) :
    iprop((bigSep Finset.univ fun p : Fin 2 => Pipeline.cellsGhost (Pipeline.pin (pcfgs (F := F)) adm) EP p d)
        ∗ (bigSep Finset.univ fun p : Fin 2 => (Pipeline.toksInit (Pipeline.pin (pcfgs (F := F)) adm) EP p d : sProp 𝕄)))
      ⊢ G (F := F) d := by
  rw [show (Finset.univ : Finset (Fin 2)) = {0, 1} by decide, SparseCore.bigSep_insert' (by decide), bigSep_singleton,
    SparseCore.bigSep_insert' (by decide), bigSep_singleton]
  iintro ⟨⟨A0, A1⟩, ⟨B0, B1⟩⟩
  isplitl [A0 B0]
  · isplitl [A0] <;> iassumption
  · isplitl [A1] <;> iassumption

/-- The pipelines' rounds, owned as the left factor of the right factor of the ghost state, are owned through `EP`. -/
theorem own_EP (x : UP) :
    (BI.own (((Emb.inl : Emb UP (UP × Counters)).trans (embR (nD := nD) (τ := τ) (sig := sig) (Ix := HIx 1) (Val := Elt F) (Name := ℕ) (Lvl := ℕ) (A := UH) (B := UP × Counters))) x) : sProp 𝕄)
      ⊢ BI.own ((EP : Emb UP 𝕄) x) := by
  unfold EP embR; exact .rfl

variable (cvv : (d : Dev nD) → CallVals F d)

set_option backward.isDefEq.respectTransparency.types false in
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P cvv).x q thr) := by
  unfold u₀
  iintro Hu
  ihave H := (ownU_pair _ _) $$ Hu
  icases H with ⟨HH, HR⟩
  ihave H2 := (own_pair_emb (embR (A := UH) (B := UP × Counters)) _ _) $$ HR
  icases H2 with ⟨HP, -⟩
  ihave HP' := (own_EP (F := F) _) $$ HP
  imod (Pipeline.fund_ghost (Pipeline.pin (pcfgs (F := F)) adm) EP cellOf_inj) $$ HP' with ⟨Hcg, Htk⟩
  imodintro
  isplitl [HH]; · iexact HH
  isplitl [Hcg Htk]
  · ihave Hb := (Entails.of_eq (bigSep_sep' (Finset.univ : Finset (Dev nD))
        (fun d => bigSep Finset.univ fun p : Fin 2 => Pipeline.cellsGhost (Pipeline.pin (pcfgs (F := F)) adm) EP p d)
        (fun d => bigSep Finset.univ fun p : Fin 2 => (Pipeline.toksInit (Pipeline.pin (pcfgs (F := F)) adm) EP p d : sProp 𝕄))).symm) $$ [Hcg Htk]
    · isplitl [Hcg] <;> iassumption
    iapply (SparseCore.ent (bigSep_mono (s := (Finset.univ : Finset (Dev nD))) fun d _ => G_of (F := F) d)); iexact Hb
  rw [show (bigSep Finset.univ fun thr : Thread nD τ => bigSep Finset.univ fun q : Fin 1 => (P cvv).x q thr) = (iprop(emp) : sProp 𝕄) from by
    show (bigSep Finset.univ fun _ : Thread nD τ => bigSep Finset.univ fun _ : Fin 1 => (iprop(emp) : sProp 𝕄)) = _
    rw [bigSep_congr fun _ _ => bigSep_emp' _, bigSep_emp']]
  iempintro

/-! ## Reading the final memory -/

/-- The final memory has every unscoped array of the TensorCore at its last contents. -/
def fq (d : Dev nD) (st : Phys nD τ sig (Elt F)) : Prop := ∀ b ∈ Pipeline.ucRefs τ sig, st.mem.mem (d, b) = W7 m d b

theorem hfin [∀ e, Nonempty (Elt F e)] (d : Dev nD) (st : Phys nD τ sig (Elt F)) : iprop(FIN m d ∗ SI st) ⊢ (⌜fq m d st⌝ : sProp 𝕄) := by
  unfold FIN held
  exact (pointsTo_read_all (Pipeline.ucRefs τ sig) (fun b => ((d, b) : Loc nD τ sig)) (W7 m d) st).trans sep_elim_left

end Cert.Proof.KI

end
-- ==== Proof.KIGatherValue.lean ====
/-
  What one trip leaves in its chunk of a gathered array, read at an index.

  The trip fetches 128 index words (entries row0 … row0 + 127 of a padded index list, row0 the chunk's first row), gathers the
  table rows they name into a 128-row buffer (row j of the buffer is row list[row0 + j] of the table), and copies the buffer
  onto rows row0 … row0 + 127 of the gathered array. So at row row0 + j, column q, the array holds table[list[row0 + j], q]:
  the array's row e is the table's row list[e], which is what the specification of the gather says, on the chunk.
-/
import proofs.«211135_g34514357191071_cont_8to1_b_641_23_alg».proof.Proof.KISetup
import Idealize.ShloMosaic.Lib.SparseCore.Stream
import Idealize.ShloMosaic.Lib.Writes

noncomputable section

namespace Cert.Proof.KI

open Cert.KernelIdeal Cert.KernelIdeal.Gen

open Idealize.ShloMosaic
open Idealize.ShloMosaic.SparseCore (S V T)

variable {F : FTy → Type}

section SideA

local notation "tabW" => (Memref.whole Cert.KernelIdeal.main_v1_0_scv : Memref Cert.KernelIdeal.sig Kind.scVector Space.hbm Cert.KernelIdeal.S10000x128 EltTy.f32)
local notation "lstW" => (Memref.whole Cert.KernelIdeal.main_v5_scv : Memref Cert.KernelIdeal.sig Kind.scVector Space.hbm Cert.KernelIdeal.S323584 EltTy.i32)
local notation "outW" => (Memref.whole Cert.KernelIdeal.main_v10_0_scv : Memref Cert.KernelIdeal.sig Kind.scVector Space.hbm Cert.KernelIdeal.S323584x128 EltTy.f32)
local notation "idxW" => (Memref.whole Cert.KernelIdeal.cc1_scratch0 : Memref Cert.KernelIdeal.sig Kind.scVector Space.vmem Cert.KernelIdeal.S128 EltTy.i32)
local notation "bufW" => (Memref.whole Cert.KernelIdeal.cc1_scratch2 : Memref Cert.KernelIdeal.sig Kind.scVector Space.vmem Cert.KernelIdeal.S128x128 EltTy.f32)

variable (d : Dev nD) (L : grid1.Coords) (k : Fin k1_t1_loop.trips)
variable (A : Buf (Elt F) (aLoc d)) (sL : Buf (Elt F) (sLoc d))

/-- The fetched chunk of index words. -/
abbrev fetchedA : S128.Idx → Elt F .i32 :=
  ReadAs.same.apply (View.read (Elt F) ((lstW).slice (Rect.unit (s := S323584) (k1_off1 L k) S128.size (k1_off1_inb L k)) (fun _ => rfl)).view sL)

/-- The chunk's first row, in closed form. -/
abbrev rowA : Nat := 20224 * (L 1).val + 10112 * (L 0).val + 128 * k.val

/-- An element of the chunk, by its position in the chunk: row rowA + its row, its own column. -/
theorem chunk_emb_A (y : S128x128.Idx) :
    ((((outW).slice (chunkRect L k) (fun _ => rfl)).view.emb y) 0).val = rowA L k + (y 0).val
      ∧ ((((outW).slice (chunkRect L k) (fun _ => rfl)).view.emb y) 1).val = (y 1).val := by
  have h0 : ((((outW).slice (chunkRect L k) (fun _ => rfl)).view.emb y) 0).val = (k1_off2 L k) 0 + 1 * (y 0).val := rfl
  have h1 : ((((outW).slice (chunkRect L k) (fun _ => rfl)).view.emb y) 1).val = (k1_off2 L k) 1 + 1 * (y 1).val := rfl
  rw [h0, h1, k1_off2_eq]
  constructor
  · show 20224 * (L 1).val + 10112 * (L 0).val + 128 * k.val + 1 * (y 0).val = 20224 * (L 1).val + 10112 * (L 0).val + 128 * k.val + (y 0).val; omega
  · show 0 + 1 * (y 1).val = _; omega

/-- The j-th fetched word is entry rowA + j of the list. -/
theorem fetched_at_A (j : S128.Idx) (i : S323584.Idx) (hi : (i 0).val = rowA L k + (j 0).val) : fetchedA d L k sL j = sL i := by
  show sL ((((lstW).slice (Rect.unit (s := S323584) (k1_off1 L k) S128.size (k1_off1_inb L k)) (fun _ => rfl)).view.emb j)) = sL i
  congr 1
  funext a
  match a with
  | ⟨0, _⟩ =>
    apply Fin.ext
    show (k1_off1 L k) 0 + 1 * (j 0).val = (i 0).val
    rw [k1_off1_eq, hi]
    show 20224 * (L 1).val + 10112 * (L 0).val + 128 * k.val + 1 * (j 0).val = 20224 * (L 1).val + 10112 * (L 0).val + 128 * k.val + (j 0).val; omega

/-- What the row buffer holds after the gather, as a function of its index. -/
abbrev gatherA (g0 : (idxW).view.ty.Contents (Elt F))
    (hin : ∀ j, ((idxW).view.read (Elt F) (View.write (Elt F) (idxW).view g0 (fetchedA d L k sL) Finset.univ) j).toNat
      < S10000x128.size gathers_S10000x128_S128x128.axis) : S128x128.Idx → Elt F .f32 :=
  SparseCore.gatherPayload gathers_S10000x128_S128x128
    (View.read (Elt F) ((tabW).slice (Rect.unit (s := S10000x128) ![0, 0] S10000x128.size inb_S10000x128_S10000x128_0_0) (fun _ => rfl)).view A)
    (SparseCore.rows (View.read (Elt F) (idxW).view (View.write (Elt F) (idxW).view g0 (fetchedA d L k sL) Finset.univ)) rfl hin)

/-- Row j of the buffer is the table's row named by entry rowA + j of the list; the columns are the table's own. -/
theorem gatherA_at (hok : ∀ x : S323584.Idx, (sL x).toNat < 10000) (g0 : (idxW).view.ty.Contents (Elt F))
    (hin : ∀ j, ((idxW).view.read (Elt F) (View.write (Elt F) (idxW).view g0 (fetchedA d L k sL) Finset.univ) j).toNat
      < S10000x128.size gathers_S10000x128_S128x128.axis)
    (y : S128x128.Idx) (i : S323584.Idx) (hi : (i 0).val = rowA L k + (y 0).val) (q : Fin 128) (hq : q.val = (y 1).val) :
    gatherA d L k A sL g0 hin y = A (ValueIdx.ix2 (rowIx (sL i)) q) := by
  -- the entry of the fetched list that names y's row
  have hj : ((S128.rowMajor.symm ((y gathers_S10000x128_S128x128.axis').cast (rfl : S128x128.size gathers_S10000x128_S128x128.axis' = S128.numel))) 0).val = (y 0).val := by
    have h := Shape.rowMajor_val_one (d := ![128]) (S128.rowMajor.symm ((y gathers_S10000x128_S128x128.axis').cast (rfl : S128x128.size gathers_S10000x128_S128x128.axis' = S128.numel)))
    rw [Equiv.apply_symm_apply] at h
    exact h.symm
  have hrow : (SparseCore.rows (View.read (Elt F) (idxW).view (View.write (Elt F) (idxW).view g0 (fetchedA d L k sL) Finset.univ)) rfl hin
      (y gathers_S10000x128_S128x128.axis')).val = (sL i).toNat := by
    show (View.read (Elt F) (idxW).view (View.write (Elt F) (idxW).view g0 (fetchedA d L k sL) Finset.univ) _).toNat = _
    rw [View.read_write_univ]
    exact congrArg BitVec.toNat (fetched_at_A d L k sL _ i (by rw [hi]; exact congrArg (rowA L k + ·) hj.symm))
  show A ((((tabW).slice (Rect.unit (s := S10000x128) ![0, 0] S10000x128.size inb_S10000x128_S10000x128_0_0) (fun _ => rfl)).view.emb
      (gathers_S10000x128_S128x128.idx _ y))) = _
  congr 1
  funext a
  match a with
  | ⟨0, h0⟩ =>
    apply Fin.ext
    have e : ((((tabW).slice (Rect.unit (s := S10000x128) ![0, 0] S10000x128.size inb_S10000x128_S10000x128_0_0) (fun _ => rfl)).view.emb
        (gathers_S10000x128_S128x128.idx (SparseCore.rows (View.read (Elt F) (idxW).view (View.write (Elt F) (idxW).view g0 (fetchedA d L k sL) Finset.univ)) rfl hin) y)) ⟨0, h0⟩).val
        = 0 + 1 * ((gathers_S10000x128_S128x128.idx (SparseCore.rows (View.read (Elt F) (idxW).view (View.write (Elt F) (idxW).view g0 (fetchedA d L k sL) Finset.univ)) rfl hin) y)
            gathers_S10000x128_S128x128.axis).val := rfl
    rw [e, Shape.Gathers.idx_axis]
    refine (congrArg (fun n => 0 + 1 * n) hrow).trans ?_
    show 0 + 1 * (sL i).toNat = (rowIx (sL i)).val
    rw [rowIx_val (hok i)]; omega
  | ⟨1, h1⟩ =>
    apply Fin.ext
    have e : ((((tabW).slice (Rect.unit (s := S10000x128) ![0, 0] S10000x128.size inb_S10000x128_S10000x128_0_0) (fun _ => rfl)).view.emb
        (gathers_S10000x128_S128x128.idx (SparseCore.rows (View.read (Elt F) (idxW).view (View.write (Elt F) (idxW).view g0 (fetchedA d L k sL) Finset.univ)) rfl hin) y)) ⟨1, h1⟩).val
        = 0 + 1 * ((gathers_S10000x128_S128x128.idx (SparseCore.rows (View.read (Elt F) (idxW).view (View.write (Elt F) (idxW).view g0 (fetchedA d L k sL) Finset.univ)) rfl hin) y)
            ⟨1, h1⟩).val := rfl
    rw [e, Shape.Gathers.idx_of_ne _ _ _ ⟨1, h1⟩ (show (1 : Nat) ≠ 0 from Nat.one_ne_zero)]
    show 0 + 1 * (y 1).val = q.val
    omega

/-- The chunk as the trip leaves it is, on the chunk's index set, the gather's specification. -/
theorem gathered_A (hok : ∀ x : S323584.Idx, (sL x).toNat < 10000) (g0 : (idxW).view.ty.Contents (Elt F)) (g2 : (bufW).view.ty.Contents (Elt F))
    (fa : Buf (Elt F) (gaLoc d))
    (hin : ∀ j, ((idxW).view.read (Elt F) (View.write (Elt F) (idxW).view g0 (fetchedA d L k sL) Finset.univ) j).toNat
      < S10000x128.size gathers_S10000x128_S128x128.axis) :
    ∀ x ∈ chunkSet L k,
      (((outW).slice (chunkRect L k) (fun _ => rfl)).view.writes (Elt F) fa
        [⟨Rect.whole (chunkRect L k).shape,
          ReadAs.same.apply (View.read (Elt F) (bufW).view
            ((bufW).view.writes (Elt F) g2 [⟨Rect.whole cc1_scratch2.ty.shape, gatherA d L k A sL g0 hin⟩]))⟩]) x
        = A (ValueIdx.ix2 (rowIx (sL (ValueIdx.ix1 (x 0)))) (x 1)) := by
  intro x hx
  have hx' : x ∈ Finset.univ.map ((outW).slice (chunkRect L k) (fun _ => rfl)).view.emb := hx
  obtain ⟨y, -, rfl⟩ := Finset.mem_map.mp hx'
  have e1 := View.read_writes_cons_emb ((outW).slice (chunkRect L k) (fun _ => rfl)).view fa (Rect.whole (chunkRect L k).shape)
    (ReadAs.same.apply (View.read (Elt F) (bufW).view
      ((bufW).view.writes (Elt F) g2 [⟨Rect.whole cc1_scratch2.ty.shape, gatherA d L k A sL g0 hin⟩]))) [] y
  have hy1 : (Rect.whole (chunkRect L k).shape).emb y = y := by
    funext a; apply Fin.ext; show 0 + 1 * (y a).val = (y a).val; omega
  rw [hy1] at e1
  have e2 := View.read_writes_cons_emb (bufW).view g2 (Rect.whole cc1_scratch2.ty.shape) (gatherA d L k A sL g0 hin) [] y
  have hy2 : (Rect.whole cc1_scratch2.ty.shape).emb y = y := by
    funext a; apply Fin.ext; show 0 + 1 * (y a).val = (y a).val; omega
  rw [hy2] at e2
  refine e1.trans (e2.trans ?_)
  exact gatherA_at d L k A sL hok g0 hin y _ (chunk_emb_A L k y).1 _ (chunk_emb_A L k y).2

end SideA

section SideB

local notation "tabW" => (Memref.whole Cert.KernelIdeal.main_v1_1_scv : Memref Cert.KernelIdeal.sig Kind.scVector Space.hbm Cert.KernelIdeal.S10000x128 EltTy.f32)
local notation "lstW" => (Memref.whole Cert.KernelIdeal.main_v9_scv : Memref Cert.KernelIdeal.sig Kind.scVector Space.hbm Cert.KernelIdeal.S323584 EltTy.i32)
local notation "outW" => (Memref.whole Cert.KernelIdeal.main_v10_1_scv : Memref Cert.KernelIdeal.sig Kind.scVector Space.hbm Cert.KernelIdeal.S323584x128 EltTy.f32)
local notation "idxW" => (Memref.whole Cert.KernelIdeal.cc1_scratch1 : Memref Cert.KernelIdeal.sig Kind.scVector Space.vmem Cert.KernelIdeal.S128 EltTy.i32)
local notation "bufW" => (Memref.whole Cert.KernelIdeal.cc1_scratch3 : Memref Cert.KernelIdeal.sig Kind.scVector Space.vmem Cert.KernelIdeal.S128x128 EltTy.f32)

variable (d : Dev nD) (L : grid1.Coords) (k : Fin k1_t1_loop.trips)
variable (A : Buf (Elt F) (bLoc d)) (sL : Buf (Elt F) (tLoc d))

/-- The fetched chunk of index words. -/
abbrev fetchedB : S128.Idx → Elt F .i32 :=
  ReadAs.same.apply (View.read (Elt F) ((lstW).slice (Rect.unit (s := S323584) (k1_off1 L k) S128.size (k1_off1_inb L k)) (fun _ => rfl)).view sL)

/-- The chunk's first row, in closed form. -/
abbrev rowB : Nat := 20224 * (L 1).val + 10112 * (L 0).val + 128 * k.val

/-- An element of the chunk, by its position in the chunk: row rowB + its row, its own column. -/
theorem chunk_emb_B (y : S128x128.Idx) :
    ((((outW).slice (chunkRect L k) (fun _ => rfl)).view.emb y) 0).val = rowB L k + (y 0).val
      ∧ ((((outW).slice (chunkRect L k) (fun _ => rfl)).view.emb y) 1).val = (y 1).val := by
  have h0 : ((((outW).slice (chunkRect L k) (fun _ => rfl)).view.emb y) 0).val = (k1_off2 L k) 0 + 1 * (y 0).val := rfl
  have h1 : ((((outW).slice (chunkRect L k) (fun _ => rfl)).view.emb y) 1).val = (k1_off2 L k) 1 + 1 * (y 1).val := rfl
  rw [h0, h1, k1_off2_eq]
  constructor
  · show 20224 * (L 1).val + 10112 * (L 0).val + 128 * k.val + 1 * (y 0).val = 20224 * (L 1).val + 10112 * (L 0).val + 128 * k.val + (y 0).val; omega
  · show 0 + 1 * (y 1).val = _; omega

/-- The j-th fetched word is entry rowB + j of the list. -/
theorem fetched_at_B (j : S128.Idx) (i : S323584.Idx) (hi : (i 0).val = rowB L k + (j 0).val) : fetchedB d L k sL j = sL i := by
  show sL ((((lstW).slice (Rect.unit (s := S323584) (k1_off1 L k) S128.size (k1_off1_inb L k)) (fun _ => rfl)).view.emb j)) = sL i
  congr 1
  funext a
  match a with
  | ⟨0, _⟩ =>
    apply Fin.ext
    show (k1_off1 L k) 0 + 1 * (j 0).val = (i 0).val
    rw [k1_off1_eq, hi]
    show 20224 * (L 1).val + 10112 * (L 0).val + 128 * k.val + 1 * (j 0).val = 20224 * (L 1).val + 10112 * (L 0).val + 128 * k.val + (j 0).val; omega

/-- What the row buffer holds after the gather, as a function of its index. -/
abbrev gatherB (g0 : (idxW).view.ty.Contents (Elt F))
    (hin : ∀ j, ((idxW).view.read (Elt F) (View.write (Elt F) (idxW).view g0 (fetchedB d L k sL) Finset.univ) j).toNat
      < S10000x128.size gathers_S10000x128_S128x128.axis) : S128x128.Idx → Elt F .f32 :=
  SparseCore.gatherPayload gathers_S10000x128_S128x128
    (View.read (Elt F) ((tabW).slice (Rect.unit (s := S10000x128) ![0, 0] S10000x128.size inb_S10000x128_S10000x128_0_0) (fun _ => rfl)).view A)
    (SparseCore.rows (View.read (Elt F) (idxW).view (View.write (Elt F) (idxW).view g0 (fetchedB d L k sL) Finset.univ)) rfl hin)

/-- Row j of the buffer is the table's row named by entry rowB + j of the list; the columns are the table's own. -/
theorem gatherB_at (hok : ∀ x : S323584.Idx, (sL x).toNat < 10000) (g0 : (idxW).view.ty.Contents (Elt F))
    (hin : ∀ j, ((idxW).view.read (Elt F) (View.write (Elt F) (idxW).view g0 (fetchedB d L k sL) Finset.univ) j).toNat
      < S10000x128.size gathers_S10000x128_S128x128.axis)
    (y : S128x128.Idx) (i : S323584.Idx) (hi : (i 0).val = rowB L k + (y 0).val) (q : Fin 128) (hq : q.val = (y 1).val) :
    gatherB d L k A sL g0 hin y = A (ValueIdx.ix2 (rowIx (sL i)) q) := by
  -- the entry of the fetched list that names y's row
  have hj : ((S128.rowMajor.symm ((y gathers_S10000x128_S128x128.axis').cast (rfl : S128x128.size gathers_S10000x128_S128x128.axis' = S128.numel))) 0).val = (y 0).val := by
    have h := Shape.rowMajor_val_one (d := ![128]) (S128.rowMajor.symm ((y gathers_S10000x128_S128x128.axis').cast (rfl : S128x128.size gathers_S10000x128_S128x128.axis' = S128.numel)))
    rw [Equiv.apply_symm_apply] at h
    exact h.symm
  have hrow : (SparseCore.rows (View.read (Elt F) (idxW).view (View.write (Elt F) (idxW).view g0 (fetchedB d L k sL) Finset.univ)) rfl hin
      (y gathers_S10000x128_S128x128.axis')).val = (sL i).toNat := by
    show (View.read (Elt F) (idxW).view (View.write (Elt F) (idxW).view g0 (fetchedB d L k sL) Finset.univ) _).toNat = _
    rw [View.read_write_univ]
    exact congrArg BitVec.toNat (fetched_at_B d L k sL _ i (by rw [hi]; exact congrArg (rowB L k + ·) hj.symm))
  show A ((((tabW).slice (Rect.unit (s := S10000x128) ![0, 0] S10000x128.size inb_S10000x128_S10000x128_0_0) (fun _ => rfl)).view.emb
      (gathers_S10000x128_S128x128.idx _ y))) = _
  congr 1
  funext a
  match a with
  | ⟨0, h0⟩ =>
    apply Fin.ext
    have e : ((((tabW).slice (Rect.unit (s := S10000x128) ![0, 0] S10000x128.size inb_S10000x128_S10000x128_0_0) (fun _ => rfl)).view.emb
        (gathers_S10000x128_S128x128.idx (SparseCore.rows (View.read (Elt F) (idxW).view (View.write (Elt F) (idxW).view g0 (fetchedB d L k sL) Finset.univ)) rfl hin) y)) ⟨0, h0⟩).val
        = 0 + 1 * ((gathers_S10000x128_S128x128.idx (SparseCore.rows (View.read (Elt F) (idxW).view (View.write (Elt F) (idxW).view g0 (fetchedB d L k sL) Finset.univ)) rfl hin) y)
            gathers_S10000x128_S128x128.axis).val := rfl
    rw [e, Shape.Gathers.idx_axis]
    refine (congrArg (fun n => 0 + 1 * n) hrow).trans ?_
    show 0 + 1 * (sL i).toNat = (rowIx (sL i)).val
    rw [rowIx_val (hok i)]; omega
  | ⟨1, h1⟩ =>
    apply Fin.ext
    have e : ((((tabW).slice (Rect.unit (s := S10000x128) ![0, 0] S10000x128.size inb_S10000x128_S10000x128_0_0) (fun _ => rfl)).view.emb
        (gathers_S10000x128_S128x128.idx (SparseCore.rows (View.read (Elt F) (idxW).view (View.write (Elt F) (idxW).view g0 (fetchedB d L k sL) Finset.univ)) rfl hin) y)) ⟨1, h1⟩).val
        = 0 + 1 * ((gathers_S10000x128_S128x128.idx (SparseCore.rows (View.read (Elt F) (idxW).view (View.write (Elt F) (idxW).view g0 (fetchedB d L k sL) Finset.univ)) rfl hin) y)
            ⟨1, h1⟩).val := rfl
    rw [e, Shape.Gathers.idx_of_ne _ _ _ ⟨1, h1⟩ (show (1 : Nat) ≠ 0 from Nat.one_ne_zero)]
    show 0 + 1 * (y 1).val = q.val
    omega

/-- The chunk as the trip leaves it is, on the chunk's index set, the gather's specification. -/
theorem gathered_B (hok : ∀ x : S323584.Idx, (sL x).toNat < 10000) (g0 : (idxW).view.ty.Contents (Elt F)) (g2 : (bufW).view.ty.Contents (Elt F))
    (fa : Buf (Elt F) (gbLoc d))
    (hin : ∀ j, ((idxW).view.read (Elt F) (View.write (Elt F) (idxW).view g0 (fetchedB d L k sL) Finset.univ) j).toNat
      < S10000x128.size gathers_S10000x128_S128x128.axis) :
    ∀ x ∈ chunkSet L k,
      (((outW).slice (chunkRect L k) (fun _ => rfl)).view.writes (Elt F) fa
        [⟨Rect.whole (chunkRect L k).shape,
          ReadAs.same.apply (View.read (Elt F) (bufW).view
            ((bufW).view.writes (Elt F) g2 [⟨Rect.whole cc1_scratch3.ty.shape, gatherB d L k A sL g0 hin⟩]))⟩]) x
        = A (ValueIdx.ix2 (rowIx (sL (ValueIdx.ix1 (x 0)))) (x 1)) := by
  intro x hx
  have hx' : x ∈ Finset.univ.map ((outW).slice (chunkRect L k) (fun _ => rfl)).view.emb := hx
  obtain ⟨y, -, rfl⟩ := Finset.mem_map.mp hx'
  have e1 := View.read_writes_cons_emb ((outW).slice (chunkRect L k) (fun _ => rfl)).view fa (Rect.whole (chunkRect L k).shape)
    (ReadAs.same.apply (View.read (Elt F) (bufW).view
      ((bufW).view.writes (Elt F) g2 [⟨Rect.whole cc1_scratch3.ty.shape, gatherB d L k A sL g0 hin⟩]))) [] y
  have hy1 : (Rect.whole (chunkRect L k).shape).emb y = y := by
    funext a; apply Fin.ext; show 0 + 1 * (y a).val = (y a).val; omega
  rw [hy1] at e1
  have e2 := View.read_writes_cons_emb (bufW).view g2 (Rect.whole cc1_scratch3.ty.shape) (gatherB d L k A sL g0 hin) [] y
  have hy2 : (Rect.whole cc1_scratch3.ty.shape).emb y = y := by
    funext a; apply Fin.ext; show 0 + 1 * (y a).val = (y a).val; omega
  rw [hy2] at e2
  refine e1.trans (e2.trans ?_)
  exact gatherB_at d L k A sL hok g0 hin y _ (chunk_emb_B L k y).1 _ (chunk_emb_B L k y).2

end SideB

end Cert.Proof.KI

end
-- ==== Proof.KITile.lean ====
/-
  One tile's task: 79 trips, each fetching a chunk of 128 source indices and 128 destination indices into the tile's two index
  lists, gathering the rows they name out of the two node tables into the tile's two row buffers, and copying the buffers out
  to the tile's chunk of the two gathered arrays. Every copy is the tile's own, waited for before anything touches its ends.
-/
import proofs.«211135_g34514357191071_cont_8to1_b_641_23_alg».proof.Proof.KISetup
import proofs.«211135_g34514357191071_cont_8to1_b_641_23_alg».proof.Proof.KIGatherValue
import Idealize.ShloMosaic.Lib.SparseCore.Ops

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
local notation "aW" => (Memref.whole Cert.KernelIdeal.main_v1_0_scv : Memref Cert.KernelIdeal.sig Kind.scVector Space.hbm Cert.KernelIdeal.S10000x128 EltTy.f32)
local notation "bW" => (Memref.whole Cert.KernelIdeal.main_v1_1_scv : Memref Cert.KernelIdeal.sig Kind.scVector Space.hbm Cert.KernelIdeal.S10000x128 EltTy.f32)
local notation "sW" => (Memref.whole Cert.KernelIdeal.main_v5_scv : Memref Cert.KernelIdeal.sig Kind.scVector Space.hbm Cert.KernelIdeal.S323584 EltTy.i32)
local notation "tW" => (Memref.whole Cert.KernelIdeal.main_v9_scv : Memref Cert.KernelIdeal.sig Kind.scVector Space.hbm Cert.KernelIdeal.S323584 EltTy.i32)
local notation "gaW" => (Memref.whole Cert.KernelIdeal.main_v10_0_scv : Memref Cert.KernelIdeal.sig Kind.scVector Space.hbm Cert.KernelIdeal.S323584x128 EltTy.f32)
local notation "gbW" => (Memref.whole Cert.KernelIdeal.main_v10_1_scv : Memref Cert.KernelIdeal.sig Kind.scVector Space.hbm Cert.KernelIdeal.S323584x128 EltTy.f32)
local notation "isW" => (Memref.whole Cert.KernelIdeal.cc1_scratch0 : Memref Cert.KernelIdeal.sig Kind.scVector Space.vmem Cert.KernelIdeal.S128 EltTy.i32)
local notation "idW" => (Memref.whole Cert.KernelIdeal.cc1_scratch1 : Memref Cert.KernelIdeal.sig Kind.scVector Space.vmem Cert.KernelIdeal.S128 EltTy.i32)
local notation "baW" => (Memref.whole Cert.KernelIdeal.cc1_scratch2 : Memref Cert.KernelIdeal.sig Kind.scVector Space.vmem Cert.KernelIdeal.S128x128 EltTy.f32)
local notation "bbW" => (Memref.whole Cert.KernelIdeal.cc1_scratch3 : Memref Cert.KernelIdeal.sig Kind.scVector Space.vmem Cert.KernelIdeal.S128x128 EltTy.f32)

theorem scratch0_nmem : (cc1_scratch0 : Ref sig .scVector) ∉ ({cc1_scratch1, cc1_scratch2, cc1_scratch3} : Finset (Ref sig .scVector)) := by decide
theorem scratch1_nmem : (cc1_scratch1 : Ref sig .scVector) ∉ ({cc1_scratch2, cc1_scratch3} : Finset (Ref sig .scVector)) := by decide
theorem scratch2_nmem : (cc1_scratch2 : Ref sig .scVector) ∉ ({cc1_scratch3} : Finset (Ref sig .scVector)) := by decide

section Tile

variable [FloatOps F] (cv : (d : Dev nD) → CallVals F d) (d : Dev nD) (L : grid1.Coords)

abbrev cV (L : grid1.Coords) : Fin τ.nSC := (L 0).castLE hcore1
abbrev jV (L : grid1.Coords) : Fin τ.nSub := (L 1).castLE hsub1

/-- The tile's six semaphores, as cells. -/
abbrev cell (x : DmaSems sig S_) : GSem nD τ sig := (V d (cV L) (jV L), .dma x.sem)

/-- The six, as semaphores of a vector subcore. -/
def sixSems : Finset (SemLoc sig) :=
  {.dma cc1_scratch4.sem, .dma cc1_scratch5.sem, .dma cc1_scoped0.sem, .dma cc1_scoped1.sem, .dma cc1_scoped2.sem, .dma cc1_scoped3.sem}
def sixCells : Finset (GSem nD τ sig) := sixSems.map ⟨Prod.mk (V d (cV L) (jV L)), Prod.mk_right_injective _⟩

omit [FloatOps F] in
theorem sixCells_sub : sixCells d L ⊆ ownCells (V d (cV L) (jV L)) := by
  intro g hg
  obtain ⟨sm, hsm, rfl⟩ := Finset.mem_map.mp hg
  refine mem_ownCells.mpr ⟨rfl, ?_⟩
  have : ∀ sm ∈ sixSems, (sm : SemLoc sig).isScoped .scVector = true := by decide
  exact this sm hsm

omit [FloatOps F] in
/-- The tile's scoped semaphores at zero are its six and the rest. -/
theorem ownSems0_V :
    (ownSems0 (V d (cV L) (jV L)) : sProp 𝕄)
      = iprop((semVal (cell d L cc1_scratch4) 0 ∗ semVal (cell d L cc1_scratch5) 0 ∗ semVal (cell d L cc1_scoped0) 0
          ∗ semVal (cell d L cc1_scoped1) 0 ∗ semVal (cell d L cc1_scoped2) 0 ∗ semVal (cell d L cc1_scoped3) 0)
          ∗ bigSep (ownCells (V d (cV L) (jV L)) \ sixCells d L) fun g => semVal g 0) := by
  unfold SparseCore.Cfg.ownSems0
  rw [SparseCore.bigSep_sdiff_split' (sixCells_sub d L)]
  congr 1
  unfold sixCells sixSems
  rw [bigSep_map, SparseCore.bigSep_insert' (by decide), SparseCore.bigSep_insert' (by decide), SparseCore.bigSep_insert' (by decide),
    SparseCore.bigSep_insert' (by decide), SparseCore.bigSep_insert' (by decide), bigSep_singleton]
  rfl

/-- The four scratch buffers, as a vector subcore's references. -/
def fourRefs : Finset (Ref sig .scVector) := {cc1_scratch0, cc1_scratch1, cc1_scratch2, cc1_scratch3}
def fourBufs : Finset (DevRef τ sig) :=
  fourRefs.map ⟨(Proc.scVector (cV L) (jV L)).devRef, Proc.devRef_injective _⟩

omit [FloatOps F] in
theorem fourBufs_sub : fourBufs L ⊆ ownRefs (τ := τ) (.scVector (cV L) (jV L)) := by
  intro b hb
  obtain ⟨r, hr, rfl⟩ := Finset.mem_map.mp hb
  simp only [fourRefs, Finset.mem_insert, Finset.mem_singleton] at hr
  rcases hr with rfl | rfl | rfl | rfl <;> exact SparseCore.Cfg.mem_ownRefs_of_owner rfl

omit [FloatOps F] in
/-- The tile's own buffers, each whole at some contents, are its four scratch buffers and the rest. -/
theorem ownBufs_V :
    (ownBufs (V d (cV L) (jV L)) : sProp 𝕄)
      = iprop(((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f))
          ∗ bigSep (ownRefs (τ := τ) (.scVector (cV L) (jV L)) \ fourBufs L) fun b => iprop(∃ f, ((d, b) : Loc nD τ sig) ↦{fullShare} f)) := by
  unfold SparseCore.Cfg.ownBufs
  rw [show (V d (cV L) (jV L) : Thread nD τ).2 = .scVector (cV L) (jV L) from rfl, SparseCore.bigSep_sdiff_split' (fourBufs_sub L)]
  congr 1
  unfold fourBufs fourRefs
  rw [bigSep_map, SparseCore.bigSep_insert' scratch0_nmem, SparseCore.bigSep_insert' scratch1_nmem, SparseCore.bigSep_insert' scratch2_nmem, bigSep_singleton]
  rfl

end Tile

/-! ## The loop's invariant and the body -/

section Body

variable [FloatOps F] (cv : (d : Dev nD) → CallVals F d) (d : Dev nD) (L : grid1.Coords)

/-- Chunk j of the first gathered array before trip k: written if the trip that writes it is past, anything otherwise. -/
def chunkA (k : Nat) (j : Fin k1_t1_loop.trips) : sProp 𝕄 :=
  if j.val < k then gaLoc d ↦[chunkSet L j]{fullShare} GAof cv d else iprop(∃ f : Buf (Elt F) (gaLoc d), gaLoc d ↦[chunkSet L j]{fullShare} f)
def chunkB (k : Nat) (j : Fin k1_t1_loop.trips) : sProp 𝕄 :=
  if j.val < k then gbLoc d ↦[chunkSet L j]{fullShare} GBof cv d else iprop(∃ f : Buf (Elt F) (gbLoc d), gbLoc d ↦[chunkSet L j]{fullShare} f)

/-- Before trip k: the four operands' read shares, the four scratch buffers at whatever they hold, the six counters at
    zero, the tile's chunks of the two gathered arrays — those of the trips past written —, and the tile's debts as the
    call left them, with only waits on its own semaphores recorded since. -/
def inv (O : CellTallies nD τ sig (HIx 1)) (W : Waits sig (HIx 1)) (k : Nat) (_ : PUnit) : sProp 𝕄 :=
  iprop(Transfers.MayWaits (V d (cV L) (jV L)) (none : HIx 1) O
    ∗ ((aW).view.loc (V d (cV L) (jV L)) ↦{qV L} (cv d).A)
    ∗ ((bW).view.loc (V d (cV L) (jV L)) ↦{qV L} (cv d).B)
    ∗ ((sW).view.loc (V d (cV L) (jV L)) ↦{qV L} (cv d).s)
    ∗ ((tW).view.loc (V d (cV L) (jV L)) ↦{qV L} (cv d).t)
    ∗ (∃ f, (isW).view.loc (V d (cV L) (jV L)) ↦{fullShare} f)
    ∗ (∃ f, (idW).view.loc (V d (cV L) (jV L)) ↦{fullShare} f)
    ∗ (∃ f, (baW).view.loc (V d (cV L) (jV L)) ↦{fullShare} f)
    ∗ (∃ f, (bbW).view.loc (V d (cV L) (jV L)) ↦{fullShare} f)
    ∗ semVal (cell d L cc1_scratch4) 0 ∗ semVal (cell d L cc1_scratch5) 0 ∗ semVal (cell d L cc1_scoped0) 0
    ∗ semVal (cell d L cc1_scoped1) 0 ∗ semVal (cell d L cc1_scoped2) 0 ∗ semVal (cell d L cc1_scoped3) 0
    ∗ (bigSep Finset.univ fun j : Fin k1_t1_loop.trips => chunkA cv d L k j)
    ∗ (bigSep Finset.univ fun j : Fin k1_t1_loop.trips => chunkB cv d L k j)
    ∗ ∃ W', ⌜∀ p ∈ W', p ∈ W ∨ p.2 = none⌝ ∗ owes (V d (cV L) (jV L)) O W')

omit [FloatOps F] in
theorem chunkA_zero : (bigSep Finset.univ fun j : Fin k1_t1_loop.trips => chunkA cv d L 0 j)
    = bigSep Finset.univ fun j : Fin k1_t1_loop.trips => iprop(∃ f : Buf (Elt F) (gaLoc d), gaLoc d ↦[chunkSet L j]{fullShare} f) :=
  bigSep_congr fun j _ => if_neg (Nat.not_lt_zero _)
omit [FloatOps F] in
theorem chunkB_zero : (bigSep Finset.univ fun j : Fin k1_t1_loop.trips => chunkB cv d L 0 j)
    = bigSep Finset.univ fun j : Fin k1_t1_loop.trips => iprop(∃ f : Buf (Elt F) (gbLoc d), gbLoc d ↦[chunkSet L j]{fullShare} f) :=
  bigSep_congr fun j _ => if_neg (Nat.not_lt_zero _)
omit [FloatOps F] in
theorem chunkA_all (n : Nat) (hn : ∀ j : Fin k1_t1_loop.trips, j.val < n) : (bigSep Finset.univ fun j : Fin k1_t1_loop.trips => chunkA cv d L n j)
    = bigSep Finset.univ fun j : Fin k1_t1_loop.trips => gaLoc d ↦[chunkSet L j]{fullShare} GAof cv d :=
  bigSep_congr fun j _ => if_pos (hn j)
omit [FloatOps F] in
theorem chunkB_all (n : Nat) (hn : ∀ j : Fin k1_t1_loop.trips, j.val < n) : (bigSep Finset.univ fun j : Fin k1_t1_loop.trips => chunkB cv d L n j)
    = bigSep Finset.univ fun j : Fin k1_t1_loop.trips => gbLoc d ↦[chunkSet L j]{fullShare} GBof cv d :=
  bigSep_congr fun j _ => if_pos (hn j)
omit [FloatOps F] in
/-- Chunk k at trip k is not written yet; -/
theorem chunkA_self (k : Fin k1_t1_loop.trips) : chunkA cv d L k.val k = iprop(∃ f : Buf (Elt F) (gaLoc d), gaLoc d ↦[chunkSet L k]{fullShare} f) :=
  if_neg (lt_irrefl _)
omit [FloatOps F] in
theorem chunkB_self (k : Fin k1_t1_loop.trips) : chunkB cv d L k.val k = iprop(∃ f : Buf (Elt F) (gbLoc d), gbLoc d ↦[chunkSet L k]{fullShare} f) :=
  if_neg (lt_irrefl _)
omit [FloatOps F] in
/-- after it, it is; -/
theorem chunkA_next (k : Fin k1_t1_loop.trips) : chunkA cv d L (k.val + 1) k = (gaLoc d ↦[chunkSet L k]{fullShare} GAof cv d) :=
  if_pos (Nat.lt_succ_self _)
omit [FloatOps F] in
theorem chunkB_next (k : Fin k1_t1_loop.trips) : chunkB cv d L (k.val + 1) k = (gbLoc d ↦[chunkSet L k]{fullShare} GBof cv d) :=
  if_pos (Nat.lt_succ_self _)
omit [FloatOps F] in
/-- and the other chunks are as they were. -/
theorem chunkA_others (k : Fin k1_t1_loop.trips) :
    (bigSep (Finset.univ.erase k) fun j : Fin k1_t1_loop.trips => chunkA cv d L k.val j) = bigSep (Finset.univ.erase k) fun j => chunkA cv d L (k.val + 1) j :=
  bigSep_congr fun j hj => by
    have hne : j.val ≠ k.val := fun e => (Finset.mem_erase.mp hj).1 (Fin.ext e)
    unfold chunkA; congr 1; exact propext ⟨fun h => Nat.lt_succ_of_lt h, fun h => lt_of_le_of_ne (Nat.lt_succ_iff.mp h) hne⟩
omit [FloatOps F] in
theorem chunkB_others (k : Fin k1_t1_loop.trips) :
    (bigSep (Finset.univ.erase k) fun j : Fin k1_t1_loop.trips => chunkB cv d L k.val j) = bigSep (Finset.univ.erase k) fun j => chunkB cv d L (k.val + 1) j :=
  bigSep_congr fun j hj => by
    have hne : j.val ≠ k.val := fun e => (Finset.mem_erase.mp hj).1 (Fin.ext e)
    unfold chunkB; congr 1; exact propext ⟨fun h => Nat.lt_succ_of_lt h, fun h => lt_of_le_of_ne (Nat.lt_succ_iff.mp h) hne⟩

omit [FloatOps F] in
/-- The arrays as the tile's memrefs address them are the TensorCore's arrays. -/
theorem pts_a (q : PosShare TreeShare) (f : Buf (Elt F) (aLoc d)) : ((aW).view.loc (V d (cV L) (jV L)) ↦{q} f : sProp 𝕄) = aLoc d ↦{q} f := by
  simp only [Memref.view_whole, View.set_whole]
omit [FloatOps F] in
theorem pts_b (q : PosShare TreeShare) (f : Buf (Elt F) (bLoc d)) : ((bW).view.loc (V d (cV L) (jV L)) ↦{q} f : sProp 𝕄) = bLoc d ↦{q} f := by
  simp only [Memref.view_whole, View.set_whole]
omit [FloatOps F] in
theorem pts_s (q : PosShare TreeShare) (f : Buf (Elt F) (sLoc d)) : ((sW).view.loc (V d (cV L) (jV L)) ↦{q} f : sProp 𝕄) = sLoc d ↦{q} f := by
  simp only [Memref.view_whole, View.set_whole]
omit [FloatOps F] in
theorem pts_t (q : PosShare TreeShare) (f : Buf (Elt F) (tLoc d)) : ((tW).view.loc (V d (cV L) (jV L)) ↦{q} f : sProp 𝕄) = tLoc d ↦{q} f := by
  simp only [Memref.view_whole, View.set_whole]

omit [FloatOps F] in
/-- A chunk as the program slices it out of a gathered array is the array on the chunk's index set. -/
theorem pts_gak (k : Fin k1_t1_loop.trips) (f : Buf (Elt F) (gaLoc d)) :
    (((gaW).slice (chunkRect L k) (fun _ => rfl)).view.loc (V d (cV L) (jV L)) ↦[((gaW).slice (chunkRect L k) (fun _ => rfl)).view.set]{fullShare} f : sProp 𝕄)
      = gaLoc d ↦[chunkSet L k]{fullShare} f := rfl
omit [FloatOps F] in
theorem pts_gbk (k : Fin k1_t1_loop.trips) (f : Buf (Elt F) (gbLoc d)) :
    (((gbW).slice (chunkRect L k) (fun _ => rfl)).view.loc (V d (cV L) (jV L)) ↦[((gbW).slice (chunkRect L k) (fun _ => rfl)).view.set]{fullShare} f : sProp 𝕄)
      = gbLoc d ↦[chunkSet L k]{fullShare} f := rfl

omit [FloatOps F] in
/-- A wait on one of the tile's own semaphores, recorded at no call's index, keeps the record within bounds. -/
theorem waits_ok {W W' : Waits sig (HIx 1)} (hW' : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact hW' p hp

omit [FloatOps F] in
/-- A chunk holding, on its own index set, what the gather specifies is the chunk written. -/
theorem chunkA_written (k : Fin k1_t1_loop.trips) (w : Buf (Elt F) (gaLoc d)) (h : ∀ x ∈ chunkSet L k, w x = GAof cv d x) :
    (gaLoc d ↦[chunkSet L k]{fullShare} w : sProp 𝕄) ⊢ chunkA cv d L (k.val + 1) k := by
  rw [chunkA_next, pointsTo_congr h]
omit [FloatOps F] in
theorem chunkB_written (k : Fin k1_t1_loop.trips) (w : Buf (Elt F) (gbLoc d)) (h : ∀ x ∈ chunkSet L k, w x = GBof cv d x) :
    (gbLoc d ↦[chunkSet L k]{fullShare} w : sProp 𝕄) ⊢ chunkB cv d L (k.val + 1) k := by
  rw [chunkB_next, pointsTo_congr h]

/-- The task of the tile at L. -/
theorem tile_body (hF : (K (F := F)).Facts) (hidx : IdxOK cv) (O : CellTallies nD τ sig (HIx 1)) (W : Waits sig (HIx 1)) (hO : ∀ g, O g none = 0) :
    iprop(levAts (K (F := F)).L (K (F := F)).lev ∗ emp ∗ tileIn cv d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L aW (Memref.isWhole_whole _) bW (Memref.isWhole_whole _) sW (Memref.isWhole_whole _) tW (Memref.isWhole_whole _)
            gaW (Memref.isWhole_whole _) gbW (Memref.isWhole_whole _) isW (Memref.isWhole_whole _) idW (Memref.isWhole_whole _)
            baW (Memref.isWhole_whole _) bbW (Memref.isWhole_whole _) cc1_scratch4 cc1_scratch5 cc1_scoped0 cc1_scoped1 cc1_scoped2 cc1_scoped3)
          fun _ => iprop(tileOut cv d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [(K (F := F)).scopedBufs_V hF d (cV L) (jV L), SparseCore.Cfg.scopedSems0_V (Val := Elt F) d (cV L) (jV L), ownSems0_V, ownBufs_V]
  unfold tileIn tileReads
  iintro ⟨#Hlv, -, ⟨⟨Ha, Hb, Hs, Ht⟩, Hga, Hgb⟩, ⟨⟨⟨%f0, H0⟩, ⟨%f1, H1⟩, ⟨%f2, H2⟩, ⟨%f3, H3⟩⟩, Hbufs⟩, ⟨⟨Hs4, Hs5, Hc0, Hc1, Hc2, Hc3⟩, Hsems⟩, HO⟩
  ihave Hmw := ((K (F := F)).mayWaits_none (thr := V d (cV L) (jV L)) hO) $$ Hlv
  ihave Ha' := (Entails.of_eq (pts_a (F := F) d L _ _).symm) $$ Ha
  ihave Hb' := (Entails.of_eq (pts_b (F := F) d L _ _).symm) $$ Hb
  ihave Hs' := (Entails.of_eq (pts_s (F := F) d L _ _).symm) $$ Hs
  ihave Ht' := (Entails.of_eq (pts_t (F := F) d L _ _).symm) $$ Ht
  sl_for (inv cv d L O W) $$ [Hmw Ha' Hb' Hs' Ht' H0 H1 H2 H3 Hs4 Hs5 Hc0 Hc1 Hc2 Hc3 Hga Hgb HO]
  case region =>
    intro k _
    unfold inv
    iintro ⟨#Hmw, Ha, Hb, Hs, Ht, ⟨%g0, H0⟩, ⟨%g1, H1⟩, ⟨%g2, H2⟩, ⟨%g3, H3⟩, Hs4, Hs5, Hc0, Hc1, Hc2, Hc3, Hga, Hgb, %W', %hW', HO⟩
    sl_exec
    -- the two fetched lists name rows of the tables
    have hinA : ∀ j, (((isW).view.read (Elt F) (View.write (Elt F) (isW).view g0 (tile_body.sl.dma0 cv d L k) Finset.univ)) j).toNat
        < S10000x128.size gathers_S10000x128_S128x128.axis := by
      intro j; rw [View.read_write_univ]; exact (hidx d _).1
    have hinB : ∀ j, (((idW).view.read (Elt F) (View.write (Elt F) (idW).view g1 (tile_body.sl.dma0_1 cv d L k) Finset.univ)) j).toNat
        < S10000x128.size gathers_S10000x128_S128x128.axis := by
      intro j; rw [View.read_write_univ]; exact (hidx d _).2
    -- chunk k of each gathered array, out of the family
    ihave Hga' := (Entails.of_eq (SparseCore.bigSep_erase' (Finset.mem_univ k))) $$ Hga
    icases Hga' with ⟨Hgak, Hga⟩
    ihave Hgak' := (Entails.of_eq (chunkA_self cv d L k)) $$ Hgak
    icases Hgak' with ⟨%fa, Hgak⟩
    ihave Hgak := (Entails.of_eq (pts_gak (F := F) d L k fa).symm) $$ Hgak
    ihave Hgb' := (Entails.of_eq (SparseCore.bigSep_erase' (Finset.mem_univ k))) $$ Hgb
    icases Hgb' with ⟨Hgbk, Hgb⟩
    ihave Hgbk' := (Entails.of_eq (chunkB_self cv d L k)) $$ Hgbk
    icases Hgbk' with ⟨%fb, Hgbk⟩
    ihave Hgbk := (Entails.of_eq (pts_gbk (F := F) d L k fb).symm) $$ Hgbk
    sl_exec
    -- what the trip left in its chunk of each gathered array is, on the chunk, what the gather specifies
    have hvalA : ∀ x ∈ chunkSet L k,
        (((gaW).slice (chunkRect L k) (fun _ => rfl)).view.writes (Elt F) fa
          [⟨Rect.whole (chunkRect L k).shape, tile_body.sl.dma0_2 cv d L k g0 g2 hinA⟩]) x = GAof cv d x :=
      fun x hx => gathered_A d L k (cv d).A (cv d).s (fun i => (hidx d i).1) g0 g2 fa hinA x hx
    have hvalB : ∀ x ∈ chunkSet L k,
        (((gbW).slice (chunkRect L k) (fun _ => rfl)).view.writes (Elt F) fb
          [⟨Rect.whole (chunkRect L k).shape, tile_body.sl.dma0_3 cv d L k g1 g3 hinB⟩]) x = GBof cv d x :=
      fun x hx => gathered_B d L k (cv d).B (cv d).t (fun i => (hidx d i).2) g1 g3 fb hinB x hx
    sl_step
    isplitr; · iexact Hmw
    isplitl [Ha]; · iexact Ha
    isplitl [Hb]; · iexact Hb
    isplitl [Hs]; · iexact Hs
    isplitl [Ht]; · iexact Ht
    isplitl [H0]; · iexists _; iexact H0
    isplitl [H1]; · iexists _; iexact H1
    isplitl [H2]; · iexists _; iexact H2
    isplitl [H3]; · iexists _; iexact H3
    isplitl [Hs4]; · iexact Hs4
    isplitl [Hs5]; · iexact Hs5
    isplitl [Hc0]; · iexact Hc0
    isplitl [Hc1]; · iexact Hc1
    isplitl [Hc2]; · iexact Hc2
    isplitl [Hc3]; · iexact Hc3
    isplitl [Hga Hgak]
    · iapply (Entails.of_eq (SparseCore.bigSep_erase' (Finset.mem_univ k)).symm)
      isplitl [Hgak]
      · iapply (chunkA_written cv d L k _ hvalA); iexact Hgak
      · iapply (Entails.of_eq (chunkA_others cv d L k)); iexact Hga
    isplitl [Hgb Hgbk]
    · iapply (Entails.of_eq (SparseCore.bigSep_erase' (Finset.mem_univ k)).symm)
      isplitl [Hgbk]
      · iapply (chunkB_written cv d L k _ hvalB); iexact Hgbk
      · iapply (Entails.of_eq (chunkB_others cv d L k)); iexact Hgb
    iexists _; isplitr
    swap
    · iexact HO
    · ipureintro; exact waits_ok (waits_ok (waits_ok (waits_ok (waits_ok (waits_ok hW' _) _) _) _) _) _
  · unfold inv
    rw [chunkA_zero, chunkB_zero]
    isplitr; · iexact Hmw
    isplitl [Ha']; · iexact Ha'
    isplitl [Hb']; · iexact Hb'
    isplitl [Hs']; · iexact Hs'
    isplitl [Ht']; · iexact Ht'
    isplitl [H0]; · iexists _; iexact H0
    isplitl [H1]; · iexists _; iexact H1
    isplitl [H2]; · iexists _; iexact H2
    isplitl [H3]; · iexists _; iexact H3
    isplitl [Hs4]; · iexact Hs4
    isplitl [Hs5]; · iexact Hs5
    isplitl [Hc0]; · iexact Hc0
    isplitl [Hc1]; · iexact Hc1
    isplitl [Hc2]; · iexact Hc2
    isplitl [Hc3]; · iexact Hc3
    isplitl [Hga]; · iexact Hga
    isplitl [Hgb]; · iexact Hgb
    iexists W; isplitr
    · ipureintro; exact fun p hp => .inl hp
    · iexact HO
  iintro %_ HI
  unfold inv
  icases HI with ⟨-, Ha, Hb, Hs, Ht, ⟨%g0, H0⟩, ⟨%g1, H1⟩, ⟨%g2, H2⟩, ⟨%g3, H3⟩, Hs4, Hs5, Hc0, Hc1, Hc2, Hc3, Hga, Hgb, %W', %hW', HO⟩
  sl_exec
  sl_step
  unfold tileOut tileReads
  isplitl [Ha Hb Hs Ht Hga Hgb]
  · isplitl [Ha Hb Hs Ht]
    · isplitl [Ha]; · iapply (Entails.of_eq (pts_a (F := F) d L _ _)); iexact Ha
      isplitl [Hb]; · iapply (Entails.of_eq (pts_b (F := F) d L _ _)); iexact Hb
      isplitl [Hs]; · iapply (Entails.of_eq (pts_s (F := F) d L _ _)); iexact Hs
      iapply (Entails.of_eq (pts_t (F := F) d L _ _)); iexact Ht
    isplitl [Hga]; · iapply (Entails.of_eq (chunkA_all cv d L _ (fun j => j.isLt))); iexact Hga
    iapply (Entails.of_eq (chunkB_all cv d L _ (fun j => j.isLt))); iexact Hgb
  isplitl [H0 H1 H2 H3 Hbufs]
  · isplitl [H0 H1 H2 H3]
    · isplitl [H0]; · iexists _; iexact H0
      isplitl [H1]; · iexists _; iexact H1
      isplitl [H2]; · iexists _; iexact H2
      iexists _; iexact H3
    iexact Hbufs
  isplitl [Hs4 Hs5 Hc0 Hc1 Hc2 Hc3 Hsems]
  · isplitl [Hs4 Hs5 Hc0 Hc1 Hc2 Hc3]
    · isplitl [Hs4]; · iexact Hs4
      isplitl [Hs5]; · iexact Hs5
      isplitl [Hc0]; · iexact Hc0
      isplitl [Hc1]; · iexact Hc1
      isplitl [Hc2]; · iexact Hc2
      iexact Hc3
    iexact Hsems
  iexists W'; isplitr
  · ipureintro; exact hW'
  · iexact HO

end Body

end Cert.Proof.KI

end
-- ==== Proof.KITileObl.lean ====
/-
  The tile's task in the launch theorem's own spelling of thread and program: the task of vector subcore i of SparseCore c of
  the call's grid is the body at the grid point (c, i), on the whole arrays and the tile's own scratch.
-/
import proofs.«211135_g34514357191071_cont_8to1_b_641_23_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] (cv : (d : Dev nD) → CallVals F d)

/-- The body table's row for a vector subcore at the gather call's label. -/
theorem defs₀_vector (c : Fin τ.nSC) (s : Fin τ.nSub) :
    defs₀ (F := F) (.scVector c s) 1 ()
      = SparseCore.onTile hcore1 hsub1 (fun c s => cc1_k (coordsV c s)
          (Memref.whole main_v1_0_scv) (Memref.isWhole_whole _) (Memref.whole main_v1_1_scv) (Memref.isWhole_whole _)
          (Memref.whole main_v5_scv) (Memref.isWhole_whole _) (Memref.whole main_v9_scv) (Memref.isWhole_whole _)
          (Memref.whole main_v10_0_scv) (Memref.isWhole_whole _) (Memref.whole main_v10_1_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scoped0 cc1_scoped1 cc1_scoped2 cc1_scoped3) ⟨⟩ c s := rfl

omit [FloatOps F] in
/-- The waits a task records are its own semaphores', at no call's index: within what the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile obligation of the gather call. -/
theorem tileObl (hF : (K (F := F)).Facts) (hidx : IdxOK cv) : (K (F := F)).TileObl (D (F := F)) 𝒱 (P cv) v₀ 0 := by
  intro d c i O W hO _ _
  -- this kernel owes nothing for a protocol of its own
  simp only [show (P cv).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have hL : pt (Fin.cast (nCore_eq (F := F) 0) c) (Fin.cast (nSub_eq (F := F) 0) i) = coordsV ⟨_, hc.1⟩ ⟨_, hc.2⟩ := by
    rw [coordsV_eq_pt]; rfl
  rw [P_go, P_td, hL]
  exact (tile_body cv d (coordsV ⟨_, hc.1⟩ ⟨_, hc.2⟩) hF hidx O W hO).trans (wp_mono frame _ _ fun _ => obl_post)

end Cert.Proof.KI

end
-- ==== Proof.KISplit.lean ====
/-
  The gather call's operands, dealt to the 32 tiles and collected back.

  Rows. Tile (c, s) owns rows 20224·s + 10112·c + [0, 10112) of the two gathered arrays, in 79 chunks of 128: chunk k is rows
  20224·s + 10112·c + 128·k + [0, 128). Since 128·78 + 127 < 10112 and 10112 + 10111 < 20224, a row r lies in exactly one chunk —
  that of s = r / 20224, c = (r mod 20224) / 10112, k = (r mod 10112) / 128 — and 16·20224 = 323584 rows are all of them.
  So an array held whole is its 2 × 16 × 79 chunks held side by side, at the same contents.

  Reads. The two node tables and the two index lists are only read: each goes out as one read token per SparseCore, and of
  that one per tile; what is not handed out — the remainder after the two tokens, and of each token the remainder after its
  sixteen — stays with the TensorCore until the call returns, when the shares recompose to the whole.
-/
import proofs.«211135_g34514357191071_cont_8to1_b_641_23_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Rows -/

/-- The first row of chunk k of the tile at L. -/
def row0 (L : grid1.Coords) (k : Fin k1_t1_loop.trips) : Nat := 20224 * (L 1).val + 10112 * (L 0).val + 128 * k.val

theorem trips_eq : k1_t1_loop.trips = 79 := by decide

/-- A chunk's index set is the rows from its first on, 128 of them, at every column. -/
theorem mem_chunkSet (L : grid1.Coords) (k : Fin k1_t1_loop.trips) (x : S323584x128.Idx) :
    x ∈ chunkSet L k ↔ row0 L k ≤ (x 0).val ∧ (x 0).val < row0 L k + 128 := by
  show x ∈ ((View.whole (main_v10_0_scv : Ref sig .scVector)).slice (chunkRect L k)).set ↔ _
  rw [View.set_slice_whole, Rect.mem_set_unit, k1_off2_eq]
  have h1 : (x 1).val < 128 := (x 1).isLt
  show (∀ a : Fin 2, (![20224 * (L 1).val + 10112 * (L 0).val + 128 * k.val, 0] : Fin 2 → Nat) a ≤ (x a).val
      ∧ (x a).val < (![20224 * (L 1).val + 10112 * (L 0).val + 128 * k.val, 0] : Fin 2 → Nat) a + S128x128.size a) ↔ _
  rw [Fin.forall_fin_two]
  show ((20224 * (L 1).val + 10112 * (L 0).val + 128 * k.val ≤ (x 0).val ∧ (x 0).val < 20224 * (L 1).val + 10112 * (L 0).val + 128 * k.val + 128)
      ∧ (0 ≤ (x 1).val ∧ (x 1).val < 0 + 128)) ↔ _
  unfold row0; omega

/-- The chunks, numbered by SparseCore, tile and trip. -/
abbrev Tix : Type := Fin 2 × Fin 16 × Fin k1_t1_loop.trips
def chunkOf (t : Tix) : Finset S323584x128.Idx := chunkSet (pt t.1 t.2.1) t.2.2

theorem row0_pt (c : Fin 2) (s : Fin 16) (k : Fin k1_t1_loop.trips) : row0 (pt c s) k = 20224 * s.val + 10112 * c.val + 128 * k.val := rfl

theorem chunks_disjoint : ∀ t ∈ (Finset.univ : Finset Tix), ∀ t' ∈ (Finset.univ : Finset Tix), t ≠ t' → Disjoint (chunkOf t) (chunkOf t') := by
  intro t _ t' _ hne
  rw [Finset.disjoint_left]
  intro x hx hx'
  obtain ⟨c, s, k⟩ := t; obtain ⟨c', s', k'⟩ := t'
  rw [chunkOf, mem_chunkSet, row0_pt] at hx hx'
  dsimp only at hx hx'
  have hk : k.val < 79 := trips_eq ▸ k.isLt
  have hk' : k'.val < 79 := trips_eq ▸ k'.isLt
  have hc := c.isLt; have hc' := c'.isLt; have hs := s.isLt; have hs' := s'.isLt
  apply hne
  have e1 : s.val = s'.val := by omega
  have e2 : c.val = c'.val := by omega
  have e3 : k.val = k'.val := by omega
  exact Prod.ext (Fin.ext e2) (Prod.ext (Fin.ext e1) (Fin.ext e3))

/-- Every row lies in some chunk: that of s = r / 20224, c = (r mod 20224) / 10112, k = (r mod 10112) / 128. -/
theorem chunks_all (x : S323584x128.Idx) : ∃ t : Tix, x ∈ chunkOf t := by
  have hx : (x 0).val < 323584 := (x 0).isLt
  refine ⟨(⟨(x 0).val % 20224 / 10112, by omega⟩, ⟨(x 0).val / 20224, by omega⟩, ⟨(x 0).val % 10112 / 128, by rw [trips_eq]; omega⟩), ?_⟩
  rw [chunkOf, mem_chunkSet, row0_pt]
  show 20224 * ((x 0).val / 20224) + 10112 * ((x 0).val % 20224 / 10112) + 128 * ((x 0).val % 10112 / 128) ≤ (x 0).val
    ∧ (x 0).val < 20224 * ((x 0).val / 20224) + 10112 * ((x 0).val % 20224 / 10112) + 128 * ((x 0).val % 10112 / 128) + 128
  omega

/-- An array held whole is its pieces held side by side, for any finite family of pairwise disjoint index sets that leaves no
    index out. -/
theorem pointsTo_pieces {ℓ : Loc nD τ sig} {T : Type} [Fintype T] (K : T → Finset (Idx ℓ))
    (hd : ∀ t ∈ (Finset.univ : Finset T), ∀ t' ∈ (Finset.univ : Finset T), t ≠ t' → Disjoint (K t) (K t')) (hc : ∀ x, ∃ t, x ∈ K t)
    (q : PosShare TreeShare) (f : Buf (Elt F) ℓ) :
    (ℓ ↦{q} f : sProp 𝕄) = bigSep Finset.univ fun t => ℓ ↦[K t]{q} f := by
  classical
  rw [← pointsTo_biUnion Finset.univ K hd]
  congr 1
  exact (Finset.eq_univ_iff_forall.mpr fun x => Finset.mem_biUnion.mpr ⟨(hc x).choose, Finset.mem_univ _, (hc x).choose_spec⟩).symm

set_option maxRecDepth 200000 in
/-- A gathered array held whole is its chunks held side by side. -/
theorem ga_chunks (d : Dev nD) (f : Buf (Elt F) (gaLoc d)) :
    (gaLoc d ↦{fullShare} f : sProp 𝕄)
      = bigSep Finset.univ fun c : Fin 2 => bigSep Finset.univ fun s : Fin 16 => bigSep Finset.univ fun k : Fin k1_t1_loop.trips =>
          gaLoc d ↦[chunkSet (pt c s) k]{fullShare} f := by
  refine (pointsTo_pieces (ℓ := gaLoc d) (T := Tix) chunkOf chunks_disjoint chunks_all fullShare f).trans ?_
  rw [bigSep_univ_prod]
  refine bigSep_congr fun c _ => ?_
  rw [bigSep_univ_prod]
  rfl
set_option maxRecDepth 200000 in
theorem gb_chunks (d : Dev nD) (f : Buf (Elt F) (gbLoc d)) :
    (gbLoc d ↦{fullShare} f : sProp 𝕄)
      = bigSep Finset.univ fun c : Fin 2 => bigSep Finset.univ fun s : Fin 16 => bigSep Finset.univ fun k : Fin k1_t1_loop.trips =>
          gbLoc d ↦[chunkSet (pt c s) k]{fullShare} f := by
  refine (pointsTo_pieces (ℓ := gbLoc d) (T := Tix) chunkOf chunks_disjoint chunks_all fullShare f).trans ?_
  rw [bigSep_univ_prod]
  refine bigSep_congr fun c _ => ?_
  rw [bigSep_univ_prod]
  rfl

/-! ## Reads -/

/-- What the TensorCore keeps of a read array during the call. -/
def keep (ℓ : Loc nD τ sig) (f : Buf (Elt F) ℓ) : sProp 𝕄 :=
  iprop((ℓ ↦{Transfers.shareDrop fullShare 2} f)
    ∗ bigSep Finset.univ fun c : Fin 2 => ℓ ↦{Transfers.shareDrop (Transfers.shareTok fullShare 2 c) 16} f)

/-- A read array held whole is what is kept and one read share per tile. -/
theorem reads_deal (ℓ : Loc nD τ sig) (f : Buf (Elt F) ℓ) :
    (ℓ ↦{fullShare} f : sProp 𝕄)
      ⊣⊢ iprop(keep ℓ f ∗ bigSep Finset.univ fun c : Fin 2 => bigSep Finset.univ fun s : Fin 16 => ℓ ↦{qV (pt c s)} f) := by
  have h2 : (ℓ ↦{fullShare} f : sProp 𝕄) ⊣⊢ _ := Transfers.pointsTo_toks fullShare 2
  have h16 : ∀ c : Fin 2, (ℓ ↦{Transfers.shareTok fullShare 2 c} f : sProp 𝕄)
      ⊣⊢ iprop((ℓ ↦{Transfers.shareDrop (Transfers.shareTok fullShare 2 c) 16} f)
          ∗ bigSep Finset.univ fun s : Fin 16 => ℓ ↦{qV (pt c s)} f) :=
    fun c => Transfers.pointsTo_toks (Transfers.shareTok fullShare 2 c) 16
  unfold keep
  constructor
  · refine h2.1.trans ?_
    iintro ⟨Hd, Ht⟩
    ihave Ht' := (SparseCore.ent (bigSep_mono (s := (Finset.univ : Finset (Fin 2))) (fun c _ => (h16 c).1))) $$ Ht
    ihave Ht'' := (Entails.of_eq (bigSep_sep' _ _ _)) $$ Ht'
    icases Ht'' with ⟨Hk, Hs⟩
    isplitl [Hd Hk]
    · isplitl [Hd] <;> iassumption
    · iexact Hs
  · refine BIBase.Entails.trans ?_ h2.2
    iintro ⟨⟨Hd, Hk⟩, Hs⟩
    isplitl [Hd]; · iexact Hd
    iapply (SparseCore.ent (bigSep_mono (s := (Finset.univ : Finset (Fin 2))) (fun c _ => (h16 c).2)))
    rw [bigSep_sep']
    isplitl [Hk] <;> iassumption

end Cert.Proof.KI

end
-- ==== Proof.KICall.lean ====
/-
  The gather call seen from the TensorCore: what it hands the two SparseCores and what it keeps, and what it has when they hand
  their parts back. Going in, the four read arrays are dealt as read shares (the remainders kept), and each gathered array, at
  whatever it holds, as its chunks; coming back, the shares recompose to the four arrays whole and unchanged, and the chunks —
  every one written with the gather's specification — to each gathered array whole at that specification.
-/
import proofs.«211135_g34514357191071_cont_8to1_b_641_23_alg».proof.Proof.KISplit

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (cv : (d : Dev nD) → CallVals F d)

/-- What the TensorCore keeps of the four read arrays during the call. -/
def callRest (d : Dev nD) : sProp 𝕄 :=
  iprop(keep (F := F) (aLoc d) (cv d).A ∗ keep (F := F) (bLoc d) (cv d).B ∗ keep (F := F) (sLoc d) (cv d).s ∗ keep (F := F) (tLoc d) (cv d).t)

omit cv in
/-- A family over the call's SparseCores is the family over two. -/
theorem bigSep_cores (Φ : Fin 2 → sProp 𝕄) :
    (bigSep Finset.univ fun c : Fin ((K (F := F)).nCore 0) => Φ (Fin.cast (nCore_eq 0) c)) = bigSep Finset.univ Φ := rfl

/-- The SparseCores' parts going in, regrouped array by array. -/
theorem coresIn_eq (d : Dev nD) :
    (bigSep Finset.univ fun c : Fin 2 => coreIn cv d c)
      = iprop(((bigSep Finset.univ fun c : Fin 2 => bigSep Finset.univ fun s : Fin 16 => aLoc d ↦{qV (pt c s)} (cv d).A)
            ∗ (bigSep Finset.univ fun c : Fin 2 => bigSep Finset.univ fun s : Fin 16 => bLoc d ↦{qV (pt c s)} (cv d).B)
            ∗ (bigSep Finset.univ fun c : Fin 2 => bigSep Finset.univ fun s : Fin 16 => sLoc d ↦{qV (pt c s)} (cv d).s)
            ∗ (bigSep Finset.univ fun c : Fin 2 => bigSep Finset.univ fun s : Fin 16 => tLoc d ↦{qV (pt c s)} (cv d).t))
          ∗ (bigSep Finset.univ fun c : Fin 2 => bigSep Finset.univ fun s : Fin 16 => bigSep Finset.univ fun k : Fin k1_t1_loop.trips =>
              iprop(∃ f : Buf (Elt F) (gaLoc d), gaLoc d ↦[chunkSet (pt c s) k]{fullShare} f))
          ∗ (bigSep Finset.univ fun c : Fin 2 => bigSep Finset.univ fun s : Fin 16 => bigSep Finset.univ fun k : Fin k1_t1_loop.trips =>
              iprop(∃ f : Buf (Elt F) (gbLoc d), gbLoc d ↦[chunkSet (pt c s) k]{fullShare} f))) := by
  unfold coreIn tileIn tileReads
  simp only [bigSep_sep']

/-- The same coming back. -/
theorem coresOut_eq (d : Dev nD) :
    (bigSep Finset.univ fun c : Fin 2 => coreOut cv d c)
      = iprop(((bigSep Finset.univ fun c : Fin 2 => bigSep Finset.univ fun s : Fin 16 => aLoc d ↦{qV (pt c s)} (cv d).A)
            ∗ (bigSep Finset.univ fun c : Fin 2 => bigSep Finset.univ fun s : Fin 16 => bLoc d ↦{qV (pt c s)} (cv d).B)
            ∗ (bigSep Finset.univ fun c : Fin 2 => bigSep Finset.univ fun s : Fin 16 => sLoc d ↦{qV (pt c s)} (cv d).s)
            ∗ (bigSep Finset.univ fun c : Fin 2 => bigSep Finset.univ fun s : Fin 16 => tLoc d ↦{qV (pt c s)} (cv d).t))
          ∗ (bigSep Finset.univ fun c : Fin 2 => bigSep Finset.univ fun s : Fin 16 => bigSep Finset.univ fun k : Fin k1_t1_loop.trips =>
              gaLoc d ↦[chunkSet (pt c s) k]{fullShare} GAof cv d)
          ∗ (bigSep Finset.univ fun c : Fin 2 => bigSep Finset.univ fun s : Fin 16 => bigSep Finset.univ fun k : Fin k1_t1_loop.trips =>
              gbLoc d ↦[chunkSet (pt c s) k]{fullShare} GBof cv d)) := by
  unfold coreOut tileOut tileReads
  simp only [bigSep_sep']

omit cv in
theorem some_contents {ℓ : Loc nD τ sig} {I : Finset (Idx ℓ)} (f : Buf (Elt F) ℓ) :
    (ℓ ↦[I]{fullShare} f : sProp 𝕄) ⊢ iprop(∃ g : Buf (Elt F) ℓ, ℓ ↦[I]{fullShare} g) := by
  iintro H; iexists f; iexact H

set_option maxHeartbeats 1600000 in
/-- Going in. -/
theorem call_split (d : Dev nD) :
    iprop((aLoc d ↦{fullShare} (cv d).A) ∗ (bLoc d ↦{fullShare} (cv d).B) ∗ (sLoc d ↦{fullShare} (cv d).s) ∗ (tLoc d ↦{fullShare} (cv d).t)
        ∗ (∃ f, gaLoc d ↦{fullShare} f) ∗ (∃ f, gbLoc d ↦{fullShare} f))
      ⊢ iprop(callRest cv d ∗ bigSep Finset.univ fun c : Fin ((K (F := F)).nCore 0) => (P cv).st 0 d c) := by
  simp only [P_st]
  rw [bigSep_cores (F := F) (fun c => coreIn cv d c), coresIn_eq]
  unfold callRest
  iintro ⟨Ha, Hb, Hs, Ht, ⟨%fa, Hga⟩, ⟨%fb, Hgb⟩⟩
  ihave Ha' := (reads_deal (F := F) (aLoc d) (cv d).A).1 $$ Ha
  icases Ha' with ⟨Hka, Hta⟩
  ihave Hb' := (reads_deal (F := F) (bLoc d) (cv d).B).1 $$ Hb
  icases Hb' with ⟨Hkb, Htb⟩
  ihave Hs' := (reads_deal (F := F) (sLoc d) (cv d).s).1 $$ Hs
  icases Hs' with ⟨Hks, Hts⟩
  ihave Ht' := (reads_deal (F := F) (tLoc d) (cv d).t).1 $$ Ht
  icases Ht' with ⟨Hkt, Htt⟩
  ihave Hga' := (Entails.of_eq (ga_chunks (F := F) d fa)) $$ Hga
  ihave Hgb' := (Entails.of_eq (gb_chunks (F := F) d fb)) $$ Hgb
  isplitl [Hka Hkb Hks Hkt]
  · isplitl [Hka]; · iexact Hka
    isplitl [Hkb]; · iexact Hkb
    isplitl [Hks]; · iexact Hks
    iexact Hkt
  isplitl [Hta Htb Hts Htt]
  · isplitl [Hta]; · iexact Hta
    isplitl [Htb]; · iexact Htb
    isplitl [Hts]; · iexact Hts
    iexact Htt
  isplitl [Hga']
  · iapply (SparseCore.ent (bigSep_mono (s := (Finset.univ : Finset (Fin 2))) fun c _ =>
      bigSep_mono (s := (Finset.univ : Finset (Fin 16))) fun s _ =>
        bigSep_mono (s := (Finset.univ : Finset (Fin k1_t1_loop.trips))) fun k _ => some_contents (F := F) (ℓ := gaLoc d) (I := chunkSet (pt c s) k) fa))
    iexact Hga'
  · iapply (SparseCore.ent (bigSep_mono (s := (Finset.univ : Finset (Fin 2))) fun c _ =>
      bigSep_mono (s := (Finset.univ : Finset (Fin 16))) fun s _ =>
        bigSep_mono (s := (Finset.univ : Finset (Fin k1_t1_loop.trips))) fun k _ => some_contents (F := F) (ℓ := gbLoc d) (I := chunkSet (pt c s) k) fb))
    iexact Hgb'

set_option maxHeartbeats 1600000 in
/-- Coming back. -/
theorem call_join (d : Dev nD) :
    iprop(callRest cv d ∗ bigSep Finset.univ fun c : Fin ((K (F := F)).nCore 0) => (P cv).dn 0 d c)
      ⊢ iprop((aLoc d ↦{fullShare} (cv d).A) ∗ (bLoc d ↦{fullShare} (cv d).B) ∗ (sLoc d ↦{fullShare} (cv d).s) ∗ (tLoc d ↦{fullShare} (cv d).t)
          ∗ (gaLoc d ↦{fullShare} GAof cv d) ∗ (gbLoc d ↦{fullShare} GBof cv d)) := by
  simp only [P_dn]
  rw [bigSep_cores (F := F) (fun c => coreOut cv d c), coresOut_eq]
  unfold callRest
  iintro ⟨⟨Hka, Hkb, Hks, Hkt⟩, ⟨Hta, Htb, Hts, Htt⟩, Hga, Hgb⟩
  isplitl [Hka Hta]
  · iapply (reads_deal (F := F) (aLoc d) (cv d).A).2; isplitl [Hka] <;> iassumption
  isplitl [Hkb Htb]
  · iapply (reads_deal (F := F) (bLoc d) (cv d).B).2; isplitl [Hkb] <;> iassumption
  isplitl [Hks Hts]
  · iapply (reads_deal (F := F) (sLoc d) (cv d).s).2; isplitl [Hks] <;> iassumption
  isplitl [Hkt Htt]
  · iapply (reads_deal (F := F) (tLoc d) (cv d).t).2; isplitl [Hkt] <;> iassumption
  isplitl [Hga]
  · iapply (Entails.of_eq (ga_chunks (F := F) d (GAof cv d)).symm); iexact Hga
  · iapply (Entails.of_eq (gb_chunks (F := F) d (GBof cv d)).symm); iexact Hgb

end Cert.Proof.KI

end
-- ==== Proof.KIRun.lean ====
/-
  The kernel's run: from any launch memory with every semaphore at zero, every weakly fair execution of the device's
  35 threads — the TensorCore, the two sequencers, the 32 vector subcores — terminates, nothing faulting, no handshake
  unanswered, and the final memory has every unscoped array of the TensorCore at the contents the walk through @main
  names. It is the launch theorem for a program with calls on the SparseCores, given: the proof of one vector subcore's
  task, how a SparseCore's operands are dealt to its tiles (the identity here), @main on the TensorCore, the launch
  element, and how the final memory is read.
-/
import proofs.«211135_g34514357191071_cont_8to1_b_641_23_alg».proof.Proof.KIMain
import proofs.«211135_g34514357191071_cont_8to1_b_641_23_alg».proof.Proof.KILaunch
import proofs.«211135_g34514357191071_cont_8to1_b_641_23_alg».proof.Proof.KITileObl
import proofs.«211135_g34514357191071_cont_8to1_b_641_23_alg».proof.Proof.KICall

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (g : Dev nD → PrngReg)
variable [∀ e, Nonempty (Elt F e)]

/-- Every unscoped array of every TensorCore at its contents at the return. -/
def QC : PUnit × MemSt nD τ sig (Elt F) → Prop := fun r => ∀ d : Dev nD, ∀ b ∈ Pipeline.ucRefs τ sig, r.2.mem (d, b) = W7 m d b

set_option backward.isDefEq.respectTransparency.types false in
theorem run_main_of (htile : (K (F := F)).TileObl (D (F := F)) 𝒱 (P (cv m)) v₀ 0) (R : Dev nD → sProp 𝕄)
    (hsplit : ∀ d, iprop((aLoc d ↦{fullShare} (cv m d).A) ∗ (bLoc d ↦{fullShare} (cv m d).B) ∗ (sLoc d ↦{fullShare} (cv m d).s) ∗ (tLoc d ↦{fullShare} (cv m d).t)
        ∗ (∃ f, gaLoc d ↦{fullShare} f) ∗ (∃ f, gbLoc d ↦{fullShare} f))
      ⊢ iprop(R d ∗ bigSep Finset.univ fun c : Fin ((K (F := F)).nCore 0) => (P (cv m)).st 0 d c))
    (hjoin : ∀ d, iprop(R d ∗ bigSep Finset.univ fun c : Fin ((K (F := F)).nCore 0) => (P (cv m)).dn 0 d c)
      ⊢ iprop((aLoc d ↦{fullShare} (cv m d).A) ∗ (bLoc d ↦{fullShare} (cv m d).B) ∗ (sLoc d ↦{fullShare} (cv m d).s) ∗ (tLoc d ↦{fullShare} (cv m d).t)
        ∗ (gaLoc d ↦{fullShare} GAof (cv m) d) ∗ (gbLoc d ↦{fullShare} GBof (cv m) d))) :
    θ_run (Cert.KernelIdeal.defs (F := F)) (Cert.KernelIdeal.threads (F := F)) ⟨m, fun _ => 0, g⟩ (QC m) :=
  SparseCore.Cfg.θ_run_sc (K := K (F := F)) (D := D (F := F)) (𝒱 := 𝒱) (EH := EH) (P := P (cv m)) facts v₀
    (fun q hq => match q with | 0 => nomatch hq)
    (fun q _ => match q with | 0 => htile)
    (fun q _ => match q with | 0 => SparseCore.Cfg.VecSplit.of_plain (vecSplit (cv m)))
    m g main (G (F := F)) (FIN m) (u₀ (F := F)) (sep_elim_left.trans (hu₀ (cv m))) (hmain m g R hsplit hjoin) (fq m) (hfin m) (QC m) (fun _ h => h)

/-- The run with the vector subcores' task and the dealing of the call's operands proved: what remains is that every
    index of the two padded lists names a row of the tables. -/
theorem run_main (hidx : IdxOK (cv m)) :
    θ_run (Cert.KernelIdeal.defs (F := F)) (Cert.KernelIdeal.threads (F := F)) ⟨m, fun _ => 0, g⟩ (QC m) :=
  run_main_of m g (tileObl (cv m) facts hidx) (callRest (cv m)) (call_split (cv m)) (call_join (cv m))

end Cert.Proof.KI

end
-- ==== Proof.KIMainFin.lean ====
/-
  Every argument array of @main ends at its launch contents: no host operation writes one, a pipelined call reads it
  through an operand window (whose array its write-backs never touch) or passes it by, and the gather call rewrites the
  two gathered arrays only. So the contents at the return, read at an argument, walk back through the seven boundaries
  to the launch memory. The result array's contents at the return are named.
-/
import proofs.«211135_g34514357191071_cont_8to1_b_641_23_alg».proof.Proof.KIMainRegions

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo

variable (m : (ℓ : Loc nD τ sig) → Buf (Elt F) ℓ)

theorem W7_arg0 (d : Dev nD) : W7 m d (Proc.devRef .tc main_arg0) = m (d, Proc.devRef .tc main_arg0) :=
  (show StableHlo.after opsD (W6 m d) (Proc.devRef .tc main_arg0) = W6 m d (Proc.devRef .tc main_arg0) by unfold opsD; after_results_simp).trans <|
  (show W6 m d (Proc.devRef .tc main_arg0) = W5 m d (Proc.devRef .tc main_arg0) from (W6_of_ne m d main_arg0 (by decide))).trans <|
  (show StableHlo.after opsC (W4 m d) (Proc.devRef .tc main_arg0) = W4 m d (Proc.devRef .tc main_arg0) by unfold opsC; after_results_simp).trans <|
  (show W4 m d (Proc.devRef .tc main_arg0) = W3 m d (Proc.devRef .tc main_arg0) from (Function.update_of_ne (by decide) _ _).trans (Function.update_of_ne (by decide) _ _)).trans <|
  (show StableHlo.after opsB (W2 m d) (Proc.devRef .tc main_arg0) = W2 m d (Proc.devRef .tc main_arg0) by unfold opsB; after_results_simp).trans <|
  (show W2 m d (Proc.devRef .tc main_arg0) = W1 m d (Proc.devRef .tc main_arg0) from ((W2_arr m d 0).trans (((dat0 (V1 m) (Ow (F := F) 0) (Bw (F := F) 0) d).arrAt_in 0 rfl _).trans (A_eq0 (V1 m) (Ow (F := F) 0) (Bw (F := F) 0) d 0)))).trans <|
  (show StableHlo.after opsA (W0 m d) (Proc.devRef .tc main_arg0) = W0 m d (Proc.devRef .tc main_arg0) by unfold opsA; after_results_simp)

theorem W7_arg1 (d : Dev nD) : W7 m d (Proc.devRef .tc main_arg1) = m (d, Proc.devRef .tc main_arg1) :=
  (show StableHlo.after opsD (W6 m d) (Proc.devRef .tc main_arg1) = W6 m d (Proc.devRef .tc main_arg1) by unfold opsD; after_results_simp).trans <|
  (show W6 m d (Proc.devRef .tc main_arg1) = W5 m d (Proc.devRef .tc main_arg1) from (W6_of_ne m d main_arg1 (by decide))).trans <|
  (show StableHlo.after opsC (W4 m d) (Proc.devRef .tc main_arg1) = W4 m d (Proc.devRef .tc main_arg1) by unfold opsC; after_results_simp).trans <|
  (show W4 m d (Proc.devRef .tc main_arg1) = W3 m d (Proc.devRef .tc main_arg1) from (Function.update_of_ne (by decide) _ _).trans (Function.update_of_ne (by decide) _ _)).trans <|
  (show StableHlo.after opsB (W2 m d) (Proc.devRef .tc main_arg1) = W2 m d (Proc.devRef .tc main_arg1) by unfold opsB; after_results_simp).trans <|
  (show W2 m d (Proc.devRef .tc main_arg1) = W1 m d (Proc.devRef .tc main_arg1) from ((W2_arr m d 2).trans (((dat0 (V1 m) (Ow (F := F) 0) (Bw (F := F) 0) d).arrAt_in 2 rfl _).trans (A_eq0 (V1 m) (Ow (F := F) 0) (Bw (F := F) 0) d 2)))).trans <|
  (show StableHlo.after opsA (W0 m d) (Proc.devRef .tc main_arg1) = W0 m d (Proc.devRef .tc main_arg1) by unfold opsA; after_results_simp)

theorem W7_arg2 (d : Dev nD) : W7 m d (Proc.devRef .tc main_arg2) = m (d, Proc.devRef .tc main_arg2) :=
  (show StableHlo.after opsD (W6 m d) (Proc.devRef .tc main_arg2) = W6 m d (Proc.devRef .tc main_arg2) by unfold opsD; after_results_simp).trans <|
  (show W6 m d (Proc.devRef .tc main_arg2) = W5 m d (Proc.devRef .tc main_arg2) from (W6_of_ne m d main_arg2 (by decide))).trans <|
  (show StableHlo.after opsC (W4 m d) (Proc.devRef .tc main_arg2) = W4 m d (Proc.devRef .tc main_arg2) by unfold opsC; after_results_simp).trans <|
  (show W4 m d (Proc.devRef .tc main_arg2) = W3 m d (Proc.devRef .tc main_arg2) from (Function.update_of_ne (by decide) _ _).trans (Function.update_of_ne (by decide) _ _)).trans <|
  (show StableHlo.after opsB (W2 m d) (Proc.devRef .tc main_arg2) = W2 m d (Proc.devRef .tc main_arg2) by unfold opsB; after_results_simp).trans <|
  (show W2 m d (Proc.devRef .tc main_arg2) = W1 m d (Proc.devRef .tc main_arg2) from ((W2_arr m d 1).trans (((dat0 (V1 m) (Ow (F := F) 0) (Bw (F := F) 0) d).arrAt_in 1 rfl _).trans (A_eq0 (V1 m) (Ow (F := F) 0) (Bw (F := F) 0) d 1)))).trans <|
  (show StableHlo.after opsA (W0 m d) (Proc.devRef .tc main_arg2) = W0 m d (Proc.devRef .tc main_arg2) by unfold opsA; after_results_simp)

theorem W7_arg3 (d : Dev nD) : W7 m d (Proc.devRef .tc main_arg3) = m (d, Proc.devRef .tc main_arg3) :=
  (show StableHlo.after opsD (W6 m d) (Proc.devRef .tc main_arg3) = W6 m d (Proc.devRef .tc main_arg3) by unfold opsD; after_results_simp).trans <|
  (show W6 m d (Proc.devRef .tc main_arg3) = W5 m d (Proc.devRef .tc main_arg3) from (W6_of_ne m d main_arg3 (by decide))).trans <|
  (show StableHlo.after opsC (W4 m d) (Proc.devRef .tc main_arg3) = W4 m d (Proc.devRef .tc main_arg3) by unfold opsC; after_results_simp).trans <|
  (show W4 m d (Proc.devRef .tc main_arg3) = W3 m d (Proc.devRef .tc main_arg3) from (Function.update_of_ne (by decide) _ _).trans (Function.update_of_ne (by decide) _ _)).trans <|
  (show StableHlo.after opsB (W2 m d) (Proc.devRef .tc main_arg3) = W2 m d (Proc.devRef .tc main_arg3) by unfold opsB; after_results_simp).trans <|
  (show W2 m d (Proc.devRef .tc main_arg3) = W1 m d (Proc.devRef .tc main_arg3) from (W2_of_ne m d main_arg3 (by decide))).trans <|
  (show StableHlo.after opsA (W0 m d) (Proc.devRef .tc main_arg3) = W0 m d (Proc.devRef .tc main_arg3) by unfold opsA; after_results_simp)

theorem W7_arg4 (d : Dev nD) : W7 m d (Proc.devRef .tc main_arg4) = m (d, Proc.devRef .tc main_arg4) :=
  (show StableHlo.after opsD (W6 m d) (Proc.devRef .tc main_arg4) = W6 m d (Proc.devRef .tc main_arg4) by unfold opsD; after_results_simp).trans <|
  (show W6 m d (Proc.devRef .tc main_arg4) = W5 m d (Proc.devRef .tc main_arg4) from (W6_of_ne m d main_arg4 (by decide))).trans <|
  (show StableHlo.after opsC (W4 m d) (Proc.devRef .tc main_arg4) = W4 m d (Proc.devRef .tc main_arg4) by unfold opsC; after_results_simp).trans <|
  (show W4 m d (Proc.devRef .tc main_arg4) = W3 m d (Proc.devRef .tc main_arg4) from (Function.update_of_ne (by decide) _ _).trans (Function.update_of_ne (by decide) _ _)).trans <|
  (show StableHlo.after opsB (W2 m d) (Proc.devRef .tc main_arg4) = W2 m d (Proc.devRef .tc main_arg4) by unfold opsB; after_results_simp).trans <|
  (show W2 m d (Proc.devRef .tc main_arg4) = W1 m d (Proc.devRef .tc main_arg4) from ((W2_arr m d 3).trans (((dat0 (V1 m) (Ow (F := F) 0) (Bw (F := F) 0) d).arrAt_in 3 rfl _).trans (A_eq0 (V1 m) (Ow (F := F) 0) (Bw (F := F) 0) d 3)))).trans <|
  (show StableHlo.after opsA (W0 m d) (Proc.devRef .tc main_arg4) = W0 m d (Proc.devRef .tc main_arg4) by unfold opsA; after_results_simp)

theorem W7_arg5 (d : Dev nD) : W7 m d (Proc.devRef .tc main_arg5) = m (d, Proc.devRef .tc main_arg5) :=
  (show StableHlo.after opsD (W6 m d) (Proc.devRef .tc main_arg5) = W6 m d (Proc.devRef .tc main_arg5) by unfold opsD; after_results_simp).trans <|
  (show W6 m d (Proc.devRef .tc main_arg5) = W5 m d (Proc.devRef .tc main_arg5) from (W6_of_ne m d main_arg5 (by decide))).trans <|
  (show StableHlo.after opsC (W4 m d) (Proc.devRef .tc main_arg5) = W4 m d (Proc.devRef .tc main_arg5) by unfold opsC; after_results_simp).trans <|
  (show W4 m d (Proc.devRef .tc main_arg5) = W3 m d (Proc.devRef .tc main_arg5) from (Function.update_of_ne (by decide) _ _).trans (Function.update_of_ne (by decide) _ _)).trans <|
  (show StableHlo.after opsB (W2 m d) (Proc.devRef .tc main_arg5) = W2 m d (Proc.devRef .tc main_arg5) by unfold opsB; after_results_simp).trans <|
  (show W2 m d (Proc.devRef .tc main_arg5) = W1 m d (Proc.devRef .tc main_arg5) from (W2_of_ne m d main_arg5 (by decide))).trans <|
  (show StableHlo.after opsA (W0 m d) (Proc.devRef .tc main_arg5) = W0 m d (Proc.devRef .tc main_arg5) by unfold opsA; after_results_simp)

theorem W7_arg6 (d : Dev nD) : W7 m d (Proc.devRef .tc main_arg6) = m (d, Proc.devRef .tc main_arg6) :=
  (show StableHlo.after opsD (W6 m d) (Proc.devRef .tc main_arg6) = W6 m d (Proc.devRef .tc main_arg6) by unfold opsD; after_results_simp).trans <|
  (show W6 m d (Proc.devRef .tc main_arg6) = W5 m d (Proc.devRef .tc main_arg6) from ((W6_arr m d 2).trans (((dat2 (V5 m) (Ow (F := F) 1) (Bw (F := F) 1) d).arrAt_in 2 rfl _).trans (A_eq2 (V5 m) (Ow (F := F) 1) (Bw (F := F) 1) d 2)))).trans <|
  (show StableHlo.after opsC (W4 m d) (Proc.devRef .tc main_arg6) = W4 m d (Proc.devRef .tc main_arg6) by unfold opsC; after_results_simp).trans <|
  (show W4 m d (Proc.devRef .tc main_arg6) = W3 m d (Proc.devRef .tc main_arg6) from (Function.update_of_ne (by decide) _ _).trans (Function.update_of_ne (by decide) _ _)).trans <|
  (show StableHlo.after opsB (W2 m d) (Proc.devRef .tc main_arg6) = W2 m d (Proc.devRef .tc main_arg6) by unfold opsB; after_results_simp).trans <|
  (show W2 m d (Proc.devRef .tc main_arg6) = W1 m d (Proc.devRef .tc main_arg6) from (W2_of_ne m d main_arg6 (by decide))).trans <|
  (show StableHlo.after opsA (W0 m d) (Proc.devRef .tc main_arg6) = W0 m d (Proc.devRef .tc main_arg6) by unfold opsA; after_results_simp)

theorem W7_arg7 (d : Dev nD) : W7 m d (Proc.devRef .tc main_arg7) = m (d, Proc.devRef .tc main_arg7) :=
  (show StableHlo.after opsD (W6 m d) (Proc.devRef .tc main_arg7) = W6 m d (Proc.devRef .tc main_arg7) by unfold opsD; after_results_simp).trans <|
  (show W6 m d (Proc.devRef .tc main_arg7) = W5 m d (Proc.devRef .tc main_arg7) from (W6_of_ne m d main_arg7 (by decide))).trans <|
  (show StableHlo.after opsC (W4 m d) (Proc.devRef .tc main_arg7) = W4 m d (Proc.devRef .tc main_arg7) by unfold opsC; after_results_simp).trans <|
  (show W4 m d (Proc.devRef .tc main_arg7) = W3 m d (Proc.devRef .tc main_arg7) from (Function.update_of_ne (by decide) _ _).trans (Function.update_of_ne (by decide) _ _)).trans <|
  (show StableHlo.after opsB (W2 m d) (Proc.devRef .tc main_arg7) = W2 m d (Proc.devRef .tc main_arg7) by unfold opsB; after_results_simp).trans <|
  (show W2 m d (Proc.devRef .tc main_arg7) = W1 m d (Proc.devRef .tc main_arg7) from (W2_of_ne m d main_arg7 (by decide))).trans <|
  (show StableHlo.after opsA (W0 m d) (Proc.devRef .tc main_arg7) = W0 m d (Proc.devRef .tc main_arg7) by unfold opsA; after_results_simp)

/-- The result array at the return: the scores of the 320 000 edges. -/
def out13 (d : Dev nD) : Buf (Elt F) ((d, Proc.devRef .tc main_v13) : Loc nD τ sig) := W7 m d (Proc.devRef .tc main_v13)

end Cert.Proof.KI

end
-- ==== Proof.KIMainVals.lean ====
/-
  The contents each pipelined call finds at its operand windows, and the result array at the return, read back to the
  launch memory: the first call's operands are four argument arrays as launched and the first bias as a row; the second
  call's are the two gathered arrays, the second weight column as launched and the second bias as a 1 × 1 array; the
  result is the second call's result array without its padding rows.
-/
import proofs.«211135_g34514357191071_cont_8to1_b_641_23_alg».proof.Proof.KIMainPre
import proofs.«211135_g34514357191071_cont_8to1_b_641_23_alg».proof.Proof.KIMainFin

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo

variable (m : (ℓ : Loc nD τ sig) → Buf (Elt F) ℓ)

/-! ## The first call's operands -/

theorem V1_op0 (d : Dev nD) : V1 m d (Pipeline.arrRef spec0 0) = m (d, Proc.devRef .tc main_arg0) := by
  show StableHlo.after opsA (W0 m d) (Proc.devRef .tc main_arg0) = _
  unfold opsA; after_results_simp
theorem V1_op1 (d : Dev nD) : V1 m d (Pipeline.arrRef spec0 1) = m (d, Proc.devRef .tc main_arg2) := by
  show StableHlo.after opsA (W0 m d) (Proc.devRef .tc main_arg2) = _
  unfold opsA; after_results_simp
theorem V1_op2 (d : Dev nD) : V1 m d (Pipeline.arrRef spec0 2) = m (d, Proc.devRef .tc main_arg1) := by
  show StableHlo.after opsA (W0 m d) (Proc.devRef .tc main_arg1) = _
  unfold opsA; after_results_simp
theorem V1_op3 (d : Dev nD) : V1 m d (Pipeline.arrRef spec0 3) = m (d, Proc.devRef .tc main_arg4) := by
  show StableHlo.after opsA (W0 m d) (Proc.devRef .tc main_arg4) = _
  unfold opsA; after_results_simp
theorem V1_op4 (d : Dev nD) : V1 m d (Pipeline.arrRef spec0 4) = shapeCast S1x128 (m (d, Proc.devRef .tc main_arg5)) shapeCasts_S128_S1x128 := by
  show StableHlo.after opsA (W0 m d) (Proc.devRef .tc main_v0) = _
  unfold opsA; after_results_simp
  rfl

/-! ## The second call's operands -/

theorem W4_arg6 (d : Dev nD) : W4 m d (Proc.devRef .tc main_arg6) = m (d, Proc.devRef .tc main_arg6) :=
  (show W4 m d (Proc.devRef .tc main_arg6) = W3 m d (Proc.devRef .tc main_arg6) from (Function.update_of_ne (by decide) _ _).trans (Function.update_of_ne (by decide) _ _)).trans <| (show StableHlo.after opsB (W2 m d) (Proc.devRef .tc main_arg6) = W2 m d (Proc.devRef .tc main_arg6) by unfold opsB; after_results_simp).trans <| (show W2 m d (Proc.devRef .tc main_arg6) = W1 m d (Proc.devRef .tc main_arg6) from W2_of_ne m d main_arg6 (by decide)).trans <| (show StableHlo.after opsA (W0 m d) (Proc.devRef .tc main_arg6) = W0 m d (Proc.devRef .tc main_arg6) by unfold opsA; after_results_simp)
theorem W4_arg7 (d : Dev nD) : W4 m d (Proc.devRef .tc main_arg7) = m (d, Proc.devRef .tc main_arg7) :=
  (show W4 m d (Proc.devRef .tc main_arg7) = W3 m d (Proc.devRef .tc main_arg7) from (Function.update_of_ne (by decide) _ _).trans (Function.update_of_ne (by decide) _ _)).trans <| (show StableHlo.after opsB (W2 m d) (Proc.devRef .tc main_arg7) = W2 m d (Proc.devRef .tc main_arg7) by unfold opsB; after_results_simp).trans <| (show W2 m d (Proc.devRef .tc main_arg7) = W1 m d (Proc.devRef .tc main_arg7) from W2_of_ne m d main_arg7 (by decide)).trans <| (show StableHlo.after opsA (W0 m d) (Proc.devRef .tc main_arg7) = W0 m d (Proc.devRef .tc main_arg7) by unfold opsA; after_results_simp)

theorem V5_op0 (d : Dev nD) : V5 m d (Pipeline.arrRef spec2 0) = GAof (cv m) d := by
  show StableHlo.after opsC (W4 m d) ga' = _
  unfold opsC; after_results_simp
  exact W4_ga m d
theorem V5_op1 (d : Dev nD) : V5 m d (Pipeline.arrRef spec2 1) = GBof (cv m) d := by
  show StableHlo.after opsC (W4 m d) gb' = _
  unfold opsC; after_results_simp
  exact W4_gb m d
theorem V5_op2 (d : Dev nD) : V5 m d (Pipeline.arrRef spec2 2) = m (d, Proc.devRef .tc main_arg6) := by
  show StableHlo.after opsC (W4 m d) (Proc.devRef .tc main_arg6) = _
  unfold opsC; after_results_simp
  exact W4_arg6 m d
theorem V5_op3 (d : Dev nD) : V5 m d (Pipeline.arrRef spec2 3) = shapeCast S1x1 (m (d, Proc.devRef .tc main_arg7)) shapeCasts_S1_S1x1 := by
  show StableHlo.after opsC (W4 m d) (Proc.devRef .tc main_v11) = _
  unfold opsC; after_results_simp
  rw [W4_arg7]
  rfl

/-! ## The result at the return -/

theorem out13_eq (d : Dev nD) : out13 m d
    = extractStridedSlice S320000x1 ![0, 0] ((dat2 (V5 m) (Ow (F := F) 1) (Bw (F := F) 1) d).arrAt 4 cfg2.N) slices_S323584x1_S320000x1_0_0 := by
  show StableHlo.after opsD (W6 m d) (Proc.devRef .tc main_v13) = _
  unfold opsD; after_results_simp
  rw [show W6 m d (Proc.devRef .tc main_v12) = (dat2 (V5 m) (Ow (F := F) 1) (Bw (F := F) 1) d).arrAt 4 cfg2.N from W6_arr m d 4]

end Cert.Proof.KI

end
-- ==== Proof.KIMainCv.lean ====
/-
  The gather call's four operands, read back to the launch memory and the first pipelined call's results.

  The two node tables are the first call's two result arrays as its write-backs leave them: none of the ten padding
  operations writes them. Each padded index list is one row of the launch memory's edge list, cut out, flattened, and
  followed by 3584 zeros: the operations that build it read nothing the first call or the bias reshape wrote.
-/
import proofs.«211135_g34514357191071_cont_8to1_b_641_23_alg».proof.Proof.KIMainRegions

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo

variable (m : (ℓ : Loc nD τ sig) → Buf (Elt F) ℓ)

/-- Row 0 (the sources) of an edge list, flattened and padded with 3584 zeros. -/
def padRow0 (x : (⟨S2x320000, .i32⟩ : BufTy).Contents (Elt F)) : (⟨S323584, .i32⟩ : BufTy).Contents (Elt F) :=
  concatenate S323584 0 [⟨S320000, fun i => shapeCast S320000 (extractStridedSlice S1x320000 ![0, 0] x slices_S2x320000_S1x320000_0_0) shapeCasts_S1x320000_S320000 i⟩,
    ⟨S3584, broadcastInDim S3584 ![] bcast_S_S3584 (constantI S_ 32 0#32)⟩] concatenates_S320000_S3584_S323584_d0
/-- Row 1 (the destinations), the same way. -/
def padRow1 (x : (⟨S2x320000, .i32⟩ : BufTy).Contents (Elt F)) : (⟨S323584, .i32⟩ : BufTy).Contents (Elt F) :=
  concatenate S323584 0 [⟨S320000, fun i => shapeCast S320000 (extractStridedSlice S1x320000 ![1, 0] x slices_S2x320000_S1x320000_1_0) shapeCasts_S1x320000_S320000 i⟩,
    ⟨S3584, broadcastInDim S3584 ![] bcast_S_S3584 (constantI S_ 32 0#32)⟩] concatenates_S320000_S3584_S323584_d0

/-- The edge list is as launched when the padding operations read it. -/
theorem W2_arg3 (d : Dev nD) : W2 m d (Proc.devRef .tc main_arg3) = m (d, Proc.devRef .tc main_arg3) := by
  rw [W2_of_ne m d main_arg3 (by decide)]
  show StableHlo.after opsA (W0 m d) (Proc.devRef .tc main_arg3) = _
  unfold opsA
  after_results_simp

theorem cv_A (d : Dev nD) : (cv m d).A = (dat0 (V1 m) (Ow (F := F) 0) (Bw (F := F) 0) d).arrAt 5 cfg0.N := by
  show StableHlo.after opsB (W2 m d) a' = _
  unfold opsB
  after_results_simp
  exact W2_arr m d 5
theorem cv_B (d : Dev nD) : (cv m d).B = (dat0 (V1 m) (Ow (F := F) 0) (Bw (F := F) 0) d).arrAt 6 cfg0.N := by
  show StableHlo.after opsB (W2 m d) b' = _
  unfold opsB
  after_results_simp
  exact W2_arr m d 6
theorem cv_s (d : Dev nD) : (cv m d).s = padRow0 (m (d, Proc.devRef .tc main_arg3)) := by
  show StableHlo.after opsB (W2 m d) s' = _
  unfold opsB
  after_results_simp
  unfold padRow0
  refine congrArg₂ (fun a b => concatenate S323584 0 [⟨S320000, a⟩, ⟨S3584, b⟩] concatenates_S320000_S3584_S323584_d0) ?_ ?_
  · after_results_simp
    rw [W2_arg3]
    rfl
  · after_results_simp
theorem cv_t (d : Dev nD) : (cv m d).t = padRow1 (m (d, Proc.devRef .tc main_arg3)) := by
  show StableHlo.after opsB (W2 m d) t' = _
  unfold opsB
  after_results_simp
  unfold padRow1
  refine congrArg₂ (fun a b => concatenate S323584 0 [⟨S320000, a⟩, ⟨S3584, b⟩] concatenates_S320000_S3584_S323584_d0) ?_ ?_
  · after_results_simp
    rw [W2_arg3]
    rfl
  · after_results_simp

end Cert.Proof.KI

end
-- ==== Proof.PreDomain.lean ====
/-
  What the input domain says, entry by entry.

  The precondition is one bit: the conjunction, over the seven float arrays, of "every |x| is below +∞", and, over
  the edge list, of "every word is at least 0 and at most 9999, read signed". Here the bit being 1 is read back into
  those statements: for every instance of the float operations the comparisons entry by entry; at the ideal values
  "|x| < +∞" is "x is a real number"; and an index word in the signed range [0, 9999] has unsigned value below 10000.
-/
import proofs.«211135_g34514357191071_cont_8to1_b_641_23_alg».proof.Pre_input_domain
import Idealize.ShloMosaic.Lib.ReduceAll
import Idealize.ShloMosaic.Lib.ValueIdx
import Idealize.ShloMosaic.PureOps.Ideal

noncomputable section

namespace Cert.PreDomain

open Idealize.ShloMosaic Cert.Pre_input_domain

/-- A rank-0 array has one index. -/
instance : Subsingleton S_.Idx := ⟨fun a b => funext fun d => d.elim0⟩

variable [Cert.Pre_input_domain.Facts]

section AnyInstance

variable {F : FTy → Type} [FloatOps F]

/-- "Every entry of `x` has absolute value below the word 0x7F800000", as the predicate's comparison states it. -/
def AbsBelowInf {s : Shape} (x : FVec F s .f32) : Prop :=
  ∀ i, FloatOps.cmpf .olt (FloatOps.hostAbsf (x i)) (FloatOps.ofBits .f32 0x7F800000#32 : F .f32) = 1#1

/-- "Every index word is in [0, 9999], read signed." -/
def InRange (e : IVec S2x320000 32) : Prop := ∀ i, 0 ≤ (e i).toInt ∧ (e i).toInt ≤ 9999

/-- The predicate's bit is 1 only if each of its eight conjuncts holds at every entry. For any float instance. -/
theorem parts (a0 a1 a2 : FVec F S10000x128 .f32) (a3 : IVec S2x320000 32) (a4 : FVec F S128x128 .f32)
    (a5 : FVec F S128 .f32) (a6 : FVec F S128x1 .f32) (a7 : FVec F S1 .f32)
    (h : fn a0 a1 a2 a3 a4 a5 a6 a7 = fun _ => 1#1) :
    AbsBelowInf a0 ∧ AbsBelowInf a1 ∧ AbsBelowInf a2 ∧ InRange a3 ∧ AbsBelowInf a4 ∧ AbsBelowInf a5 ∧ AbsBelowInf a6
      ∧ AbsBelowInf a7 := by
  have h0 := congrFun h ValueIdx.ix0
  dsimp only [fn, fn_part1, fn_part2] at h0
  obtain ⟨h0, h3⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h2⟩ := IntOp.andi_eq_one.1 h0
  obtain ⟨h0, h1⟩ := IntOp.andi_eq_one.1 h0
  refine ⟨fun i => Host.reduce_andi_all _ _ _ _ _ h0 i, fun i => Host.reduce_andi_all _ _ _ _ _ h1 i,
    fun i => Host.reduce_andi_all _ _ _ _ _ h2 i, fun i => ?_, fun i => Host.reduce_andi_all _ _ _ _ _ h4 i,
    fun i => Host.reduce_andi_all _ _ _ _ _ h5 i, fun i => Host.reduce_andi_all _ _ _ _ _ h6 i,
    fun i => Host.reduce_andi_all _ _ _ _ _ h7 i⟩
  obtain ⟨hge, hle⟩ := IntOp.andi_eq_one.1 (Host.reduce_andi_all _ _ _ _ _ h3 i)
  have hge' : (0#32 : BitVec 32).toInt ≤ (a3 i).toInt := IntOp.cmpi_sge.1 hge
  have hle' : (a3 i).toInt ≤ (9999#32 : BitVec 32).toInt := IntOp.cmpi_sle.1 hle
  rw [show (0#32 : BitVec 32).toInt = 0 from by decide] at hge'
  rw [show (9999#32 : BitVec 32).toInt = 9999 from by decide] at hle'
  exact ⟨hge', hle'⟩

/-- An index word in the signed range [0, 9999] has unsigned value below 10000: it names a row of a 10000-row table. -/
theorem toNat_lt_of_inRange {v : BitVec 32} (h : 0 ≤ v.toInt ∧ v.toInt ≤ 9999) : v.toNat < 10000 := by
  have hc := BitVec.toInt_eq_toNat_cond v
  have hl := v.isLt
  split at hc <;> omega

/-- … and read signed it is that value. -/
theorem toInt_toNat_of_inRange {v : BitVec 32} (h : 0 ≤ v.toInt ∧ v.toInt ≤ 9999) : v.toInt.toNat = v.toNat := by
  have hc := BitVec.toInt_eq_toNat_cond v
  have hl := v.isLt
  split at hc <;> omega

end AnyInstance

/-! ## At the ideal values: below +∞ in absolute value is "a real number" -/

/-- The word 0x7F800000 denotes +∞. -/
theorem ofBits_inf : Ideal.ofBits .f32 0x7F800000#32 = ⊤ := by simp [Ideal.ofBits, Ideal.ieee]

/-- An extended real whose absolute value is below +∞ is a real number. -/
theorem real_of_absBelowInf (x : EReal)
    (h : FloatOps.cmpf (F := Ideal) (φ := .f32) .olt (FloatOps.hostAbsf x) (FloatOps.ofBits .f32 0x7F800000#32) = 1#1) :
    ∃ r : ℝ, x = r := by
  change Ideal.cmp .olt (max x (-x)) (Ideal.ofBits .f32 0x7F800000#32) = 1#1 at h
  rw [ofBits_inf] at h
  induction x using EReal.rec with
  | bot => exact absurd h (by simp [Ideal.cmp])
  | top => exact absurd h (by simp [Ideal.cmp])
  | coe r => exact ⟨r, rfl⟩

/-- So an array the predicate admits has real entries. -/
theorem allReal_of_absBelowInf {s : Shape} (x : FVec Ideal s .f32) (h : AbsBelowInf (F := Ideal) x) (i : s.Idx) :
    ∃ r : ℝ, x i = r :=
  real_of_absBelowInf (x i) (h i)

/-- What the input domain says of the eight argument arrays at the ideal values: the seven float arrays (in argument
    order: the three node tables, then the two weight matrices' and biases' four) have real entries, and the edge list's
    words are in [0, 9999]. -/
structure RealAndRange (a0 a1 a2 : FVec Ideal S10000x128 .f32) (a3 : IVec S2x320000 32) (a4 : FVec Ideal S128x128 .f32)
    (a5 : FVec Ideal S128 .f32) (a6 : FVec Ideal S128x1 .f32) (a7 : FVec Ideal S1 .f32) : Prop where
  real0 : ∀ i, ∃ r : ℝ, a0 i = r
  real1 : ∀ i, ∃ r : ℝ, a1 i = r
  real2 : ∀ i, ∃ r : ℝ, a2 i = r
  range3 : InRange a3
  real4 : ∀ i, ∃ r : ℝ, a4 i = r
  real5 : ∀ i, ∃ r : ℝ, a5 i = r
  real6 : ∀ i, ∃ r : ℝ, a6 i = r
  real7 : ∀ i, ∃ r : ℝ, a7 i = r

/-- THE READING at the ideal values: where the input domain's bit is 1, each of the seven float arrays has real entries
    and each index word is in [0, 9999]. -/
theorem real_and_range (a0 a1 a2 : FVec Ideal S10000x128 .f32) (a3 : IVec S2x320000 32) (a4 : FVec Ideal S128x128 .f32)
    (a5 : FVec Ideal S128 .f32) (a6 : FVec Ideal S128x1 .f32) (a7 : FVec Ideal S1 .f32)
    (h : fn (F := Ideal) a0 a1 a2 a3 a4 a5 a6 a7 = fun _ => 1#1) : RealAndRange a0 a1 a2 a3 a4 a5 a6 a7 := by
  obtain ⟨h0, h1, h2, h3, h4, h5, h6, h7⟩ := parts a0 a1 a2 a3 a4 a5 a6 a7 h
  exact ⟨allReal_of_absBelowInf a0 h0, allReal_of_absBelowInf a1 h1, allReal_of_absBelowInf a2 h2, h3,
    allReal_of_absBelowInf a4 h4, allReal_of_absBelowInf a5 h5, allReal_of_absBelowInf a6 h6, allReal_of_absBelowInf a7 h7⟩

/-- The integer part alone, for any float instance (the word-level program's precondition gives it too). -/
theorem range (F : FTy → Type) [FloatOps F] (a0 a1 a2 : FVec F S10000x128 .f32) (a3 : IVec S2x320000 32)
    (a4 : FVec F S128x128 .f32) (a5 : FVec F S128 .f32) (a6 : FVec F S128x1 .f32) (a7 : FVec F S1 .f32)
    (h : fn (F := F) a0 a1 a2 a3 a4 a5 a6 a7 = fun _ => 1#1) : InRange a3 :=
  (parts a0 a1 a2 a3 a4 a5 a6 a7 h).2.2.2.1

end Cert.PreDomain

end
-- ==== Proof.PreProgs.lean ====
/-
  The input domain read back at each program's own argument buffers: at the ideal values (the idealized kernel's and the
  idealized reference's launch memories) every float argument has real entries and every edge word is in [0, 9999]; at
  the word level (the kernel as printed) the edge words' range alone.
-/
import proofs.«211135_g34514357191071_cont_8to1_b_641_23_alg».proof.Defs
import proofs.«211135_g34514357191071_cont_8to1_b_641_23_alg».proof.Proof.PreDomain

noncomputable section

namespace Cert.PreDomain

open Idealize.ShloMosaic Idealize.SL.Sem

variable [Cert.Pre_input_domain.Facts]

/-- The idealized reference's launch memory, where its precondition holds. -/
theorem of_pre_reference (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    RealAndRange (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7)) :=
  real_and_range _ _ _ _ _ _ _ _ (h c)

/-- The idealized kernel's launch memory, where its precondition holds. -/
theorem of_pre_kernelIdeal (m : (ℓ : Loc Cert.KernelIdeal.nD Cert.KernelIdeal.τ Cert.KernelIdeal.sig) → Buf (Elt Ideal) ℓ)
    (h : Cert.Pre_KernelIdeal m) (c : Dev Cert.KernelIdeal.nD) :
    RealAndRange (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) :=
  real_and_range _ _ _ _ _ _ _ _ (h c)

/-- The kernel as printed (word level): the edge words' range. -/
theorem range_of_pre_kernel (m : (ℓ : Loc Cert.Kernel.nD Cert.Kernel.τ Cert.Kernel.sig) → Buf (Elt Bits) ℓ)
    (h : Cert.Pre_Kernel m) (c : Dev Cert.Kernel.nD) :
    InRange (m ((c.tc : Thread Cert.Kernel.nD Cert.Kernel.τ).loc Cert.Kernel.main_arg3)) :=
  range Bits _ _ _ _ _ _ _ _ (h c)

/-- The idealized kernel: the edge words' range (a projection of `of_pre_kernelIdeal`). -/
theorem range_of_pre_kernelIdeal (m : (ℓ : Loc Cert.KernelIdeal.nD Cert.KernelIdeal.τ Cert.KernelIdeal.sig) → Buf (Elt Ideal) ℓ)
    (h : Cert.Pre_KernelIdeal m) (c : Dev Cert.KernelIdeal.nD) :
    InRange (m ((c.tc : Thread Cert.KernelIdeal.nD Cert.KernelIdeal.τ).loc Cert.KernelIdeal.main_arg3)) :=
  (of_pre_kernelIdeal m h c).range3

end Cert.PreDomain

end
-- ==== Proof.SpecScore.lean ====
/-
  The edge score as a formula, in the two arrangements the two programs compute it, and the law between them.

  For an edge with source row `s` and destination row `d` of the node tables, both programs compute
      b2 + Σ_j max(h_j, 0) · W2[j]           (a hidden layer of width 128, a rectifier, a linear read-out)
  and differ in how the hidden value h_j is arranged:
    * the reference forms the row  (K[s] − Q[d]) + P[s]  first and multiplies it into W1:
          h_j = (Σ_k ((K[s,k] − Q[d,k]) + P[s,k]) · W1[k,j]) + b1[j];
    * the kernel multiplies per NODE, before the edges are known, and subtracts per edge:
          h_j = ((Σ_k (K[s,k] + P[s,k]) · W1[k,j]) + b1[j]) − (Σ_k Q[d,k] · W1[k,j]).
  The two agree because multiplication by W1[k,j] distributes over the row's sum and difference, and a finite sum
  splits over + and −. On the extended reals that needs every entry to be a real number (∞ − ∞ and 0 · ∞ break
  distributivity), which is what the law below assumes, and all it assumes.
-/
import Idealize.ShloMosaic.PureOps.Ideal
import Idealize.ShloMosaic.Lib.ValueIdx
import Mathlib

noncomputable section

open scoped BigOperators

namespace Cert.EdgeScore

open Idealize.ShloMosaic Idealize.ShloMosaic.ValueIdx

/-! ## Sums of real numbers inside the extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The law, over any finite index types -/

/-- The hidden value, per-node arrangement equals per-edge arrangement, on real entries. -/
theorem hidden_eq {κ : Type*} [Fintype κ] (a p q w : κ → ℝ) (b : ℝ) :
    (((∑ k, ((a k : EReal) + (p k : EReal)) * (w k : EReal)) + (b : EReal)) - (∑ k, (q k : EReal) * (w k : EReal)) : EReal)
      = (∑ k, (((a k : EReal) - (q k : EReal)) + (p k : EReal)) * (w k : EReal)) + (b : EReal) := by
  have h1 : (∑ k, ((a k : EReal) + (p k : EReal)) * (w k : EReal)) = ((∑ k, (a k + p k) * w k : ℝ) : EReal) := by
    rw [coe_sum]; exact Finset.sum_congr rfl fun k _ => by rw [EReal.coe_mul, EReal.coe_add]
  have h2 : (∑ k, (q k : EReal) * (w k : EReal)) = ((∑ k, q k * w k : ℝ) : EReal) := by
    rw [coe_sum]; exact Finset.sum_congr rfl fun k _ => by rw [EReal.coe_mul]
  have h3 : (∑ k, (((a k : EReal) - (q k : EReal)) + (p k : EReal)) * (w k : EReal)) = ((∑ k, ((a k - q k) + p k) * w k : ℝ) : EReal) := by
    rw [coe_sum]; exact Finset.sum_congr rfl fun k _ => by rw [EReal.coe_mul, EReal.coe_add, EReal.coe_sub]
  rw [h1, h2, h3, ← EReal.coe_add, ← EReal.coe_sub, ← EReal.coe_add]
  congr 1
  have : ∀ k, ((a k - q k) + p k) * w k = (a k + p k) * w k - q k * w k := fun k => by ring
  simp only [this, Finset.sum_sub_distrib]
  ring

/-! ## The two formulas over the programs' literal shapes -/

/-- A node table: 10000 rows of 128 features. -/
abbrev Tab := (⟨2, ![10000, 128]⟩ : Shape).Idx → EReal
/-- The hidden layer's weights, 128 × 128. -/
abbrev Mat := (⟨2, ![128, 128]⟩ : Shape).Idx → EReal
/-- The hidden layer's bias, 128. -/
abbrev Bias := (⟨1, ![128]⟩ : Shape).Idx → EReal
/-- The read-out column, 128 × 1. -/
abbrev Col := (⟨2, ![128, 1]⟩ : Shape).Idx → EReal
/-- The read-out bias, one number. -/
abbrev One := (⟨1, ![1]⟩ : Shape).Idx → EReal

/-- The row number an index word names: the word read as a signed integer, negative values at 0, clamped to the last
    row (how a gather reads a start index). For a word in `[0, 9999]` this is the word's value (`rowOf_val`). -/
def rowOf (v : BitVec 32) : Fin 10000 := ⟨min v.toInt.toNat 9999, by omega⟩

theorem rowOf_val (v : BitVec 32) (h : v.toNat < 10000) : (rowOf v).val = v.toNat := by
  have h2 : v.toInt = (v.toNat : Int) := by
    rw [BitVec.toInt_eq_toNat_cond]; split
    · rfl
    · omega
  show min v.toInt.toNat 9999 = v.toNat
  rw [h2]; simp only [Int.toNat_natCast]; omega

/-- The reference's hidden value `j` for source row `s` and destination row `d`. -/
def refHidden (K Q P : Tab) (W1 : Mat) (b1 : Bias) (s d : Fin 10000) (j : Fin 128) : EReal :=
  (∑ k : Fin 128, ((K (ix2 s k) - Q (ix2 d k)) + P (ix2 s k)) * W1 (ix2 k j)) + b1 (ix1 j)

/-- The reference's score of an edge from row `s` to row `d`. -/
def refScore (K Q P : Tab) (W1 : Mat) (b1 : Bias) (W2 : Col) (b2 : One) (s d : Fin 10000) : EReal :=
  (∑ j : Fin 128, max (refHidden K Q P W1 b1 s d j) 0 * W2 (ix2 j 0)) + b2 (ix1 0)

/-- The kernel's first node table: row `s` of (K + P)·W1 + b1. -/
def tableA (K P : Tab) (W1 : Mat) (b1 : Bias) (s : Fin 10000) (j : Fin 128) : EReal :=
  (∑ k : Fin 128, (K (ix2 s k) + P (ix2 s k)) * W1 (ix2 k j)) + b1 (ix1 j)

/-- The kernel's second node table: row `d` of Q·W1. -/
def tableB (Q : Tab) (W1 : Mat) (d : Fin 10000) (j : Fin 128) : EReal :=
  ∑ k : Fin 128, Q (ix2 d k) * W1 (ix2 k j)

/-- The kernel's hidden value `j`: the gathered rows' difference. -/
def kernelHidden (K Q P : Tab) (W1 : Mat) (b1 : Bias) (s d : Fin 10000) (j : Fin 128) : EReal :=
  tableA K P W1 b1 s j - tableB Q W1 d j

/-- The kernel's score of an edge from row `s` to row `d`. -/
def kernelScore (K Q P : Tab) (W1 : Mat) (b1 : Bias) (W2 : Col) (b2 : One) (s d : Fin 10000) : EReal :=
  (∑ j : Fin 128, max (kernelHidden K Q P W1 b1 s d j) 0 * W2 (ix2 j 0)) + b2 (ix1 0)

/-- An array all of whose entries are real numbers. -/
def AllReal {ι : Type*} (x : ι → EReal) : Prop := ∀ i, ∃ r : ℝ, x i = r

/-- On real entries the two hidden values agree … -/
theorem kernelHidden_eq_refHidden (K Q P : Tab) (W1 : Mat) (b1 : Bias)
    (hK : AllReal K) (hQ : AllReal Q) (hP : AllReal P) (hW1 : AllReal W1) (hb1 : AllReal b1) (s d : Fin 10000) (j : Fin 128) :
    kernelHidden K Q P W1 b1 s d j = refHidden K Q P W1 b1 s d j := by
  choose K' hK' using hK
  choose Q' hQ' using hQ
  choose P' hP' using hP
  choose W' hW' using hW1
  choose b' hb' using hb1
  unfold kernelHidden tableA tableB refHidden
  simp only [hK', hQ', hP', hW', hb']
  exact hidden_eq (fun k => K' (ix2 s k)) (fun k => P' (ix2 s k)) (fun k => Q' (ix2 d k)) (fun k => W' (ix2 k j)) (b' (ix1 j))

/-- … and so do the two scores: THE LAW joining the kernel's arrangement to the reference's. Only the five arrays under
    the first matrix product need real entries; the read-out is the same expression on both sides. -/
theorem kernelScore_eq_refScore (K Q P : Tab) (W1 : Mat) (b1 : Bias) (W2 : Col) (b2 : One)
    (hK : AllReal K) (hQ : AllReal Q) (hP : AllReal P) (hW1 : AllReal W1) (hb1 : AllReal b1) (s d : Fin 10000) :
    kernelScore K Q P W1 b1 W2 b2 s d = refScore K Q P W1 b1 W2 b2 s d := by
  unfold kernelScore refScore
  simp only [kernelHidden_eq_refHidden K Q P W1 b1 hK hQ hP hW1 hb1 s d]

/-! ## The whole result arrays -/

/-- The edge list: two rows of 320000 index words (row 0 the sources, row 1 the destinations). -/
abbrev Edges := (⟨2, ![2, 320000]⟩ : Shape).Idx → BitVec 32
/-- A result: one score per edge, as a column. -/
abbrev Scores := (⟨2, ![320000, 1]⟩ : Shape).Idx → EReal

/-- The reference's result array: at edge `e` its score for the rows `edge_index[0, e]`, `edge_index[1, e]`. -/
def refResult (K Q P : Tab) (E : Edges) (W1 : Mat) (b1 : Bias) (W2 : Col) (b2 : One) : Scores :=
  fun i => refScore K Q P W1 b1 W2 b2 (rowOf (E (ix2 (0 : Fin 2) (i 0)))) (rowOf (E (ix2 (1 : Fin 2) (i 0))))

/-- The kernel's result array, likewise. -/
def kernelResult (K Q P : Tab) (E : Edges) (W1 : Mat) (b1 : Bias) (W2 : Col) (b2 : One) : Scores :=
  fun i => kernelScore K Q P W1 b1 W2 b2 (rowOf (E (ix2 (0 : Fin 2) (i 0)))) (rowOf (E (ix2 (1 : Fin 2) (i 0))))

/-- The law, array by array. -/
theorem kernelResult_eq_refResult (K Q P : Tab) (E : Edges) (W1 : Mat) (b1 : Bias) (W2 : Col) (b2 : One)
    (hK : AllReal K) (hQ : AllReal Q) (hP : AllReal P) (hW1 : AllReal W1) (hb1 : AllReal b1) :
    kernelResult K Q P E W1 b1 W2 b2 = refResult K Q P E W1 b1 W2 b2 :=
  funext fun _ => kernelScore_eq_refScore K Q P W1 b1 W2 b2 hK hQ hP hW1 hb1 _ _

end Cert.EdgeScore

end
-- ==== Proof.PrePadIdx.lean ====
/-
  The gather call's two index lists name rows of the tables.

  Each list is one row of the edge list (320000 words), flattened, followed by 3584 zeros. Read at a position below
  320000 it is the edge list's word there; at or past 320000 it is the zero word. So where every edge word is in
  [0, 9999] (the input domain), every word of either list has unsigned value below 10000: each names a row of a
  10000-row table. And on such a word, the row read as "the unsigned value modulo 10000" and the row read as "the signed
  value clamped into range" are the same row.
-/
import proofs.«211135_g34514357191071_cont_8to1_b_641_23_alg».proof.Proof.KIMainCv
import proofs.«211135_g34514357191071_cont_8to1_b_641_23_alg».proof.Proof.PreProgs
import proofs.«211135_g34514357191071_cont_8to1_b_641_23_alg».proof.Proof.Gen.Pre_input_domain
import proofs.«211135_g34514357191071_cont_8to1_b_641_23_alg».proof.Proof.SpecScore
import Idealize.ShloMosaic.Lib.Pipeline.Value
import Idealize.ShloMosaic.Lib.ValueLayout

noncomputable section

namespace Cert.PrePad

open Cert.KernelIdeal Cert.KernelIdeal.Gen Cert.Proof.KI
open Idealize.ShloMosaic Idealize.ShloMosaic.ValueIdx Idealize.SL.Sem

variable {F : FTy → Type} [FloatOps F]

/-! ## A padded row read at a position -/

/-- The padded source list below 320000: the edge list's row 0 there. -/
theorem padRow0_lo (E : (⟨S2x320000, .i32⟩ : BufTy).Contents (Elt F)) (x : S323584.Idx) (h : (x 0).val < 320000) :
    padRow0 (F := F) E x = E (ix2 (0 : Fin 2) (⟨(x 0).val, h⟩ : Fin 320000)) := by
  unfold padRow0
  refine (concatenate_pair_apply_left (s₁ := S320000) (s₂ := S3584) (t := S323584) (0 : Fin 1) _ _ _ x rfl (ix1 (⟨(x 0).val, h⟩ : Fin 320000))
    (fun b => by match b with | ⟨0, _⟩ => rfl)).trans ?_
  show shapeCast S320000 (extractStridedSlice S1x320000 ![0, 0] E _) _ (ix1 (⟨(x 0).val, h⟩ : Fin 320000)) = _
  rw [shapeCast_1a_a_apply]
  exact slice2_axis0_apply 0 E _ (0 : Fin 1) _ (0 : Fin 2) rfl

/-- The padded source list from 320000 on: zero. -/
theorem padRow0_hi (E : (⟨S2x320000, .i32⟩ : BufTy).Contents (Elt F)) (x : S323584.Idx) (h : 320000 ≤ (x 0).val) :
    padRow0 (F := F) E x = 0#32 := by
  have hx : (x 0).val < 323584 := (x 0).isLt
  unfold padRow0
  exact (concatenate_pair_apply_right (s₁ := S320000) (s₂ := S3584) (t := S323584) (0 : Fin 1) _ _ _ x rfl rfl (ix1 (⟨(x 0).val - 320000, by omega⟩ : Fin 3584))
    (fun b hb => absurd (Subsingleton.elim _ _) hb) (by show (x 0).val - 320000 + 320000 = (x 0).val; omega)).trans rfl

/-- The padded destination list below 320000: the edge list's row 1 there. -/
theorem padRow1_lo (E : (⟨S2x320000, .i32⟩ : BufTy).Contents (Elt F)) (x : S323584.Idx) (h : (x 0).val < 320000) :
    padRow1 (F := F) E x = E (ix2 (1 : Fin 2) (⟨(x 0).val, h⟩ : Fin 320000)) := by
  unfold padRow1
  refine (concatenate_pair_apply_left (s₁ := S320000) (s₂ := S3584) (t := S323584) (0 : Fin 1) _ _ _ x rfl (ix1 (⟨(x 0).val, h⟩ : Fin 320000))
    (fun b => by match b with | ⟨0, _⟩ => rfl)).trans ?_
  show shapeCast S320000 (extractStridedSlice S1x320000 ![1, 0] E _) _ (ix1 (⟨(x 0).val, h⟩ : Fin 320000)) = _
  rw [shapeCast_1a_a_apply]
  exact slice2_axis0_apply 1 E _ (0 : Fin 1) _ (1 : Fin 2) rfl

/-- The padded destination list from 320000 on: zero. -/
theorem padRow1_hi (E : (⟨S2x320000, .i32⟩ : BufTy).Contents (Elt F)) (x : S323584.Idx) (h : 320000 ≤ (x 0).val) :
    padRow1 (F := F) E x = 0#32 := by
  have hx : (x 0).val < 323584 := (x 0).isLt
  unfold padRow1
  exact (concatenate_pair_apply_right (s₁ := S320000) (s₂ := S3584) (t := S323584) (0 : Fin 1) _ _ _ x rfl rfl (ix1 (⟨(x 0).val - 320000, by omega⟩ : Fin 3584))
    (fun b hb => absurd (Subsingleton.elim _ _) hb) (by show (x 0).val - 320000 + 320000 = (x 0).val; omega)).trans rfl

/-! ## Every word of a padded row names a table row -/

/-- "Every edge word is in [0, 9999], read signed." -/
def EdgesInRange (E : (⟨S2x320000, .i32⟩ : BufTy).Contents (Elt F)) : Prop := ∀ i, 0 ≤ (E i).toInt ∧ (E i).toInt ≤ 9999

theorem padRow0_lt (E : (⟨S2x320000, .i32⟩ : BufTy).Contents (Elt F)) (hE : EdgesInRange (F := F) E) (x : S323584.Idx) :
    (padRow0 (F := F) E x).toNat < 10000 := by
  by_cases h : (x 0).val < 320000
  · rw [padRow0_lo E x h]; exact Cert.PreDomain.toNat_lt_of_inRange (hE _)
  · rw [padRow0_hi E x (Nat.le_of_not_lt h)]; decide

theorem padRow1_lt (E : (⟨S2x320000, .i32⟩ : BufTy).Contents (Elt F)) (hE : EdgesInRange (F := F) E) (x : S323584.Idx) :
    (padRow1 (F := F) E x).toNat < 10000 := by
  by_cases h : (x 0).val < 320000
  · rw [padRow1_lo E x h]; exact Cert.PreDomain.toNat_lt_of_inRange (hE _)
  · rw [padRow1_hi E x (Nat.le_of_not_lt h)]; decide

/-- So where the launch memory's edge list is in range, both index operands of the gather call are. -/
theorem idxOK_of_range (m : (ℓ : Loc nD τ sig) → Buf (Elt F) ℓ)
    (hE : ∀ d : Dev nD, EdgesInRange (F := F) (m (d, Proc.devRef .tc main_arg3))) : IdxOK (cv m) := fun d x => by
  rw [cv_s, cv_t]
  exact ⟨padRow0_lt _ (hE d) x, padRow1_lt _ (hE d) x⟩

/-! ## The two readings of a row number -/

/-- On a word below 10000 the row "unsigned value modulo 10000" is the row "signed value clamped into range". -/
theorem rowIx_eq_rowOf {w : BitVec 32} (h : w.toNat < 10000) : rowIx w = Cert.EdgeScore.rowOf w :=
  Fin.ext ((rowIx_val h).trans (Cert.EdgeScore.rowOf_val w h).symm)

end Cert.PrePad

/-! ## From the idealized kernel's precondition -/

namespace Cert.PrePad

open Cert.KernelIdeal Cert.KernelIdeal.Gen Cert.Proof.KI
open Idealize.ShloMosaic Idealize.SL.Sem

/-- THE INDEX HYPOTHESIS OF THE GATHER CALL, from the idealized kernel's precondition. -/
theorem idxOK_of_pre (m : (ℓ : Loc nD τ sig) → Buf (Elt Ideal) ℓ)
    (hpre : Cert.Pre_KernelIdeal (hPre_input_domain := Cert.Pre_input_domain.Gen.facts) m) : IdxOK (cv m) :=
  idxOK_of_range m fun d => Cert.PreDomain.range_of_pre_kernelIdeal m hpre d

end Cert.PrePad

end
-- ==== Proof.KIFrames.lean ====
/-
  The kernel's run, read as the claims state it: from a launch memory of which the precondition holds, every weakly
  fair execution of the device's threads terminates, nothing faulting, and in the final memory each of the eight
  argument arrays holds what it held at launch and the result array holds the named scores. The precondition gives that every
  edge index names a node row, which is what the gather call asks; the run's post says every unscoped array of the
  TensorCore is at its contents at the return, and those contents, read at an argument, walk back to the launch memory.
-/
import proofs.«211135_g34514357191071_cont_8to1_b_641_23_alg».proof.Defs
import proofs.«211135_g34514357191071_cont_8to1_b_641_23_alg».proof.Proof.KIRun
import proofs.«211135_g34514357191071_cont_8to1_b_641_23_alg».proof.Proof.KIMainFin
import proofs.«211135_g34514357191071_cont_8to1_b_641_23_alg».proof.Proof.KIMainVals
import proofs.«211135_g34514357191071_cont_8to1_b_641_23_alg».proof.Proof.PrePadIdx

noncomputable section

namespace Cert.Proof.Frames

open Cert.KernelIdeal Cert.KernelIdeal.Gen Cert.Proof.KI
open Idealize.ShloMosaic Idealize.ShloMosaic.TcCoe Idealize.SL.Sem

/-- The idealized kernel's run with its strongest post: the result array at the named scores, the arguments unchanged. -/
theorem run_out13 (m : (ℓ : Loc Cert.KernelIdeal.nD Cert.KernelIdeal.τ Cert.KernelIdeal.sig) → Buf (Elt Ideal) ℓ) (g : Dev Cert.KernelIdeal.nD → PrngReg)
    (hpre : Cert.Pre_KernelIdeal (hPre_input_domain := Cert.Pre_input_domain.Gen.facts) m) :
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_v13) = out13 (F := Ideal) m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run _ _ _).mono (fun r h c =>
    ⟨h c _ (mem_uc main_v13 (by decide)),
      (h c _ (mem_uc main_arg0 (by decide))).trans (W7_arg0 m c),
      (h c _ (mem_uc main_arg1 (by decide))).trans (W7_arg1 m c),
      (h c _ (mem_uc main_arg2 (by decide))).trans (W7_arg2 m c),
      (h c _ (mem_uc main_arg3 (by decide))).trans (W7_arg3 m c),
      (h c _ (mem_uc main_arg4 (by decide))).trans (W7_arg4 m c),
      (h c _ (mem_uc main_arg5 (by decide))).trans (W7_arg5 m c),
      (h c _ (mem_uc main_arg6 (by decide))).trans (W7_arg6 m c),
      (h c _ (mem_uc main_arg7 (by decide))).trans (W7_arg7 m c)⟩)
    (run_main (F := Ideal) m g (Cert.PrePad.idxOK_of_pre m hpre))

/-- `Cert.frame_KernelIdeal` (Defs.lean). -/
theorem frame_kernelIdeal : Cert.frame_KernelIdeal (hKernelIdeal := Cert.KernelIdeal.Gen.facts) (hPre_input_domain := Cert.Pre_input_domain.Gen.facts) :=
  fun m g hpre => (θ_run _ _ _).mono (fun r h c => (h c).2) (run_out13 m g hpre)

end Cert.Proof.Frames

end
-- ==== Proof.KBSetup.lean ====
/-
  The shared vocabulary of the kernel's run, at any float instance.

  The program is @main on the TensorCore — two pipelined calls, one before and one after a gather — and, between them, one
  call that runs on the 2 × 16 vector subcores ("tiles") of the device's two SparseCores. This module fixes how the launch
  theorem for such a program reads it, the ghost state (the launch handshakes' rounds, the two pipelines' rounds, and the
  counters of the tiles' own copies, which need no schedule: every copy a tile starts it waits for before the next), the
  six arrays the gather call works on, and how their rows are dealt out: tile (c, s) has number 2·s + c and owns the 10112
  rows from 10112·(2·s + c) on, which it treats in 79 chunks of 128 rows; chunk k of tile (c, s) starts at row
  20224·s + 10112·c + 128·k (the printed offset function, whose closed form the generated facts module proves).

  What the call hands a tile: a read share of each node table and of each index list, and the tile's rows of the two
  gathered arrays, chunk by chunk, at whatever they hold. What comes back: the same shares, and those rows written — row e
  of the first gathered array with row src[e] of the first table, row e of the second with row dst[e] of the second table.
  A SparseCore's part of the call is the sixteen tiles' parts side by side, so that dealing a SparseCore's operands to its
  tiles is the identity and the splitting of the whole arrays happens once, on the TensorCore's side of the call.
-/
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«211135_g34514357191071_cont_8to1_b_641_23_alg».proof.Proof.Gen.Kernel
import proofs.«211135_g34514357191071_cont_8to1_b_641_23_alg».proof.Proof.Gen.Kernel.Skeleton
import proofs.«211135_g34514357191071_cont_8to1_b_641_23_alg».proof.Proof.Gen.Kernel.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the tiles' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library is the left factor; the counters are found by instance in the right. -/
abbrev EH : Emb UH (MT nD τ sig (HIx 1) (Elt F) ℕ UU ℕ) := embL
/-- The pipelines' rounds library: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The six arrays of the gather call -/

abbrev aLoc (d : Dev nD) : Loc nD τ sig := (SparseCore.T d).loc main_v1_0
abbrev bLoc (d : Dev nD) : Loc nD τ sig := (SparseCore.T d).loc main_v1_1
abbrev sLoc (d : Dev nD) : Loc nD τ sig := (SparseCore.T d).loc main_v5
abbrev tLoc (d : Dev nD) : Loc nD τ sig := (SparseCore.T d).loc main_v9
abbrev gaLoc (d : Dev nD) : Loc nD τ sig := (SparseCore.T d).loc main_v10_0
abbrev gbLoc (d : Dev nD) : Loc nD τ sig := (SparseCore.T d).loc main_v10_1

/-- The four operands' contents when the call is made: the two node tables and the two padded index lists. -/
structure CallVals (F : FTy → Type) (d : Dev nD) where
  A : Buf (Elt F) (aLoc d)
  B : Buf (Elt F) (bLoc d)
  s : Buf (Elt F) (sLoc d)
  t : Buf (Elt F) (tLoc d)

/-- Every index names a row of the tables. -/
def IdxOK (cv : (d : Dev nD) → CallVals F d) : Prop :=
  ∀ (d : Dev nD) (x : S323584.Idx), ((cv d).s x).toNat < 10000 ∧ ((cv d).t x).toNat < 10000

/-- The row an index word names (any word, so that the gathered arrays are total functions of the operands). -/
def rowIx (w : BitVec 32) : Fin 10000 := ⟨w.toNat % 10000, Nat.mod_lt _ (by decide)⟩
theorem rowIx_val {w : BitVec 32} (h : w.toNat < 10000) : (rowIx w).val = w.toNat := Nat.mod_eq_of_lt h

/-- The two gathered arrays: row e is row src[e] of the first table, row dst[e] of the second. -/
def GAof (cv : (d : Dev nD) → CallVals F d) (d : Dev nD) : Buf (Elt F) (gaLoc d) :=
  fun x : S323584x128.Idx => (cv d).A (ValueIdx.ix2 (rowIx ((cv d).s (ValueIdx.ix1 (x 0)))) (x 1))
def GBof (cv : (d : Dev nD) → CallVals F d) (d : Dev nD) : Buf (Elt F) (gbLoc d) :=
  fun x : S323584x128.Idx => (cv d).B (ValueIdx.ix2 (rowIx ((cv d).t (ValueIdx.ix1 (x 0)))) (x 1))

/-! ## Tiles, chunks, shares -/

theorem bound0 : 2 = grid1.bound 0 := rfl
theorem bound1 : 16 = grid1.bound 1 := rfl
/-- The grid point of SparseCore c's vector subcore s. -/
def pt (c : Fin 2) (s : Fin 16) : grid1.Coords :=
  fun | 0 => Fin.cast bound0 c | 1 => Fin.cast bound1 s | ⟨_ + 2, h⟩ => absurd h (Nat.not_lt.2 (Nat.le_add_left _ _))
/-- The same from the grid's own coordinate types, as the body table passes it. -/
def coordsV (c : Fin (grid1.bound 0)) (s : Fin (grid1.bound 1)) : grid1.Coords :=
  fun | 0 => c | 1 => s | ⟨_ + 2, h⟩ => absurd h (Nat.not_lt.2 (Nat.le_add_left _ _))
theorem coordsV_eq_pt (c : Fin (grid1.bound 0)) (s : Fin (grid1.bound 1)) : coordsV c s = pt (Fin.cast bound0.symm c) (Fin.cast bound1.symm s) := by
  funext a; match a with | ⟨0, _⟩ => rfl | ⟨1, _⟩ => rfl

abbrev gaV : Memref sig .scVector .hbm S323584x128 .f32 := Memref.whole main_v10_0_scv
/-- Chunk k of the tile at L: 128 whole rows of a gathered array, from the printed offset on. -/
abbrev chunkRect (L : grid1.Coords) (k : Fin k1_t1_loop.trips) : Rect S323584x128 :=
  Rect.unit (s := S323584x128) (k1_off2 L k) S128x128.size (k1_off2_inb L k)
abbrev chunkSet (L : grid1.Coords) (k : Fin k1_t1_loop.trips) : Finset S323584x128.Idx :=
  ((gaV : Memref sig .scVector .hbm S323584x128 .f32).slice (chunkRect L k) (fun _ => rfl)).view.set

/-- The read share of a table or list that goes to the tile at L: the SparseCore's token of the whole, then the tile's
    token of that. -/
def qV (L : grid1.Coords) : PosShare TreeShare :=
  Transfers.shareTok (Transfers.shareTok fullShare (grid1.bound 0) (L 0)) (grid1.bound 1) (L 1)

/-! ## What the handshakes carry -/

variable (cv : (d : Dev nD) → CallVals F d)

/-- The four operands' read shares for the tile at L. -/
def tileReads (d : Dev nD) (L : grid1.Coords) : sProp 𝕄 :=
  iprop((aLoc d ↦{qV L} (cv d).A) ∗ (bLoc d ↦{qV L} (cv d).B) ∗ (sLoc d ↦{qV L} (cv d).s) ∗ (tLoc d ↦{qV L} (cv d).t))

/-- What a tile is handed: the read shares, and its rows of the two gathered arrays chunk by chunk, at any contents. -/
def tileIn (d : Dev nD) (L : grid1.Coords) : sProp 𝕄 :=
  iprop(tileReads cv d L
    ∗ (bigSep Finset.univ fun k : Fin k1_t1_loop.trips => iprop(∃ f : Buf (Elt F) (gaLoc d), gaLoc d ↦[chunkSet L k]{fullShare} f))
    ∗ (bigSep Finset.univ fun k : Fin k1_t1_loop.trips => iprop(∃ f : Buf (Elt F) (gbLoc d), gbLoc d ↦[chunkSet L k]{fullShare} f)))

/-- What it hands back: the read shares, and its rows of the two gathered arrays written. -/
def tileOut (d : Dev nD) (L : grid1.Coords) : sProp 𝕄 :=
  iprop(tileReads cv d L
    ∗ (bigSep Finset.univ fun k : Fin k1_t1_loop.trips => gaLoc d ↦[chunkSet L k]{fullShare} GAof cv d)
    ∗ (bigSep Finset.univ fun k : Fin k1_t1_loop.trips => gbLoc d ↦[chunkSet L k]{fullShare} GBof cv d))

instance tileIn_storable (d : Dev nD) (L : grid1.Coords) : BI.Storable (upEmb : UEmb _ 𝕄) (tileIn cv d L) := by
  unfold tileIn tileReads; infer_instance
instance tileOut_storable (d : Dev nD) (L : grid1.Coords) : BI.Storable (upEmb : UEmb _ 𝕄) (tileOut cv d L) := by
  unfold tileOut tileReads; infer_instance

/-- A SparseCore's part of the call: its sixteen tiles' parts side by side. -/
def coreIn (d : Dev nD) (c : Fin 2) : sProp 𝕄 := bigSep Finset.univ fun s : Fin 16 => tileIn cv d (pt c s)
def coreOut (d : Dev nD) (c : Fin 2) : sProp 𝕄 := bigSep Finset.univ fun s : Fin 16 => tileOut cv d (pt c s)
instance coreIn_storable (d : Dev nD) (c : Fin 2) : BI.Storable (upEmb : UEmb _ 𝕄) (coreIn cv d c) := by
  unfold coreIn; infer_instance
instance coreOut_storable (d : Dev nD) (c : Fin 2) : BI.Storable (upEmb : UEmb _ 𝕄) (coreOut cv d c) := by
  unfold coreOut; infer_instance

theorem nCore_eq (q : Fin 1) : (K (F := F)).nCore q = 2 := by match q with | 0 => rfl
theorem nSub_eq (q : Fin 1) : (K (F := F)).nSub q = 16 := by match q with | 0 => rfl

/-- The one SparseCore call: a tile's part both ways, a SparseCore's the sixteen side by side; no kernel proof consumes
    anything of the launch's. -/
def P : (K (F := F)).Pay (nD := nD) (Val := Elt F) (Name := ℕ) (U := UU) where
  st := fun q d c => coreIn cv d (Fin.cast (nCore_eq q) c)
  dn := fun q d c => coreOut cv d (Fin.cast (nCore_eq q) c)
  go := fun q d c i => tileIn cv d (pt (Fin.cast (nCore_eq q) c) (Fin.cast (nSub_eq q) i))
  td := fun q d c i => tileOut cv d (pt (Fin.cast (nCore_eq q) c) (Fin.cast (nSub_eq q) i))
  x := fun _ _ => iprop(emp)

theorem P_st (q : Fin 1) (d : Dev nD) (c : Fin ((K (F := F)).nCore q)) : (P cv).st q d c = coreIn cv d (Fin.cast (nCore_eq q) c) := rfl
theorem P_dn (q : Fin 1) (d : Dev nD) (c : Fin ((K (F := F)).nCore q)) : (P cv).dn q d c = coreOut cv d (Fin.cast (nCore_eq q) c) := rfl
theorem P_go (q : Fin 1) (d : Dev nD) (c : Fin ((K (F := F)).nCore q)) (i : Fin ((K (F := F)).nSub q)) :
    (P cv).go q d c i = tileIn cv d (pt (Fin.cast (nCore_eq q) c) (Fin.cast (nSub_eq q) i)) := rfl
theorem P_td (q : Fin 1) (d : Dev nD) (c : Fin ((K (F := F)).nCore q)) (i : Fin ((K (F := F)).nSub q)) :
    (P cv).td q d c i = tileOut cv d (pt (Fin.cast (nCore_eq q) c) (Fin.cast (nSub_eq q) i)) := rfl

instance P_storable : (P (F := F) cv).IsStorable where
  st q d c := coreIn_storable cv d _
  dn q d c := coreOut_storable cv d _
  go q d c i := tileIn_storable cv d _
  td q d c i := tileOut_storable cv d _

omit cv in
/-- Handing a thing over whole, and taking whatever comes back as it comes. -/
theorem hand_over {X Y : sProp 𝕄} : X ⊢ |={Set.univ}=> iprop(X ∗ (Y -∗ Y)) := by
  iintro H; imodintro
  isplitl [H]; · iexact H
  iintro H; iexact H

omit cv in
/-- A family over the call's vector subcores is the family over sixteen. -/
theorem bigSep_tiles (Φ : Fin 16 → sProp 𝕄) :
    (bigSep Finset.univ fun i : Fin ((K (F := F)).nSub 0) => Φ (Fin.cast (nSub_eq 0) i)) = bigSep Finset.univ Φ := rfl

/-- Dealing a SparseCore's operands to its tiles is the identity. -/
theorem vecSplit : (K (F := F)).VecSplit' (P cv) 0 := by
  intro d c
  simp only [P_st, P_dn, P_go, P_td]
  rw [bigSep_tiles (F := F) (fun s => tileIn cv d (pt (Fin.cast (nCore_eq 0) c) s)),
    bigSep_tiles (F := F) (fun s => tileOut cv d (pt (Fin.cast (nCore_eq 0) c) s))]
  exact hand_over

end Cert.Proof.KB

end
-- ==== Proof.KBMainData.lean ====
/-
  The two pipelined calls of @main — the node tables before the gather, the scores after it — as the pipeline rule
  reads them, each at any contents `V` of the TensorCore's arrays when the call is entered, and at any float instance.

  The first call walks the 10 000 node rows in 10 blocks of 1000. At block t its body adds the key rows to the
  edge-side rows, multiplies by the first weight matrix and adds the bias row (the first table's block), and multiplies
  the query rows by the same matrix (the second table's block). The second call walks the 323 584 padded edge rows in
  158 blocks of 2048: at block t its body subtracts the second gathered block from the first, clamps at zero,
  multiplies by the second weight column and adds the second bias. Every result block is stored whole, so what a body
  leaves in a result window is one function of its operand blocks. A weight or bias operand is fetched once and stays;
  an operand block a step does not fetch is the block already there, the blocks tiling the arrays exactly.

  The TensorCore owes a constant tally `O` throughout a call (what the launch has it owe the vector subcores' call
  still to come; nothing after it), its recorded waits within a constant bound `B`; a body neither pays nor takes on
  anything. The invariant is the scratch no window stages and the generator register, untouched.
-/
import proofs.«211135_g34514357191071_cont_8to1_b_641_23_alg».proof.Proof.KBSetup
import proofs.«211135_g34514357191071_cont_8to1_b_641_23_alg».proof.Proof.Gen.Kernel.Points
import Idealize.ShloMosaic.Lib.Pipeline.FrameBody
import Idealize.ShloMosaic.Lib.Pipeline.RegionsLoop
import Idealize.ShloMosaic.Lib.Pipeline.FrameSuffix

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))
variable (O : Dev nD → CellTallies nD τ sig (HIx 1)) (B : Dev nD → Set (SemLoc sig × HIx 1))

/-- The invariant of either call on core `c`: the scoped buffers no window of the call stages, at some contents each,
    and the generator register at some state. -/
def ΦR {gr : Nat} {W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

/-! # The first call (the node tables) -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An operand window's current buffer holds its block at every point, fetched there or not. -/
theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) (HIx 1) ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) (HIx 1) ℕ UU ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) (HIx 1) ℕ UU ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev rN : Rect S1000x128 := Rect.unit (s := S1000x128) ![0, 0] S1000x128.size inb_S1000x128_S1000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The first table's block: (keys + edge side) · W1 + b1, stored whole. -/
def out0_5 (x0 x1 : Vec F S1000x128 .f32) (x3 : Vec F S128x128 .f32) (x4 : Vec F S1x128 .f32) : Vec F S1000x128 .f32 :=
  View.canon [⟨rN, k0_pay1 (View.ld x0 rN) (View.ld x1 rN) (View.ld x3 rW) (View.ld x4 rB)⟩]
/-- The second table's block: queries · W1, stored whole. -/
def out0_6 (x2 : Vec F S1000x128 .f32) (x3 : Vec F S128x128 .f32) : Vec F S1000x128 .f32 :=
  View.canon [⟨rN, k0_pay2 (View.ld x3 rW) (View.ld x2 rN)⟩]

theorem cover0 (p0 : Vec F S1000x128 .f32) (y : S1000x128.Idx) :
    ∃ pc ∈ ([⟨rN, p0⟩] : List (View.Piece (Elt F) S1000x128 .f32)), y ∈ pc.1.set :=
  View.cover_of_tiled [⟨rN, p0⟩] S1000x128.size (by rfl) y

set_option maxHeartbeats 1000000 in
/-- The body on whole staging memrefs, the operands' at read contents and the results' at anything, runs to the
    continuation holding the operands' as they were and each result's at its one function of them. -/
theorem sound_kernel0 (c : Dev nD) (E : Set ℕ) (i : grid0.Coords)
    (arg1 : Memref sig .tc .vmem S1000x128 .f32) (harg1 : arg1.IsWhole) (arg2 : Memref sig .tc .vmem S1000x128 .f32) (harg2 : arg2.IsWhole)
    (arg3 : Memref sig .tc .vmem S1000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1000x128 .f32) (harg6 : arg6.IsWhole)
    (arg7 : Memref sig .tc .vmem S1000x128 .f32) (harg7 : arg7.IsWhole)
    (x0 x1 x2 : Vec F S1000x128 .f32) (x3 : Vec F S128x128 .f32) (x4 : Vec F S1x128 .f32) (K' : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x3 x4) ∗ owns (c : Thread nD τ) arg7 fullShare (out0_6 x2 x3)) -∗ K' ⟨⟩))
      ⊢ wp frame (wpE (defs₀ (F := F)) Variants.none c none) E (cc0__tables_body i arg1 harg1 arg2 harg2 arg3 harg3 arg4 harg4 arg5 harg5 arg6 harg6 arg7 harg7) K' := by
  simp only [cc0__tables_body_eq_skeleton]; unfold cc0__tables_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-- The proof data of the first call on core `c`. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 3 t) (iblk0 V c 4 t)
    | ⟨6, _⟩ => out0_6 (iblk0 V c 2 t) (iblk0 V c 3 t)
  Φ _ := ΦR spec0 c
  q _ := fullShare
  owed _ := O c
  recorded _ := B c

theorem A_eq0 (c : Dev nD) (w : Fin cfg0.W) : (dat0 V O B c).A w = V c (Pipeline.arrRef spec0 w) := by
  dsimp only [dat0]
theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) : (dat0 V O B c).after 2 t = iblk0 V c 2 t := by dsimp only [dat0]
theorem after0_3 (c : Dev nD) (t : Fin cfg0.N) : (dat0 V O B c).after 3 t = iblk0 V c 3 t := by dsimp only [dat0]
theorem after0_4 (c : Dev nD) (t : Fin cfg0.N) : (dat0 V O B c).after 4 t = iblk0 V c 4 t := by dsimp only [dat0]
theorem after0_5 (c : Dev nD) (t : Fin cfg0.N) : (dat0 V O B c).after 5 t = out0_5 (iblk0 V c 0 t) (iblk0 V c 1 t) (iblk0 V c 3 t) (iblk0 V c 4 t) := by dsimp only [dat0]
theorem after0_6 (c : Dev nD) (t : Fin cfg0.N) : (dat0 V O B c).after 6 t = out0_6 (iblk0 V c 2 t) (iblk0 V c 3 t) := by dsimp only [dat0]
theorem before0_0 (c : Dev nD) (t : Fin cfg0.N) (d) : (dat0 V O B c).before 0 t d = iblk0 V c 0 t :=
  before0_0_of V (dat0 V O B c) (A_eq0 V O B c 0) (after0_0 V O B c) t d
theorem before0_1 (c : Dev nD) (t : Fin cfg0.N) (d) : (dat0 V O B c).before 1 t d = iblk0 V c 1 t :=
  before0_1_of V (dat0 V O B c) (A_eq0 V O B c 1) (after0_1 V O B c) t d
theorem before0_2 (c : Dev nD) (t : Fin cfg0.N) (d) : (dat0 V O B c).before 2 t d = iblk0 V c 2 t :=
  before0_2_of V (dat0 V O B c) (A_eq0 V O B c 2) (after0_2 V O B c) t d
theorem before0_3 (c : Dev nD) (t : Fin cfg0.N) (d) : (dat0 V O B c).before 3 t d = iblk0 V c 3 t :=
  before0_3_of V (dat0 V O B c) (A_eq0 V O B c 3) (after0_3 V O B c) t d
theorem before0_4 (c : Dev nD) (t : Fin cfg0.N) (d) : (dat0 V O B c).before 4 t d = iblk0 V c 4 t :=
  before0_4_of V (dat0 V O B c) (A_eq0 V O B c 4) (after0_4 V O B c) t d

/-- What the body is called with at point `t`, the windows one by one, -/
def bodyPre0 (c : Dev nD) (t : Fin cfg0.N) : sProp 𝕄 :=
  iprop((dat0 V O B c).Φ t.castSucc ∗ (dat0 V O B c).owesAt none t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d))
    ∗ (∃ d, owns (c : Thread nD τ) (st0_3 t) fullShare ((dat0 V O B c).before 3 t d))
    ∗ (∃ d, owns (c : Thread nD τ) (st0_4 t) fullShare ((dat0 V O B c).before 4 t d))
    ∗ (∃ d, owns (c : Thread nD τ) (st0_5 t) fullShare ((dat0 V O B c).before 5 t d))
    ∗ (∃ d, owns (c : Thread nD τ) (st0_6 t) fullShare ((dat0 V O B c).before 6 t d)))

/-- and what it returns. -/
def bodyPost0 (c : Dev nD) (t : Fin cfg0.N) : sProp 𝕄 :=
  iprop((dat0 V O B c).Φ t.succ ∗ (dat0 V O B c).owesAt none t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t)
    ∗ owns (c : Thread nD τ) (st0_3 t) fullShare ((dat0 V O B c).after 3 t)
    ∗ owns (c : Thread nD τ) (st0_4 t) fullShare ((dat0 V O B c).after 4 t)
    ∗ owns (c : Thread nD τ) (st0_5 t) fullShare ((dat0 V O B c).after 5 t)
    ∗ owns (c : Thread nD τ) (st0_6 t) fullShare ((dat0 V O B c).after 6 t))

/-- The body at any point: the operands' memrefs hold their blocks, so the body's triple applies; the invariant and
    the core's debts pass through unread. -/
theorem sound_body0 (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1, before0_2, before0_3, before0_4]
  rw [show (dat0 V O B c).Φ t.succ = (dat0 V O B c).Φ t.castSucc from rfl,
    show (dat0 V O B c).owesAt none t.succ = (dat0 V O B c).owesAt none t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline rule's body obligation for the first call, at every point. -/
theorem body_obligation0 (c : Dev nD) : BodyObligation (dat0 (F := F) V O B c) (defs₀ (F := F)) Variants.none (none : HIx 1) Set.univ := fun t => by
  rw [bigSep_W0, bigSep_W0]
  exact sound_body0 V O B c t

/-! # The second call (the scores) -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev rE : Rect S2048x128 := Rect.unit (s := S2048x128) ![0, 0] S2048x128.size inb_S2048x128_S2048x128_0_0
abbrev rC : Rect S128x1 := Rect.unit (s := S128x1) ![0, 0] S128x1.size inb_S128x1_S128x1_0_0
abbrev rS : Rect S1x1 := Rect.unit (s := S1x1) ![0, 0] S1x1.size inb_S1x1_S1x1_0_0
abbrev rO : Rect S2048x1 := Rect.unit (s := S2048x1) ![0, 0] S2048x1.size inb_S2048x1_S2048x1_0_0

/-- The score block: max(first gathered − second gathered, 0) · W2 + b2, stored whole. -/
def out2_4 (x0 x1 : Vec F S2048x128 .f32) (x2 : Vec F S128x1 .f32) (x3 : Vec F S1x1 .f32) : Vec F S2048x1 .f32 :=
  View.canon [⟨rO, k2_pay1 (View.ld x0 rE) (View.ld x1 rE) (View.ld x2 rC) (View.ld x3 rS)⟩]

theorem cover2 (p0 : Vec F S2048x1 .f32) (y : S2048x1.Idx) :
    ∃ pc ∈ ([⟨rO, p0⟩] : List (View.Piece (Elt F) S2048x1 .f32)), y ∈ pc.1.set :=
  View.cover_of_tiled [⟨rO, p0⟩] S2048x1.size (by rfl) y

set_option maxHeartbeats 1000000 in
/-- The body on whole staging memrefs, the operands' at read contents and the result's at anything, runs to the
    continuation holding the operands' as they were and the result's at its one function of them. -/
theorem sound_kernel2 (c : Dev nD) (E : Set ℕ) (i : grid2.Coords)
    (arg1 : Memref sig .tc .vmem S2048x128 .f32) (harg1 : arg1.IsWhole) (arg2 : Memref sig .tc .vmem S2048x128 .f32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S2048x1 .f32) (harg5 : arg5.IsWhole)
    (x0 x1 : Vec F S2048x128 .f32) (x2 : Vec F S128x1 .f32) (x3 : Vec F S1x1 .f32) (K' : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K' ⟨⟩))
      ⊢ wp frame (wpE (defs₀ (F := F)) Variants.none c none) E (cc2__score_body i arg1 harg1 arg2 harg2 arg3 harg3 arg4 harg4 arg5 harg5) K' := by
  simp only [cc2__score_body_eq_skeleton]; unfold cc2__score_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-- The proof data of the second call on core `c`. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := ΦR spec2 c
  q _ := fullShare
  owed _ := O c
  recorded _ := B c

theorem A_eq2 (c : Dev nD) (w : Fin cfg2.W) : (dat2 V O B c).A w = V c (Pipeline.arrRef spec2 w) := by
  dsimp only [dat2]
theorem after2_0 (c : Dev nD) (t : Fin cfg2.N) : (dat2 V O B c).after 0 t = iblk2 V c 0 t := by dsimp only [dat2]
theorem after2_1 (c : Dev nD) (t : Fin cfg2.N) : (dat2 V O B c).after 1 t = iblk2 V c 1 t := by dsimp only [dat2]
theorem after2_2 (c : Dev nD) (t : Fin cfg2.N) : (dat2 V O B c).after 2 t = iblk2 V c 2 t := by dsimp only [dat2]
theorem after2_3 (c : Dev nD) (t : Fin cfg2.N) : (dat2 V O B c).after 3 t = iblk2 V c 3 t := by dsimp only [dat2]
theorem after2_4 (c : Dev nD) (t : Fin cfg2.N) : (dat2 V O B c).after 4 t = out2_4 (iblk2 V c 0 t) (iblk2 V c 1 t) (iblk2 V c 2 t) (iblk2 V c 3 t) := by dsimp only [dat2]
theorem before2_0 (c : Dev nD) (t : Fin cfg2.N) (d) : (dat2 V O B c).before 0 t d = iblk2 V c 0 t :=
  before2_0_of V (dat2 V O B c) (A_eq2 V O B c 0) (after2_0 V O B c) t d
theorem before2_1 (c : Dev nD) (t : Fin cfg2.N) (d) : (dat2 V O B c).before 1 t d = iblk2 V c 1 t :=
  before2_1_of V (dat2 V O B c) (A_eq2 V O B c 1) (after2_1 V O B c) t d
theorem before2_2 (c : Dev nD) (t : Fin cfg2.N) (d) : (dat2 V O B c).before 2 t d = iblk2 V c 2 t :=
  before2_2_of V (dat2 V O B c) (A_eq2 V O B c 2) (after2_2 V O B c) t d
theorem before2_3 (c : Dev nD) (t : Fin cfg2.N) (d) : (dat2 V O B c).before 3 t d = iblk2 V c 3 t :=
  before2_3_of V (dat2 V O B c) (A_eq2 V O B c 3) (after2_3 V O B c) t d

/-- What the body is called with at point `t`, the windows one by one, -/
def bodyPre2 (c : Dev nD) (t : Fin cfg2.N) : sProp 𝕄 :=
  iprop((dat2 V O B c).Φ t.castSucc ∗ (dat2 V O B c).owesAt none t.castSucc
    ∗ (∃ d, owns (c : Thread nD τ) (st2_0 t) fullShare ((dat2 V O B c).before 0 t d))
    ∗ (∃ d, owns (c : Thread nD τ) (st2_1 t) fullShare ((dat2 V O B c).before 1 t d))
    ∗ (∃ d, owns (c : Thread nD τ) (st2_2 t) fullShare ((dat2 V O B c).before 2 t d))
    ∗ (∃ d, owns (c : Thread nD τ) (st2_3 t) fullShare ((dat2 V O B c).before 3 t d))
    ∗ (∃ d, owns (c : Thread nD τ) (st2_4 t) fullShare ((dat2 V O B c).before 4 t d)))

/-- and what it returns. -/
def bodyPost2 (c : Dev nD) (t : Fin cfg2.N) : sProp 𝕄 :=
  iprop((dat2 V O B c).Φ t.succ ∗ (dat2 V O B c).owesAt none t.succ
    ∗ owns (c : Thread nD τ) (st2_0 t) fullShare ((dat2 V O B c).after 0 t)
    ∗ owns (c : Thread nD τ) (st2_1 t) fullShare ((dat2 V O B c).after 1 t)
    ∗ owns (c : Thread nD τ) (st2_2 t) fullShare ((dat2 V O B c).after 2 t)
    ∗ owns (c : Thread nD τ) (st2_3 t) fullShare ((dat2 V O B c).after 3 t)
    ∗ owns (c : Thread nD τ) (st2_4 t) fullShare ((dat2 V O B c).after 4 t))

theorem sound_body2 (c : Dev nD) (t : Fin cfg2.N) :
    bodyPre2 V O B c t ⊢ wp frame (wpE (defs₀ (F := F)) Variants.none c none) Set.univ (bodyAt2 t) (fun _ => bodyPost2 V O B c t) := by
  unfold bodyPre2 bodyPost2 bodyAt2
  simp only [before2_0, before2_1, before2_2, before2_3]
  rw [show (dat2 V O B c).Φ t.succ = (dat2 V O B c).Φ t.castSucc from rfl,
    show (dat2 V O B c).owesAt none t.succ = (dat2 V O B c).owesAt none t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline rule's body obligation for the second call, at every point. -/
theorem body_obligation2 (c : Dev nD) : BodyObligation (dat2 (F := F) V O B c) (defs₀ (F := F)) Variants.none (none : HIx 1) Set.univ := fun t => by
  rw [bigSep_W2, bigSep_W2]
  exact sound_body2 V O B c t

end Cert.Proof.KB

end
-- ==== Proof.KBMainRegions.lean ====
/-
  @main on the TensorCore between the launch and the return, as a walk through the contents of its arrays: a reshape of
  the first bias, the first pipelined call (the node tables), the ten operations that cut the two rows of the edge list
  out, flatten them and pad each with 3584 zeros, the gather call on the vector subcores, a reshape of the second bias,
  the second pipelined call (the scores), and the slice that drops the padding rows.

  `W0` … `W7` are the contents of the TensorCore's arrays at those boundaries, each a function of the launch memory: a
  host stretch rewrites what its operations write; a pipelined call leaves its result arrays at what its write-backs
  fold to and everything else alone; the gather call leaves the two gathered arrays at row src[e] of the first table
  and row dst[e] of the second. `cv` names the four operands of the gather call.

  Each pipelined call is then a region of the pipeline rule over the thread state "every unscoped array at the boundary's
  contents, the generator register at some state, the TensorCore owing what the handshake protocol has it owe at that
  stage, every wait it has recorded at a level the protocol allows": the TensorCore owes its start signals for the
  gather call across the first region and nothing across the second, and the pipelines' own waits sit at the protocol's
  lowest level, below every such debt.
-/
import proofs.«211135_g34514357191071_cont_8to1_b_641_23_alg».proof.Proof.KBMainData
import proofs.«211135_g34514357191071_cont_8to1_b_641_23_alg».proof.Proof.Gen.Kernel.Launch

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo (held)

variable (m : (ℓ : Loc nD τ sig) → Buf (Elt F) ℓ)

/-! ## The host stretches -/

abbrev opsA : List (HloOp τ sig (Elt F)) :=
  [StableHlo.reshape main_arg5 main_v0 rfl shapeCasts_S128_S1x128]
abbrev opsB : List (HloOp τ sig (Elt F)) :=
  [StableHlo.unary main_arg3 main_v2 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v2 main_v3 rfl shapeCasts_S1x320000_S320000,
    StableHlo.nullary main_c (constantI S_ 32 0#32),
    StableHlo.unary main_c main_v4 (broadcastInDim S3584 ![] bcast_S_S3584 : (⟨S_, .i32⟩ : BufTy).Contents (Elt F) → (⟨S3584, .i32⟩ : BufTy).Contents (Elt F)),
    StableHlo.binary main_v3 main_v4 main_v5 ((fun a b => concatenate S323584 0 [⟨S320000, a⟩, ⟨S3584, b⟩] concatenates_S320000_S3584_S323584_d0) : (⟨S320000, .i32⟩ : BufTy).Contents (Elt F) → (⟨S3584, .i32⟩ : BufTy).Contents (Elt F) → (⟨S323584, .i32⟩ : BufTy).Contents (Elt F)),
    StableHlo.unary main_arg3 main_v6 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v6 main_v7 rfl shapeCasts_S1x320000_S320000,
    StableHlo.nullary main_c_0 (constantI S_ 32 0#32),
    StableHlo.unary main_c_0 main_v8 (broadcastInDim S3584 ![] bcast_S_S3584 : (⟨S_, .i32⟩ : BufTy).Contents (Elt F) → (⟨S3584, .i32⟩ : BufTy).Contents (Elt F)),
    StableHlo.binary main_v7 main_v8 main_v9 ((fun a b => concatenate S323584 0 [⟨S320000, a⟩, ⟨S3584, b⟩] concatenates_S320000_S3584_S323584_d0) : (⟨S320000, .i32⟩ : BufTy).Contents (Elt F) → (⟨S3584, .i32⟩ : BufTy).Contents (Elt F) → (⟨S323584, .i32⟩ : BufTy).Contents (Elt F))]
abbrev opsC : List (HloOp τ sig (Elt F)) :=
  [StableHlo.reshape main_arg7 main_v11 rfl shapeCasts_S1_S1x1]
abbrev opsD : List (HloOp τ sig (Elt F)) :=
  [StableHlo.unary main_v12 main_v13 ((extractStridedSlice S320000x1 ![0, 0] · slices_S323584x1_S320000x1_0_0) : (⟨S323584x1, .f32⟩ : BufTy).Contents (Elt F) → (⟨S320000x1, .f32⟩ : BufTy).Contents (Elt F))]

/-! ## What the TensorCore owes at each stage, and the bound on its recorded waits -/

/-- Before call `n` of the handshake protocol (0: the gather call still to come; 1: done). -/
abbrev Ow (n : ℕ) (c : Dev nD) : CellTallies nD τ sig (HIx 1) := (K (F := F)).Otc c n
abbrev Bw (n : ℕ) (c : Dev nD) : Set (SemLoc sig × HIx 1) := {p | (K (F := F)).lev (T c, p.1) p.2 ≤ 8 * n}

/-- The protocol's debts are all at a call's index. -/
theorem Ow_none (n : ℕ) (c : Dev nD) (g : GSem nD τ sig) : Ow (F := F) n c g none = 0 := by
  by_contra h
  have := SparseCore.Cfg.lev_of_Otc_pos (K := K (F := F)) (Nat.pos_of_ne_zero h); rw [SparseCore.Cfg.lev_none] at this; omega

/-! ## The contents at each boundary -/

abbrev a' : DevRef τ sig := Proc.devRef .tc (main_v1_0 : Ref sig .tc)
abbrev b' : DevRef τ sig := Proc.devRef .tc (main_v1_1 : Ref sig .tc)
abbrev s' : DevRef τ sig := Proc.devRef .tc (main_v5 : Ref sig .tc)
abbrev t' : DevRef τ sig := Proc.devRef .tc (main_v9 : Ref sig .tc)
abbrev ga' : DevRef τ sig := Proc.devRef .tc (main_v10_0 : Ref sig .tc)
abbrev gb' : DevRef τ sig := Proc.devRef .tc (main_v10_1 : Ref sig .tc)

/-- At launch. -/
abbrev W0 : Dev nD → Valuation τ sig (Elt F) := fun c b => m (c, b)
/-- After the first bias is reshaped (the first call's entry). -/
abbrev W1 : Dev nD → Valuation τ sig (Elt F) := fun c => StableHlo.after opsA (W0 m c)
abbrev V1 : (c : Dev nD) → (b : Ref sig .tc) → Buf (Elt F) ((c : Thread nD τ).loc b) := fun c b => W1 m c b
/-- At the first call's exit: its arrays at what the pipeline leaves, every other as entered. -/
def W2 (c : Dev nD) : Valuation τ sig (Elt F) :=
  Pipeline.withArrays spec0 c (W1 m c) fun w => (dat0 (V1 m) (Ow (F := F) 0) (Bw (F := F) 0) c).arrAt w cfg0.N
theorem W2_arr (c : Dev nD) (w : Fin cfg0.W) :
    W2 m c (Proc.devRef .tc (Pipeline.arrRef spec0 w)) = (dat0 (V1 m) (Ow (F := F) 0) (Bw (F := F) 0) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) (Ow (F := F) 0) (Bw (F := F) 0) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the index lists are cut out and padded (the gather call's entry). -/
abbrev W3 : Dev nD → Valuation τ sig (Elt F) := fun c => StableHlo.after opsB (W2 m c)

/-- The gather call's four operands: the two node tables as the first call left them, the two padded index lists. -/
def cv (d : Dev nD) : CallVals F d := ⟨W3 m d a', W3 m d b', W3 m d s', W3 m d t'⟩

/-- After the gather call: the two gathered arrays written, every other as before. -/
def W4 (c : Dev nD) : Valuation τ sig (Elt F) :=
  Function.update (Function.update (W3 m c) ga' (GAof (cv m) c)) gb' (GBof (cv m) c)
/-- After the second bias is reshaped (the second call's entry). -/
abbrev W5 : Dev nD → Valuation τ sig (Elt F) := fun c => StableHlo.after opsC (W4 m c)
abbrev V5 : (c : Dev nD) → (b : Ref sig .tc) → Buf (Elt F) ((c : Thread nD τ).loc b) := fun c b => W5 m c b
/-- At the second call's exit. -/
def W6 (c : Dev nD) : Valuation τ sig (Elt F) :=
  Pipeline.withArrays spec2 c (W5 m c) fun w => (dat2 (V5 m) (Ow (F := F) 1) (Bw (F := F) 1) c).arrAt w cfg2.N
theorem W6_arr (c : Dev nD) (w : Fin cfg2.W) :
    W6 m c (Proc.devRef .tc (Pipeline.arrRef spec2 w)) = (dat2 (V5 m) (Ow (F := F) 1) (Bw (F := F) 1) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) (Ow (F := F) 1) (Bw (F := F) 1) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After the padding rows are dropped (the return). -/
abbrev W7 : Dev nD → Valuation τ sig (Elt F) := fun c => StableHlo.after opsD (W6 m c)

/-! ## The proof data family and the thread state -/

abbrev adm : (p : Fin 2) → (pcfgs (F := F) p).Adm := fun p => (cfgs p).toPCfg_adm
/-- Every pipeline's proof data, each at its call's entry contents: a literal match. -/
def pdats : (p : Fin 2) → (c : Dev nD) → Dat τ (Elt F) (HIx 1) ℕ UU ℕ (Pipeline.pin (pcfgs (F := F)) adm p) c
  | ⟨0, _⟩ => fun c => dat0 (V1 m) (Ow (F := F) 0) (Bw (F := F) 0) c
  | ⟨1, _⟩ => fun c => dat2 (V5 m) (Ow (F := F) 1) (Bw (F := F) 1) c

/-- What rides beside the arrays: the generator register, and the TensorCore's debts before call `n` with every
    recorded wait at a level the protocol allows there. -/
abbrev Rw (n : ℕ) (c : Dev nD) : sProp 𝕄 :=
  iprop((∃ r, prngReg c r) ∗ ∃ W, ⌜(K (F := F)).WBelow (T c) W (8 * n)⌝ ∗ owes (T c) ((K (F := F)).Otc c n) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A pipeline's own waits are admissible under the protocol's debts: they sit at the lowest level. -/
theorem hwaitsK (p : Fin 2) (n : ℕ) (howed : ∀ c t, (pdats m p c).owed t = Ow (F := F) n c) (c : Dev nD) :
    (levAts (K (F := F)).L (K (F := F)).lev : sProp 𝕄) ⊢ Pipeline.cellsWaits (Pipeline.pin (pcfgs (F := F)) adm) (pdats m) (none : HIx 1) p c :=
  Pipeline.cellsWaits_intro _ _ _ p c fun w s t => by
    rw [howed c t]
    exact (K (F := F)).mayWait_none (thr := T c) _ (Ow_none (F := F) n c)

set_option backward.isDefEq.respectTransparency.types false in
/-- The first pipelined call over the thread state: entered at `W1`, left at `W2`. -/
def reg0 : Pipeline.RegionSeg (pcfgs (F := F)) adm (pdats m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V1 m) (Ow (F := F) 0) (Bw (F := F) 0) c).loose
  hwaits := hwaitsK m 0 0 fun _ _ => rfl
  pre c := iprop(held (c : Thread nD τ) (Pipeline.ucRefs τ sig) (W1 m c) ∗ Rw 0 c)
  post c := iprop(held (c : Thread nD τ) (Pipeline.ucRefs τ sig) (W2 m c) ∗ Rw 0 c)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p (Finset.mem_coe.mp hp))
      iexact HO
    isplitl [Hp]; · iexact Hp
    iexact Hrest
  hin c := by
    rw [show (pdats m 0 c).Φ 0 = ΦR spec0 c from rfl]; unfold ΦR
    iintro ⟨Hp, -, Hr⟩
    isplitl [Hr]; · iexact Hr
    iexact Hp
  hout c := by
    rw [Pipeline.ownSems0_none, show (pdats m 0 c).Φ (Fin.last _) = ΦR spec0 c from rfl]; unfold ΦR
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW (Finset.mem_coe.mpr hp) with h | ⟨w, s, rfl⟩
      · exact h
      · show (K (F := F)).lev _ none ≤ _; rw [SparseCore.Cfg.lev_none]
    iexact HO

set_option backward.isDefEq.respectTransparency.types false in
/-- The second pipelined call over the thread state: entered at `W5`, left at `W6`. -/
def reg2 : Pipeline.RegionSeg (pcfgs (F := F)) adm (pdats m) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (V5 m) (Ow (F := F) 1) (Bw (F := F) 1) c).loose
  hwaits := hwaitsK m 1 1 fun _ _ => rfl
  pre c := iprop(held (c : Thread nD τ) (Pipeline.ucRefs τ sig) (W5 m c) ∗ Rw 1 c)
  post c := iprop(held (c : Thread nD τ) (Pipeline.ucRefs τ sig) (W6 m c) ∗ Rw 1 c)
  X c := iprop(∃ r, prngReg c r)
  Y c := iprop(∃ r, prngReg c r)
  Z c := Pipeline.unscopedRest (Ix := HIx 1) (Name := ℕ) (U := UU) (Lvl := ℕ) spec2 c (V5 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V5 m c) fun _ => rfl
    rw [Pipeline.unscopedBufs_held] at hsplit
    iintro ⟨⟨Hub, Hp, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p (Finset.mem_coe.mp hp))
      iexact HO
    isplitl [Hp]; · iexact Hp
    iexact Hrest
  hin c := by
    rw [show (pdats m 1 c).Φ 0 = ΦR spec2 c from rfl]; unfold ΦR
    iintro ⟨Hp, -, Hr⟩
    isplitl [Hr]; · iexact Hr
    iexact Hp
  hout c := by
    rw [Pipeline.ownSems0_none, show (pdats m 1 c).Φ (Fin.last _) = ΦR spec2 c from rfl]; unfold ΦR
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V5 m c) (V6 m c) ((pdats m 1 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW (Finset.mem_coe.mpr hp) with h | ⟨w, s, rfl⟩
      · exact h
      · show (K (F := F)).lev _ none ≤ _; rw [SparseCore.Cfg.lev_none]; exact Nat.zero_le _
    iexact HO

end Cert.Proof.KB

end
-- ==== Proof.KBMainPre.lean ====
/-
  @main on the TensorCore, prepared: the printed program respelt as host stretches bound around its three calls; the
  stretches' side conditions (each operation touches unscoped TensorCore arrays only and allocates none); the six arrays
  of the gather call taken out of the set of all unscoped arrays and put back with the two gathered arrays rewritten;
  the handshake state with the TensorCore's debts apart; what the launch element funds for the pipelined calls; and
  what @main leaves at the return.
-/
import proofs.«211135_g34514357191071_cont_8to1_b_641_23_alg».proof.Proof.KBMainRegions

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo (held held_sub_split held_congr wp_seq)

variable (m : (ℓ : Loc nD τ sig) → Buf (Elt F) ℓ) (g : Dev nD → PrngReg)

/-! ## @main, respelt as stretches around the three calls -/

theorem main_eq (d : Dev nD) : main (F := F) d =
    (StableHlo.seq opsA >>= fun _ => SparseCore.liftProg (Q := 1) (Prog.op (.customCall (Pipeline.entry 0) ()) (fun _ => Prog.ret PUnit.unit) : Prog (TpuEff nD τ sig (Elt F) (ΛP (F := F)) .tc) PUnit) >>= fun _ =>
      StableHlo.seq opsB >>= fun _ => sc.run d 0 >>= fun _ =>
      StableHlo.seq opsC >>= fun _ => SparseCore.liftProg (Q := 1) (Prog.op (.customCall (Pipeline.entry 1) ()) (fun _ => Prog.ret PUnit.unit) : Prog (TpuEff nD τ sig (Elt F) (ΛP (F := F)) .tc) PUnit) >>= fun _ =>
      StableHlo.seq opsD >>= fun _ => pure ⟨⟩) := rfl

/-! ## The host stretches' side conditions -/

theorem opsA_sub : (opsA : List (HloOp τ sig (Elt F))).Forall fun op => op.bufs ⊆ StableHlo.tcRefs τ sig :=
  StableHlo.reshape_bufs_sub ..
theorem opsB_sub : (opsB : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..,
    StableHlo.unary_bufs_sub .., StableHlo.reshape_bufs_sub .., StableHlo.nullary_bufs_sub .., StableHlo.unary_bufs_sub .., StableHlo.binary_bufs_sub ..⟩
theorem opsC_sub : (opsC : List (HloOp τ sig (Elt F))).Forall fun op => op.bufs ⊆ StableHlo.tcRefs τ sig :=
  StableHlo.reshape_bufs_sub ..
theorem opsD_sub : (opsD : List (HloOp τ sig (Elt F))).Forall fun op => op.bufs ⊆ StableHlo.tcRefs τ sig :=
  StableHlo.unary_bufs_sub ..
theorem opsA_fresh : (opsA : List (HloOp τ sig (Elt F))).Forall fun op => op.fresh = ∅ := by
  simp only [List.Forall]; repeat' constructor
theorem opsB_fresh : (opsB : List (HloOp τ sig (Elt F))).Forall fun op => op.fresh = ∅ := by
  simp only [List.Forall]; repeat' constructor
theorem opsC_fresh : (opsC : List (HloOp τ sig (Elt F))).Forall fun op => op.fresh = ∅ := by
  simp only [List.Forall]; repeat' constructor
theorem opsD_fresh : (opsD : List (HloOp τ sig (Elt F))).Forall fun op => op.fresh = ∅ := by
  simp only [List.Forall]; repeat' constructor

theorem sub_uc {ops : List (HloOp τ sig (Elt F))} (h : ops.Forall fun op => op.bufs ⊆ StableHlo.tcRefs τ sig) :
    ∀ op ∈ ops, op.bufs ⊆ Pipeline.ucRefs τ sig :=
  fun op hop => Pipeline.sub_ucRefs op ((List.forall_iff_forall_mem.mp h) op hop)

/-! ## The six arrays of the gather call, out of the held set and back -/

abbrev six : Finset (DevRef τ sig) := {a', b', s', t', ga', gb'}

theorem six_sub : six ⊆ Pipeline.ucRefs τ sig := by
  intro x hx
  simp only [six, Finset.mem_insert, Finset.mem_singleton] at hx
  rcases hx with rfl | rfl | rfl | rfl | rfl | rfl <;> exact mem_uc _ (by decide)

theorem held_six (d : Dev nD) (Wv : Valuation τ sig (Elt F)) :
    (held (T d) six Wv : sProp 𝕄) = iprop((aLoc d ↦{fullShare} Wv a') ∗ (bLoc d ↦{fullShare} Wv b') ∗ (sLoc d ↦{fullShare} Wv s')
      ∗ (tLoc d ↦{fullShare} Wv t') ∗ (gaLoc d ↦{fullShare} Wv ga') ∗ (gbLoc d ↦{fullShare} Wv gb')) := by
  unfold held six
  rw [SparseCore.bigSep_insert' (by decide), SparseCore.bigSep_insert' (by decide), SparseCore.bigSep_insert' (by decide),
    SparseCore.bigSep_insert' (by decide), SparseCore.bigSep_insert' (by decide), bigSep_singleton]

theorem W4_a (d : Dev nD) : W4 m d a' = (cv m d).A :=
  (Function.update_of_ne (show a' ≠ gb' by decide) _ _).trans (Function.update_of_ne (show a' ≠ ga' by decide) _ _)
theorem W4_b (d : Dev nD) : W4 m d b' = (cv m d).B :=
  (Function.update_of_ne (show b' ≠ gb' by decide) _ _).trans (Function.update_of_ne (show b' ≠ ga' by decide) _ _)
theorem W4_s (d : Dev nD) : W4 m d s' = (cv m d).s :=
  (Function.update_of_ne (show s' ≠ gb' by decide) _ _).trans (Function.update_of_ne (show s' ≠ ga' by decide) _ _)
theorem W4_t (d : Dev nD) : W4 m d t' = (cv m d).t :=
  (Function.update_of_ne (show t' ≠ gb' by decide) _ _).trans (Function.update_of_ne (show t' ≠ ga' by decide) _ _)
theorem W4_ga (d : Dev nD) : W4 m d ga' = GAof (cv m) d :=
  (Function.update_of_ne (show ga' ≠ gb' by decide) _ _).trans (Function.update_self _ _ _)
theorem W4_gb (d : Dev nD) : W4 m d gb' = GBof (cv m) d := Function.update_self _ _ _
theorem W4_rest (d : Dev nD) : (held (T d) (Pipeline.ucRefs τ sig \ six) (W4 m d) : sProp 𝕄) = held (T d) (Pipeline.ucRefs τ sig \ six) (W3 m d) :=
  held_congr (T d) fun x hx => by
    have hx' := (Finset.mem_sdiff.mp hx).2
    simp only [six, Finset.mem_insert, Finset.mem_singleton, not_or] at hx'
    exact (Function.update_of_ne hx'.2.2.2.2.2 _ _).trans (Function.update_of_ne hx'.2.2.2.2.1 _ _)

/-! ## The handshake state, its debts apart -/

theorem tcSt_split (d : Dev nD) (n : ℕ) : ∃ Rest : sProp 𝕄,
    (K (F := F)).tcSt EH d n = iprop((∃ W, ⌜(K (F := F)).WBelow (T d) W (8 * n)⌝ ∗ owes (T d) ((K (F := F)).Otc d n) W) ∗ Rest) := by
  unfold SparseCore.Cfg.tcSt; exact ⟨_, rfl⟩

/-! ## What the launch element funds for a pipelined call, and what @main leaves -/

abbrev Gp (p : Fin 2) (d : Dev nD) : sProp 𝕄 :=
  iprop(Pipeline.cellsGhost (Pipeline.pin (pcfgs (F := F)) adm) EP p d ∗ Pipeline.toksInit (Pipeline.pin (pcfgs (F := F)) adm) EP p d)
abbrev G (d : Dev nD) : sProp 𝕄 := iprop(Gp (F := F) 0 d ∗ Gp (F := F) 1 d)

/-- Every unscoped array of the TensorCore at its contents at the return. -/
abbrev FIN (d : Dev nD) : sProp 𝕄 := held (T d) (Pipeline.ucRefs τ sig) (W7 m d)

end Cert.Proof.KB

end
-- ==== Proof.KBMainSteps.lean ====
/-
  The three calls of @main as steps of its walk, each from what @main holds before it to what it holds after.

  A pipelined call is a program over the certificate's own body table; the launch runs @main over the table extended
  with the SparseCore calls' dispatch, so the call is entered through the lifting of proofs from the one table to the
  other and then run by the pipeline rule for a region, from the region boundary, the region's thread state, the level
  facts and the ghost state of that pipeline's staging cells. The gather call is the handshake rule: the six arrays
  it works on are taken out of the set of all unscoped arrays, split for the two SparseCores, and put back when their
  results return, the two gathered arrays rewritten.
-/
import proofs.«211135_g34514357191071_cont_8to1_b_641_23_alg».proof.Proof.KBMainPre

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo (held held_sub_split held_congr wp_seq)

variable (m : (ℓ : Loc nD τ sig) → Buf (Elt F) ℓ)
variable [∀ e, Nonempty (Elt F e)]

theorem reg0_pre (d : Dev nD) : (reg0 m).pre d = iprop(held (T d) (Pipeline.ucRefs τ sig) (W1 m d) ∗ Rw (F := F) 0 d) := rfl
theorem reg0_post (d : Dev nD) : (reg0 m).post d = iprop(held (T d) (Pipeline.ucRefs τ sig) (W2 m d) ∗ Rw (F := F) 0 d) := rfl

set_option backward.isDefEq.respectTransparency.types false in
set_option maxHeartbeats 1000000 in
/-- Pipelined call 0, entered from the boundary with every unscoped array at `W1` and left with them at `W2`. -/
theorem step_region0 (d : Dev nD) (Φ : PUnit → sProp 𝕄) :
    iprop(boundary (T d) ∗ held (T d) (Pipeline.ucRefs τ sig) (W1 m d) ∗ Rw (F := F) 0 d ∗ levAts (K (F := F)).L (K (F := F)).lev ∗ Gp (F := F) 0 d
        ∗ (iprop(boundary (T d) ∗ held (T d) (Pipeline.ucRefs τ sig) (W2 m d) ∗ Rw (F := F) 0 d) -∗ Φ ⟨⟩))
      ⊢ wp frame (wpE ((K (F := F)).defs (D (F := F))) 𝒱 (T d) none) Set.univ
          (SparseCore.liftProg (Q := 1) (Prog.op (.customCall (Pipeline.entry 0) ()) (fun _ => Prog.ret PUnit.unit) : Prog (TpuEff nD τ sig (Elt F) (ΛP (F := F)) .tc) PUnit)) Φ := by
  iintro ⟨Hb, Hh, HR, #Hlv, ⟨Hcg, Htk⟩, Hk⟩
  iapply ((K (F := F)).wp_liftProg (D (F := F)) 𝒱 (T d) Set.univ none _ _)
  iapply (Pipeline.RegionSeg.wp (pcfgs (F := F)) adm (pdats m) (none : HIx 1) cellOf_inj EP defs₀ 𝒱₀ (K (F := F)).L (K (F := F)).lev (reg0 m) d none
    (fun u hu => nomatch hu) (fun _ => Prog.ret PUnit.unit) Φ)
  rw [reg0_pre m d, reg0_post m d]
  isplitl [Hk]
  · iintro ⟨Hb, Hh, HR⟩
    rw [wp_ret]; imodintro
    iapply Hk
    isplitl [Hb]; · iexact Hb
    isplitl [Hh]; · iexact Hh
    iexact HR
  isplitl [Hb]; · iexact Hb
  isplitl [Hh HR]
  · isplitl [Hh]; · iexact Hh
    iexact HR
  isplitr; · iexact Hlv
  isplitl [Hcg]; · iexact Hcg
  iexact Htk

theorem reg2_pre (d : Dev nD) : (reg2 m).pre d = iprop(held (T d) (Pipeline.ucRefs τ sig) (W5 m d) ∗ Rw (F := F) 1 d) := rfl
theorem reg2_post (d : Dev nD) : (reg2 m).post d = iprop(held (T d) (Pipeline.ucRefs τ sig) (W6 m d) ∗ Rw (F := F) 1 d) := rfl

set_option backward.isDefEq.respectTransparency.types false in
set_option maxHeartbeats 1000000 in
/-- Pipelined call 1, entered from the boundary with every unscoped array at `W5` and left with them at `W6`. -/
theorem step_region2 (d : Dev nD) (Φ : PUnit → sProp 𝕄) :
    iprop(boundary (T d) ∗ held (T d) (Pipeline.ucRefs τ sig) (W5 m d) ∗ Rw (F := F) 1 d ∗ levAts (K (F := F)).L (K (F := F)).lev ∗ Gp (F := F) 1 d
        ∗ (iprop(boundary (T d) ∗ held (T d) (Pipeline.ucRefs τ sig) (W6 m d) ∗ Rw (F := F) 1 d) -∗ Φ ⟨⟩))
      ⊢ wp frame (wpE ((K (F := F)).defs (D (F := F))) 𝒱 (T d) none) Set.univ
          (SparseCore.liftProg (Q := 1) (Prog.op (.customCall (Pipeline.entry 1) ()) (fun _ => Prog.ret PUnit.unit) : Prog (TpuEff nD τ sig (Elt F) (ΛP (F := F)) .tc) PUnit)) Φ := by
  iintro ⟨Hb, Hh, HR, #Hlv, ⟨Hcg, Htk⟩, Hk⟩
  iapply ((K (F := F)).wp_liftProg (D (F := F)) 𝒱 (T d) Set.univ none _ _)
  iapply (Pipeline.RegionSeg.wp (pcfgs (F := F)) adm (pdats m) (none : HIx 1) cellOf_inj EP defs₀ 𝒱₀ (K (F := F)).L (K (F := F)).lev (reg2 m) d none
    (fun u hu => nomatch hu) (fun _ => Prog.ret PUnit.unit) Φ)
  rw [reg2_pre m d, reg2_post m d]
  isplitl [Hk]
  · iintro ⟨Hb, Hh, HR⟩
    rw [wp_ret]; imodintro
    iapply Hk
    isplitl [Hb]; · iexact Hb
    isplitl [Hh]; · iexact Hh
    iexact HR
  isplitl [Hb]; · iexact Hb
  isplitl [Hh HR]
  · isplitl [Hh]; · iexact Hh
    iexact HR
  isplitr; · iexact Hlv
  isplitl [Hcg]; · iexact Hcg
  iexact Htk

set_option backward.isDefEq.respectTransparency.types false in
set_option maxHeartbeats 1000000 in
/-- The gather call: its six arrays out of the held set, dealt to the two SparseCores, gathered back with the two
    gathered arrays written; the handshake state moves from before the call to after it. -/
theorem step_call (R : Dev nD → sProp 𝕄)
    (hsplit : ∀ d, iprop((aLoc d ↦{fullShare} (cv m d).A) ∗ (bLoc d ↦{fullShare} (cv m d).B) ∗ (sLoc d ↦{fullShare} (cv m d).s) ∗ (tLoc d ↦{fullShare} (cv m d).t)
        ∗ (∃ f, gaLoc d ↦{fullShare} f) ∗ (∃ f, gbLoc d ↦{fullShare} f))
      ⊢ iprop(R d ∗ bigSep Finset.univ fun c : Fin ((K (F := F)).nCore 0) => (P (cv m)).st 0 d c))
    (hjoin : ∀ d, iprop(R d ∗ bigSep Finset.univ fun c : Fin ((K (F := F)).nCore 0) => (P (cv m)).dn 0 d c)
      ⊢ iprop((aLoc d ↦{fullShare} (cv m d).A) ∗ (bLoc d ↦{fullShare} (cv m d).B) ∗ (sLoc d ↦{fullShare} (cv m d).s) ∗ (tLoc d ↦{fullShare} (cv m d).t)
        ∗ (gaLoc d ↦{fullShare} GAof (cv m) d) ∗ (gbLoc d ↦{fullShare} GBof (cv m) d)))
    (κ : GSem nD τ sig → ℕ) (d : Dev nD) (Φ : PUnit → sProp 𝕄) :
    iprop((K (F := F)).ctx EH (P (cv m)) κ ∗ (K (F := F)).tcSt EH d 0 ∗ held (T d) (Pipeline.ucRefs τ sig) (W3 m d)
        ∗ (iprop((K (F := F)).tcSt EH d 1 ∗ held (T d) (Pipeline.ucRefs τ sig) (W4 m d)) -∗ Φ ⟨⟩))
      ⊢ wp frame (wpE ((K (F := F)).defs (D (F := F))) 𝒱 (T d) none) Set.univ (sc.run d 0) Φ := by
  iintro ⟨#Hctx, Htc, Hh, Hk⟩
  ihave Hs := (Entails.of_eq (held_sub_split (T d) six_sub (W3 m d))) $$ Hh
  icases Hs with ⟨H6, Hrest⟩
  ihave H6' := (Entails.of_eq (held_six d (W3 m d))) $$ H6
  icases H6' with ⟨Ha, Hbb, Hs, Ht, Hga, Hgb⟩
  ihave Hsp := (hsplit d) $$ [Ha Hbb Hs Ht Hga Hgb]
  · isplitl [Ha]; · iexact Ha
    isplitl [Hbb]; · iexact Hbb
    isplitl [Hs]; · iexact Hs
    isplitl [Ht]; · iexact Ht
    isplitl [Hga]; · iexists _; iexact Hga
    iexists _; iexact Hgb
  icases Hsp with ⟨HR, Hst0⟩
  iapply ((K (F := F)).wp_run (D (F := F)) 𝒱 (EH := EH) (P := P (cv m)) κ d 0) $$ [Htc Hst0 Hrest HR Hk]
  isplitr; · iexact Hctx
  isplitl [Htc]; · iexact Htc
  isplitl [Hst0]; · iexact Hst0
  iintro ⟨Htc1, Hdn⟩
  ihave Hj := (hjoin d) $$ [HR Hdn]
  · isplitl [HR] <;> iassumption
  icases Hj with ⟨Ha, Hbb, Hs, Ht, Hga, Hgb⟩
  iapply Hk
  isplitl [Htc1]; · iexact Htc1
  iapply (Entails.of_eq (held_sub_split (T d) six_sub (W4 m d)).symm)
  isplitl [Ha Hbb Hs Ht Hga Hgb]
  · rw [held_six, W4_a, W4_b, W4_s, W4_t, W4_ga, W4_gb]
    isplitl [Ha]; · iexact Ha
    isplitl [Hbb]; · iexact Hbb
    isplitl [Hs]; · iexact Hs
    isplitl [Ht]; · iexact Ht
    isplitl [Hga]; · iexact Hga
    iexact Hgb
  · rw [W4_rest]; iexact Hrest

end Cert.Proof.KB

end
-- ==== Proof.KBMain.lean ====
/-
  @main on the TensorCore, run from what the launch deals it to the handshake state after the gather call and every
  unscoped array at its final contents.

  The walk: each host stretch by the rule for a line of host operations, over all the unscoped arrays held whole; each
  pipelined call by the pipeline rule for a region, entered through the lifting of a proof over the certificate's body
  table to the launch's extended one, its staging cells' ghost state taken from what the launch element funded; the
  gather call by the handshake rule, the six arrays it works on split out of the held set, dealt to the two
  SparseCores and gathered back with the two gathered arrays written. The TensorCore's debts ride in its handshake
  state between the steps and in the region's thread state across a pipelined call.
-/
import proofs.«211135_g34514357191071_cont_8to1_b_641_23_alg».proof.Proof.KBMainSteps

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo (held held_sub_split held_congr wp_seq)

variable (m : (ℓ : Loc nD τ sig) → Buf (Elt F) ℓ) (g : Dev nD → PrngReg)

/-- What the launch deals the TensorCore of its arrays is every unscoped array held whole at the launch memory. -/
theorem launch_held (d : Dev nD) :
    (unscopedBufs (Ix := HIx 1) (Name := ℕ) (U := UU) (Lvl := ℕ) d (fun b => m ((SparseCore.T d).loc b)) : sProp 𝕄)
      = held (SparseCore.T d) (Pipeline.ucRefs τ sig) (W0 m d) :=
  Pipeline.unscopedBufs_held d (W0 m d)

variable [∀ e, Nonempty (Elt F e)]

set_option maxHeartbeats 1000000 in
/-- @main on device `d`'s TensorCore. -/
theorem hmain (R : Dev nD → sProp 𝕄)
    (hsplit : ∀ d, iprop((aLoc d ↦{fullShare} (cv m d).A) ∗ (bLoc d ↦{fullShare} (cv m d).B) ∗ (sLoc d ↦{fullShare} (cv m d).s) ∗ (tLoc d ↦{fullShare} (cv m d).t)
        ∗ (∃ f, gaLoc d ↦{fullShare} f) ∗ (∃ f, gbLoc d ↦{fullShare} f))
      ⊢ iprop(R d ∗ bigSep Finset.univ fun c : Fin ((K (F := F)).nCore 0) => (P (cv m)).st 0 d c))
    (hjoin : ∀ d, iprop(R d ∗ bigSep Finset.univ fun c : Fin ((K (F := F)).nCore 0) => (P (cv m)).dn 0 d c)
      ⊢ iprop((aLoc d ↦{fullShare} (cv m d).A) ∗ (bLoc d ↦{fullShare} (cv m d).B) ∗ (sLoc d ↦{fullShare} (cv m d).s) ∗ (tLoc d ↦{fullShare} (cv m d).t)
        ∗ (gaLoc d ↦{fullShare} GAof (cv m) d) ∗ (gbLoc d ↦{fullShare} GBof (cv m) d)))
    (κ : GSem nD τ sig → ℕ) (d : Dev nD) :
    iprop((K (F := F)).ctx EH (P (cv m)) κ ∗ (K (F := F)).tcSt EH d 0 ∗ (K (F := F)).tcRes m g d ∗ G (F := F) d)
      ⊢ wp frame (wpE ((K (F := F)).defs (D (F := F))) 𝒱 (T d) none) Set.univ (main d)
          fun _ => iprop((K (F := F)).tcSt EH d 1 ∗ FIN m d) := by
  obtain ⟨Rest0, h0⟩ := tcSt_split (F := F) d 0
  obtain ⟨Rest1, h1⟩ := tcSt_split (F := F) d 1
  unfold SparseCore.Cfg.tcRes
  rw [launch_held, main_eq]
  iintro ⟨#Hctx, Htc, ⟨Hb, Hh, -, Hp0⟩, ⟨HG0, HG1⟩⟩
  ihave #Hlv := (SparseCore.Cfg.ctx_levAts κ) $$ Hctx
  ihave Hp := (show (prngReg d (g d) : sProp 𝕄) ⊢ iprop(∃ r, prngReg d r) from by iintro H; iexists _; iexact H) $$ Hp0
  ihave Htc' := (Entails.of_eq h0) $$ Htc
  icases Htc' with ⟨HO, Hst⟩
  -- the first bias reshaped
  iapply (wp_seq 𝒱 none Set.univ d (Pipeline.ucRefs τ sig) _ opsA (sub_uc opsA_sub) (List.forall_iff_forall_mem.mp opsA_fresh) (W0 m d)) $$ [Hb Hh]
  · isplitl [Hb] <;> iassumption
  iintro ⟨Hb, Hh⟩
  -- the first pipelined call
  rw [wp_bind]
  iapply (step_region0 m d _)
  isplitl [Hb]; · iexact Hb
  isplitl [Hh]; · iexact Hh
  isplitl [Hp HO]
  · isplitl [Hp]; · iexact Hp
    iexact HO
  isplitr; · iexact Hlv
  isplitl [HG0]; · iexact HG0
  iintro ⟨Hb, Hh, Hp, HO⟩
  -- the index lists cut out and padded
  iapply (wp_seq 𝒱 none Set.univ d (Pipeline.ucRefs τ sig) _ opsB (sub_uc opsB_sub) (List.forall_iff_forall_mem.mp opsB_fresh) (W2 m d)) $$ [Hb Hh]
  · isplitl [Hb] <;> iassumption
  iintro ⟨Hb, Hh⟩
  -- the gather call
  rw [wp_bind]
  iapply (step_call m R hsplit hjoin κ d _)
  isplitr; · iexact Hctx
  isplitl [HO Hst]
  · iapply (Entails.of_eq h0.symm); isplitl [HO] <;> iassumption
  isplitl [Hh]; · iexact Hh
  iintro ⟨Htc1, Hh⟩
  ihave Htc1' := (Entails.of_eq h1) $$ Htc1
  icases Htc1' with ⟨HO, Hst⟩
  -- the second bias reshaped
  iapply (wp_seq 𝒱 none Set.univ d (Pipeline.ucRefs τ sig) _ opsC (sub_uc opsC_sub) (List.forall_iff_forall_mem.mp opsC_fresh) (W4 m d)) $$ [Hb Hh]
  · isplitl [Hb] <;> iassumption
  iintro ⟨Hb, Hh⟩
  -- the second pipelined call
  rw [wp_bind]
  iapply (step_region2 m d _)
  isplitl [Hb]; · iexact Hb
  isplitl [Hh]; · iexact Hh
  isplitl [Hp HO]
  · isplitl [Hp]; · iexact Hp
    iexact HO
  isplitr; · iexact Hlv
  isplitl [HG1]; · iexact HG1
  iintro ⟨Hb, Hh, Hp, HO⟩
  -- the padding rows dropped, and the return
  iapply (wp_seq 𝒱 none Set.univ d (Pipeline.ucRefs τ sig) _ opsD (sub_uc opsD_sub) (List.forall_iff_forall_mem.mp opsD_fresh) (W6 m d)) $$ [Hb Hh]
  · isplitl [Hb] <;> iassumption
  iintro ⟨Hb, Hh⟩
  rw [wp_pure]; imodintro
  isplitl [HO Hst]
  · iapply (Entails.of_eq h1.symm); isplitl [HO] <;> iassumption
  iexact Hh

end Cert.Proof.KB

end
-- ==== Proof.KBLaunch.lean ====
/-
  The launch element of the kernel's run, and how the final memory is read.

  The ghost state is three side by side: the handshakes' rounds, the two pipelines' rounds, and the counters of the
  tiles' own copies. Its launch element is the handshake cells' initial rounds, the pipelines' staging cells' initial
  rounds, and the counters' unit. From it the launch hands the handshake protocol its cells, funds for each TensorCore
  the ghost state of both pipelined calls' staging cells and their transfer tokens (no counter is consumed: the
  TensorCore runs host operations before either call), and drops the counters, which need no schedule. No kernel proof
  consumes anything of the launch's.

  At the end each TensorCore holds every unscoped array at its last contents; held beside the final state's
  interpretation, that says the final memory has those contents.
-/
import proofs.«211135_g34514357191071_cont_8to1_b_641_23_alg».proof.Proof.KBMainPre

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo (held)

variable (m : (ℓ : Loc nD τ sig) → Buf (Elt F) ℓ) (g : Dev nD → PrngReg)

/-! ## The launch element -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem bigSep_emp' {I : Type} (s : Finset I) : (bigSep s fun _ => iprop(emp)) = (iprop(emp) : sProp 𝕄) := bigSep_emp_const s

/-- A TensorCore's share of the funded ghost state, pipeline by pipeline. -/
theorem G_of (d : Dev nD) :
    iprop((bigSep Finset.univ fun p : Fin 2 => Pipeline.cellsGhost (Pipeline.pin (pcfgs (F := F)) adm) EP p d)
        ∗ (bigSep Finset.univ fun p : Fin 2 => (Pipeline.toksInit (Pipeline.pin (pcfgs (F := F)) adm) EP p d : sProp 𝕄)))
      ⊢ G (F := F) d := by
  rw [show (Finset.univ : Finset (Fin 2)) = {0, 1} by decide, SparseCore.bigSep_insert' (by decide), bigSep_singleton,
    SparseCore.bigSep_insert' (by decide), bigSep_singleton]
  iintro ⟨⟨A0, A1⟩, ⟨B0, B1⟩⟩
  isplitl [A0 B0]
  · isplitl [A0] <;> iassumption
  · isplitl [A1] <;> iassumption

/-- The pipelines' rounds, owned as the left factor of the right factor of the ghost state, are owned through `EP`. -/
theorem own_EP (x : UP) :
    (BI.own (((Emb.inl : Emb UP (UP × Counters)).trans (embR (nD := nD) (τ := τ) (sig := sig) (Ix := HIx 1) (Val := Elt F) (Name := ℕ) (Lvl := ℕ) (A := UH) (B := UP × Counters))) x) : sProp 𝕄)
      ⊢ BI.own ((EP : Emb UP 𝕄) x) := by
  unfold EP embR; exact .rfl

variable (cvv : (d : Dev nD) → CallVals F d)

set_option backward.isDefEq.respectTransparency.types false in
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P cvv).x q thr) := by
  unfold u₀
  iintro Hu
  ihave H := (ownU_pair _ _) $$ Hu
  icases H with ⟨HH, HR⟩
  ihave H2 := (own_pair_emb (embR (A := UH) (B := UP × Counters)) _ _) $$ HR
  icases H2 with ⟨HP, -⟩
  ihave HP' := (own_EP (F := F) _) $$ HP
  imod (Pipeline.fund_ghost (Pipeline.pin (pcfgs (F := F)) adm) EP cellOf_inj) $$ HP' with ⟨Hcg, Htk⟩
  imodintro
  isplitl [HH]; · iexact HH
  isplitl [Hcg Htk]
  · ihave Hb := (Entails.of_eq (bigSep_sep' (Finset.univ : Finset (Dev nD))
        (fun d => bigSep Finset.univ fun p : Fin 2 => Pipeline.cellsGhost (Pipeline.pin (pcfgs (F := F)) adm) EP p d)
        (fun d => bigSep Finset.univ fun p : Fin 2 => (Pipeline.toksInit (Pipeline.pin (pcfgs (F := F)) adm) EP p d : sProp 𝕄))).symm) $$ [Hcg Htk]
    · isplitl [Hcg] <;> iassumption
    iapply (SparseCore.ent (bigSep_mono (s := (Finset.univ : Finset (Dev nD))) fun d _ => G_of (F := F) d)); iexact Hb
  rw [show (bigSep Finset.univ fun thr : Thread nD τ => bigSep Finset.univ fun q : Fin 1 => (P cvv).x q thr) = (iprop(emp) : sProp 𝕄) from by
    show (bigSep Finset.univ fun _ : Thread nD τ => bigSep Finset.univ fun _ : Fin 1 => (iprop(emp) : sProp 𝕄)) = _
    rw [bigSep_congr fun _ _ => bigSep_emp' _, bigSep_emp']]
  iempintro

/-! ## Reading the final memory -/

/-- The final memory has every unscoped array of the TensorCore at its last contents. -/
def fq (d : Dev nD) (st : Phys nD τ sig (Elt F)) : Prop := ∀ b ∈ Pipeline.ucRefs τ sig, st.mem.mem (d, b) = W7 m d b

theorem hfin [∀ e, Nonempty (Elt F e)] (d : Dev nD) (st : Phys nD τ sig (Elt F)) : iprop(FIN m d ∗ SI st) ⊢ (⌜fq m d st⌝ : sProp 𝕄) := by
  unfold FIN held
  exact (pointsTo_read_all (Pipeline.ucRefs τ sig) (fun b => ((d, b) : Loc nD τ sig)) (W7 m d) st).trans sep_elim_left

end Cert.Proof.KB

end
-- ==== Proof.KBGatherValue.lean ====
/-
  What one trip leaves in its chunk of a gathered array, read at an index.

  The trip fetches 128 index words (entries row0 … row0 + 127 of a padded index list, row0 the chunk's first row), gathers the
  table rows they name into a 128-row buffer (row j of the buffer is row list[row0 + j] of the table), and copies the buffer
  onto rows row0 … row0 + 127 of the gathered array. So at row row0 + j, column q, the array holds table[list[row0 + j], q]:
  the array's row e is the table's row list[e], which is what the specification of the gather says, on the chunk.
-/
import proofs.«211135_g34514357191071_cont_8to1_b_641_23_alg».proof.Proof.KBSetup
import Idealize.ShloMosaic.Lib.SparseCore.Stream
import Idealize.ShloMosaic.Lib.Writes

noncomputable section

namespace Cert.Proof.KB

open Cert.Kernel Cert.Kernel.Gen

open Idealize.ShloMosaic
open Idealize.ShloMosaic.SparseCore (S V T)

variable {F : FTy → Type}

section SideA

local notation "tabW" => (Memref.whole Cert.Kernel.main_v1_0_scv : Memref Cert.Kernel.sig Kind.scVector Space.hbm Cert.Kernel.S10000x128 EltTy.f32)
local notation "lstW" => (Memref.whole Cert.Kernel.main_v5_scv : Memref Cert.Kernel.sig Kind.scVector Space.hbm Cert.Kernel.S323584 EltTy.i32)
local notation "outW" => (Memref.whole Cert.Kernel.main_v10_0_scv : Memref Cert.Kernel.sig Kind.scVector Space.hbm Cert.Kernel.S323584x128 EltTy.f32)
local notation "idxW" => (Memref.whole Cert.Kernel.cc1_scratch0 : Memref Cert.Kernel.sig Kind.scVector Space.vmem Cert.Kernel.S128 EltTy.i32)
local notation "bufW" => (Memref.whole Cert.Kernel.cc1_scratch2 : Memref Cert.Kernel.sig Kind.scVector Space.vmem Cert.Kernel.S128x128 EltTy.f32)

variable (d : Dev nD) (L : grid1.Coords) (k : Fin k1_t1_loop.trips)
variable (A : Buf (Elt F) (aLoc d)) (sL : Buf (Elt F) (sLoc d))

/-- The fetched chunk of index words. -/
abbrev fetchedA : S128.Idx → Elt F .i32 :=
  ReadAs.same.apply (View.read (Elt F) ((lstW).slice (Rect.unit (s := S323584) (k1_off1 L k) S128.size (k1_off1_inb L k)) (fun _ => rfl)).view sL)

/-- The chunk's first row, in closed form. -/
abbrev rowA : Nat := 20224 * (L 1).val + 10112 * (L 0).val + 128 * k.val

/-- An element of the chunk, by its position in the chunk: row rowA + its row, its own column. -/
theorem chunk_emb_A (y : S128x128.Idx) :
    ((((outW).slice (chunkRect L k) (fun _ => rfl)).view.emb y) 0).val = rowA L k + (y 0).val
      ∧ ((((outW).slice (chunkRect L k) (fun _ => rfl)).view.emb y) 1).val = (y 1).val := by
  have h0 : ((((outW).slice (chunkRect L k) (fun _ => rfl)).view.emb y) 0).val = (k1_off2 L k) 0 + 1 * (y 0).val := rfl
  have h1 : ((((outW).slice (chunkRect L k) (fun _ => rfl)).view.emb y) 1).val = (k1_off2 L k) 1 + 1 * (y 1).val := rfl
  rw [h0, h1, k1_off2_eq]
  constructor
  · show 20224 * (L 1).val + 10112 * (L 0).val + 128 * k.val + 1 * (y 0).val = 20224 * (L 1).val + 10112 * (L 0).val + 128 * k.val + (y 0).val; omega
  · show 0 + 1 * (y 1).val = _; omega

/-- The j-th fetched word is entry rowA + j of the list. -/
theorem fetched_at_A (j : S128.Idx) (i : S323584.Idx) (hi : (i 0).val = rowA L k + (j 0).val) : fetchedA d L k sL j = sL i := by
  show sL ((((lstW).slice (Rect.unit (s := S323584) (k1_off1 L k) S128.size (k1_off1_inb L k)) (fun _ => rfl)).view.emb j)) = sL i
  congr 1
  funext a
  match a with
  | ⟨0, _⟩ =>
    apply Fin.ext
    show (k1_off1 L k) 0 + 1 * (j 0).val = (i 0).val
    rw [k1_off1_eq, hi]
    show 20224 * (L 1).val + 10112 * (L 0).val + 128 * k.val + 1 * (j 0).val = 20224 * (L 1).val + 10112 * (L 0).val + 128 * k.val + (j 0).val; omega

/-- What the row buffer holds after the gather, as a function of its index. -/
abbrev gatherA (g0 : (idxW).view.ty.Contents (Elt F))
    (hin : ∀ j, ((idxW).view.read (Elt F) (View.write (Elt F) (idxW).view g0 (fetchedA d L k sL) Finset.univ) j).toNat
      < S10000x128.size gathers_S10000x128_S128x128.axis) : S128x128.Idx → Elt F .f32 :=
  SparseCore.gatherPayload gathers_S10000x128_S128x128
    (View.read (Elt F) ((tabW).slice (Rect.unit (s := S10000x128) ![0, 0] S10000x128.size inb_S10000x128_S10000x128_0_0) (fun _ => rfl)).view A)
    (SparseCore.rows (View.read (Elt F) (idxW).view (View.write (Elt F) (idxW).view g0 (fetchedA d L k sL) Finset.univ)) rfl hin)

/-- Row j of the buffer is the table's row named by entry rowA + j of the list; the columns are the table's own. -/
theorem gatherA_at (hok : ∀ x : S323584.Idx, (sL x).toNat < 10000) (g0 : (idxW).view.ty.Contents (Elt F))
    (hin : ∀ j, ((idxW).view.read (Elt F) (View.write (Elt F) (idxW).view g0 (fetchedA d L k sL) Finset.univ) j).toNat
      < S10000x128.size gathers_S10000x128_S128x128.axis)
    (y : S128x128.Idx) (i : S323584.Idx) (hi : (i 0).val = rowA L k + (y 0).val) (q : Fin 128) (hq : q.val = (y 1).val) :
    gatherA d L k A sL g0 hin y = A (ValueIdx.ix2 (rowIx (sL i)) q) := by
  -- the entry of the fetched list that names y's row
  have hj : ((S128.rowMajor.symm ((y gathers_S10000x128_S128x128.axis').cast (rfl : S128x128.size gathers_S10000x128_S128x128.axis' = S128.numel))) 0).val = (y 0).val := by
    have h := Shape.rowMajor_val_one (d := ![128]) (S128.rowMajor.symm ((y gathers_S10000x128_S128x128.axis').cast (rfl : S128x128.size gathers_S10000x128_S128x128.axis' = S128.numel)))
    rw [Equiv.apply_symm_apply] at h
    exact h.symm
  have hrow : (SparseCore.rows (View.read (Elt F) (idxW).view (View.write (Elt F) (idxW).view g0 (fetchedA d L k sL) Finset.univ)) rfl hin
      (y gathers_S10000x128_S128x128.axis')).val = (sL i).toNat := by
    show (View.read (Elt F) (idxW).view (View.write (Elt F) (idxW).view g0 (fetchedA d L k sL) Finset.univ) _).toNat = _
    rw [View.read_write_univ]
    exact congrArg BitVec.toNat (fetched_at_A d L k sL _ i (by rw [hi]; exact congrArg (rowA L k + ·) hj.symm))
  show A ((((tabW).slice (Rect.unit (s := S10000x128) ![0, 0] S10000x128.size inb_S10000x128_S10000x128_0_0) (fun _ => rfl)).view.emb
      (gathers_S10000x128_S128x128.idx _ y))) = _
  congr 1
  funext a
  match a with
  | ⟨0, h0⟩ =>
    apply Fin.ext
    have e : ((((tabW).slice (Rect.unit (s := S10000x128) ![0, 0] S10000x128.size inb_S10000x128_S10000x128_0_0) (fun _ => rfl)).view.emb
        (gathers_S10000x128_S128x128.idx (SparseCore.rows (View.read (Elt F) (idxW).view (View.write (Elt F) (idxW).view g0 (fetchedA d L k sL) Finset.univ)) rfl hin) y)) ⟨0, h0⟩).val
        = 0 + 1 * ((gathers_S10000x128_S128x128.idx (SparseCore.rows (View.read (Elt F) (idxW).view (View.write (Elt F) (idxW).view g0 (fetchedA d L k sL) Finset.univ)) rfl hin) y)
            gathers_S10000x128_S128x128.axis).val := rfl
    rw [e, Shape.Gathers.idx_axis]
    refine (congrArg (fun n => 0 + 1 * n) hrow).trans ?_
    show 0 + 1 * (sL i).toNat = (rowIx (sL i)).val
    rw [rowIx_val (hok i)]; omega
  | ⟨1, h1⟩ =>
    apply Fin.ext
    have e : ((((tabW).slice (Rect.unit (s := S10000x128) ![0, 0] S10000x128.size inb_S10000x128_S10000x128_0_0) (fun _ => rfl)).view.emb
        (gathers_S10000x128_S128x128.idx (SparseCore.rows (View.read (Elt F) (idxW).view (View.write (Elt F) (idxW).view g0 (fetchedA d L k sL) Finset.univ)) rfl hin) y)) ⟨1, h1⟩).val
        = 0 + 1 * ((gathers_S10000x128_S128x128.idx (SparseCore.rows (View.read (Elt F) (idxW).view (View.write (Elt F) (idxW).view g0 (fetchedA d L k sL) Finset.univ)) rfl hin) y)
            ⟨1, h1⟩).val := rfl
    rw [e, Shape.Gathers.idx_of_ne _ _ _ ⟨1, h1⟩ (show (1 : Nat) ≠ 0 from Nat.one_ne_zero)]
    show 0 + 1 * (y 1).val = q.val
    omega

/-- The chunk as the trip leaves it is, on the chunk's index set, the gather's specification. -/
theorem gathered_A (hok : ∀ x : S323584.Idx, (sL x).toNat < 10000) (g0 : (idxW).view.ty.Contents (Elt F)) (g2 : (bufW).view.ty.Contents (Elt F))
    (fa : Buf (Elt F) (gaLoc d))
    (hin : ∀ j, ((idxW).view.read (Elt F) (View.write (Elt F) (idxW).view g0 (fetchedA d L k sL) Finset.univ) j).toNat
      < S10000x128.size gathers_S10000x128_S128x128.axis) :
    ∀ x ∈ chunkSet L k,
      (((outW).slice (chunkRect L k) (fun _ => rfl)).view.writes (Elt F) fa
        [⟨Rect.whole (chunkRect L k).shape,
          ReadAs.same.apply (View.read (Elt F) (bufW).view
            ((bufW).view.writes (Elt F) g2 [⟨Rect.whole cc1_scratch2.ty.shape, gatherA d L k A sL g0 hin⟩]))⟩]) x
        = A (ValueIdx.ix2 (rowIx (sL (ValueIdx.ix1 (x 0)))) (x 1)) := by
  intro x hx
  have hx' : x ∈ Finset.univ.map ((outW).slice (chunkRect L k) (fun _ => rfl)).view.emb := hx
  obtain ⟨y, -, rfl⟩ := Finset.mem_map.mp hx'
  have e1 := View.read_writes_cons_emb ((outW).slice (chunkRect L k) (fun _ => rfl)).view fa (Rect.whole (chunkRect L k).shape)
    (ReadAs.same.apply (View.read (Elt F) (bufW).view
      ((bufW).view.writes (Elt F) g2 [⟨Rect.whole cc1_scratch2.ty.shape, gatherA d L k A sL g0 hin⟩]))) [] y
  have hy1 : (Rect.whole (chunkRect L k).shape).emb y = y := by
    funext a; apply Fin.ext; show 0 + 1 * (y a).val = (y a).val; omega
  rw [hy1] at e1
  have e2 := View.read_writes_cons_emb (bufW).view g2 (Rect.whole cc1_scratch2.ty.shape) (gatherA d L k A sL g0 hin) [] y
  have hy2 : (Rect.whole cc1_scratch2.ty.shape).emb y = y := by
    funext a; apply Fin.ext; show 0 + 1 * (y a).val = (y a).val; omega
  rw [hy2] at e2
  refine e1.trans (e2.trans ?_)
  exact gatherA_at d L k A sL hok g0 hin y _ (chunk_emb_A L k y).1 _ (chunk_emb_A L k y).2

end SideA

section SideB

local notation "tabW" => (Memref.whole Cert.Kernel.main_v1_1_scv : Memref Cert.Kernel.sig Kind.scVector Space.hbm Cert.Kernel.S10000x128 EltTy.f32)
local notation "lstW" => (Memref.whole Cert.Kernel.main_v9_scv : Memref Cert.Kernel.sig Kind.scVector Space.hbm Cert.Kernel.S323584 EltTy.i32)
local notation "outW" => (Memref.whole Cert.Kernel.main_v10_1_scv : Memref Cert.Kernel.sig Kind.scVector Space.hbm Cert.Kernel.S323584x128 EltTy.f32)
local notation "idxW" => (Memref.whole Cert.Kernel.cc1_scratch1 : Memref Cert.Kernel.sig Kind.scVector Space.vmem Cert.Kernel.S128 EltTy.i32)
local notation "bufW" => (Memref.whole Cert.Kernel.cc1_scratch3 : Memref Cert.Kernel.sig Kind.scVector Space.vmem Cert.Kernel.S128x128 EltTy.f32)

variable (d : Dev nD) (L : grid1.Coords) (k : Fin k1_t1_loop.trips)
variable (A : Buf (Elt F) (bLoc d)) (sL : Buf (Elt F) (tLoc d))

/-- The fetched chunk of index words. -/
abbrev fetchedB : S128.Idx → Elt F .i32 :=
  ReadAs.same.apply (View.read (Elt F) ((lstW).slice (Rect.unit (s := S323584) (k1_off1 L k) S128.size (k1_off1_inb L k)) (fun _ => rfl)).view sL)

/-- The chunk's first row, in closed form. -/
abbrev rowB : Nat := 20224 * (L 1).val + 10112 * (L 0).val + 128 * k.val

/-- An element of the chunk, by its position in the chunk: row rowB + its row, its own column. -/
theorem chunk_emb_B (y : S128x128.Idx) :
    ((((outW).slice (chunkRect L k) (fun _ => rfl)).view.emb y) 0).val = rowB L k + (y 0).val
      ∧ ((((outW).slice (chunkRect L k) (fun _ => rfl)).view.emb y) 1).val = (y 1).val := by
  have h0 : ((((outW).slice (chunkRect L k) (fun _ => rfl)).view.emb y) 0).val = (k1_off2 L k) 0 + 1 * (y 0).val := rfl
  have h1 : ((((outW).slice (chunkRect L k) (fun _ => rfl)).view.emb y) 1).val = (k1_off2 L k) 1 + 1 * (y 1).val := rfl
  rw [h0, h1, k1_off2_eq]
  constructor
  · show 20224 * (L 1).val + 10112 * (L 0).val + 128 * k.val + 1 * (y 0).val = 20224 * (L 1).val + 10112 * (L 0).val + 128 * k.val + (y 0).val; omega
  · show 0 + 1 * (y 1).val = _; omega

/-- The j-th fetched word is entry rowB + j of the list. -/
theorem fetched_at_B (j : S128.Idx) (i : S323584.Idx) (hi : (i 0).val = rowB L k + (j 0).val) : fetchedB d L k sL j = sL i := by
  show sL ((((lstW).slice (Rect.unit (s := S323584) (k1_off1 L k) S128.size (k1_off1_inb L k)) (fun _ => rfl)).view.emb j)) = sL i
  congr 1
  funext a
  match a with
  | ⟨0, _⟩ =>
    apply Fin.ext
    show (k1_off1 L k) 0 + 1 * (j 0).val = (i 0).val
    rw [k1_off1_eq, hi]
    show 20224 * (L 1).val + 10112 * (L 0).val + 128 * k.val + 1 * (j 0).val = 20224 * (L 1).val + 10112 * (L 0).val + 128 * k.val + (j 0).val; omega

/-- What the row buffer holds after the gather, as a function of its index. -/
abbrev gatherB (g0 : (idxW).view.ty.Contents (Elt F))
    (hin : ∀ j, ((idxW).view.read (Elt F) (View.write (Elt F) (idxW).view g0 (fetchedB d L k sL) Finset.univ) j).toNat
      < S10000x128.size gathers_S10000x128_S128x128.axis) : S128x128.Idx → Elt F .f32 :=
  SparseCore.gatherPayload gathers_S10000x128_S128x128
    (View.read (Elt F) ((tabW).slice (Rect.unit (s := S10000x128) ![0, 0] S10000x128.size inb_S10000x128_S10000x128_0_0) (fun _ => rfl)).view A)
    (SparseCore.rows (View.read (Elt F) (idxW).view (View.write (Elt F) (idxW).view g0 (fetchedB d L k sL) Finset.univ)) rfl hin)

/-- Row j of the buffer is the table's row named by entry rowB + j of the list; the columns are the table's own. -/
theorem gatherB_at (hok : ∀ x : S323584.Idx, (sL x).toNat < 10000) (g0 : (idxW).view.ty.Contents (Elt F))
    (hin : ∀ j, ((idxW).view.read (Elt F) (View.write (Elt F) (idxW).view g0 (fetchedB d L k sL) Finset.univ) j).toNat
      < S10000x128.size gathers_S10000x128_S128x128.axis)
    (y : S128x128.Idx) (i : S323584.Idx) (hi : (i 0).val = rowB L k + (y 0).val) (q : Fin 128) (hq : q.val = (y 1).val) :
    gatherB d L k A sL g0 hin y = A (ValueIdx.ix2 (rowIx (sL i)) q) := by
  -- the entry of the fetched list that names y's row
  have hj : ((S128.rowMajor.symm ((y gathers_S10000x128_S128x128.axis').cast (rfl : S128x128.size gathers_S10000x128_S128x128.axis' = S128.numel))) 0).val = (y 0).val := by
    have h := Shape.rowMajor_val_one (d := ![128]) (S128.rowMajor.symm ((y gathers_S10000x128_S128x128.axis').cast (rfl : S128x128.size gathers_S10000x128_S128x128.axis' = S128.numel)))
    rw [Equiv.apply_symm_apply] at h
    exact h.symm
  have hrow : (SparseCore.rows (View.read (Elt F) (idxW).view (View.write (Elt F) (idxW).view g0 (fetchedB d L k sL) Finset.univ)) rfl hin
      (y gathers_S10000x128_S128x128.axis')).val = (sL i).toNat := by
    show (View.read (Elt F) (idxW).view (View.write (Elt F) (idxW).view g0 (fetchedB d L k sL) Finset.univ) _).toNat = _
    rw [View.read_write_univ]
    exact congrArg BitVec.toNat (fetched_at_B d L k sL _ i (by rw [hi]; exact congrArg (rowB L k + ·) hj.symm))
  show A ((((tabW).slice (Rect.unit (s := S10000x128) ![0, 0] S10000x128.size inb_S10000x128_S10000x128_0_0) (fun _ => rfl)).view.emb
      (gathers_S10000x128_S128x128.idx _ y))) = _
  congr 1
  funext a
  match a with
  | ⟨0, h0⟩ =>
    apply Fin.ext
    have e : ((((tabW).slice (Rect.unit (s := S10000x128) ![0, 0] S10000x128.size inb_S10000x128_S10000x128_0_0) (fun _ => rfl)).view.emb
        (gathers_S10000x128_S128x128.idx (SparseCore.rows (View.read (Elt F) (idxW).view (View.write (Elt F) (idxW).view g0 (fetchedB d L k sL) Finset.univ)) rfl hin) y)) ⟨0, h0⟩).val
        = 0 + 1 * ((gathers_S10000x128_S128x128.idx (SparseCore.rows (View.read (Elt F) (idxW).view (View.write (Elt F) (idxW).view g0 (fetchedB d L k sL) Finset.univ)) rfl hin) y)
            gathers_S10000x128_S128x128.axis).val := rfl
    rw [e, Shape.Gathers.idx_axis]
    refine (congrArg (fun n => 0 + 1 * n) hrow).trans ?_
    show 0 + 1 * (sL i).toNat = (rowIx (sL i)).val
    rw [rowIx_val (hok i)]; omega
  | ⟨1, h1⟩ =>
    apply Fin.ext
    have e : ((((tabW).slice (Rect.unit (s := S10000x128) ![0, 0] S10000x128.size inb_S10000x128_S10000x128_0_0) (fun _ => rfl)).view.emb
        (gathers_S10000x128_S128x128.idx (SparseCore.rows (View.read (Elt F) (idxW).view (View.write (Elt F) (idxW).view g0 (fetchedB d L k sL) Finset.univ)) rfl hin) y)) ⟨1, h1⟩).val
        = 0 + 1 * ((gathers_S10000x128_S128x128.idx (SparseCore.rows (View.read (Elt F) (idxW).view (View.write (Elt F) (idxW).view g0 (fetchedB d L k sL) Finset.univ)) rfl hin) y)
            ⟨1, h1⟩).val := rfl
    rw [e, Shape.Gathers.idx_of_ne _ _ _ ⟨1, h1⟩ (show (1 : Nat) ≠ 0 from Nat.one_ne_zero)]
    show 0 + 1 * (y 1).val = q.val
    omega

/-- The chunk as the trip leaves it is, on the chunk's index set, the gather's specification. -/
theorem gathered_B (hok : ∀ x : S323584.Idx, (sL x).toNat < 10000) (g0 : (idxW).view.ty.Contents (Elt F)) (g2 : (bufW).view.ty.Contents (Elt F))
    (fa : Buf (Elt F) (gbLoc d))
    (hin : ∀ j, ((idxW).view.read (Elt F) (View.write (Elt F) (idxW).view g0 (fetchedB d L k sL) Finset.univ) j).toNat
      < S10000x128.size gathers_S10000x128_S128x128.axis) :
    ∀ x ∈ chunkSet L k,
      (((outW).slice (chunkRect L k) (fun _ => rfl)).view.writes (Elt F) fa
        [⟨Rect.whole (chunkRect L k).shape,
          ReadAs.same.apply (View.read (Elt F) (bufW).view
            ((bufW).view.writes (Elt F) g2 [⟨Rect.whole cc1_scratch3.ty.shape, gatherB d L k A sL g0 hin⟩]))⟩]) x
        = A (ValueIdx.ix2 (rowIx (sL (ValueIdx.ix1 (x 0)))) (x 1)) := by
  intro x hx
  have hx' : x ∈ Finset.univ.map ((outW).slice (chunkRect L k) (fun _ => rfl)).view.emb := hx
  obtain ⟨y, -, rfl⟩ := Finset.mem_map.mp hx'
  have e1 := View.read_writes_cons_emb ((outW).slice (chunkRect L k) (fun _ => rfl)).view fa (Rect.whole (chunkRect L k).shape)
    (ReadAs.same.apply (View.read (Elt F) (bufW).view
      ((bufW).view.writes (Elt F) g2 [⟨Rect.whole cc1_scratch3.ty.shape, gatherB d L k A sL g0 hin⟩]))) [] y
  have hy1 : (Rect.whole (chunkRect L k).shape).emb y = y := by
    funext a; apply Fin.ext; show 0 + 1 * (y a).val = (y a).val; omega
  rw [hy1] at e1
  have e2 := View.read_writes_cons_emb (bufW).view g2 (Rect.whole cc1_scratch3.ty.shape) (gatherB d L k A sL g0 hin) [] y
  have hy2 : (Rect.whole cc1_scratch3.ty.shape).emb y = y := by
    funext a; apply Fin.ext; show 0 + 1 * (y a).val = (y a).val; omega
  rw [hy2] at e2
  refine e1.trans (e2.trans ?_)
  exact gatherB_at d L k A sL hok g0 hin y _ (chunk_emb_B L k y).1 _ (chunk_emb_B L k y).2

end SideB

end Cert.Proof.KB

end
-- ==== Proof.KBTile.lean ====
/-
  One tile's task: 79 trips, each fetching a chunk of 128 source indices and 128 destination indices into the tile's two index
  lists, gathering the rows they name out of the two node tables into the tile's two row buffers, and copying the buffers out
  to the tile's chunk of the two gathered arrays. Every copy is the tile's own, waited for before anything touches its ends.
-/
import proofs.«211135_g34514357191071_cont_8to1_b_641_23_alg».proof.Proof.KBSetup
import proofs.«211135_g34514357191071_cont_8to1_b_641_23_alg».proof.Proof.KBGatherValue
import Idealize.ShloMosaic.Lib.SparseCore.Ops

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
local notation "aW" => (Memref.whole Cert.Kernel.main_v1_0_scv : Memref Cert.Kernel.sig Kind.scVector Space.hbm Cert.Kernel.S10000x128 EltTy.f32)
local notation "bW" => (Memref.whole Cert.Kernel.main_v1_1_scv : Memref Cert.Kernel.sig Kind.scVector Space.hbm Cert.Kernel.S10000x128 EltTy.f32)
local notation "sW" => (Memref.whole Cert.Kernel.main_v5_scv : Memref Cert.Kernel.sig Kind.scVector Space.hbm Cert.Kernel.S323584 EltTy.i32)
local notation "tW" => (Memref.whole Cert.Kernel.main_v9_scv : Memref Cert.Kernel.sig Kind.scVector Space.hbm Cert.Kernel.S323584 EltTy.i32)
local notation "gaW" => (Memref.whole Cert.Kernel.main_v10_0_scv : Memref Cert.Kernel.sig Kind.scVector Space.hbm Cert.Kernel.S323584x128 EltTy.f32)
local notation "gbW" => (Memref.whole Cert.Kernel.main_v10_1_scv : Memref Cert.Kernel.sig Kind.scVector Space.hbm Cert.Kernel.S323584x128 EltTy.f32)
local notation "isW" => (Memref.whole Cert.Kernel.cc1_scratch0 : Memref Cert.Kernel.sig Kind.scVector Space.vmem Cert.Kernel.S128 EltTy.i32)
local notation "idW" => (Memref.whole Cert.Kernel.cc1_scratch1 : Memref Cert.Kernel.sig Kind.scVector Space.vmem Cert.Kernel.S128 EltTy.i32)
local notation "baW" => (Memref.whole Cert.Kernel.cc1_scratch2 : Memref Cert.Kernel.sig Kind.scVector Space.vmem Cert.Kernel.S128x128 EltTy.f32)
local notation "bbW" => (Memref.whole Cert.Kernel.cc1_scratch3 : Memref Cert.Kernel.sig Kind.scVector Space.vmem Cert.Kernel.S128x128 EltTy.f32)

theorem scratch0_nmem : (cc1_scratch0 : Ref sig .scVector) ∉ ({cc1_scratch1, cc1_scratch2, cc1_scratch3} : Finset (Ref sig .scVector)) := by decide
theorem scratch1_nmem : (cc1_scratch1 : Ref sig .scVector) ∉ ({cc1_scratch2, cc1_scratch3} : Finset (Ref sig .scVector)) := by decide
theorem scratch2_nmem : (cc1_scratch2 : Ref sig .scVector) ∉ ({cc1_scratch3} : Finset (Ref sig .scVector)) := by decide

section Tile

variable [FloatOps F] (cv : (d : Dev nD) → CallVals F d) (d : Dev nD) (L : grid1.Coords)

abbrev cV (L : grid1.Coords) : Fin τ.nSC := (L 0).castLE hcore1
abbrev jV (L : grid1.Coords) : Fin τ.nSub := (L 1).castLE hsub1

/-- The tile's six semaphores, as cells. -/
abbrev cell (x : DmaSems sig S_) : GSem nD τ sig := (V d (cV L) (jV L), .dma x.sem)

/-- The six, as semaphores of a vector subcore. -/
def sixSems : Finset (SemLoc sig) :=
  {.dma cc1_scratch4.sem, .dma cc1_scratch5.sem, .dma cc1_scoped0.sem, .dma cc1_scoped1.sem, .dma cc1_scoped2.sem, .dma cc1_scoped3.sem}
def sixCells : Finset (GSem nD τ sig) := sixSems.map ⟨Prod.mk (V d (cV L) (jV L)), Prod.mk_right_injective _⟩

omit [FloatOps F] in
theorem sixCells_sub : sixCells d L ⊆ ownCells (V d (cV L) (jV L)) := by
  intro g hg
  obtain ⟨sm, hsm, rfl⟩ := Finset.mem_map.mp hg
  refine mem_ownCells.mpr ⟨rfl, ?_⟩
  have : ∀ sm ∈ sixSems, (sm : SemLoc sig).isScoped .scVector = true := by decide
  exact this sm hsm

omit [FloatOps F] in
/-- The tile's scoped semaphores at zero are its six and the rest. -/
theorem ownSems0_V :
    (ownSems0 (V d (cV L) (jV L)) : sProp 𝕄)
      = iprop((semVal (cell d L cc1_scratch4) 0 ∗ semVal (cell d L cc1_scratch5) 0 ∗ semVal (cell d L cc1_scoped0) 0
          ∗ semVal (cell d L cc1_scoped1) 0 ∗ semVal (cell d L cc1_scoped2) 0 ∗ semVal (cell d L cc1_scoped3) 0)
          ∗ bigSep (ownCells (V d (cV L) (jV L)) \ sixCells d L) fun g => semVal g 0) := by
  unfold SparseCore.Cfg.ownSems0
  rw [SparseCore.bigSep_sdiff_split' (sixCells_sub d L)]
  congr 1
  unfold sixCells sixSems
  rw [bigSep_map, SparseCore.bigSep_insert' (by decide), SparseCore.bigSep_insert' (by decide), SparseCore.bigSep_insert' (by decide),
    SparseCore.bigSep_insert' (by decide), SparseCore.bigSep_insert' (by decide), bigSep_singleton]
  rfl

/-- The four scratch buffers, as a vector subcore's references. -/
def fourRefs : Finset (Ref sig .scVector) := {cc1_scratch0, cc1_scratch1, cc1_scratch2, cc1_scratch3}
def fourBufs : Finset (DevRef τ sig) :=
  fourRefs.map ⟨(Proc.scVector (cV L) (jV L)).devRef, Proc.devRef_injective _⟩

omit [FloatOps F] in
theorem fourBufs_sub : fourBufs L ⊆ ownRefs (τ := τ) (.scVector (cV L) (jV L)) := by
  intro b hb
  obtain ⟨r, hr, rfl⟩ := Finset.mem_map.mp hb
  simp only [fourRefs, Finset.mem_insert, Finset.mem_singleton] at hr
  rcases hr with rfl | rfl | rfl | rfl <;> exact SparseCore.Cfg.mem_ownRefs_of_owner rfl

omit [FloatOps F] in
/-- The tile's own buffers, each whole at some contents, are its four scratch buffers and the rest. -/
theorem ownBufs_V :
    (ownBufs (V d (cV L) (jV L)) : sProp 𝕄)
      = iprop(((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f))
          ∗ bigSep (ownRefs (τ := τ) (.scVector (cV L) (jV L)) \ fourBufs L) fun b => iprop(∃ f, ((d, b) : Loc nD τ sig) ↦{fullShare} f)) := by
  unfold SparseCore.Cfg.ownBufs
  rw [show (V d (cV L) (jV L) : Thread nD τ).2 = .scVector (cV L) (jV L) from rfl, SparseCore.bigSep_sdiff_split' (fourBufs_sub L)]
  congr 1
  unfold fourBufs fourRefs
  rw [bigSep_map, SparseCore.bigSep_insert' scratch0_nmem, SparseCore.bigSep_insert' scratch1_nmem, SparseCore.bigSep_insert' scratch2_nmem, bigSep_singleton]
  rfl

end Tile

/-! ## The loop's invariant and the body -/

section Body

variable [FloatOps F] (cv : (d : Dev nD) → CallVals F d) (d : Dev nD) (L : grid1.Coords)

/-- Chunk j of the first gathered array before trip k: written if the trip that writes it is past, anything otherwise. -/
def chunkA (k : Nat) (j : Fin k1_t1_loop.trips) : sProp 𝕄 :=
  if j.val < k then gaLoc d ↦[chunkSet L j]{fullShare} GAof cv d else iprop(∃ f : Buf (Elt F) (gaLoc d), gaLoc d ↦[chunkSet L j]{fullShare} f)
def chunkB (k : Nat) (j : Fin k1_t1_loop.trips) : sProp 𝕄 :=
  if j.val < k then gbLoc d ↦[chunkSet L j]{fullShare} GBof cv d else iprop(∃ f : Buf (Elt F) (gbLoc d), gbLoc d ↦[chunkSet L j]{fullShare} f)

/-- Before trip k: the four operands' read shares, the four scratch buffers at whatever they hold, the six counters at
    zero, the tile's chunks of the two gathered arrays — those of the trips past written —, and the tile's debts as the
    call left them, with only waits on its own semaphores recorded since. -/
def inv (O : CellTallies nD τ sig (HIx 1)) (W : Waits sig (HIx 1)) (k : Nat) (_ : PUnit) : sProp 𝕄 :=
  iprop(Transfers.MayWaits (V d (cV L) (jV L)) (none : HIx 1) O
    ∗ ((aW).view.loc (V d (cV L) (jV L)) ↦{qV L} (cv d).A)
    ∗ ((bW).view.loc (V d (cV L) (jV L)) ↦{qV L} (cv d).B)
    ∗ ((sW).view.loc (V d (cV L) (jV L)) ↦{qV L} (cv d).s)
    ∗ ((tW).view.loc (V d (cV L) (jV L)) ↦{qV L} (cv d).t)
    ∗ (∃ f, (isW).view.loc (V d (cV L) (jV L)) ↦{fullShare} f)
    ∗ (∃ f, (idW).view.loc (V d (cV L) (jV L)) ↦{fullShare} f)
    ∗ (∃ f, (baW).view.loc (V d (cV L) (jV L)) ↦{fullShare} f)
    ∗ (∃ f, (bbW).view.loc (V d (cV L) (jV L)) ↦{fullShare} f)
    ∗ semVal (cell d L cc1_scratch4) 0 ∗ semVal (cell d L cc1_scratch5) 0 ∗ semVal (cell d L cc1_scoped0) 0
    ∗ semVal (cell d L cc1_scoped1) 0 ∗ semVal (cell d L cc1_scoped2) 0 ∗ semVal (cell d L cc1_scoped3) 0
    ∗ (bigSep Finset.univ fun j : Fin k1_t1_loop.trips => chunkA cv d L k j)
    ∗ (bigSep Finset.univ fun j : Fin k1_t1_loop.trips => chunkB cv d L k j)
    ∗ ∃ W', ⌜∀ p ∈ W', p ∈ W ∨ p.2 = none⌝ ∗ owes (V d (cV L) (jV L)) O W')

omit [FloatOps F] in
theorem chunkA_zero : (bigSep Finset.univ fun j : Fin k1_t1_loop.trips => chunkA cv d L 0 j)
    = bigSep Finset.univ fun j : Fin k1_t1_loop.trips => iprop(∃ f : Buf (Elt F) (gaLoc d), gaLoc d ↦[chunkSet L j]{fullShare} f) :=
  bigSep_congr fun j _ => if_neg (Nat.not_lt_zero _)
omit [FloatOps F] in
theorem chunkB_zero : (bigSep Finset.univ fun j : Fin k1_t1_loop.trips => chunkB cv d L 0 j)
    = bigSep Finset.univ fun j : Fin k1_t1_loop.trips => iprop(∃ f : Buf (Elt F) (gbLoc d), gbLoc d ↦[chunkSet L j]{fullShare} f) :=
  bigSep_congr fun j _ => if_neg (Nat.not_lt_zero _)
omit [FloatOps F] in
theorem chunkA_all (n : Nat) (hn : ∀ j : Fin k1_t1_loop.trips, j.val < n) : (bigSep Finset.univ fun j : Fin k1_t1_loop.trips => chunkA cv d L n j)
    = bigSep Finset.univ fun j : Fin k1_t1_loop.trips => gaLoc d ↦[chunkSet L j]{fullShare} GAof cv d :=
  bigSep_congr fun j _ => if_pos (hn j)
omit [FloatOps F] in
theorem chunkB_all (n : Nat) (hn : ∀ j : Fin k1_t1_loop.trips, j.val < n) : (bigSep Finset.univ fun j : Fin k1_t1_loop.trips => chunkB cv d L n j)
    = bigSep Finset.univ fun j : Fin k1_t1_loop.trips => gbLoc d ↦[chunkSet L j]{fullShare} GBof cv d :=
  bigSep_congr fun j _ => if_pos (hn j)
omit [FloatOps F] in
/-- Chunk k at trip k is not written yet; -/
theorem chunkA_self (k : Fin k1_t1_loop.trips) : chunkA cv d L k.val k = iprop(∃ f : Buf (Elt F) (gaLoc d), gaLoc d ↦[chunkSet L k]{fullShare} f) :=
  if_neg (lt_irrefl _)
omit [FloatOps F] in
theorem chunkB_self (k : Fin k1_t1_loop.trips) : chunkB cv d L k.val k = iprop(∃ f : Buf (Elt F) (gbLoc d), gbLoc d ↦[chunkSet L k]{fullShare} f) :=
  if_neg (lt_irrefl _)
omit [FloatOps F] in
/-- after it, it is; -/
theorem chunkA_next (k : Fin k1_t1_loop.trips) : chunkA cv d L (k.val + 1) k = (gaLoc d ↦[chunkSet L k]{fullShare} GAof cv d) :=
  if_pos (Nat.lt_succ_self _)
omit [FloatOps F] in
theorem chunkB_next (k : Fin k1_t1_loop.trips) : chunkB cv d L (k.val + 1) k = (gbLoc d ↦[chunkSet L k]{fullShare} GBof cv d) :=
  if_pos (Nat.lt_succ_self _)
omit [FloatOps F] in
/-- and the other chunks are as they were. -/
theorem chunkA_others (k : Fin k1_t1_loop.trips) :
    (bigSep (Finset.univ.erase k) fun j : Fin k1_t1_loop.trips => chunkA cv d L k.val j) = bigSep (Finset.univ.erase k) fun j => chunkA cv d L (k.val + 1) j :=
  bigSep_congr fun j hj => by
    have hne : j.val ≠ k.val := fun e => (Finset.mem_erase.mp hj).1 (Fin.ext e)
    unfold chunkA; congr 1; exact propext ⟨fun h => Nat.lt_succ_of_lt h, fun h => lt_of_le_of_ne (Nat.lt_succ_iff.mp h) hne⟩
omit [FloatOps F] in
theorem chunkB_others (k : Fin k1_t1_loop.trips) :
    (bigSep (Finset.univ.erase k) fun j : Fin k1_t1_loop.trips => chunkB cv d L k.val j) = bigSep (Finset.univ.erase k) fun j => chunkB cv d L (k.val + 1) j :=
  bigSep_congr fun j hj => by
    have hne : j.val ≠ k.val := fun e => (Finset.mem_erase.mp hj).1 (Fin.ext e)
    unfold chunkB; congr 1; exact propext ⟨fun h => Nat.lt_succ_of_lt h, fun h => lt_of_le_of_ne (Nat.lt_succ_iff.mp h) hne⟩

omit [FloatOps F] in
/-- The arrays as the tile's memrefs address them are the TensorCore's arrays. -/
theorem pts_a (q : PosShare TreeShare) (f : Buf (Elt F) (aLoc d)) : ((aW).view.loc (V d (cV L) (jV L)) ↦{q} f : sProp 𝕄) = aLoc d ↦{q} f := by
  simp only [Memref.view_whole, View.set_whole]
omit [FloatOps F] in
theorem pts_b (q : PosShare TreeShare) (f : Buf (Elt F) (bLoc d)) : ((bW).view.loc (V d (cV L) (jV L)) ↦{q} f : sProp 𝕄) = bLoc d ↦{q} f := by
  simp only [Memref.view_whole, View.set_whole]
omit [FloatOps F] in
theorem pts_s (q : PosShare TreeShare) (f : Buf (Elt F) (sLoc d)) : ((sW).view.loc (V d (cV L) (jV L)) ↦{q} f : sProp 𝕄) = sLoc d ↦{q} f := by
  simp only [Memref.view_whole, View.set_whole]
omit [FloatOps F] in
theorem pts_t (q : PosShare TreeShare) (f : Buf (Elt F) (tLoc d)) : ((tW).view.loc (V d (cV L) (jV L)) ↦{q} f : sProp 𝕄) = tLoc d ↦{q} f := by
  simp only [Memref.view_whole, View.set_whole]

omit [FloatOps F] in
/-- A chunk as the program slices it out of a gathered array is the array on the chunk's index set. -/
theorem pts_gak (k : Fin k1_t1_loop.trips) (f : Buf (Elt F) (gaLoc d)) :
    (((gaW).slice (chunkRect L k) (fun _ => rfl)).view.loc (V d (cV L) (jV L)) ↦[((gaW).slice (chunkRect L k) (fun _ => rfl)).view.set]{fullShare} f : sProp 𝕄)
      = gaLoc d ↦[chunkSet L k]{fullShare} f := rfl
omit [FloatOps F] in
theorem pts_gbk (k : Fin k1_t1_loop.trips) (f : Buf (Elt F) (gbLoc d)) :
    (((gbW).slice (chunkRect L k) (fun _ => rfl)).view.loc (V d (cV L) (jV L)) ↦[((gbW).slice (chunkRect L k) (fun _ => rfl)).view.set]{fullShare} f : sProp 𝕄)
      = gbLoc d ↦[chunkSet L k]{fullShare} f := rfl

omit [FloatOps F] in
/-- A wait on one of the tile's own semaphores, recorded at no call's index, keeps the record within bounds. -/
theorem waits_ok {W W' : Waits sig (HIx 1)} (hW' : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact hW' p hp

omit [FloatOps F] in
/-- A chunk holding, on its own index set, what the gather specifies is the chunk written. -/
theorem chunkA_written (k : Fin k1_t1_loop.trips) (w : Buf (Elt F) (gaLoc d)) (h : ∀ x ∈ chunkSet L k, w x = GAof cv d x) :
    (gaLoc d ↦[chunkSet L k]{fullShare} w : sProp 𝕄) ⊢ chunkA cv d L (k.val + 1) k := by
  rw [chunkA_next, pointsTo_congr h]
omit [FloatOps F] in
theorem chunkB_written (k : Fin k1_t1_loop.trips) (w : Buf (Elt F) (gbLoc d)) (h : ∀ x ∈ chunkSet L k, w x = GBof cv d x) :
    (gbLoc d ↦[chunkSet L k]{fullShare} w : sProp 𝕄) ⊢ chunkB cv d L (k.val + 1) k := by
  rw [chunkB_next, pointsTo_congr h]

/-- The task of the tile at L. -/
theorem tile_body (hF : (K (F := F)).Facts) (hidx : IdxOK cv) (O : CellTallies nD τ sig (HIx 1)) (W : Waits sig (HIx 1)) (hO : ∀ g, O g none = 0) :
    iprop(levAts (K (F := F)).L (K (F := F)).lev ∗ emp ∗ tileIn cv d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L aW (Memref.isWhole_whole _) bW (Memref.isWhole_whole _) sW (Memref.isWhole_whole _) tW (Memref.isWhole_whole _)
            gaW (Memref.isWhole_whole _) gbW (Memref.isWhole_whole _) isW (Memref.isWhole_whole _) idW (Memref.isWhole_whole _)
            baW (Memref.isWhole_whole _) bbW (Memref.isWhole_whole _) cc1_scratch4 cc1_scratch5 cc1_scoped0 cc1_scoped1 cc1_scoped2 cc1_scoped3)
          fun _ => iprop(tileOut cv d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [(K (F := F)).scopedBufs_V hF d (cV L) (jV L), SparseCore.Cfg.scopedSems0_V (Val := Elt F) d (cV L) (jV L), ownSems0_V, ownBufs_V]
  unfold tileIn tileReads
  iintro ⟨#Hlv, -, ⟨⟨Ha, Hb, Hs, Ht⟩, Hga, Hgb⟩, ⟨⟨⟨%f0, H0⟩, ⟨%f1, H1⟩, ⟨%f2, H2⟩, ⟨%f3, H3⟩⟩, Hbufs⟩, ⟨⟨Hs4, Hs5, Hc0, Hc1, Hc2, Hc3⟩, Hsems⟩, HO⟩
  ihave Hmw := ((K (F := F)).mayWaits_none (thr := V d (cV L) (jV L)) hO) $$ Hlv
  ihave Ha' := (Entails.of_eq (pts_a (F := F) d L _ _).symm) $$ Ha
  ihave Hb' := (Entails.of_eq (pts_b (F := F) d L _ _).symm) $$ Hb
  ihave Hs' := (Entails.of_eq (pts_s (F := F) d L _ _).symm) $$ Hs
  ihave Ht' := (Entails.of_eq (pts_t (F := F) d L _ _).symm) $$ Ht
  sl_for (inv cv d L O W) $$ [Hmw Ha' Hb' Hs' Ht' H0 H1 H2 H3 Hs4 Hs5 Hc0 Hc1 Hc2 Hc3 Hga Hgb HO]
  case region =>
    intro k _
    unfold inv
    iintro ⟨#Hmw, Ha, Hb, Hs, Ht, ⟨%g0, H0⟩, ⟨%g1, H1⟩, ⟨%g2, H2⟩, ⟨%g3, H3⟩, Hs4, Hs5, Hc0, Hc1, Hc2, Hc3, Hga, Hgb, %W', %hW', HO⟩
    sl_exec
    -- the two fetched lists name rows of the tables
    have hinA : ∀ j, (((isW).view.read (Elt F) (View.write (Elt F) (isW).view g0 (tile_body.sl.dma0 cv d L k) Finset.univ)) j).toNat
        < S10000x128.size gathers_S10000x128_S128x128.axis := by
      intro j; rw [View.read_write_univ]; exact (hidx d _).1
    have hinB : ∀ j, (((idW).view.read (Elt F) (View.write (Elt F) (idW).view g1 (tile_body.sl.dma0_1 cv d L k) Finset.univ)) j).toNat
        < S10000x128.size gathers_S10000x128_S128x128.axis := by
      intro j; rw [View.read_write_univ]; exact (hidx d _).2
    -- chunk k of each gathered array, out of the family
    ihave Hga' := (Entails.of_eq (SparseCore.bigSep_erase' (Finset.mem_univ k))) $$ Hga
    icases Hga' with ⟨Hgak, Hga⟩
    ihave Hgak' := (Entails.of_eq (chunkA_self cv d L k)) $$ Hgak
    icases Hgak' with ⟨%fa, Hgak⟩
    ihave Hgak := (Entails.of_eq (pts_gak (F := F) d L k fa).symm) $$ Hgak
    ihave Hgb' := (Entails.of_eq (SparseCore.bigSep_erase' (Finset.mem_univ k))) $$ Hgb
    icases Hgb' with ⟨Hgbk, Hgb⟩
    ihave Hgbk' := (Entails.of_eq (chunkB_self cv d L k)) $$ Hgbk
    icases Hgbk' with ⟨%fb, Hgbk⟩
    ihave Hgbk := (Entails.of_eq (pts_gbk (F := F) d L k fb).symm) $$ Hgbk
    sl_exec
    -- what the trip left in its chunk of each gathered array is, on the chunk, what the gather specifies
    have hvalA : ∀ x ∈ chunkSet L k,
        (((gaW).slice (chunkRect L k) (fun _ => rfl)).view.writes (Elt F) fa
          [⟨Rect.whole (chunkRect L k).shape, tile_body.sl.dma0_2 cv d L k g0 g2 hinA⟩]) x = GAof cv d x :=
      fun x hx => gathered_A d L k (cv d).A (cv d).s (fun i => (hidx d i).1) g0 g2 fa hinA x hx
    have hvalB : ∀ x ∈ chunkSet L k,
        (((gbW).slice (chunkRect L k) (fun _ => rfl)).view.writes (Elt F) fb
          [⟨Rect.whole (chunkRect L k).shape, tile_body.sl.dma0_3 cv d L k g1 g3 hinB⟩]) x = GBof cv d x :=
      fun x hx => gathered_B d L k (cv d).B (cv d).t (fun i => (hidx d i).2) g1 g3 fb hinB x hx
    sl_step
    isplitr; · iexact Hmw
    isplitl [Ha]; · iexact Ha
    isplitl [Hb]; · iexact Hb
    isplitl [Hs]; · iexact Hs
    isplitl [Ht]; · iexact Ht
    isplitl [H0]; · iexists _; iexact H0
    isplitl [H1]; · iexists _; iexact H1
    isplitl [H2]; · iexists _; iexact H2
    isplitl [H3]; · iexists _; iexact H3
    isplitl [Hs4]; · iexact Hs4
    isplitl [Hs5]; · iexact Hs5
    isplitl [Hc0]; · iexact Hc0
    isplitl [Hc1]; · iexact Hc1
    isplitl [Hc2]; · iexact Hc2
    isplitl [Hc3]; · iexact Hc3
    isplitl [Hga Hgak]
    · iapply (Entails.of_eq (SparseCore.bigSep_erase' (Finset.mem_univ k)).symm)
      isplitl [Hgak]
      · iapply (chunkA_written cv d L k _ hvalA); iexact Hgak
      · iapply (Entails.of_eq (chunkA_others cv d L k)); iexact Hga
    isplitl [Hgb Hgbk]
    · iapply (Entails.of_eq (SparseCore.bigSep_erase' (Finset.mem_univ k)).symm)
      isplitl [Hgbk]
      · iapply (chunkB_written cv d L k _ hvalB); iexact Hgbk
      · iapply (Entails.of_eq (chunkB_others cv d L k)); iexact Hgb
    iexists _; isplitr
    swap
    · iexact HO
    · ipureintro; exact waits_ok (waits_ok (waits_ok (waits_ok (waits_ok (waits_ok hW' _) _) _) _) _) _
  · unfold inv
    rw [chunkA_zero, chunkB_zero]
    isplitr; · iexact Hmw
    isplitl [Ha']; · iexact Ha'
    isplitl [Hb']; · iexact Hb'
    isplitl [Hs']; · iexact Hs'
    isplitl [Ht']; · iexact Ht'
    isplitl [H0]; · iexists _; iexact H0
    isplitl [H1]; · iexists _; iexact H1
    isplitl [H2]; · iexists _; iexact H2
    isplitl [H3]; · iexists _; iexact H3
    isplitl [Hs4]; · iexact Hs4
    isplitl [Hs5]; · iexact Hs5
    isplitl [Hc0]; · iexact Hc0
    isplitl [Hc1]; · iexact Hc1
    isplitl [Hc2]; · iexact Hc2
    isplitl [Hc3]; · iexact Hc3
    isplitl [Hga]; · iexact Hga
    isplitl [Hgb]; · iexact Hgb
    iexists W; isplitr
    · ipureintro; exact fun p hp => .inl hp
    · iexact HO
  iintro %_ HI
  unfold inv
  icases HI with ⟨-, Ha, Hb, Hs, Ht, ⟨%g0, H0⟩, ⟨%g1, H1⟩, ⟨%g2, H2⟩, ⟨%g3, H3⟩, Hs4, Hs5, Hc0, Hc1, Hc2, Hc3, Hga, Hgb, %W', %hW', HO⟩
  sl_exec
  sl_step
  unfold tileOut tileReads
  isplitl [Ha Hb Hs Ht Hga Hgb]
  · isplitl [Ha Hb Hs Ht]
    · isplitl [Ha]; · iapply (Entails.of_eq (pts_a (F := F) d L _ _)); iexact Ha
      isplitl [Hb]; · iapply (Entails.of_eq (pts_b (F := F) d L _ _)); iexact Hb
      isplitl [Hs]; · iapply (Entails.of_eq (pts_s (F := F) d L _ _)); iexact Hs
      iapply (Entails.of_eq (pts_t (F := F) d L _ _)); iexact Ht
    isplitl [Hga]; · iapply (Entails.of_eq (chunkA_all cv d L _ (fun j => j.isLt))); iexact Hga
    iapply (Entails.of_eq (chunkB_all cv d L _ (fun j => j.isLt))); iexact Hgb
  isplitl [H0 H1 H2 H3 Hbufs]
  · isplitl [H0 H1 H2 H3]
    · isplitl [H0]; · iexists _; iexact H0
      isplitl [H1]; · iexists _; iexact H1
      isplitl [H2]; · iexists _; iexact H2
      iexists _; iexact H3
    iexact Hbufs
  isplitl [Hs4 Hs5 Hc0 Hc1 Hc2 Hc3 Hsems]
  · isplitl [Hs4 Hs5 Hc0 Hc1 Hc2 Hc3]
    · isplitl [Hs4]; · iexact Hs4
      isplitl [Hs5]; · iexact Hs5
      isplitl [Hc0]; · iexact Hc0
      isplitl [Hc1]; · iexact Hc1
      isplitl [Hc2]; · iexact Hc2
      iexact Hc3
    iexact Hsems
  iexists W'; isplitr
  · ipureintro; exact hW'
  · iexact HO

end Body

end Cert.Proof.KB

end
-- ==== Proof.KBTileObl.lean ====
/-
  The tile's task in the launch theorem's own spelling of thread and program: the task of vector subcore i of SparseCore c of
  the call's grid is the body at the grid point (c, i), on the whole arrays and the tile's own scratch.
-/
import proofs.«211135_g34514357191071_cont_8to1_b_641_23_alg».proof.Proof.KBTile

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] (cv : (d : Dev nD) → CallVals F d)

/-- The body table's row for a vector subcore at the gather call's label. -/
theorem defs₀_vector (c : Fin τ.nSC) (s : Fin τ.nSub) :
    defs₀ (F := F) (.scVector c s) 1 ()
      = SparseCore.onTile hcore1 hsub1 (fun c s => cc1_k (coordsV c s)
          (Memref.whole main_v1_0_scv) (Memref.isWhole_whole _) (Memref.whole main_v1_1_scv) (Memref.isWhole_whole _)
          (Memref.whole main_v5_scv) (Memref.isWhole_whole _) (Memref.whole main_v9_scv) (Memref.isWhole_whole _)
          (Memref.whole main_v10_0_scv) (Memref.isWhole_whole _) (Memref.whole main_v10_1_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scoped0 cc1_scoped1 cc1_scoped2 cc1_scoped3) ⟨⟩ c s := rfl

omit [FloatOps F] in
/-- The waits a task records are its own semaphores', at no call's index: within what the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile obligation of the gather call. -/
theorem tileObl (hF : (K (F := F)).Facts) (hidx : IdxOK cv) : (K (F := F)).TileObl (D (F := F)) 𝒱 (P cv) v₀ 0 := by
  intro d c i O W hO _ _
  -- this kernel owes nothing for a protocol of its own
  simp only [show (P cv).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have hL : pt (Fin.cast (nCore_eq (F := F) 0) c) (Fin.cast (nSub_eq (F := F) 0) i) = coordsV ⟨_, hc.1⟩ ⟨_, hc.2⟩ := by
    rw [coordsV_eq_pt]; rfl
  rw [P_go, P_td, hL]
  exact (tile_body cv d (coordsV ⟨_, hc.1⟩ ⟨_, hc.2⟩) hF hidx O W hO).trans (wp_mono frame _ _ fun _ => obl_post)

end Cert.Proof.KB

end
-- ==== Proof.KBSplit.lean ====
/-
  The gather call's operands, dealt to the 32 tiles and collected back.

  Rows. Tile (c, s) owns rows 20224·s + 10112·c + [0, 10112) of the two gathered arrays, in 79 chunks of 128: chunk k is rows
  20224·s + 10112·c + 128·k + [0, 128). Since 128·78 + 127 < 10112 and 10112 + 10111 < 20224, a row r lies in exactly one chunk —
  that of s = r / 20224, c = (r mod 20224) / 10112, k = (r mod 10112) / 128 — and 16·20224 = 323584 rows are all of them.
  So an array held whole is its 2 × 16 × 79 chunks held side by side, at the same contents.

  Reads. The two node tables and the two index lists are only read: each goes out as one read token per SparseCore, and of
  that one per tile; what is not handed out — the remainder after the two tokens, and of each token the remainder after its
  sixteen — stays with the TensorCore until the call returns, when the shares recompose to the whole.
-/
import proofs.«211135_g34514357191071_cont_8to1_b_641_23_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Rows -/

/-- The first row of chunk k of the tile at L. -/
def row0 (L : grid1.Coords) (k : Fin k1_t1_loop.trips) : Nat := 20224 * (L 1).val + 10112 * (L 0).val + 128 * k.val

theorem trips_eq : k1_t1_loop.trips = 79 := by decide

/-- A chunk's index set is the rows from its first on, 128 of them, at every column. -/
theorem mem_chunkSet (L : grid1.Coords) (k : Fin k1_t1_loop.trips) (x : S323584x128.Idx) :
    x ∈ chunkSet L k ↔ row0 L k ≤ (x 0).val ∧ (x 0).val < row0 L k + 128 := by
  show x ∈ ((View.whole (main_v10_0_scv : Ref sig .scVector)).slice (chunkRect L k)).set ↔ _
  rw [View.set_slice_whole, Rect.mem_set_unit, k1_off2_eq]
  have h1 : (x 1).val < 128 := (x 1).isLt
  show (∀ a : Fin 2, (![20224 * (L 1).val + 10112 * (L 0).val + 128 * k.val, 0] : Fin 2 → Nat) a ≤ (x a).val
      ∧ (x a).val < (![20224 * (L 1).val + 10112 * (L 0).val + 128 * k.val, 0] : Fin 2 → Nat) a + S128x128.size a) ↔ _
  rw [Fin.forall_fin_two]
  show ((20224 * (L 1).val + 10112 * (L 0).val + 128 * k.val ≤ (x 0).val ∧ (x 0).val < 20224 * (L 1).val + 10112 * (L 0).val + 128 * k.val + 128)
      ∧ (0 ≤ (x 1).val ∧ (x 1).val < 0 + 128)) ↔ _
  unfold row0; omega

/-- The chunks, numbered by SparseCore, tile and trip. -/
abbrev Tix : Type := Fin 2 × Fin 16 × Fin k1_t1_loop.trips
def chunkOf (t : Tix) : Finset S323584x128.Idx := chunkSet (pt t.1 t.2.1) t.2.2

theorem row0_pt (c : Fin 2) (s : Fin 16) (k : Fin k1_t1_loop.trips) : row0 (pt c s) k = 20224 * s.val + 10112 * c.val + 128 * k.val := rfl

theorem chunks_disjoint : ∀ t ∈ (Finset.univ : Finset Tix), ∀ t' ∈ (Finset.univ : Finset Tix), t ≠ t' → Disjoint (chunkOf t) (chunkOf t') := by
  intro t _ t' _ hne
  rw [Finset.disjoint_left]
  intro x hx hx'
  obtain ⟨c, s, k⟩ := t; obtain ⟨c', s', k'⟩ := t'
  rw [chunkOf, mem_chunkSet, row0_pt] at hx hx'
  dsimp only at hx hx'
  have hk : k.val < 79 := trips_eq ▸ k.isLt
  have hk' : k'.val < 79 := trips_eq ▸ k'.isLt
  have hc := c.isLt; have hc' := c'.isLt; have hs := s.isLt; have hs' := s'.isLt
  apply hne
  have e1 : s.val = s'.val := by omega
  have e2 : c.val = c'.val := by omega
  have e3 : k.val = k'.val := by omega
  exact Prod.ext (Fin.ext e2) (Prod.ext (Fin.ext e1) (Fin.ext e3))

/-- Every row lies in some chunk: that of s = r / 20224, c = (r mod 20224) / 10112, k = (r mod 10112) / 128. -/
theorem chunks_all (x : S323584x128.Idx) : ∃ t : Tix, x ∈ chunkOf t := by
  have hx : (x 0).val < 323584 := (x 0).isLt
  refine ⟨(⟨(x 0).val % 20224 / 10112, by omega⟩, ⟨(x 0).val / 20224, by omega⟩, ⟨(x 0).val % 10112 / 128, by rw [trips_eq]; omega⟩), ?_⟩
  rw [chunkOf, mem_chunkSet, row0_pt]
  show 20224 * ((x 0).val / 20224) + 10112 * ((x 0).val % 20224 / 10112) + 128 * ((x 0).val % 10112 / 128) ≤ (x 0).val
    ∧ (x 0).val < 20224 * ((x 0).val / 20224) + 10112 * ((x 0).val % 20224 / 10112) + 128 * ((x 0).val % 10112 / 128) + 128
  omega

/-- An array held whole is its pieces held side by side, for any finite family of pairwise disjoint index sets that leaves no
    index out. -/
theorem pointsTo_pieces {ℓ : Loc nD τ sig} {T : Type} [Fintype T] (K : T → Finset (Idx ℓ))
    (hd : ∀ t ∈ (Finset.univ : Finset T), ∀ t' ∈ (Finset.univ : Finset T), t ≠ t' → Disjoint (K t) (K t')) (hc : ∀ x, ∃ t, x ∈ K t)
    (q : PosShare TreeShare) (f : Buf (Elt F) ℓ) :
    (ℓ ↦{q} f : sProp 𝕄) = bigSep Finset.univ fun t => ℓ ↦[K t]{q} f := by
  classical
  rw [← pointsTo_biUnion Finset.univ K hd]
  congr 1
  exact (Finset.eq_univ_iff_forall.mpr fun x => Finset.mem_biUnion.mpr ⟨(hc x).choose, Finset.mem_univ _, (hc x).choose_spec⟩).symm

set_option maxRecDepth 200000 in
/-- A gathered array held whole is its chunks held side by side. -/
theorem ga_chunks (d : Dev nD) (f : Buf (Elt F) (gaLoc d)) :
    (gaLoc d ↦{fullShare} f : sProp 𝕄)
      = bigSep Finset.univ fun c : Fin 2 => bigSep Finset.univ fun s : Fin 16 => bigSep Finset.univ fun k : Fin k1_t1_loop.trips =>
          gaLoc d ↦[chunkSet (pt c s) k]{fullShare} f := by
  refine (pointsTo_pieces (ℓ := gaLoc d) (T := Tix) chunkOf chunks_disjoint chunks_all fullShare f).trans ?_
  rw [bigSep_univ_prod]
  refine bigSep_congr fun c _ => ?_
  rw [bigSep_univ_prod]
  rfl
set_option maxRecDepth 200000 in
theorem gb_chunks (d : Dev nD) (f : Buf (Elt F) (gbLoc d)) :
    (gbLoc d ↦{fullShare} f : sProp 𝕄)
      = bigSep Finset.univ fun c : Fin 2 => bigSep Finset.univ fun s : Fin 16 => bigSep Finset.univ fun k : Fin k1_t1_loop.trips =>
          gbLoc d ↦[chunkSet (pt c s) k]{fullShare} f := by
  refine (pointsTo_pieces (ℓ := gbLoc d) (T := Tix) chunkOf chunks_disjoint chunks_all fullShare f).trans ?_
  rw [bigSep_univ_prod]
  refine bigSep_congr fun c _ => ?_
  rw [bigSep_univ_prod]
  rfl

/-! ## Reads -/

/-- What the TensorCore keeps of a read array during the call. -/
def keep (ℓ : Loc nD τ sig) (f : Buf (Elt F) ℓ) : sProp 𝕄 :=
  iprop((ℓ ↦{Transfers.shareDrop fullShare 2} f)
    ∗ bigSep Finset.univ fun c : Fin 2 => ℓ ↦{Transfers.shareDrop (Transfers.shareTok fullShare 2 c) 16} f)

/-- A read array held whole is what is kept and one read share per tile. -/
theorem reads_deal (ℓ : Loc nD τ sig) (f : Buf (Elt F) ℓ) :
    (ℓ ↦{fullShare} f : sProp 𝕄)
      ⊣⊢ iprop(keep ℓ f ∗ bigSep Finset.univ fun c : Fin 2 => bigSep Finset.univ fun s : Fin 16 => ℓ ↦{qV (pt c s)} f) := by
  have h2 : (ℓ ↦{fullShare} f : sProp 𝕄) ⊣⊢ _ := Transfers.pointsTo_toks fullShare 2
  have h16 : ∀ c : Fin 2, (ℓ ↦{Transfers.shareTok fullShare 2 c} f : sProp 𝕄)
      ⊣⊢ iprop((ℓ ↦{Transfers.shareDrop (Transfers.shareTok fullShare 2 c) 16} f)
          ∗ bigSep Finset.univ fun s : Fin 16 => ℓ ↦{qV (pt c s)} f) :=
    fun c => Transfers.pointsTo_toks (Transfers.shareTok fullShare 2 c) 16
  unfold keep
  constructor
  · refine h2.1.trans ?_
    iintro ⟨Hd, Ht⟩
    ihave Ht' := (SparseCore.ent (bigSep_mono (s := (Finset.univ : Finset (Fin 2))) (fun c _ => (h16 c).1))) $$ Ht
    ihave Ht'' := (Entails.of_eq (bigSep_sep' _ _ _)) $$ Ht'
    icases Ht'' with ⟨Hk, Hs⟩
    isplitl [Hd Hk]
    · isplitl [Hd] <;> iassumption
    · iexact Hs
  · refine BIBase.Entails.trans ?_ h2.2
    iintro ⟨⟨Hd, Hk⟩, Hs⟩
    isplitl [Hd]; · iexact Hd
    iapply (SparseCore.ent (bigSep_mono (s := (Finset.univ : Finset (Fin 2))) (fun c _ => (h16 c).2)))
    rw [bigSep_sep']
    isplitl [Hk] <;> iassumption

end Cert.Proof.KB

end
-- ==== Proof.KBCall.lean ====
/-
  The gather call seen from the TensorCore: what it hands the two SparseCores and what it keeps, and what it has when they hand
  their parts back. Going in, the four read arrays are dealt as read shares (the remainders kept), and each gathered array, at
  whatever it holds, as its chunks; coming back, the shares recompose to the four arrays whole and unchanged, and the chunks —
  every one written with the gather's specification — to each gathered array whole at that specification.
-/
import proofs.«211135_g34514357191071_cont_8to1_b_641_23_alg».proof.Proof.KBSplit

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (cv : (d : Dev nD) → CallVals F d)

/-- What the TensorCore keeps of the four read arrays during the call. -/
def callRest (d : Dev nD) : sProp 𝕄 :=
  iprop(keep (F := F) (aLoc d) (cv d).A ∗ keep (F := F) (bLoc d) (cv d).B ∗ keep (F := F) (sLoc d) (cv d).s ∗ keep (F := F) (tLoc d) (cv d).t)

omit cv in
/-- A family over the call's SparseCores is the family over two. -/
theorem bigSep_cores (Φ : Fin 2 → sProp 𝕄) :
    (bigSep Finset.univ fun c : Fin ((K (F := F)).nCore 0) => Φ (Fin.cast (nCore_eq 0) c)) = bigSep Finset.univ Φ := rfl

/-- The SparseCores' parts going in, regrouped array by array. -/
theorem coresIn_eq (d : Dev nD) :
    (bigSep Finset.univ fun c : Fin 2 => coreIn cv d c)
      = iprop(((bigSep Finset.univ fun c : Fin 2 => bigSep Finset.univ fun s : Fin 16 => aLoc d ↦{qV (pt c s)} (cv d).A)
            ∗ (bigSep Finset.univ fun c : Fin 2 => bigSep Finset.univ fun s : Fin 16 => bLoc d ↦{qV (pt c s)} (cv d).B)
            ∗ (bigSep Finset.univ fun c : Fin 2 => bigSep Finset.univ fun s : Fin 16 => sLoc d ↦{qV (pt c s)} (cv d).s)
            ∗ (bigSep Finset.univ fun c : Fin 2 => bigSep Finset.univ fun s : Fin 16 => tLoc d ↦{qV (pt c s)} (cv d).t))
          ∗ (bigSep Finset.univ fun c : Fin 2 => bigSep Finset.univ fun s : Fin 16 => bigSep Finset.univ fun k : Fin k1_t1_loop.trips =>
              iprop(∃ f : Buf (Elt F) (gaLoc d), gaLoc d ↦[chunkSet (pt c s) k]{fullShare} f))
          ∗ (bigSep Finset.univ fun c : Fin 2 => bigSep Finset.univ fun s : Fin 16 => bigSep Finset.univ fun k : Fin k1_t1_loop.trips =>
              iprop(∃ f : Buf (Elt F) (gbLoc d), gbLoc d ↦[chunkSet (pt c s) k]{fullShare} f))) := by
  unfold coreIn tileIn tileReads
  simp only [bigSep_sep']

/-- The same coming back. -/
theorem coresOut_eq (d : Dev nD) :
    (bigSep Finset.univ fun c : Fin 2 => coreOut cv d c)
      = iprop(((bigSep Finset.univ fun c : Fin 2 => bigSep Finset.univ fun s : Fin 16 => aLoc d ↦{qV (pt c s)} (cv d).A)
            ∗ (bigSep Finset.univ fun c : Fin 2 => bigSep Finset.univ fun s : Fin 16 => bLoc d ↦{qV (pt c s)} (cv d).B)
            ∗ (bigSep Finset.univ fun c : Fin 2 => bigSep Finset.univ fun s : Fin 16 => sLoc d ↦{qV (pt c s)} (cv d).s)
            ∗ (bigSep Finset.univ fun c : Fin 2 => bigSep Finset.univ fun s : Fin 16 => tLoc d ↦{qV (pt c s)} (cv d).t))
          ∗ (bigSep Finset.univ fun c : Fin 2 => bigSep Finset.univ fun s : Fin 16 => bigSep Finset.univ fun k : Fin k1_t1_loop.trips =>
              gaLoc d ↦[chunkSet (pt c s) k]{fullShare} GAof cv d)
          ∗ (bigSep Finset.univ fun c : Fin 2 => bigSep Finset.univ fun s : Fin 16 => bigSep Finset.univ fun k : Fin k1_t1_loop.trips =>
              gbLoc d ↦[chunkSet (pt c s) k]{fullShare} GBof cv d)) := by
  unfold coreOut tileOut tileReads
  simp only [bigSep_sep']

omit cv in
theorem some_contents {ℓ : Loc nD τ sig} {I : Finset (Idx ℓ)} (f : Buf (Elt F) ℓ) :
    (ℓ ↦[I]{fullShare} f : sProp 𝕄) ⊢ iprop(∃ g : Buf (Elt F) ℓ, ℓ ↦[I]{fullShare} g) := by
  iintro H; iexists f; iexact H

set_option maxHeartbeats 1600000 in
/-- Going in. -/
theorem call_split (d : Dev nD) :
    iprop((aLoc d ↦{fullShare} (cv d).A) ∗ (bLoc d ↦{fullShare} (cv d).B) ∗ (sLoc d ↦{fullShare} (cv d).s) ∗ (tLoc d ↦{fullShare} (cv d).t)
        ∗ (∃ f, gaLoc d ↦{fullShare} f) ∗ (∃ f, gbLoc d ↦{fullShare} f))
      ⊢ iprop(callRest cv d ∗ bigSep Finset.univ fun c : Fin ((K (F := F)).nCore 0) => (P cv).st 0 d c) := by
  simp only [P_st]
  rw [bigSep_cores (F := F) (fun c => coreIn cv d c), coresIn_eq]
  unfold callRest
  iintro ⟨Ha, Hb, Hs, Ht, ⟨%fa, Hga⟩, ⟨%fb, Hgb⟩⟩
  ihave Ha' := (reads_deal (F := F) (aLoc d) (cv d).A).1 $$ Ha
  icases Ha' with ⟨Hka, Hta⟩
  ihave Hb' := (reads_deal (F := F) (bLoc d) (cv d).B).1 $$ Hb
  icases Hb' with ⟨Hkb, Htb⟩
  ihave Hs' := (reads_deal (F := F) (sLoc d) (cv d).s).1 $$ Hs
  icases Hs' with ⟨Hks, Hts⟩
  ihave Ht' := (reads_deal (F := F) (tLoc d) (cv d).t).1 $$ Ht
  icases Ht' with ⟨Hkt, Htt⟩
  ihave Hga' := (Entails.of_eq (ga_chunks (F := F) d fa)) $$ Hga
  ihave Hgb' := (Entails.of_eq (gb_chunks (F := F) d fb)) $$ Hgb
  isplitl [Hka Hkb Hks Hkt]
  · isplitl [Hka]; · iexact Hka
    isplitl [Hkb]; · iexact Hkb
    isplitl [Hks]; · iexact Hks
    iexact Hkt
  isplitl [Hta Htb Hts Htt]
  · isplitl [Hta]; · iexact Hta
    isplitl [Htb]; · iexact Htb
    isplitl [Hts]; · iexact Hts
    iexact Htt
  isplitl [Hga']
  · iapply (SparseCore.ent (bigSep_mono (s := (Finset.univ : Finset (Fin 2))) fun c _ =>
      bigSep_mono (s := (Finset.univ : Finset (Fin 16))) fun s _ =>
        bigSep_mono (s := (Finset.univ : Finset (Fin k1_t1_loop.trips))) fun k _ => some_contents (F := F) (ℓ := gaLoc d) (I := chunkSet (pt c s) k) fa))
    iexact Hga'
  · iapply (SparseCore.ent (bigSep_mono (s := (Finset.univ : Finset (Fin 2))) fun c _ =>
      bigSep_mono (s := (Finset.univ : Finset (Fin 16))) fun s _ =>
        bigSep_mono (s := (Finset.univ : Finset (Fin k1_t1_loop.trips))) fun k _ => some_contents (F := F) (ℓ := gbLoc d) (I := chunkSet (pt c s) k) fb))
    iexact Hgb'

set_option maxHeartbeats 1600000 in
/-- Coming back. -/
theorem call_join (d : Dev nD) :
    iprop(callRest cv d ∗ bigSep Finset.univ fun c : Fin ((K (F := F)).nCore 0) => (P cv).dn 0 d c)
      ⊢ iprop((aLoc d ↦{fullShare} (cv d).A) ∗ (bLoc d ↦{fullShare} (cv d).B) ∗ (sLoc d ↦{fullShare} (cv d).s) ∗ (tLoc d ↦{fullShare} (cv d).t)
          ∗ (gaLoc d ↦{fullShare} GAof cv d) ∗ (gbLoc d ↦{fullShare} GBof cv d)) := by
  simp only [P_dn]
  rw [bigSep_cores (F := F) (fun c => coreOut cv d c), coresOut_eq]
  unfold callRest
  iintro ⟨⟨Hka, Hkb, Hks, Hkt⟩, ⟨Hta, Htb, Hts, Htt⟩, Hga, Hgb⟩
  isplitl [Hka Hta]
  · iapply (reads_deal (F := F) (aLoc d) (cv d).A).2; isplitl [Hka] <;> iassumption
  isplitl [Hkb Htb]
  · iapply (reads_deal (F := F) (bLoc d) (cv d).B).2; isplitl [Hkb] <;> iassumption
  isplitl [Hks Hts]
  · iapply (reads_deal (F := F) (sLoc d) (cv d).s).2; isplitl [Hks] <;> iassumption
  isplitl [Hkt Htt]
  · iapply (reads_deal (F := F) (tLoc d) (cv d).t).2; isplitl [Hkt] <;> iassumption
  isplitl [Hga]
  · iapply (Entails.of_eq (ga_chunks (F := F) d (GAof cv d)).symm); iexact Hga
  · iapply (Entails.of_eq (gb_chunks (F := F) d (GBof cv d)).symm); iexact Hgb

end Cert.Proof.KB

end
-- ==== Proof.KBRun.lean ====
/-
  The kernel's run: from any launch memory with every semaphore at zero, every weakly fair execution of the device's
  35 threads — the TensorCore, the two sequencers, the 32 vector subcores — terminates, nothing faulting, no handshake
  unanswered, and the final memory has every unscoped array of the TensorCore at the contents the walk through @main
  names. It is the launch theorem for a program with calls on the SparseCores, given: the proof of one vector subcore's
  task, how a SparseCore's operands are dealt to its tiles (the identity here), @main on the TensorCore, the launch
  element, and how the final memory is read.
-/
import proofs.«211135_g34514357191071_cont_8to1_b_641_23_alg».proof.Proof.KBMain
import proofs.«211135_g34514357191071_cont_8to1_b_641_23_alg».proof.Proof.KBLaunch
import proofs.«211135_g34514357191071_cont_8to1_b_641_23_alg».proof.Proof.KBTileObl
import proofs.«211135_g34514357191071_cont_8to1_b_641_23_alg».proof.Proof.KBCall

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (g : Dev nD → PrngReg)
variable [∀ e, Nonempty (Elt F e)]

/-- Every unscoped array of every TensorCore at its contents at the return. -/
def QC : PUnit × MemSt nD τ sig (Elt F) → Prop := fun r => ∀ d : Dev nD, ∀ b ∈ Pipeline.ucRefs τ sig, r.2.mem (d, b) = W7 m d b

set_option backward.isDefEq.respectTransparency.types false in
theorem run_main_of (htile : (K (F := F)).TileObl (D (F := F)) 𝒱 (P (cv m)) v₀ 0) (R : Dev nD → sProp 𝕄)
    (hsplit : ∀ d, iprop((aLoc d ↦{fullShare} (cv m d).A) ∗ (bLoc d ↦{fullShare} (cv m d).B) ∗ (sLoc d ↦{fullShare} (cv m d).s) ∗ (tLoc d ↦{fullShare} (cv m d).t)
        ∗ (∃ f, gaLoc d ↦{fullShare} f) ∗ (∃ f, gbLoc d ↦{fullShare} f))
      ⊢ iprop(R d ∗ bigSep Finset.univ fun c : Fin ((K (F := F)).nCore 0) => (P (cv m)).st 0 d c))
    (hjoin : ∀ d, iprop(R d ∗ bigSep Finset.univ fun c : Fin ((K (F := F)).nCore 0) => (P (cv m)).dn 0 d c)
      ⊢ iprop((aLoc d ↦{fullShare} (cv m d).A) ∗ (bLoc d ↦{fullShare} (cv m d).B) ∗ (sLoc d ↦{fullShare} (cv m d).s) ∗ (tLoc d ↦{fullShare} (cv m d).t)
        ∗ (gaLoc d ↦{fullShare} GAof (cv m) d) ∗ (gbLoc d ↦{fullShare} GBof (cv m) d))) :
    θ_run (Cert.Kernel.defs (F := F)) (Cert.Kernel.threads (F := F)) ⟨m, fun _ => 0, g⟩ (QC m) :=
  SparseCore.Cfg.θ_run_sc (K := K (F := F)) (D := D (F := F)) (𝒱 := 𝒱) (EH := EH) (P := P (cv m)) facts v₀
    (fun q hq => match q with | 0 => nomatch hq)
    (fun q _ => match q with | 0 => htile)
    (fun q _ => match q with | 0 => SparseCore.Cfg.VecSplit.of_plain (vecSplit (cv m)))
    m g main (G (F := F)) (FIN m) (u₀ (F := F)) (sep_elim_left.trans (hu₀ (cv m))) (hmain m g R hsplit hjoin) (fq m) (hfin m) (QC m) (fun _ h => h)

/-- The run with the vector subcores' task and the dealing of the call's operands proved: what remains is that every
    index of the two padded lists names a row of the tables. -/
theorem run_main (hidx : IdxOK (cv m)) :
    θ_run (Cert.Kernel.defs (F := F)) (Cert.Kernel.threads (F := F)) ⟨m, fun _ => 0, g⟩ (QC m) :=
  run_main_of m g (tileObl (cv m) facts hidx) (callRest (cv m)) (call_split (cv m)) (call_join (cv m))

end Cert.Proof.KB

end
-- ==== Proof.KBMainFin.lean ====
/-
  Every argument array of @main ends at its launch contents: no host operation writes one, a pipelined call reads it
  through an operand window (whose array its write-backs never touch) or passes it by, and the gather call rewrites the
  two gathered arrays only. So the contents at the return, read at an argument, walk back through the seven boundaries
  to the launch memory. The result array's contents at the return are named.
-/
import proofs.«211135_g34514357191071_cont_8to1_b_641_23_alg».proof.Proof.KBMainRegions

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo

variable (m : (ℓ : Loc nD τ sig) → Buf (Elt F) ℓ)

theorem W7_arg0 (d : Dev nD) : W7 m d (Proc.devRef .tc main_arg0) = m (d, Proc.devRef .tc main_arg0) :=
  (show StableHlo.after opsD (W6 m d) (Proc.devRef .tc main_arg0) = W6 m d (Proc.devRef .tc main_arg0) by unfold opsD; after_results_simp).trans <|
  (show W6 m d (Proc.devRef .tc main_arg0) = W5 m d (Proc.devRef .tc main_arg0) from (W6_of_ne m d main_arg0 (by decide))).trans <|
  (show StableHlo.after opsC (W4 m d) (Proc.devRef .tc main_arg0) = W4 m d (Proc.devRef .tc main_arg0) by unfold opsC; after_results_simp).trans <|
  (show W4 m d (Proc.devRef .tc main_arg0) = W3 m d (Proc.devRef .tc main_arg0) from (Function.update_of_ne (by decide) _ _).trans (Function.update_of_ne (by decide) _ _)).trans <|
  (show StableHlo.after opsB (W2 m d) (Proc.devRef .tc main_arg0) = W2 m d (Proc.devRef .tc main_arg0) by unfold opsB; after_results_simp).trans <|
  (show W2 m d (Proc.devRef .tc main_arg0) = W1 m d (Proc.devRef .tc main_arg0) from ((W2_arr m d 0).trans (((dat0 (V1 m) (Ow (F := F) 0) (Bw (F := F) 0) d).arrAt_in 0 rfl _).trans (A_eq0 (V1 m) (Ow (F := F) 0) (Bw (F := F) 0) d 0)))).trans <|
  (show StableHlo.after opsA (W0 m d) (Proc.devRef .tc main_arg0) = W0 m d (Proc.devRef .tc main_arg0) by unfold opsA; after_results_simp)

theorem W7_arg1 (d : Dev nD) : W7 m d (Proc.devRef .tc main_arg1) = m (d, Proc.devRef .tc main_arg1) :=
  (show StableHlo.after opsD (W6 m d) (Proc.devRef .tc main_arg1) = W6 m d (Proc.devRef .tc main_arg1) by unfold opsD; after_results_simp).trans <|
  (show W6 m d (Proc.devRef .tc main_arg1) = W5 m d (Proc.devRef .tc main_arg1) from (W6_of_ne m d main_arg1 (by decide))).trans <|
  (show StableHlo.after opsC (W4 m d) (Proc.devRef .tc main_arg1) = W4 m d (Proc.devRef .tc main_arg1) by unfold opsC; after_results_simp).trans <|
  (show W4 m d (Proc.devRef .tc main_arg1) = W3 m d (Proc.devRef .tc main_arg1) from (Function.update_of_ne (by decide) _ _).trans (Function.update_of_ne (by decide) _ _)).trans <|
  (show StableHlo.after opsB (W2 m d) (Proc.devRef .tc main_arg1) = W2 m d (Proc.devRef .tc main_arg1) by unfold opsB; after_results_simp).trans <|
  (show W2 m d (Proc.devRef .tc main_arg1) = W1 m d (Proc.devRef .tc main_arg1) from ((W2_arr m d 2).trans (((dat0 (V1 m) (Ow (F := F) 0) (Bw (F := F) 0) d).arrAt_in 2 rfl _).trans (A_eq0 (V1 m) (Ow (F := F) 0) (Bw (F := F) 0) d 2)))).trans <|
  (show StableHlo.after opsA (W0 m d) (Proc.devRef .tc main_arg1) = W0 m d (Proc.devRef .tc main_arg1) by unfold opsA; after_results_simp)

theorem W7_arg2 (d : Dev nD) : W7 m d (Proc.devRef .tc main_arg2) = m (d, Proc.devRef .tc main_arg2) :=
  (show StableHlo.after opsD (W6 m d) (Proc.devRef .tc main_arg2) = W6 m d (Proc.devRef .tc main_arg2) by unfold opsD; after_results_simp).trans <|
  (show W6 m d (Proc.devRef .tc main_arg2) = W5 m d (Proc.devRef .tc main_arg2) from (W6_of_ne m d main_arg2 (by decide))).trans <|
  (show StableHlo.after opsC (W4 m d) (Proc.devRef .tc main_arg2) = W4 m d (Proc.devRef .tc main_arg2) by unfold opsC; after_results_simp).trans <|
  (show W4 m d (Proc.devRef .tc main_arg2) = W3 m d (Proc.devRef .tc main_arg2) from (Function.update_of_ne (by decide) _ _).trans (Function.update_of_ne (by decide) _ _)).trans <|
  (show StableHlo.after opsB (W2 m d) (Proc.devRef .tc main_arg2) = W2 m d (Proc.devRef .tc main_arg2) by unfold opsB; after_results_simp).trans <|
  (show W2 m d (Proc.devRef .tc main_arg2) = W1 m d (Proc.devRef .tc main_arg2) from ((W2_arr m d 1).trans (((dat0 (V1 m) (Ow (F := F) 0) (Bw (F := F) 0) d).arrAt_in 1 rfl _).trans (A_eq0 (V1 m) (Ow (F := F) 0) (Bw (F := F) 0) d 1)))).trans <|
  (show StableHlo.after opsA (W0 m d) (Proc.devRef .tc main_arg2) = W0 m d (Proc.devRef .tc main_arg2) by unfold opsA; after_results_simp)

theorem W7_arg3 (d : Dev nD) : W7 m d (Proc.devRef .tc main_arg3) = m (d, Proc.devRef .tc main_arg3) :=
  (show StableHlo.after opsD (W6 m d) (Proc.devRef .tc main_arg3) = W6 m d (Proc.devRef .tc main_arg3) by unfold opsD; after_results_simp).trans <|
  (show W6 m d (Proc.devRef .tc main_arg3) = W5 m d (Proc.devRef .tc main_arg3) from (W6_of_ne m d main_arg3 (by decide))).trans <|
  (show StableHlo.after opsC (W4 m d) (Proc.devRef .tc main_arg3) = W4 m d (Proc.devRef .tc main_arg3) by unfold opsC; after_results_simp).trans <|
  (show W4 m d (Proc.devRef .tc main_arg3) = W3 m d (Proc.devRef .tc main_arg3) from (Function.update_of_ne (by decide) _ _).trans (Function.update_of_ne (by decide) _ _)).trans <|
  (show StableHlo.after opsB (W2 m d) (Proc.devRef .tc main_arg3) = W2 m d (Proc.devRef .tc main_arg3) by unfold opsB; after_results_simp).trans <|
  (show W2 m d (Proc.devRef .tc main_arg3) = W1 m d (Proc.devRef .tc main_arg3) from (W2_of_ne m d main_arg3 (by decide))).trans <|
  (show StableHlo.after opsA (W0 m d) (Proc.devRef .tc main_arg3) = W0 m d (Proc.devRef .tc main_arg3) by unfold opsA; after_results_simp)

theorem W7_arg4 (d : Dev nD) : W7 m d (Proc.devRef .tc main_arg4) = m (d, Proc.devRef .tc main_arg4) :=
  (show StableHlo.after opsD (W6 m d) (Proc.devRef .tc main_arg4) = W6 m d (Proc.devRef .tc main_arg4) by unfold opsD; after_results_simp).trans <|
  (show W6 m d (Proc.devRef .tc main_arg4) = W5 m d (Proc.devRef .tc main_arg4) from (W6_of_ne m d main_arg4 (by decide))).trans <|
  (show StableHlo.after opsC (W4 m d) (Proc.devRef .tc main_arg4) = W4 m d (Proc.devRef .tc main_arg4) by unfold opsC; after_results_simp).trans <|
  (show W4 m d (Proc.devRef .tc main_arg4) = W3 m d (Proc.devRef .tc main_arg4) from (Function.update_of_ne (by decide) _ _).trans (Function.update_of_ne (by decide) _ _)).trans <|
  (show StableHlo.after opsB (W2 m d) (Proc.devRef .tc main_arg4) = W2 m d (Proc.devRef .tc main_arg4) by unfold opsB; after_results_simp).trans <|
  (show W2 m d (Proc.devRef .tc main_arg4) = W1 m d (Proc.devRef .tc main_arg4) from ((W2_arr m d 3).trans (((dat0 (V1 m) (Ow (F := F) 0) (Bw (F := F) 0) d).arrAt_in 3 rfl _).trans (A_eq0 (V1 m) (Ow (F := F) 0) (Bw (F := F) 0) d 3)))).trans <|
  (show StableHlo.after opsA (W0 m d) (Proc.devRef .tc main_arg4) = W0 m d (Proc.devRef .tc main_arg4) by unfold opsA; after_results_simp)

theorem W7_arg5 (d : Dev nD) : W7 m d (Proc.devRef .tc main_arg5) = m (d, Proc.devRef .tc main_arg5) :=
  (show StableHlo.after opsD (W6 m d) (Proc.devRef .tc main_arg5) = W6 m d (Proc.devRef .tc main_arg5) by unfold opsD; after_results_simp).trans <|
  (show W6 m d (Proc.devRef .tc main_arg5) = W5 m d (Proc.devRef .tc main_arg5) from (W6_of_ne m d main_arg5 (by decide))).trans <|
  (show StableHlo.after opsC (W4 m d) (Proc.devRef .tc main_arg5) = W4 m d (Proc.devRef .tc main_arg5) by unfold opsC; after_results_simp).trans <|
  (show W4 m d (Proc.devRef .tc main_arg5) = W3 m d (Proc.devRef .tc main_arg5) from (Function.update_of_ne (by decide) _ _).trans (Function.update_of_ne (by decide) _ _)).trans <|
  (show StableHlo.after opsB (W2 m d) (Proc.devRef .tc main_arg5) = W2 m d (Proc.devRef .tc main_arg5) by unfold opsB; after_results_simp).trans <|
  (show W2 m d (Proc.devRef .tc main_arg5) = W1 m d (Proc.devRef .tc main_arg5) from (W2_of_ne m d main_arg5 (by decide))).trans <|
  (show StableHlo.after opsA (W0 m d) (Proc.devRef .tc main_arg5) = W0 m d (Proc.devRef .tc main_arg5) by unfold opsA; after_results_simp)

theorem W7_arg6 (d : Dev nD) : W7 m d (Proc.devRef .tc main_arg6) = m (d, Proc.devRef .tc main_arg6) :=
  (show StableHlo.after opsD (W6 m d) (Proc.devRef .tc main_arg6) = W6 m d (Proc.devRef .tc main_arg6) by unfold opsD; after_results_simp).trans <|
  (show W6 m d (Proc.devRef .tc main_arg6) = W5 m d (Proc.devRef .tc main_arg6) from ((W6_arr m d 2).trans (((dat2 (V5 m) (Ow (F := F) 1) (Bw (F := F) 1) d).arrAt_in 2 rfl _).trans (A_eq2 (V5 m) (Ow (F := F) 1) (Bw (F := F) 1) d 2)))).trans <|
  (show StableHlo.after opsC (W4 m d) (Proc.devRef .tc main_arg6) = W4 m d (Proc.devRef .tc main_arg6) by unfold opsC; after_results_simp).trans <|
  (show W4 m d (Proc.devRef .tc main_arg6) = W3 m d (Proc.devRef .tc main_arg6) from (Function.update_of_ne (by decide) _ _).trans (Function.update_of_ne (by decide) _ _)).trans <|
  (show StableHlo.after opsB (W2 m d) (Proc.devRef .tc main_arg6) = W2 m d (Proc.devRef .tc main_arg6) by unfold opsB; after_results_simp).trans <|
  (show W2 m d (Proc.devRef .tc main_arg6) = W1 m d (Proc.devRef .tc main_arg6) from (W2_of_ne m d main_arg6 (by decide))).trans <|
  (show StableHlo.after opsA (W0 m d) (Proc.devRef .tc main_arg6) = W0 m d (Proc.devRef .tc main_arg6) by unfold opsA; after_results_simp)

theorem W7_arg7 (d : Dev nD) : W7 m d (Proc.devRef .tc main_arg7) = m (d, Proc.devRef .tc main_arg7) :=
  (show StableHlo.after opsD (W6 m d) (Proc.devRef .tc main_arg7) = W6 m d (Proc.devRef .tc main_arg7) by unfold opsD; after_results_simp).trans <|
  (show W6 m d (Proc.devRef .tc main_arg7) = W5 m d (Proc.devRef .tc main_arg7) from (W6_of_ne m d main_arg7 (by decide))).trans <|
  (show StableHlo.after opsC (W4 m d) (Proc.devRef .tc main_arg7) = W4 m d (Proc.devRef .tc main_arg7) by unfold opsC; after_results_simp).trans <|
  (show W4 m d (Proc.devRef .tc main_arg7) = W3 m d (Proc.devRef .tc main_arg7) from (Function.update_of_ne (by decide) _ _).trans (Function.update_of_ne (by decide) _ _)).trans <|
  (show StableHlo.after opsB (W2 m d) (Proc.devRef .tc main_arg7) = W2 m d (Proc.devRef .tc main_arg7) by unfold opsB; after_results_simp).trans <|
  (show W2 m d (Proc.devRef .tc main_arg7) = W1 m d (Proc.devRef .tc main_arg7) from (W2_of_ne m d main_arg7 (by decide))).trans <|
  (show StableHlo.after opsA (W0 m d) (Proc.devRef .tc main_arg7) = W0 m d (Proc.devRef .tc main_arg7) by unfold opsA; after_results_simp)

/-- The result array at the return: the scores of the 320 000 edges. -/
def out13 (d : Dev nD) : Buf (Elt F) ((d, Proc.devRef .tc main_v13) : Loc nD τ sig) := W7 m d (Proc.devRef .tc main_v13)

end Cert.Proof.KB

end
-- ==== Proof.KBMainCv.lean ====
/-
  The gather call's four operands, read back to the launch memory and the first pipelined call's results.

  The two node tables are the first call's two result arrays as its write-backs leave them: none of the ten padding
  operations writes them. Each padded index list is one row of the launch memory's edge list, cut out, flattened, and
  followed by 3584 zeros: the operations that build it read nothing the first call or the bias reshape wrote.
-/
import proofs.«211135_g34514357191071_cont_8to1_b_641_23_alg».proof.Proof.KBMainRegions

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo

variable (m : (ℓ : Loc nD τ sig) → Buf (Elt F) ℓ)

/-- Row 0 (the sources) of an edge list, flattened and padded with 3584 zeros. -/
def padRow0 (x : (⟨S2x320000, .i32⟩ : BufTy).Contents (Elt F)) : (⟨S323584, .i32⟩ : BufTy).Contents (Elt F) :=
  concatenate S323584 0 [⟨S320000, fun i => shapeCast S320000 (extractStridedSlice S1x320000 ![0, 0] x slices_S2x320000_S1x320000_0_0) shapeCasts_S1x320000_S320000 i⟩,
    ⟨S3584, broadcastInDim S3584 ![] bcast_S_S3584 (constantI S_ 32 0#32)⟩] concatenates_S320000_S3584_S323584_d0
/-- Row 1 (the destinations), the same way. -/
def padRow1 (x : (⟨S2x320000, .i32⟩ : BufTy).Contents (Elt F)) : (⟨S323584, .i32⟩ : BufTy).Contents (Elt F) :=
  concatenate S323584 0 [⟨S320000, fun i => shapeCast S320000 (extractStridedSlice S1x320000 ![1, 0] x slices_S2x320000_S1x320000_1_0) shapeCasts_S1x320000_S320000 i⟩,
    ⟨S3584, broadcastInDim S3584 ![] bcast_S_S3584 (constantI S_ 32 0#32)⟩] concatenates_S320000_S3584_S323584_d0

/-- The edge list is as launched when the padding operations read it. -/
theorem W2_arg3 (d : Dev nD) : W2 m d (Proc.devRef .tc main_arg3) = m (d, Proc.devRef .tc main_arg3) := by
  rw [W2_of_ne m d main_arg3 (by decide)]
  show StableHlo.after opsA (W0 m d) (Proc.devRef .tc main_arg3) = _
  unfold opsA
  after_results_simp

theorem cv_A (d : Dev nD) : (cv m d).A = (dat0 (V1 m) (Ow (F := F) 0) (Bw (F := F) 0) d).arrAt 5 cfg0.N := by
  show StableHlo.after opsB (W2 m d) a' = _
  unfold opsB
  after_results_simp
  exact W2_arr m d 5
theorem cv_B (d : Dev nD) : (cv m d).B = (dat0 (V1 m) (Ow (F := F) 0) (Bw (F := F) 0) d).arrAt 6 cfg0.N := by
  show StableHlo.after opsB (W2 m d) b' = _
  unfold opsB
  after_results_simp
  exact W2_arr m d 6
theorem cv_s (d : Dev nD) : (cv m d).s = padRow0 (m (d, Proc.devRef .tc main_arg3)) := by
  show StableHlo.after opsB (W2 m d) s' = _
  unfold opsB
  after_results_simp
  unfold padRow0
  refine congrArg₂ (fun a b => concatenate S323584 0 [⟨S320000, a⟩, ⟨S3584, b⟩] concatenates_S320000_S3584_S323584_d0) ?_ ?_
  · after_results_simp
    rw [W2_arg3]
    rfl
  · after_results_simp
theorem cv_t (d : Dev nD) : (cv m d).t = padRow1 (m (d, Proc.devRef .tc main_arg3)) := by
  show StableHlo.after opsB (W2 m d) t' = _
  unfold opsB
  after_results_simp
  unfold padRow1
  refine congrArg₂ (fun a b => concatenate S323584 0 [⟨S320000, a⟩, ⟨S3584, b⟩] concatenates_S320000_S3584_S323584_d0) ?_ ?_
  · after_results_simp
    rw [W2_arg3]
    rfl
  · after_results_simp

end Cert.Proof.KB

end
-- ==== Proof.PrePadIdxB.lean ====
/-
  The gather call's two index lists name rows of the tables — the kernel as printed (word level).

  Each list is one row of the edge list (320000 words), flattened, followed by 3584 zeros. Read at a position below
  320000 it is the edge list's word there; at or past 320000 it is the zero word. So where every edge word is in
  [0, 9999] (the input domain), every word of either list has unsigned value below 10000: each names a row of a
  10000-row table. And on such a word, the row read as "the unsigned value modulo 10000" and the row read as "the signed
  value clamped into range" are the same row.
-/
import proofs.«211135_g34514357191071_cont_8to1_b_641_23_alg».proof.Proof.KBMainCv
import proofs.«211135_g34514357191071_cont_8to1_b_641_23_alg».proof.Proof.PreProgs
import proofs.«211135_g34514357191071_cont_8to1_b_641_23_alg».proof.Proof.Gen.Pre_input_domain
import proofs.«211135_g34514357191071_cont_8to1_b_641_23_alg».proof.Proof.SpecScore
import Idealize.ShloMosaic.Lib.Pipeline.Value
import Idealize.ShloMosaic.Lib.ValueLayout

noncomputable section

namespace Cert.PrePadB

open Cert.Kernel Cert.Kernel.Gen Cert.Proof.KB
open Idealize.ShloMosaic Idealize.ShloMosaic.ValueIdx Idealize.SL.Sem

variable {F : FTy → Type} [FloatOps F]

/-! ## A padded row read at a position -/

/-- The padded source list below 320000: the edge list's row 0 there. -/
theorem padRow0_lo (E : (⟨S2x320000, .i32⟩ : BufTy).Contents (Elt F)) (x : S323584.Idx) (h : (x 0).val < 320000) :
    padRow0 (F := F) E x = E (ix2 (0 : Fin 2) (⟨(x 0).val, h⟩ : Fin 320000)) := by
  unfold padRow0
  refine (concatenate_pair_apply_left (s₁ := S320000) (s₂ := S3584) (t := S323584) (0 : Fin 1) _ _ _ x rfl (ix1 (⟨(x 0).val, h⟩ : Fin 320000))
    (fun b => by match b with | ⟨0, _⟩ => rfl)).trans ?_
  show shapeCast S320000 (extractStridedSlice S1x320000 ![0, 0] E _) _ (ix1 (⟨(x 0).val, h⟩ : Fin 320000)) = _
  rw [shapeCast_1a_a_apply]
  exact slice2_axis0_apply 0 E _ (0 : Fin 1) _ (0 : Fin 2) rfl

/-- The padded source list from 320000 on: zero. -/
theorem padRow0_hi (E : (⟨S2x320000, .i32⟩ : BufTy).Contents (Elt F)) (x : S323584.Idx) (h : 320000 ≤ (x 0).val) :
    padRow0 (F := F) E x = 0#32 := by
  have hx : (x 0).val < 323584 := (x 0).isLt
  unfold padRow0
  exact (concatenate_pair_apply_right (s₁ := S320000) (s₂ := S3584) (t := S323584) (0 : Fin 1) _ _ _ x rfl rfl (ix1 (⟨(x 0).val - 320000, by omega⟩ : Fin 3584))
    (fun b hb => absurd (Subsingleton.elim _ _) hb) (by show (x 0).val - 320000 + 320000 = (x 0).val; omega)).trans rfl

/-- The padded destination list below 320000: the edge list's row 1 there. -/
theorem padRow1_lo (E : (⟨S2x320000, .i32⟩ : BufTy).Contents (Elt F)) (x : S323584.Idx) (h : (x 0).val < 320000) :
    padRow1 (F := F) E x = E (ix2 (1 : Fin 2) (⟨(x 0).val, h⟩ : Fin 320000)) := by
  unfold padRow1
  refine (concatenate_pair_apply_left (s₁ := S320000) (s₂ := S3584) (t := S323584) (0 : Fin 1) _ _ _ x rfl (ix1 (⟨(x 0).val, h⟩ : Fin 320000))
    (fun b => by match b with | ⟨0, _⟩ => rfl)).trans ?_
  show shapeCast S320000 (extractStridedSlice S1x320000 ![1, 0] E _) _ (ix1 (⟨(x 0).val, h⟩ : Fin 320000)) = _
  rw [shapeCast_1a_a_apply]
  exact slice2_axis0_apply 1 E _ (0 : Fin 1) _ (1 : Fin 2) rfl

/-- The padded destination list from 320000 on: zero. -/
theorem padRow1_hi (E : (⟨S2x320000, .i32⟩ : BufTy).Contents (Elt F)) (x : S323584.Idx) (h : 320000 ≤ (x 0).val) :
    padRow1 (F := F) E x = 0#32 := by
  have hx : (x 0).val < 323584 := (x 0).isLt
  unfold padRow1
  exact (concatenate_pair_apply_right (s₁ := S320000) (s₂ := S3584) (t := S323584) (0 : Fin 1) _ _ _ x rfl rfl (ix1 (⟨(x 0).val - 320000, by omega⟩ : Fin 3584))
    (fun b hb => absurd (Subsingleton.elim _ _) hb) (by show (x 0).val - 320000 + 320000 = (x 0).val; omega)).trans rfl

/-! ## Every word of a padded row names a table row -/

/-- "Every edge word is in [0, 9999], read signed." -/
def EdgesInRange (E : (⟨S2x320000, .i32⟩ : BufTy).Contents (Elt F)) : Prop := ∀ i, 0 ≤ (E i).toInt ∧ (E i).toInt ≤ 9999

theorem padRow0_lt (E : (⟨S2x320000, .i32⟩ : BufTy).Contents (Elt F)) (hE : EdgesInRange (F := F) E) (x : S323584.Idx) :
    (padRow0 (F := F) E x).toNat < 10000 := by
  by_cases h : (x 0).val < 320000
  · rw [padRow0_lo E x h]; exact Cert.PreDomain.toNat_lt_of_inRange (hE _)
  · rw [padRow0_hi E x (Nat.le_of_not_lt h)]; decide

theorem padRow1_lt (E : (⟨S2x320000, .i32⟩ : BufTy).Contents (Elt F)) (hE : EdgesInRange (F := F) E) (x : S323584.Idx) :
    (padRow1 (F := F) E x).toNat < 10000 := by
  by_cases h : (x 0).val < 320000
  · rw [padRow1_lo E x h]; exact Cert.PreDomain.toNat_lt_of_inRange (hE _)
  · rw [padRow1_hi E x (Nat.le_of_not_lt h)]; decide

/-- So where the launch memory's edge list is in range, both index operands of the gather call are. -/
theorem idxOK_of_range (m : (ℓ : Loc nD τ sig) → Buf (Elt F) ℓ)
    (hE : ∀ d : Dev nD, EdgesInRange (F := F) (m (d, Proc.devRef .tc main_arg3))) : IdxOK (cv m) := fun d x => by
  rw [cv_s, cv_t]
  exact ⟨padRow0_lt _ (hE d) x, padRow1_lt _ (hE d) x⟩

/-! ## The two readings of a row number -/

/-- On a word below 10000 the row "unsigned value modulo 10000" is the row "signed value clamped into range". -/
theorem rowIx_eq_rowOf {w : BitVec 32} (h : w.toNat < 10000) : rowIx w = Cert.EdgeScore.rowOf w :=
  Fin.ext ((rowIx_val h).trans (Cert.EdgeScore.rowOf_val w h).symm)

end Cert.PrePadB

/-! ## From the printed kernel's precondition -/

namespace Cert.PrePadB

open Cert.Kernel Cert.Kernel.Gen Cert.Proof.KB
open Idealize.ShloMosaic Idealize.SL.Sem

/-- THE INDEX HYPOTHESIS OF THE GATHER CALL, from the printed kernel's precondition (the integer part of the input
    domain does not depend on how floats are read). -/
theorem idxOK_of_pre_kernel (m : (ℓ : Loc Cert.Kernel.nD Cert.Kernel.τ Cert.Kernel.sig) → Buf (Elt Bits) ℓ)
    (hpre : Cert.Pre_Kernel (hPre_input_domain := Cert.Pre_input_domain.Gen.facts) m) :
    Cert.Proof.KB.IdxOK (Cert.Proof.KB.cv m) :=
  idxOK_of_range m fun d => Cert.PreDomain.range_of_pre_kernel m hpre d

end Cert.PrePadB

end
-- ==== Proof.KBFrames.lean ====
/-
  The kernel's run, read as the claims state it: from a launch memory of which the precondition holds, every weakly
  fair execution of the device's threads terminates, nothing faulting, and in the final memory each of the eight
  argument arrays holds what it held at launch. The precondition gives that every
  edge index names a node row, which is what the gather call asks; the run's post says every unscoped array of the
  TensorCore is at its contents at the return, and those contents, read at an argument, walk back to the launch memory.
-/
import proofs.«211135_g34514357191071_cont_8to1_b_641_23_alg».proof.Defs
import proofs.«211135_g34514357191071_cont_8to1_b_641_23_alg».proof.Proof.KBRun
import proofs.«211135_g34514357191071_cont_8to1_b_641_23_alg».proof.Proof.KBMainFin
import proofs.«211135_g34514357191071_cont_8to1_b_641_23_alg».proof.Proof.PrePadIdxB

noncomputable section

namespace Cert.Proof.Frames

open Cert.Kernel Cert.Kernel.Gen Cert.Proof.KB
open Idealize.ShloMosaic Idealize.ShloMosaic.TcCoe Idealize.SL.Sem

/-- `Cert.frame_Kernel` (Defs.lean), from the index hypothesis as a function of the precondition. -/
theorem frame_kernel_of
    (hidxB : ∀ (m : (ℓ : Loc Cert.Kernel.nD Cert.Kernel.τ Cert.Kernel.sig) → Buf (Elt Bits) ℓ),
      Cert.Pre_Kernel (hPre_input_domain := Cert.Pre_input_domain.Gen.facts) m → IdxOK (cv m)) :
    Cert.frame_Kernel (hKernel := Cert.Kernel.Gen.facts) (hPre_input_domain := Cert.Pre_input_domain.Gen.facts) :=
  fun m g hpre => (θ_run _ _ _).mono (fun r h c =>
    ⟨(h c _ (mem_uc main_arg0 (by decide))).trans (W7_arg0 m c),
      (h c _ (mem_uc main_arg1 (by decide))).trans (W7_arg1 m c),
      (h c _ (mem_uc main_arg2 (by decide))).trans (W7_arg2 m c),
      (h c _ (mem_uc main_arg3 (by decide))).trans (W7_arg3 m c),
      (h c _ (mem_uc main_arg4 (by decide))).trans (W7_arg4 m c),
      (h c _ (mem_uc main_arg5 (by decide))).trans (W7_arg5 m c),
      (h c _ (mem_uc main_arg6 (by decide))).trans (W7_arg6 m c),
      (h c _ (mem_uc main_arg7 (by decide))).trans (W7_arg7 m c)⟩)
    (run_main (F := Bits) m g (hidxB m hpre))

/-- `Cert.frame_Kernel` (Defs.lean). -/
theorem frame_kernel : Cert.frame_Kernel (hKernel := Cert.Kernel.Gen.facts) (hPre_input_domain := Cert.Pre_input_domain.Gen.facts) :=
  frame_kernel_of Cert.PrePadB.idxOK_of_pre_kernel

end Cert.Proof.Frames

end
-- ==== Proof.KIValue0.lean ====
/-
  The node tables the first pipelined call leaves, read at an index on the extended reals.

  The call walks the 10 000 node rows in ten blocks of 1000 rows: at point t every row operand's block is rows 1000·t … 1000·t + 999
  (all 128 columns), the weight matrix and the bias row are their whole arrays at every point, and each result block is written back
  at every point. So the result arrays' blocks tile them — row r lies in the block of point r / 1000 — and each result array ends at
  one function of the operands, index by index: what the body computes for the row's block, read at the row's place in the block.
-/
import proofs.«211135_g34514357191071_cont_8to1_b_641_23_alg».proof.Proof.KIMainData
import Idealize.ShloMosaic.Lib.Pipeline.Value
import Idealize.ShloMosaic.Lib.ValueIdx

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.Sem
open Idealize.ShloMosaic.Pipeline (Dat)

/-! ## The schedule of the first call, decided over its ten points -/

theorem hz2 : (![0, 0] : Fin 2 → Nat) = fun _ => 0 := funext fun a => by fin_cases a <;> rfl

/-- Block indices: the three row operands and the two results are on block t of the rows, the weight matrix and the bias row on their
    one block; every window on its one block of columns. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- An index of the first table is in point t's block iff each coordinate is in the block's range on its axis. -/
theorem mem_blk0_5 (t : Fin cfg0.N) (i : S10000x128.Idx) :
    i ∈ ((cfg0.win 5).blk t).view.set ↔ ∀ a : Fin 2, win0_5.index t a * S1000x128.size a ≤ (i a).val ∧ (i a).val < win0_5.index t a * S1000x128.size a + S1000x128.size a := by
  show i ∈ ((View.whole main_v1_0).slice (win0_5.rect t)).set ↔ _
  rw [View.set_slice_whole, Rect.mem_set_unit]
  exact Iff.rfl
theorem mem_blk0_6 (t : Fin cfg0.N) (i : S10000x128.Idx) :
    i ∈ ((cfg0.win 6).blk t).view.set ↔ ∀ a : Fin 2, win0_6.index t a * S1000x128.size a ≤ (i a).val ∧ (i a).val < win0_6.index t a * S1000x128.size a + S1000x128.size a := by
  show i ∈ ((View.whole main_v1_1).slice (win0_6.rect t)).set ↔ _
  rw [View.set_slice_whole, Rect.mem_set_unit]
  exact Iff.rfl

/-- Every row of a table is in the block of point row / 1000, which writes back. -/
theorem cover0_5 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  refine ⟨⟨(i 0).val / 1000, by rw [show cfg0.N = 10 from N_0]; omega⟩, flush0_5 _, ?_⟩
  rw [mem_blk0_5]
  obtain ⟨-, -, -, -, -, -, -, -, -, -, e0, e1, -, -⟩ := idx_facts0 ⟨(i 0).val / 1000, by rw [show cfg0.N = 10 from N_0]; omega⟩
  intro a
  match a with
  | ⟨0, _⟩ => show win0_5.index _ (0 : Fin 2) * 1000 ≤ (i 0).val ∧ (i 0).val < win0_5.index _ (0 : Fin 2) * 1000 + 1000; rw [e0]; show (i 0).val / 1000 * 1000 ≤ _ ∧ _ < (i 0).val / 1000 * 1000 + 1000; omega
  | ⟨1, _⟩ => show win0_5.index _ (1 : Fin 2) * 128 ≤ (i 1).val ∧ (i 1).val < win0_5.index _ (1 : Fin 2) * 128 + 128; rw [e1]; omega
theorem cover0_6 (i : S10000x128.Idx) : ∃ t : Fin cfg0.N, (cfg0.win 6).flush t = true ∧ i ∈ ((cfg0.win 6).blk t).view.set := by
  have hi0 : (i 0).val < 10000 := (i 0).isLt
  have hi1 : (i 1).val < 128 := (i 1).isLt
  refine ⟨⟨(i 0).val / 1000, by rw [show cfg0.N = 10 from N_0]; omega⟩, flush0_6 _, ?_⟩
  rw [mem_blk0_6]
  obtain ⟨-, -, -, -, -, -, -, -, -, -, -, -, e0, e1⟩ := idx_facts0 ⟨(i 0).val / 1000, by rw [show cfg0.N = 10 from N_0]; omega⟩
  intro a
  match a with
  | ⟨0, _⟩ => show win0_6.index _ (0 : Fin 2) * 1000 ≤ (i 0).val ∧ (i 0).val < win0_6.index _ (0 : Fin 2) * 1000 + 1000; rw [e0]; show (i 0).val / 1000 * 1000 ≤ _ ∧ _ < (i 0).val / 1000 * 1000 + 1000; omega
  | ⟨1, _⟩ => show win0_6.index _ (1 : Fin 2) * 128 ≤ (i 1).val ∧ (i 1).val < win0_6.index _ (1 : Fin 2) * 128 + 128; rw [e1]; omega

/-! ## The two tables, index by index, at the extended reals -/

section Tables

variable (V : (c : Dev nD) → (b : Ref sig .tc) → Buf (Elt Ideal) ((c : Thread nD τ).loc b))
variable (O : Dev nD → CellTallies nD τ sig (HIx 1)) (B : Dev nD → Set (SemLoc sig × HIx 1))

/-- The second table: row r of the queries times the first weight matrix. -/
def tabB (Q : S10000x128.Idx → EReal) (W1 : S128x128.Idx → EReal) : S10000x128.Idx → EReal :=
  fun i => ∑ k : Fin 128, Q (ValueIdx.ix2 (i 0) k) * W1 (ValueIdx.ix2 k (i 1))

/-- The first table: row r of keys plus edge side, times the first weight matrix, plus the bias row. -/
def tabA (Kh Pe : S10000x128.Idx → EReal) (W1 : S128x128.Idx → EReal) (b1r : S1x128.Idx → EReal) : S10000x128.Idx → EReal :=
  fun i => (∑ k : Fin 128, (Kh (ValueIdx.ix2 (i 0) k) + Pe (ValueIdx.ix2 (i 0) k)) * W1 (ValueIdx.ix2 k (i 1))) + b1r (ValueIdx.ix2 0 (i 1))

/-- What point t writes back of the second table is block t of tabB of the operands as the call finds them. -/
theorem flushed0_6_eq
    (hpay2 : ∀ (x3 : Vec Ideal S128x128 .f32) (x10 : Vec Ideal S1000x128 .f32) (r : Fin 1000) (j : Fin 128),
      k0_pay2 (F := Ideal) x3 x10 (ValueIdx.ix2 r j) = ∑ k : Fin 128, x10 (ValueIdx.ix2 r k) * x3 (ValueIdx.ix2 k j))
    (c : Dev nD) (t : Fin cfg0.N) :
    (dat0 V O B c).flushed 6 t
      = ((cfg0.win 6).blk t).view.read (Elt Ideal) (tabB (V c (Pipeline.arrRef spec0 2)) (V c (Pipeline.arrRef spec0 3))) := by
  show (cfg0.win 6).cut (grid0.coords t) ((dat0 V O B c).after 6 t) = _
  rw [after0_6]
  unfold out0_6
  rw [View.canon_unit_zero hz2]
  simp only [View.ld_unit_zero (S := S1000x128) hz2, View.ld_unit_zero (S := S128x128) hz2]
  obtain ⟨-, -, -, -, e20, e21, e30, e31, -, -, -, -, e60, e61⟩ := idx_facts0 t
  funext j
  obtain ⟨r, q, rfl⟩ : ∃ (r : Fin 1000) (q : Fin 128), j = ValueIdx.ix2 r q := ⟨j 0, j 1, ValueIdx.eq_ix2 j⟩
  show k0_pay2 (iblk0 V c 3 t) (iblk0 V c 2 t) (ValueIdx.ix2 r q)
    = tabB (V c (Pipeline.arrRef spec0 2)) (V c (Pipeline.arrRef spec0 3)) (((cfg0.win 6).blk t).view.emb (ValueIdx.ix2 r q))
  rw [hpay2]
  unfold tabB
  refine Finset.sum_congr rfl fun k _ => ?_
  congr 1
  · show V c (Pipeline.arrRef spec0 2) (((cfg0.win 2).blk t).view.emb (ValueIdx.ix2 r k))
      = V c (Pipeline.arrRef spec0 2) (ValueIdx.ix2 ((((cfg0.win 6).blk t).view.emb (ValueIdx.ix2 r q)) 0) k)
    congr 1; funext a; apply Fin.ext
    match a with
    | ⟨0, _⟩ => show win0_2.index t (0 : Fin 2) * 1000 + 1 * r.val = win0_6.index t (0 : Fin 2) * 1000 + 1 * r.val; rw [e20, e60]
    | ⟨1, _⟩ => show win0_2.index t (1 : Fin 2) * 128 + 1 * k.val = k.val; rw [e21]; omega
  · show V c (Pipeline.arrRef spec0 3) (((cfg0.win 3).blk t).view.emb (ValueIdx.ix2 k q))
      = V c (Pipeline.arrRef spec0 3) (ValueIdx.ix2 k ((((cfg0.win 6).blk t).view.emb (ValueIdx.ix2 r q)) 1))
    congr 1; funext a; apply Fin.ext
    match a with
    | ⟨0, _⟩ => show win0_3.index t (0 : Fin 2) * 128 + 1 * k.val = k.val; rw [e30]; omega
    | ⟨1, _⟩ => show win0_3.index t (1 : Fin 2) * 128 + 1 * q.val = win0_6.index t (1 : Fin 2) * 128 + 1 * q.val; rw [e31, e61]

/-- The second table after the call. -/
theorem final0_6
    (hpay2 : ∀ (x3 : Vec Ideal S128x128 .f32) (x10 : Vec Ideal S1000x128 .f32) (r : Fin 1000) (j : Fin 128),
      k0_pay2 (F := Ideal) x3 x10 (ValueIdx.ix2 r j) = ∑ k : Fin 128, x10 (ValueIdx.ix2 r k) * x3 (ValueIdx.ix2 k j))
    (c : Dev nD) :
    (dat0 V O B c).arrAt 6 cfg0.N = tabB (V c (Pipeline.arrRef spec0 2)) (V c (Pipeline.arrRef spec0 3)) :=
  (dat0 V O B c).arrAt_eq_of_cover 6 _ (fun t _ => flushed0_6_eq V O B hpay2 c t) cover0_6

set_option maxHeartbeats 1000000 in
/-- What point t writes back of the first table is block t of tabA of the operands as the call finds them. -/
theorem flushed0_5_eq
    (hpay1 : ∀ (x0 x1 : Vec Ideal S1000x128 .f32) (x3 : Vec Ideal S128x128 .f32) (x5 : Vec Ideal S1x128 .f32) (r : Fin 1000) (j : Fin 128),
      k0_pay1 (F := Ideal) x0 x1 x3 x5 (ValueIdx.ix2 r j)
        = (∑ k : Fin 128, (x0 (ValueIdx.ix2 r k) + x1 (ValueIdx.ix2 r k)) * x3 (ValueIdx.ix2 k j)) + x5 (ValueIdx.ix2 0 j))
    (c : Dev nD) (t : Fin cfg0.N) :
    (dat0 V O B c).flushed 5 t
      = ((cfg0.win 5).blk t).view.read (Elt Ideal)
          (tabA (V c (Pipeline.arrRef spec0 0)) (V c (Pipeline.arrRef spec0 1)) (V c (Pipeline.arrRef spec0 3)) (V c (Pipeline.arrRef spec0 4))) := by
  show (cfg0.win 5).cut (grid0.coords t) ((dat0 V O B c).after 5 t) = _
  rw [after0_5]
  unfold out0_5
  rw [View.canon_unit_zero hz2]
  simp only [View.ld_unit_zero (S := S1000x128) hz2, View.ld_unit_zero (S := S128x128) hz2, View.ld_unit_zero (S := S1x128) hz2]
  obtain ⟨e00, e01, e10, e11, -, -, e30, e31, e40, e41, e50, e51, -, -⟩ := idx_facts0 t
  funext j
  obtain ⟨r, q, rfl⟩ : ∃ (r : Fin 1000) (q : Fin 128), j = ValueIdx.ix2 r q := ⟨j 0, j 1, ValueIdx.eq_ix2 j⟩
  show k0_pay1 (iblk0 V c 0 t) (iblk0 V c 1 t) (iblk0 V c 3 t) (iblk0 V c 4 t) (ValueIdx.ix2 r q)
    = tabA (V c (Pipeline.arrRef spec0 0)) (V c (Pipeline.arrRef spec0 1)) (V c (Pipeline.arrRef spec0 3)) (V c (Pipeline.arrRef spec0 4))
        (((cfg0.win 5).blk t).view.emb (ValueIdx.ix2 r q))
  rw [hpay1]
  unfold tabA
  congr 1
  · refine Finset.sum_congr rfl fun k _ => ?_
    congr 1
    · congr 1
      · show V c (Pipeline.arrRef spec0 0) (((cfg0.win 0).blk t).view.emb (ValueIdx.ix2 r k))
          = V c (Pipeline.arrRef spec0 0) (ValueIdx.ix2 ((((cfg0.win 5).blk t).view.emb (ValueIdx.ix2 r q)) 0) k)
        congr 1; funext a; apply Fin.ext
        match a with
        | ⟨0, _⟩ => show win0_0.index t (0 : Fin 2) * 1000 + 1 * r.val = win0_5.index t (0 : Fin 2) * 1000 + 1 * r.val; rw [e00, e50]
        | ⟨1, _⟩ => show win0_0.index t (1 : Fin 2) * 128 + 1 * k.val = k.val; rw [e01]; omega
      · show V c (Pipeline.arrRef spec0 1) (((cfg0.win 1).blk t).view.emb (ValueIdx.ix2 r k))
          = V c (Pipeline.arrRef spec0 1) (ValueIdx.ix2 ((((cfg0.win 5).blk t).view.emb (ValueIdx.ix2 r q)) 0) k)
        congr 1; funext a; apply Fin.ext
        match a with
        | ⟨0, _⟩ => show win0_1.index t (0 : Fin 2) * 1000 + 1 * r.val = win0_5.index t (0 : Fin 2) * 1000 + 1 * r.val; rw [e10, e50]
        | ⟨1, _⟩ => show win0_1.index t (1 : Fin 2) * 128 + 1 * k.val = k.val; rw [e11]; omega
    · show V c (Pipeline.arrRef spec0 3) (((cfg0.win 3).blk t).view.emb (ValueIdx.ix2 k q))
        = V c (Pipeline.arrRef spec0 3) (ValueIdx.ix2 k ((((cfg0.win 5).blk t).view.emb (ValueIdx.ix2 r q)) 1))
      congr 1; funext a; apply Fin.ext
      match a with
      | ⟨0, _⟩ => show win0_3.index t (0 : Fin 2) * 128 + 1 * k.val = k.val; rw [e30]; omega
      | ⟨1, _⟩ => show win0_3.index t (1 : Fin 2) * 128 + 1 * q.val = win0_5.index t (1 : Fin 2) * 128 + 1 * q.val; rw [e31, e51]
  · show V c (Pipeline.arrRef spec0 4) (((cfg0.win 4).blk t).view.emb (ValueIdx.ix2 0 q))
      = V c (Pipeline.arrRef spec0 4) (ValueIdx.ix2 0 ((((cfg0.win 5).blk t).view.emb (ValueIdx.ix2 r q)) 1))
    refine congrArg (V c (Pipeline.arrRef spec0 4)) ?_
    funext a; apply Fin.ext
    match a with
    | ⟨0, _⟩ => show win0_4.index t (0 : Fin 2) * 1 + 1 * 0 = 0; rw [e40]
    | ⟨1, _⟩ => show win0_4.index t (1 : Fin 2) * 128 + 1 * q.val = win0_5.index t (1 : Fin 2) * 128 + 1 * q.val; rw [e41, e51]

/-- The first table after the call. -/
theorem final0_5
    (hpay1 : ∀ (x0 x1 : Vec Ideal S1000x128 .f32) (x3 : Vec Ideal S128x128 .f32) (x5 : Vec Ideal S1x128 .f32) (r : Fin 1000) (j : Fin 128),
      k0_pay1 (F := Ideal) x0 x1 x3 x5 (ValueIdx.ix2 r j)
        = (∑ k : Fin 128, (x0 (ValueIdx.ix2 r k) + x1 (ValueIdx.ix2 r k)) * x3 (ValueIdx.ix2 k j)) + x5 (ValueIdx.ix2 0 j))
    (c : Dev nD) :
    (dat0 V O B c).arrAt 5 cfg0.N
      = tabA (V c (Pipeline.arrRef spec0 0)) (V c (Pipeline.arrRef spec0 1)) (V c (Pipeline.arrRef spec0 3)) (V c (Pipeline.arrRef spec0 4)) :=
  (dat0 V O B c).arrAt_eq_of_cover 5 _ (fun t _ => flushed0_5_eq V O B hpay1 c t) cover0_5

end Tables

end Cert.Proof.KI

end
-- ==== Proof.KIValue2.lean ====
/-
  The scores the second pipelined call leaves, read at an index on the extended reals.

  The call walks the 323 584 padded edge rows in 158 blocks of 2048 rows: at point t each gathered operand's block is rows
  2048·t … 2048·t + 2047 (all 128 columns), the second weight column and the second bias are their whole arrays at every point, and the
  result block (2048 rows, one column) is written back at every point. So the result's blocks tile it — row r lies in the block of point
  r / 2048 — and the result ends at one function of the operands, index by index.
-/
import proofs.«211135_g34514357191071_cont_8to1_b_641_23_alg».proof.Proof.KIMainData
import Idealize.ShloMosaic.Lib.Pipeline.Value
import Idealize.ShloMosaic.Lib.ValueIdx

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.Sem
open Idealize.ShloMosaic.Pipeline (Dat)

/-! ## The schedule of the second call, decided over its 158 points -/

/-- Block indices: the two gathered operands and the result are on block t of the rows, the weight column and the bias on their one
    block; every window on its one block of columns. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- An index of the result is in point t's block iff each coordinate is in the block's range on its axis. -/
theorem mem_blk2_4 (t : Fin cfg2.N) (i : S323584x1.Idx) :
    i ∈ ((cfg2.win 4).blk t).view.set ↔ ∀ a : Fin 2, win2_4.index t a * S2048x1.size a ≤ (i a).val ∧ (i a).val < win2_4.index t a * S2048x1.size a + S2048x1.size a := by
  show i ∈ ((View.whole main_v12).slice (win2_4.rect t)).set ↔ _
  rw [View.set_slice_whole, Rect.mem_set_unit]
  exact Iff.rfl

/-- Every row of the result is in the block of point row / 2048, which writes back. -/
theorem cover2_4 (i : S323584x1.Idx) : ∃ t : Fin cfg2.N, (cfg2.win 4).flush t = true ∧ i ∈ ((cfg2.win 4).blk t).view.set := by
  have hi0 : (i 0).val < 323584 := (i 0).isLt
  have hi1 : (i 1).val < 1 := (i 1).isLt
  refine ⟨⟨(i 0).val / 2048, by rw [show cfg2.N = 158 from N_2]; omega⟩, flush2_4 _, ?_⟩
  rw [mem_blk2_4]
  obtain ⟨-, -, -, -, -, -, -, -, e0, e1⟩ := idx_facts2 ⟨(i 0).val / 2048, by rw [show cfg2.N = 158 from N_2]; omega⟩
  intro a
  match a with
  | ⟨0, _⟩ => show win2_4.index _ (0 : Fin 2) * 2048 ≤ (i 0).val ∧ (i 0).val < win2_4.index _ (0 : Fin 2) * 2048 + 2048; rw [e0]; show (i 0).val / 2048 * 2048 ≤ _ ∧ _ < (i 0).val / 2048 * 2048 + 2048; omega
  | ⟨1, _⟩ => show win2_4.index _ (1 : Fin 2) * 1 ≤ (i 1).val ∧ (i 1).val < win2_4.index _ (1 : Fin 2) * 1 + 1; rw [e1]; omega

/-! ## The scores, index by index, at the extended reals -/

section Scores

variable (V : (c : Dev nD) → (b : Ref sig .tc) → Buf (Elt Ideal) ((c : Thread nD τ).loc b))
variable (O : Dev nD → CellTallies nD τ sig (HIx 1)) (B : Dev nD → Set (SemLoc sig × HIx 1))

/-- Row e of the scores: the difference of the two gathered rows clamped at zero, times the second weight column, plus the second bias. -/
def scoreOf (GA GB : S323584x128.Idx → EReal) (W2 : S128x1.Idx → EReal) (b2r : S1x1.Idx → EReal) : S323584x1.Idx → EReal :=
  fun i => (∑ j : Fin 128, max (GA (ValueIdx.ix2 (i 0) j) - GB (ValueIdx.ix2 (i 0) j)) 0 * W2 (ValueIdx.ix2 j (0 : Fin 1)))
    + b2r (ValueIdx.ix2 (0 : Fin 1) (0 : Fin 1))

theorem hz2' : (![0, 0] : Fin 2 → Nat) = fun _ => 0 := funext fun a => by fin_cases a <;> rfl

set_option maxHeartbeats 1600000 in
/-- What point t writes back is block t of scoreOf of the operands as the call finds them. -/
theorem flushed2_4_eq
    (hpay : ∀ (x0 x2 : Vec Ideal S2048x128 .f32) (x7 : Vec Ideal S128x1 .f32) (x9 : Vec Ideal S1x1 .f32) (r : Fin 2048) (u : Fin 1),
      k2_pay1 (F := Ideal) x0 x2 x7 x9 (ValueIdx.ix2 r u)
        = (∑ j : Fin 128, max (x0 (ValueIdx.ix2 r j) - x2 (ValueIdx.ix2 r j)) 0 * x7 (ValueIdx.ix2 j (0 : Fin 1))) + x9 (ValueIdx.ix2 (0 : Fin 1) (0 : Fin 1)))
    (c : Dev nD) (t : Fin cfg2.N) :
    (dat2 V O B c).flushed 4 t
      = ((cfg2.win 4).blk t).view.read (Elt Ideal)
          (scoreOf (V c (Pipeline.arrRef spec2 0)) (V c (Pipeline.arrRef spec2 1)) (V c (Pipeline.arrRef spec2 2)) (V c (Pipeline.arrRef spec2 3))) := by
  show (cfg2.win 4).cut (grid2.coords t) ((dat2 V O B c).after 4 t) = _
  rw [after2_4]
  unfold out2_4
  rw [View.canon_unit_zero hz2']
  simp only [View.ld_unit_zero (S := S2048x128) hz2', View.ld_unit_zero (S := S128x1) hz2', View.ld_unit_zero (S := S1x1) hz2']
  obtain ⟨e00, e01, e10, e11, e20, e21, e30, e31, e40, e41⟩ := idx_facts2 t
  funext j
  obtain ⟨r, u, rfl⟩ : ∃ (r : Fin 2048) (u : Fin 1), j = ValueIdx.ix2 r u := ⟨j 0, j 1, ValueIdx.eq_ix2 j⟩
  show k2_pay1 (iblk2 V c 0 t) (iblk2 V c 1 t) (iblk2 V c 2 t) (iblk2 V c 3 t) (ValueIdx.ix2 r u)
    = scoreOf (V c (Pipeline.arrRef spec2 0)) (V c (Pipeline.arrRef spec2 1)) (V c (Pipeline.arrRef spec2 2)) (V c (Pipeline.arrRef spec2 3))
        (((cfg2.win 4).blk t).view.emb (ValueIdx.ix2 r u))
  rw [hpay]
  unfold scoreOf
  congr 1
  · refine Finset.sum_congr rfl fun k _ => ?_
    congr 1
    · congr 1
      congr 1
      · show V c (Pipeline.arrRef spec2 0) (((cfg2.win 0).blk t).view.emb (ValueIdx.ix2 r k))
          = V c (Pipeline.arrRef spec2 0) (ValueIdx.ix2 ((((cfg2.win 4).blk t).view.emb (ValueIdx.ix2 r u)) 0) k)
        refine congrArg (V c (Pipeline.arrRef spec2 0)) ?_
        funext a; apply Fin.ext
        match a with
        | ⟨0, _⟩ => show win2_0.index t (0 : Fin 2) * 2048 + 1 * r.val = win2_4.index t (0 : Fin 2) * 2048 + 1 * r.val; rw [e00, e40]
        | ⟨1, _⟩ => show win2_0.index t (1 : Fin 2) * 128 + 1 * k.val = k.val; rw [e01]; omega
      · show V c (Pipeline.arrRef spec2 1) (((cfg2.win 1).blk t).view.emb (ValueIdx.ix2 r k))
          = V c (Pipeline.arrRef spec2 1) (ValueIdx.ix2 ((((cfg2.win 4).blk t).view.emb (ValueIdx.ix2 r u)) 0) k)
        refine congrArg (V c (Pipeline.arrRef spec2 1)) ?_
        funext a; apply Fin.ext
        match a with
        | ⟨0, _⟩ => show win2_1.index t (0 : Fin 2) * 2048 + 1 * r.val = win2_4.index t (0 : Fin 2) * 2048 + 1 * r.val; rw [e10, e40]
        | ⟨1, _⟩ => show win2_1.index t (1 : Fin 2) * 128 + 1 * k.val = k.val; rw [e11]; omega
    · show V c (Pipeline.arrRef spec2 2) (((cfg2.win 2).blk t).view.emb (ValueIdx.ix2 k (0 : Fin 1)))
        = V c (Pipeline.arrRef spec2 2) (ValueIdx.ix2 k (0 : Fin 1))
      refine congrArg (V c (Pipeline.arrRef spec2 2)) ?_
      funext a; apply Fin.ext
      match a with
      | ⟨0, _⟩ => show win2_2.index t (0 : Fin 2) * 128 + 1 * k.val = k.val; rw [e20]; omega
      | ⟨1, _⟩ => show win2_2.index t (1 : Fin 2) * 1 + 1 * 0 = 0; rw [e21]
  · show V c (Pipeline.arrRef spec2 3) (((cfg2.win 3).blk t).view.emb (ValueIdx.ix2 (0 : Fin 1) (0 : Fin 1)))
      = V c (Pipeline.arrRef spec2 3) (ValueIdx.ix2 (0 : Fin 1) (0 : Fin 1))
    refine congrArg (V c (Pipeline.arrRef spec2 3)) ?_
    funext a; apply Fin.ext
    match a with
    | ⟨0, _⟩ => show win2_3.index t (0 : Fin 2) * 1 + 1 * 0 = 0; rw [e30]
    | ⟨1, _⟩ => show win2_3.index t (1 : Fin 2) * 1 + 1 * 0 = 0; rw [e31]

/-- The scores after the call. -/
theorem final2_4
    (hpay : ∀ (x0 x2 : Vec Ideal S2048x128 .f32) (x7 : Vec Ideal S128x1 .f32) (x9 : Vec Ideal S1x1 .f32) (r : Fin 2048) (u : Fin 1),
      k2_pay1 (F := Ideal) x0 x2 x7 x9 (ValueIdx.ix2 r u)
        = (∑ j : Fin 128, max (x0 (ValueIdx.ix2 r j) - x2 (ValueIdx.ix2 r j)) 0 * x7 (ValueIdx.ix2 j (0 : Fin 1))) + x9 (ValueIdx.ix2 (0 : Fin 1) (0 : Fin 1)))
    (c : Dev nD) :
    (dat2 V O B c).arrAt 4 cfg2.N
      = scoreOf (V c (Pipeline.arrRef spec2 0)) (V c (Pipeline.arrRef spec2 1)) (V c (Pipeline.arrRef spec2 2)) (V c (Pipeline.arrRef spec2 3)) :=
  (dat2 V O B c).arrAt_eq_of_cover 4 _ (fun t _ => flushed2_4_eq V O B hpay c t) cover2_4

end Scores

end Cert.Proof.KI

end
-- ==== Proof.PreLaw.lean ====
/-
  The law at the idealized kernel's launch memory: where its precondition holds, the kernel's arrangement of the result
  array and the reference's are the same array of the launch contents. (The precondition gives the five arrays under the
  first matrix product real entries, which is all the law asks.)
-/
import proofs.«211135_g34514357191071_cont_8to1_b_641_23_alg».proof.Proof.PreProgs
import proofs.«211135_g34514357191071_cont_8to1_b_641_23_alg».proof.Proof.SpecScore
import proofs.«211135_g34514357191071_cont_8to1_b_641_23_alg».proof.Proof.Gen.Pre_input_domain

noncomputable section

namespace Cert.PreDomain

open Idealize.ShloMosaic Idealize.SL.Sem Cert.EdgeScore

theorem kernelResult_eq_refResult_of_pre
    (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) (c : Dev Cert.KernelIdeal.nD) :
    kernelResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = refResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
  have h := of_pre_kernelIdeal m hpre c
  kernelResult_eq_refResult _ _ _ _ _ _ _ _ h.real0 h.real1 h.real2 h.real4 h.real5

end Cert.PreDomain

end
-- ==== Proof.SpecPayload.lean ====
/-
  The three values the kernel's two TensorCore bodies store, read at one element at the ideal values.

  The tables body stores, per block of 1000 node rows: A = (K + P)·W1 + b1 (the product into a zero accumulator, then the
  bias row broadcast down the block) and B = Q·W1. The score body stores, per block of 2048 edges: relu(GA − GB)·W2 + b2.
  A product into a zero accumulator is, at the ideal values, the plain sum of products over the contracted coordinate;
  a cast of a shape to itself is the identity; a one-row array broadcast down a block reads its row.
-/
import proofs.«211135_g34514357191071_cont_8to1_b_641_23_alg».proof.Proof.Gen.KernelIdeal.Skeleton
import Idealize.ShloMosaic.Lib.ValueLayout
import Idealize.ShloMosaic.Lib.StackMember
import Idealize.ShloMosaic.Lib.Pipeline.Value
import Idealize.ShloMosaic.PureOps.Ideal.Laws

noncomputable section

open scoped BigOperators

namespace Cert.KernelPayload

open Cert.KernelIdeal Cert.KernelIdeal.Gen
open Idealize.ShloMosaic Idealize.ShloMosaic.ValueIdx Idealize.ShloMosaic.StackMember

/-- A matrix product `[m, k] × [k, n]` into the zero accumulator, read at `(a, b)`: the sum over the contracted
    coordinate of the products of the entries. (The host's product at the ideal values is the same sum.) -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (dotGeneral_plain_apply prec A B a b))

/-- The first node table's block at `(r, j)`: row `r` of (K + P)·W1, plus the bias at `j`. -/
theorem k0_pay1_apply (x0 x1 : FVec Ideal S1000x128 .f32) (x3 : FVec Ideal S128x128 .f32) (x5 : FVec Ideal S1x128 .f32)
    (r : Fin 1000) (j : Fin 128) :
    k0_pay1 (F := Ideal) x0 x1 x3 x5 (ix2 r j)
      = (∑ k : Fin 128, (x0 (ix2 r k) + x1 (ix2 r k)) * x3 (ix2 k j)) + x5 (ix2 (0 : Fin 1) j) := by
  show matmul dot_S1000x128_S128x128_S1000x128_1_0_0_1_n_n none (addf x0 x1) x3 (constant (F := Ideal) S1000x128 .f32 0x00000000#32) (ix2 r j)
      + broadcastTo S1000x128 (shapeCast S1x128 x5 _) _ (ix2 r j) = _
  refine congrArg₂ (· + ·) ((matmul_plain_zero_apply (m := 1000) (k := 128) (n := 128) none (addf x0 x1) x3 r j).trans rfl)
    ((broadcastTo_1b_ab_apply _ _ r j).trans ?_)
  rw [shapeCast_self]

/-- The second node table's block at `(r, j)`: row `r` of Q·W1. -/
theorem k0_pay2_apply (x3 : FVec Ideal S128x128 .f32) (x10 : FVec Ideal S1000x128 .f32) (r : Fin 1000) (j : Fin 128) :
    k0_pay2 (F := Ideal) x3 x10 (ix2 r j) = ∑ k : Fin 128, x10 (ix2 r k) * x3 (ix2 k j) :=
  matmul_plain_zero_apply (m := 1000) (k := 128) (n := 128) none x10 x3 r j

/-- The score block at `(r, 0)`: the rectified difference of the two gathered rows, into the read-out column, plus the
    read-out bias. -/
theorem k2_pay1_apply (x0 x2 : FVec Ideal S2048x128 .f32) (x7 : FVec Ideal S128x1 .f32) (x9 : FVec Ideal S1x1 .f32)
    (r : Fin 2048) (u : Fin 1) :
    k2_pay1 (F := Ideal) x0 x2 x7 x9 (ix2 r u)
      = (∑ j : Fin 128, max (x0 (ix2 r j) - x2 (ix2 r j)) 0 * x7 (ix2 j (0 : Fin 1))) + x9 (ix2 (0 : Fin 1) (0 : Fin 1)) := by
  obtain rfl : u = 0 := Subsingleton.elim _ _
  show matmul dot_S2048x128_S128x1_S2048x1_1_0_0_1_n_n none
        (maximumf (subf (shapeCast S2048x128 x0 _) (shapeCast S2048x128 x2 _))
          (broadcast S2048x128 (Scalar.ofBits (F := Ideal) .f32 0x00000000#32)))
        x7 (constant (F := Ideal) S2048x1 .f32 0x00000000#32) (ix2 r (0 : Fin 1))
      + broadcastTo S2048x1 (shapeCast S1x1 x9 _) _ (ix2 r (0 : Fin 1)) = _
  refine congrArg₂ (· + ·)
    ((matmul_plain_zero_apply (m := 2048) (k := 128) (n := 1) none _ x7 r 0).trans (Finset.sum_congr rfl fun j _ => ?_))
    ((broadcastTo_1b_ab_apply _ _ r 0).trans ?_)
  · show max (shapeCast S2048x128 x0 _ (ix2 r j) - shapeCast S2048x128 x2 _ (ix2 r j)) (Ideal.ofBits .f32 0x00000000#32)
        * x7 (ix2 j (0 : Fin 1)) = _
    rw [shapeCast_self, shapeCast_self, Ideal.ofBits_zero_f32]
  · rw [shapeCast_self]

end Cert.KernelPayload

end
-- ==== Proof.KIFinal.lean ====
/-
  The kernel's result array is the specification's.

  Read back through the three calls: the returned array is the score call's result without its 3584 padding rows; the
  score call's result at edge e is the rectified difference of the two gathered rows into the read-out column plus the
  read-out bias; gathered row e of the first table is the table's row at the source list's word e, and that table is
  (K + P)·W1 + b1 row by row; likewise the second table Q·W1 at the destination list's word; and below 320000 the padded
  lists are the edge list's two rows, whose words, being in range, name the same row read either way. That is the
  kernel's arrangement of the score at the edge's two rows; the law (real entries, from the input domain) turns it into
  the reference's.
-/
import proofs.«211135_g34514357191071_cont_8to1_b_641_23_alg».proof.Proof.KIMainVals
import proofs.«211135_g34514357191071_cont_8to1_b_641_23_alg».proof.Proof.KIValue0
import proofs.«211135_g34514357191071_cont_8to1_b_641_23_alg».proof.Proof.KIValue2
import proofs.«211135_g34514357191071_cont_8to1_b_641_23_alg».proof.Proof.PrePadIdx
import proofs.«211135_g34514357191071_cont_8to1_b_641_23_alg».proof.Proof.PreLaw
import proofs.«211135_g34514357191071_cont_8to1_b_641_23_alg».proof.Proof.SpecPayload
import Idealize.ShloMosaic.Lib.ValueLayout

noncomputable section

namespace Cert.Proof.KI

open Cert.KernelIdeal Cert.KernelIdeal.Gen Cert.EdgeScore Cert.PrePad
open Idealize.ShloMosaic Idealize.ShloMosaic.ValueIdx Idealize.SL.Sem

variable (m : (ℓ : Loc nD τ sig) → Buf (Elt Ideal) ℓ)

/-- The first node table the gather call reads, at row `r`, column `j`: `tableA` of the launch contents. -/
theorem cvA_apply (d : Dev nD) (r : Fin 10000) (j : Fin 128) :
    (cv m d).A (ix2 r j)
      = tableA (m (d, Proc.devRef .tc main_arg0)) (m (d, Proc.devRef .tc main_arg2)) (m (d, Proc.devRef .tc main_arg4))
          (m (d, Proc.devRef .tc main_arg5)) r j := by
  rw [cv_A, final0_5 (V1 m) _ _ Cert.KernelPayload.k0_pay1_apply d, V1_op0, V1_op1, V1_op3, V1_op4]
  unfold tabA tableA
  exact congrArg₂ (· + ·) rfl (shapeCast_a_1a_apply _ _ (0 : Fin 1) j)

/-- The second node table the gather call reads, at row `r`, column `j`: `tableB` of the launch contents. -/
theorem cvB_apply (d : Dev nD) (r : Fin 10000) (j : Fin 128) :
    (cv m d).B (ix2 r j) = tableB (m (d, Proc.devRef .tc main_arg1)) (m (d, Proc.devRef .tc main_arg4)) r j := by
  rw [cv_B, final0_6 (V1 m) _ _ Cert.KernelPayload.k0_pay2_apply d, V1_op2, V1_op3]
  rfl

/-- The source list at an edge: the edge list's row 0. -/
theorem cvs_apply (d : Dev nD) (e : Fin 320000) :
    (cv m d).s (ix1 (⟨e.val, by omega⟩ : Fin 323584)) = m (d, Proc.devRef .tc main_arg3) (ix2 (0 : Fin 2) e) := by
  rw [cv_s]
  exact padRow0_lo _ _ e.isLt

/-- The destination list at an edge: the edge list's row 1. -/
theorem cvt_apply (d : Dev nD) (e : Fin 320000) :
    (cv m d).t (ix1 (⟨e.val, by omega⟩ : Fin 323584)) = m (d, Proc.devRef .tc main_arg3) (ix2 (1 : Fin 2) e) := by
  rw [cv_t]
  exact padRow1_lo _ _ e.isLt

/-- THE KERNEL'S RESULT ARRAY: the specification's reference result array of the launch contents, where the input domain
    holds. -/
theorem out13_eq_refResult
    (hpre : Cert.Pre_KernelIdeal (hPre_input_domain := Cert.Pre_input_domain.Gen.facts) m) (d : Dev nD) :
    out13 (F := Ideal) m d
      = refResult (m ((d.tc : Thread Cert.KernelIdeal.nD Cert.KernelIdeal.τ).loc Cert.KernelIdeal.main_arg0)) (m ((d.tc : Thread Cert.KernelIdeal.nD Cert.KernelIdeal.τ).loc Cert.KernelIdeal.main_arg1)) (m ((d.tc : Thread Cert.KernelIdeal.nD Cert.KernelIdeal.τ).loc Cert.KernelIdeal.main_arg2)) (m ((d.tc : Thread Cert.KernelIdeal.nD Cert.KernelIdeal.τ).loc Cert.KernelIdeal.main_arg3))
          (m ((d.tc : Thread Cert.KernelIdeal.nD Cert.KernelIdeal.τ).loc Cert.KernelIdeal.main_arg4)) (m ((d.tc : Thread Cert.KernelIdeal.nD Cert.KernelIdeal.τ).loc Cert.KernelIdeal.main_arg5)) (m ((d.tc : Thread Cert.KernelIdeal.nD Cert.KernelIdeal.τ).loc Cert.KernelIdeal.main_arg6)) (m ((d.tc : Thread Cert.KernelIdeal.nD Cert.KernelIdeal.τ).loc Cert.KernelIdeal.main_arg7)) := by
  have hR := Cert.PreDomain.of_pre_kernelIdeal m hpre d
  rw [← Cert.PreDomain.kernelResult_eq_refResult_of_pre m hpre d]
  funext i
  obtain ⟨e, u, rfl⟩ : ∃ (e : Fin 320000) (u : Fin 1), i = ix2 e u := ⟨i 0, i 1, eq_ix2 i⟩
  rw [out13_eq, slice2_axis0_apply 0 _ _ e u (⟨e.val, by omega⟩ : Fin 323584) (Nat.zero_add _).symm,
    final2_4 (V5 m) _ _ Cert.KernelPayload.k2_pay1_apply d, V5_op0, V5_op1, V5_op2, V5_op3]
  have hs := Cert.PreDomain.toNat_lt_of_inRange (hR.range3 (ix2 (0 : Fin 2) e))
  have ht := Cert.PreDomain.toNat_lt_of_inRange (hR.range3 (ix2 (1 : Fin 2) e))
  unfold scoreOf kernelResult kernelScore kernelHidden
  refine congrArg₂ (· + ·) (Finset.sum_congr rfl fun j _ => ?_) (shapeCast_a_1a_apply _ _ (0 : Fin 1) (0 : Fin 1))
  have hA : (GAof (cv m) d (ix2 (⟨e.val, by omega⟩ : Fin 323584) j) : EReal)
      = tableA (m (d, Proc.devRef .tc main_arg0)) (m (d, Proc.devRef .tc main_arg2)) (m (d, Proc.devRef .tc main_arg4))
          (m (d, Proc.devRef .tc main_arg5)) (rowOf (m (d, Proc.devRef .tc main_arg3) (ix2 (0 : Fin 2) e))) j := by
    show (cv m d).A (ix2 (rowIx ((cv m d).s (ix1 (⟨e.val, _⟩ : Fin 323584)))) j) = _
    rw [cvs_apply, rowIx_eq_rowOf hs, cvA_apply]
  have hB : (GBof (cv m) d (ix2 (⟨e.val, by omega⟩ : Fin 323584) j) : EReal)
      = tableB (m (d, Proc.devRef .tc main_arg1)) (m (d, Proc.devRef .tc main_arg4))
          (rowOf (m (d, Proc.devRef .tc main_arg3) (ix2 (1 : Fin 2) e))) j := by
    show (cv m d).B (ix2 (rowIx ((cv m d).t (ix1 (⟨e.val, _⟩ : Fin 323584)))) j) = _
    rw [cvt_apply, rowIx_eq_rowOf ht, cvB_apply]
  exact congrArg₂ (fun a b : EReal => max (a - b) 0 * (m (d, Proc.devRef .tc main_arg6) (ix2 j (0 : Fin 1)) : EReal)) hA hB

end Cert.Proof.KI

end
-- ==== Proof.RefRunOps.lean ====
/-
  The reference as a straight line. Its three row look-ups are one helper called three times; with each call replaced by
  the helper's twenty-three operations on that call's own buffers, the reference is a list of eighty-six operations,
  each writing one buffer of its own from buffers written before it.

  The helper (`x[idx]` for a table `x` of 10000 rows and 320000 row numbers `idx`): wrap a negative row number by
  adding 10000, make the numbers a column, test each for 0 ≤ · ≤ 9999, gather the rows (the gather clamps the number
  into range), and keep the gathered row where the test passed, else a row of one fixed quiet-NaN word.
-/
import proofs.«211135_g34514357191071_cont_8to1_b_641_23_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's eighty-six operations, in order, the three look-ups unfolded at their calls. -/
abbrev ops : List (HloOp τ sig (Elt F)) :=
  [ unary main_arg3 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg3 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    TRef.nullary main_call0.c (constantI S_ 32 0#32),
    TRef.unary main_call0.c main_call0.v0 (broadcastInDim S320000 ![] bcast_S_S320000),
    TRef.binary (.of main_v1) main_call0.v0 main_call0.v1 (cmpi .slt),
    TRef.nullary main_call0.c_0 (constantI S_ 32 10000#32),
    TRef.unary main_call0.c_0 main_call0.v2 (broadcastInDim S320000 ![] bcast_S_S320000),
    TRef.binary (.of main_v1) main_call0.v2 main_call0.v3 addi,
    TRef.ternary main_call0.v1 main_call0.v3 (.of main_v1) main_call0.call0.v0 select,
    TRef.unary main_call0.call0.v0 main_call0.v5 (broadcastInDim S320000x1 ![0] bcast_S320000_S320000x1_0),
    TRef.nullary main_call0.c_1 (constantI S1 32 9999#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_arg0) main_call0.v5 main_call0.v13 (fun x i => Host.gather gather_S10000x128_S320000x1_S320000x128_1_0_n_n_0_1_1128 x i),
    TRef.unary main_call0.v12 main_call0.v14 (broadcastInDim S320000x128 ![0] bcast_S320000_S320000x128_0),
    TRef.nullary main_call0.cst (constant S_ .f32 0x7FC00000#32),
    TRef.unary main_call0.cst main_call0.v15 (broadcastInDim S320000x128 ![] bcast_S_S320000x128),
    TRef.ternary main_call0.v14 main_call0.v13 main_call0.v15 main_call0.v16 select,
    TRef.nullary main_call1.c (constantI S_ 32 0#32),
    TRef.unary main_call1.c main_call1.v0 (broadcastInDim S320000 ![] bcast_S_S320000),
    TRef.binary (.of main_v3) main_call1.v0 main_call1.v1 (cmpi .slt),
    TRef.nullary main_call1.c_0 (constantI S_ 32 10000#32),
    TRef.unary main_call1.c_0 main_call1.v2 (broadcastInDim S320000 ![] bcast_S_S320000),
    TRef.binary (.of main_v3) main_call1.v2 main_call1.v3 addi,
    TRef.ternary main_call1.v1 main_call1.v3 (.of main_v3) main_call1.call0.v0 select,
    TRef.unary main_call1.call0.v0 main_call1.v5 (broadcastInDim S320000x1 ![0] bcast_S320000_S320000x1_0),
    TRef.nullary main_call1.c_1 (constantI S1 32 9999#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (.of main_arg1) main_call1.v5 main_call1.v13 (fun x i => Host.gather gather_S10000x128_S320000x1_S320000x128_1_0_n_n_0_1_1128 x i),
    TRef.unary main_call1.v12 main_call1.v14 (broadcastInDim S320000x128 ![0] bcast_S320000_S320000x128_0),
    TRef.nullary main_call1.cst (constant S_ .f32 0x7FC00000#32),
    TRef.unary main_call1.cst main_call1.v15 (broadcastInDim S320000x128 ![] bcast_S_S320000x128),
    TRef.ternary main_call1.v14 main_call1.v13 main_call1.v15 main_call1.v16 select,
    binary main_v4 main_v5 main_v6 (subf : (⟨S320000x128, .f32⟩ : BufTy).Contents (Elt F) → (⟨S320000x128, .f32⟩ : BufTy).Contents (Elt F) → (⟨S320000x128, .f32⟩ : BufTy).Contents (Elt F)),
    TRef.nullary main_call2.c (constantI S_ 32 0#32),
    TRef.unary main_call2.c main_call2.v0 (broadcastInDim S320000 ![] bcast_S_S320000),
    TRef.binary (.of main_v1) main_call2.v0 main_call2.v1 (cmpi .slt),
    TRef.nullary main_call2.c_0 (constantI S_ 32 10000#32),
    TRef.unary main_call2.c_0 main_call2.v2 (broadcastInDim S320000 ![] bcast_S_S320000),
    TRef.binary (.of main_v1) main_call2.v2 main_call2.v3 addi,
    TRef.ternary main_call2.v1 main_call2.v3 (.of main_v1) main_call2.call0.v0 select,
    TRef.unary main_call2.call0.v0 main_call2.v5 (broadcastInDim S320000x1 ![0] bcast_S320000_S320000x1_0),
    TRef.nullary main_call2.c_1 (constantI S1 32 9999#32),
    TRef.nullary main_call2.c_2 (constantI S_ 32 0#32),
    TRef.unary main_call2.c_2 main_call2.v6 (broadcastInDim S320000x1 ![] bcast_S_S320000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S320000x1 ![0, 1] bcast_S1x1_S320000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S320000x1_S320000_d1 h_S_),
    TRef.binary (.of main_arg2) main_call2.v5 main_call2.v13 (fun x i => Host.gather gather_S10000x128_S320000x1_S320000x128_1_0_n_n_0_1_1128 x i),
    TRef.unary main_call2.v12 main_call2.v14 (broadcastInDim S320000x128 ![0] bcast_S320000_S320000x128_0),
    TRef.nullary main_call2.cst (constant S_ .f32 0x7FC00000#32),
    TRef.unary main_call2.cst main_call2.v15 (broadcastInDim S320000x128 ![] bcast_S_S320000x128),
    TRef.ternary main_call2.v14 main_call2.v13 main_call2.v15 main_call2.v16 select,
    binary main_v6 main_v7 main_v8 (addf : (⟨S320000x128, .f32⟩ : BufTy).Contents (Elt F) → (⟨S320000x128, .f32⟩ : BufTy).Contents (Elt F) → (⟨S320000x128, .f32⟩ : BufTy).Contents (Elt F)),
    binary main_v8 main_arg4 main_v9 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    unary main_arg5 main_v10 (broadcastInDim S1x128 ![1] bcast_S128_S1x128_1 : (⟨S128, .f32⟩ : BufTy).Contents (Elt F) → (⟨S1x128, .f32⟩ : BufTy).Contents (Elt F)),
    unary main_v10 main_v11 (broadcastInDim S320000x128 ![0, 1] bcast_S1x128_S320000x128_0_1 : (⟨S1x128, .f32⟩ : BufTy).Contents (Elt F) → (⟨S320000x128, .f32⟩ : BufTy).Contents (Elt F)),
    binary main_v9 main_v11 main_v12 (addf : (⟨S320000x128, .f32⟩ : BufTy).Contents (Elt F) → (⟨S320000x128, .f32⟩ : BufTy).Contents (Elt F) → (⟨S320000x128, .f32⟩ : BufTy).Contents (Elt F)),
    nullary main_cst (constant S_ .f32 0x00000000#32),
    unary main_cst main_v13 (broadcastInDim S320000x128 ![] bcast_S_S320000x128 : (⟨S_, .f32⟩ : BufTy).Contents (Elt F) → (⟨S320000x128, .f32⟩ : BufTy).Contents (Elt F)),
    binary main_v12 main_v13 main_v14 (maximumf : (⟨S320000x128, .f32⟩ : BufTy).Contents (Elt F) → (⟨S320000x128, .f32⟩ : BufTy).Contents (Elt F) → (⟨S320000x128, .f32⟩ : BufTy).Contents (Elt F)),
    binary main_v14 main_arg6 main_v15 ((fun l r => Host.dotGeneral dot_S320000x128_S128x1_S320000x1_1_0_0_1_n_n none l r) : (⟨S320000x128, .f32⟩ : BufTy).Contents (Elt F) → (⟨S128x1, .f32⟩ : BufTy).Contents (Elt F) → (⟨S320000x1, .f32⟩ : BufTy).Contents (Elt F)),
    unary main_arg7 main_v16 (broadcastInDim S1x1 ![1] bcast_S1_S1x1_1 : (⟨S1, .f32⟩ : BufTy).Contents (Elt F) → (⟨S1x1, .f32⟩ : BufTy).Contents (Elt F)),
    unary main_v16 main_v17 (broadcastInDim S320000x1 ![0, 1] bcast_S1x1_S320000x1_0_1 : (⟨S1x1, .f32⟩ : BufTy).Contents (Elt F) → (⟨S320000x1, .f32⟩ : BufTy).Contents (Elt F)),
    binary main_v15 main_v17 main_v18 (addf : (⟨S320000x1, .f32⟩ : BufTy).Contents (Elt F) → (⟨S320000x1, .f32⟩ : BufTy).Contents (Elt F) → (⟨S320000x1, .f32⟩ : BufTy).Contents (Elt F)) ]

theorem scopedRefs_eq : (Finset.univ.filter fun b : Ref sig .tc => b.isScoped) = ∅ := by decide
theorem scopedSems_eq : (Finset.univ.filter fun sm : SemLoc sig => sm.isScoped .tc) = ∅ := by decide

/-- Every operation reads and writes device buffers of the TensorCore's tables only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

end Cert.RefRun

end
-- ==== Proof.RefRunMain.lean ====
/-
  The printed reference IS the straight line of eighty-six operations, and so its run: from any launch memory, every
  weakly fair execution terminates with each buffer at the fold of the operations over the launch contents.
-/
import proofs.«211135_g34514357191071_cont_8to1_b_641_23_alg».proof.Proof.RefRunOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The printed reference is that straight line: the helper's body at its three calls, sequencing re-associated; both
    sides are then one chain of steps, equal by computation. -/
theorem main_eq (c : Dev nD) : main (F := F) c = seq ops := rfl

/-- From any launch memory with zero counters, every weakly fair execution of the reference terminates, and every final
    state has each buffer at the fold of the eighty-six operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefRun

end
-- ==== Proof.RefRunOut.lean ====
/-
  What the reference's straight line leaves in its result buffer, as one term of the eight argument arrays, and the run
  restated with it.

  The term: with src and dst the two rows of the edge list, each as a flat array of 320000 row numbers,
      out = relu((take K src − take Q dst + take P src) · W1 + b1) · W2 + b2,
  where `take x idx` is the helper's look-up: wrap negative numbers, test the range, gather (clamped), and keep the
  gathered row where the test passed. The fold of the eighty-six operations at the result buffer is this term by
  computation: each operation's result is read where it was written, the arguments where nothing wrote.
-/
import proofs.«211135_g34514357191071_cont_8to1_b_641_23_alg».proof.Proof.RefRunMain

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The look-up -/

/-- Row numbers with the negative ones wrapped: `idx < 0 ? idx + 10000 : idx`. -/
def wrapIdx (idx : IVec S320000 32) : IVec S320000 32 :=
  select (cmpi .slt idx (broadcastInDim S320000 ![] bcast_S_S320000 (constantI S_ 32 0#32)))
    (addi idx (broadcastInDim S320000 ![] bcast_S_S320000 (constantI S_ 32 10000#32))) idx

/-- … as a column, the gather's start indices. -/
def colIdx (idx : IVec S320000 32) : IVec S320000x1 32 :=
  broadcastInDim S320000x1 ![0] bcast_S320000_S320000x1_0 (wrapIdx idx)

/-- Per row number: is it (after wrapping) in [0, 9999]? -/
def inBounds (idx : IVec S320000 32) : IVec S320000 1 :=
  Host.reduce IntOp.andi
    (andi (cmpi .sge (colIdx idx) (broadcastInDim S320000x1 ![] bcast_S_S320000x1 (constantI S_ 32 0#32)))
      (cmpi .sle (colIdx idx)
        (broadcastInDim S320000x1 ![0, 1] bcast_S1x1_S320000x1_0_1 (broadcastInDim S1x1 ![1] bcast_S1_S1x1_1 (constantI S1 32 9999#32)))))
    (constantI S_ 1 1#1) reducesTo_S320000x1_S320000_d1 h_S_

/-- The look-up `x[idx]`: the gathered rows where the row number is in bounds, else the fill word. -/
def take (x : FVec F S10000x128 .f32) (idx : IVec S320000 32) : FVec F S320000x128 .f32 :=
  select (broadcastInDim S320000x128 ![0] bcast_S320000_S320000x128_0 (inBounds idx))
    (Host.gather gather_S10000x128_S320000x1_S320000x128_1_0_n_n_0_1_1128 x (colIdx idx))
    (broadcastInDim S320000x128 ![] bcast_S_S320000x128 (constant S_ .f32 0x7FC00000#32))

/-! ## The two rows of the edge list -/

/-- Row 0 of the edge list, flat: the source row numbers. -/
def srcIdx (E : IVec S2x320000 32) : IVec S320000 32 :=
  shapeCast S320000 (extractStridedSlice S1x320000 ![0, 0] E slices_S2x320000_S1x320000_0_0) shapeCasts_S1x320000_S320000

/-- Row 1 of the edge list, flat: the destination row numbers. -/
def dstIdx (E : IVec S2x320000 32) : IVec S320000 32 :=
  shapeCast S320000 (extractStridedSlice S1x320000 ![1, 0] E slices_S2x320000_S1x320000_1_0) shapeCasts_S1x320000_S320000

/-! ## The result -/

/-- The hidden layer before the rectifier: (take K src − take Q dst + take P src) · W1 + b1. -/
def hidden (K Q P : FVec F S10000x128 .f32) (E : IVec S2x320000 32) (W1 : FVec F S128x128 .f32) (b1 : FVec F S128 .f32) :
    FVec F S320000x128 .f32 :=
  addf (Host.dotGeneral dot_S320000x128_S128x128_S320000x128_1_0_0_1_n_n none
      (addf (subf (take K (srcIdx E)) (take Q (dstIdx E))) (take P (srcIdx E))) W1)
    (broadcastInDim S320000x128 ![0, 1] bcast_S1x128_S320000x128_0_1 (broadcastInDim S1x128 ![1] bcast_S128_S1x128_1 b1))

/-- The reference's result: relu(hidden) · W2 + b2. -/
def out (K Q P : FVec F S10000x128 .f32) (E : IVec S2x320000 32) (W1 : FVec F S128x128 .f32) (b1 : FVec F S128 .f32)
    (W2 : FVec F S128x1 .f32) (b2 : FVec F S1 .f32) : FVec F S320000x1 .f32 :=
  addf (Host.dotGeneral dot_S320000x128_S128x1_S320000x1_1_0_0_1_n_n none
      (maximumf (hidden K Q P E W1 b1) (broadcastInDim S320000x128 ![] bcast_S_S320000x128 (constant S_ .f32 0x00000000#32))) W2)
    (broadcastInDim S320000x1 ![0, 1] bcast_S1x1_S320000x1_0_1 (broadcastInDim S1x1 ![1] bcast_S1_S1x1_1 b2))

/-! ## The fold at the result buffer and at the arguments -/

attribute [local irreducible] Host.reduce Host.gather in
set_option maxHeartbeats 1600000 in
/-- The fold of the eighty-six operations at the result buffer is `out` of the arguments' contents. The reduction and the
    gather stay folded meanwhile: the equation never looks inside them. -/
theorem out_eq (V : Valuation τ sig (Elt F)) :
    after ops V (main_v18 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  rfl

set_option maxHeartbeats 1600000 in
/-- No operation writes argument 0: the fold leaves it as it was. -/
theorem arg0_eq (V : Valuation τ sig (Elt F)) :
    after ops V (main_arg0 : DevRef τ sig) = V (main_arg0 : DevRef τ sig) := by
  after_results_simp

set_option maxHeartbeats 1600000 in
/-- No operation writes argument 1: the fold leaves it as it was. -/
theorem arg1_eq (V : Valuation τ sig (Elt F)) :
    after ops V (main_arg1 : DevRef τ sig) = V (main_arg1 : DevRef τ sig) := by
  after_results_simp

set_option maxHeartbeats 1600000 in
/-- No operation writes argument 2: the fold leaves it as it was. -/
theorem arg2_eq (V : Valuation τ sig (Elt F)) :
    after ops V (main_arg2 : DevRef τ sig) = V (main_arg2 : DevRef τ sig) := by
  after_results_simp

set_option maxHeartbeats 1600000 in
/-- No operation writes argument 3: the fold leaves it as it was. -/
theorem arg3_eq (V : Valuation τ sig (Elt F)) :
    after ops V (main_arg3 : DevRef τ sig) = V (main_arg3 : DevRef τ sig) := by
  after_results_simp

set_option maxHeartbeats 1600000 in
/-- No operation writes argument 4: the fold leaves it as it was. -/
theorem arg4_eq (V : Valuation τ sig (Elt F)) :
    after ops V (main_arg4 : DevRef τ sig) = V (main_arg4 : DevRef τ sig) := by
  after_results_simp

set_option maxHeartbeats 1600000 in
/-- No operation writes argument 5: the fold leaves it as it was. -/
theorem arg5_eq (V : Valuation τ sig (Elt F)) :
    after ops V (main_arg5 : DevRef τ sig) = V (main_arg5 : DevRef τ sig) := by
  after_results_simp

set_option maxHeartbeats 1600000 in
/-- No operation writes argument 6: the fold leaves it as it was. -/
theorem arg6_eq (V : Valuation τ sig (Elt F)) :
    after ops V (main_arg6 : DevRef τ sig) = V (main_arg6 : DevRef τ sig) := by
  after_results_simp

set_option maxHeartbeats 1600000 in
/-- No operation writes argument 7: the fold leaves it as it was. -/
theorem arg7_eq (V : Valuation τ sig (Elt F)) :
    after ops V (main_arg7 : DevRef τ sig) = V (main_arg7 : DevRef τ sig) := by
  after_results_simp

/-! ## The run -/

/-- From any launch memory with zero counters, for any float values: every weakly fair execution of the reference
    terminates with its result buffer at `out` of the arguments' launch contents and the eight arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
          = out (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v18).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_main m ρ)

end Cert.RefRun

end
-- ==== Proof.RefLookup.lean ====
/-
  Two host operations read at an index, as the reference's row look-up uses them.

  * A gather of whole ROWS of a table: operand `[N, C]`, a column `[R, 1]` of start indices, result `[R, C]` (what
    `x[idx]` of a matrix at a flat array of row numbers lowers to). Result element `(e, k)` is the table at row
    `idx[e, 0]`, read signed and clamped into `[0, N − 1]`, column `k`.
  * A reduction by `and` from the constant 1 over an array of ones is 1 everywhere.
-/
import Idealize.ShloMosaic.Lib.ValueIdx
import Idealize.ShloMosaic.Lib.ReduceAll

noncomputable section

namespace Cert.RefLookup

open Idealize.ShloMosaic Idealize.ShloMosaic.ValueIdx

/-! ## Rows gathered from a table -/

section Rows
variable {α : Type}

/-- The dimension numbers of a row gather: the result's axis 1 is the slice's (offset) axis, the operand's axis 0 is
    collapsed and is the one the start index names, the start indices' axis 1 holds the (one-component) index vector, and
    a slice is one whole row. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the table at row `idx[e, 0]` (signed, clamped into `[0, N − 1]`), column `k`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowDims N C R wf) x idx (ix2 e k)
      = x (ix2 ⟨min (idx (ix2 e (0 : Fin 1))).toInt.toNat (N - 1), by omega⟩ k) := by
  unfold Host.gather
  refine congrArg x (funext fun a => Fin.ext ?_)
  show (rowDims N C R wf).start (ix2 e k) idx a + (rowDims N C R wf).batchCoord (ix2 e k) a
    + (rowDims N C R wf).offCoord (ix2 e k) a = _
  rw [GatherDims.batchCoord_eq_zero _ _ _ List.not_mem_nil]
  have hcases : ∀ a : Fin 2, a = 0 ∨ a = 1 := by decide
  rcases hcases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 e k) ⟨List.idxOf (0 : Fin 2) (rowDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · have hst : (rowDims N C R wf).start (ix2 e k) idx (1 : Fin 2) = 0 := by
      unfold GatherDims.start
      rw [dif_neg (fun h => absurd (List.mem_singleton.mp h) (show (1 : Fin 2) ≠ 0 from by decide))]
    have hk : (1 : Fin 2) ∈ (rowDims N C R wf).sKept :=
      (GatherDims.mem_sKept _ _).mpr ⟨fun h => absurd (List.mem_singleton.mp h) (show (1 : Fin 2) ≠ 0 from by decide), List.not_mem_nil⟩
    rw [hst]
    unfold GatherDims.offCoord
    rw [dif_pos hk]
    simp only [Nat.zero_add]
    rfl

end Rows

/-! ## `and` over ones -/

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_of_all f l _ ?_ (fun n hn => hl n (List.mem_cons_of_mem _ hn))
    show IntOp.andi init (f a) = 1#1
    rw [h, hl a List.mem_cons_self]; decide

/-- A `stablehlo.reduce` by `and` from an initial 1 over an array of ones is 1 at every result index. -/
theorem reduce_andi_of_all {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl]
  exact foldl_andi_of_all x _ _ (hinit _) (fun n _ => hx n)

end Cert.RefLookup

end
-- ==== Proof.RefValue.lean ====
/-
  The reference's result, read at an edge, is the specification's reference score.

  Under the edge list's range (every word in [0, 9999], signed) the look-up's guards are all inert: no row number is
  negative, so none is wrapped; every one is in bounds, so the gathered row is kept and the fill word never read; and the
  gather's clamp leaves the number alone. What remains of `take x idx` at `(e, k)` is `x` at row `idx[e]`, column
  `k`. The two matrix products are sums over the 128 contracted coordinates, the biases are read through their
  broadcasts, and the result at edge `e` is the formula `refScore` at rows `edge_index[0, e]` and `edge_index[1, e]`.
-/
import proofs.«211135_g34514357191071_cont_8to1_b_641_23_alg».proof.Proof.RefRunOut
import proofs.«211135_g34514357191071_cont_8to1_b_641_23_alg».proof.Proof.RefLookup
import proofs.«211135_g34514357191071_cont_8to1_b_641_23_alg».proof.Proof.SpecScore
import Idealize.ShloMosaic.Lib.ValueLayout
import Idealize.ShloMosaic.Lib.StackMember
import Idealize.ShloMosaic.Lib.Pipeline.Value
import Idealize.ShloMosaic.PureOps.Ideal.Laws

noncomputable section

namespace Cert.RefValue

open Cert.ReferenceIdeal Cert.ReferenceIdeal.Gen Cert.RefRun Cert.RefLookup Cert.EdgeScore
open Idealize.ShloMosaic Idealize.ShloMosaic.ValueIdx Idealize.ShloMosaic.StackMember

/-! ## The row numbers -/

/-- Every row number of a flat index array is in [0, 9999], read signed. -/
def RowsOK (idx : IVec S320000 32) : Prop := ∀ i, 0 ≤ (idx i).toInt ∧ (idx i).toInt ≤ 9999

/-- The same of the edge list. -/
def EdgesOK (E : IVec S2x320000 32) : Prop := ∀ i, 0 ≤ (E i).toInt ∧ (E i).toInt ≤ 9999

/-- Row 0 of the edge list at `e`. -/
theorem srcIdx_apply (E : IVec S2x320000 32) (e : Fin 320000) : srcIdx E (ix1 e) = E (ix2 (0 : Fin 2) e) := by
  unfold srcIdx
  rw [shapeCast_1a_a_apply]
  exact slice2_axis0_apply 0 E _ (0 : Fin 1) e (0 : Fin 2) rfl

/-- Row 1 of the edge list at `e`. -/
theorem dstIdx_apply (E : IVec S2x320000 32) (e : Fin 320000) : dstIdx E (ix1 e) = E (ix2 (1 : Fin 2) e) := by
  unfold dstIdx
  rw [shapeCast_1a_a_apply]
  exact slice2_axis0_apply 1 E _ (0 : Fin 1) e (1 : Fin 2) rfl

theorem srcIdx_ok (E : IVec S2x320000 32) (hE : EdgesOK E) : RowsOK (srcIdx E) := fun i => by
  obtain ⟨e, rfl⟩ : ∃ e : Fin 320000, i = ix1 e := ⟨i 0, eq_ix1 i⟩
  rw [srcIdx_apply]; exact hE _

theorem dstIdx_ok (E : IVec S2x320000 32) (hE : EdgesOK E) : RowsOK (dstIdx E) := fun i => by
  obtain ⟨e, rfl⟩ : ∃ e : Fin 320000, i = ix1 e := ⟨i 0, eq_ix1 i⟩
  rw [dstIdx_apply]; exact hE _

/-! ## The look-up's guards, inert on row numbers in range -/

/-- No row number in range is negative: the wrap leaves it. -/
theorem wrapIdx_apply (idx : IVec S320000 32) (h : RowsOK idx) (i : S320000.Idx) : wrapIdx idx i = idx i := by
  have hc : IntOp.cmpi .slt (idx i) (0#32) = 0#1 := eq_zero_of_ne_one fun hh => by
    have h1 := IntOp.cmpi_slt.1 hh
    rw [show (0#32 : BitVec 32).toInt = 0 from by decide] at h1
    have := (h i).1
    omega
  show Scalar.select (IntOp.cmpi .slt (idx i) (0#32)) (IntOp.addi (idx i) 10000#32) (idx i) = idx i
  rw [hc, select_zero]

/-- The column of start indices at `(e, ·)` is the wrapped row number `e`. -/
theorem colIdx_apply (idx : IVec S320000 32) (e : Fin 320000) (u : Fin 1) : colIdx idx (ix2 e u) = wrapIdx idx (ix1 e) := by
  unfold colIdx
  exact broadcastInDim_apply _ _ _ _ (ix1 e) fun a => by
    match a with
    | ⟨0, _⟩ =>
      show e.val = if (320000 : Nat) = 1 then 0 else e.val
      rw [if_neg (by decide)]

/-- Every row number in range passes the bounds test. -/
theorem inBounds_apply (idx : IVec S320000 32) (h : RowsOK idx) (j : S320000.Idx) : inBounds idx j = 1#1 := by
  unfold inBounds
  refine reduce_andi_of_all _ _ _ _ (fun _ => rfl) (fun i => ?_) j
  obtain ⟨e, u, rfl⟩ : ∃ (e : Fin 320000) (u : Fin 1), i = ix2 e u := ⟨i 0, i 1, eq_ix2 i⟩
  show IntOp.andi (IntOp.cmpi .sge (colIdx idx (ix2 e u)) (0#32)) (IntOp.cmpi .sle (colIdx idx (ix2 e u)) (9999#32)) = 1#1
  rw [colIdx_apply, wrapIdx_apply idx h]
  refine IntOp.andi_eq_one.2 ⟨IntOp.cmpi_sge.2 ?_, IntOp.cmpi_sle.2 ?_⟩
  · rw [show (0#32 : BitVec 32).toInt = 0 from by decide]; exact (h _).1
  · rw [show (9999#32 : BitVec 32).toInt = 9999 from by decide]; exact (h _).2

/-- THE LOOK-UP on row numbers in range: `take x idx` at `(e, k)` is `x` at row `idx[e]`, column `k`. -/
theorem take_apply (x : FVec Ideal S10000x128 .f32) (idx : IVec S320000 32) (h : RowsOK idx) (e : Fin 320000) (k : Fin 128) :
    take x idx (ix2 e k) = x (ix2 (rowOf (idx (ix1 e))) k) := by
  unfold take
  rw [select_apply]
  have hc : broadcastInDim S320000x128 ![0] bcast_S320000_S320000x128_0 (inBounds idx) (ix2 e k) = 1#1 :=
    (broadcastInDim_apply _ _ _ _ (ix1 e) fun a => by
      match a with
      | ⟨0, _⟩ =>
        show e.val = if (320000 : Nat) = 1 then 0 else e.val
        rw [if_neg (by decide)]).trans (inBounds_apply idx h _)
  rw [hc, select_one]
  refine (gather_rows_apply (N := 10000) (C := 128) (R := 320000) (by decide)
    gather_S10000x128_S320000x1_S320000x128_1_0_n_n_0_1_1128_wf x (colIdx idx) e k).trans ?_
  have hci : colIdx idx (ix2 e (0 : Fin 1)) = idx (ix1 e) := (colIdx_apply idx e 0).trans (wrapIdx_apply idx h _)
  refine congrArg x (congrArg (fun r : Fin 10000 => ix2 r k) (Fin.ext ?_))
  show min (colIdx idx (ix2 e (0 : Fin 1))).toInt.toNat (10000 - 1) = min (idx (ix1 e)).toInt.toNat 9999
  rw [hci]

/-! ## The hidden layer and the score -/

/-- The first bias, through its two broadcasts, at `(e, j)`. -/
theorem bias1_apply (b1 : FVec Ideal S128 .f32) (e : Fin 320000) (j : Fin 128) :
    broadcastInDim S320000x128 ![0, 1] bcast_S1x128_S320000x128_0_1 (broadcastInDim S1x128 ![1] bcast_S128_S1x128_1 b1) (ix2 e j)
      = b1 (ix1 j) := by
  rw [broadcastInDim_apply _ _ _ _ (ix2 (0 : Fin 1) j) fun a => by
    match a with
    | ⟨0, _⟩ => rfl
    | ⟨1, _⟩ =>
      show j.val = if (128 : Nat) = 1 then 0 else j.val
      rw [if_neg (by decide)]]
  exact broadcastInDim_apply _ _ _ _ (ix1 j) fun a => by
    match a with
    | ⟨0, _⟩ =>
      show j.val = if (128 : Nat) = 1 then 0 else j.val
      rw [if_neg (by decide)]

/-- The second bias, through its two broadcasts, at `(e, 0)`. -/
theorem bias2_apply (b2 : FVec Ideal S1 .f32) (e : Fin 320000) (u : Fin 1) :
    broadcastInDim S320000x1 ![0, 1] bcast_S1x1_S320000x1_0_1 (broadcastInDim S1x1 ![1] bcast_S1_S1x1_1 b2) (ix2 e u)
      = b2 (ix1 (0 : Fin 1)) := by
  rw [broadcastInDim_apply _ _ _ _ (ix2 (0 : Fin 1) (0 : Fin 1)) fun a => by
    match a with
    | ⟨0, _⟩ => rfl
    | ⟨1, _⟩ => rfl]
  exact broadcastInDim_apply _ _ _ _ (ix1 (0 : Fin 1)) fun a => by
    match a with
    | ⟨0, _⟩ => rfl

/-- The hidden value at `(e, j)` is the specification's, at the rows the edge names. -/
theorem hidden_apply (K Q P : FVec Ideal S10000x128 .f32) (E : IVec S2x320000 32) (W1 : FVec Ideal S128x128 .f32)
    (b1 : FVec Ideal S128 .f32) (hE : EdgesOK E) (e : Fin 320000) (j : Fin 128) :
    RefRun.hidden K Q P E W1 b1 (ix2 e j)
      = refHidden K Q P W1 b1 (rowOf (E (ix2 (0 : Fin 2) e))) (rowOf (E (ix2 (1 : Fin 2) e))) j := by
  unfold RefRun.hidden refHidden
  rw [addf_apply, bias1_apply]
  refine congrArg (· + b1 (ix1 j)) ?_
  refine (dotGeneral_plain_apply (m := 320000) (n := 128) (k := 128) none _ W1 e j).trans ?_
  refine Finset.sum_congr rfl fun c _ => ?_
  rw [addf_apply, subf_apply, take_apply K _ (srcIdx_ok E hE), take_apply Q _ (dstIdx_ok E hE),
    take_apply P _ (srcIdx_ok E hE), srcIdx_apply, dstIdx_apply]

/-- THE REFERENCE IS THE SPECIFICATION: its result at edge `e` is `refScore` at rows `edge_index[0, e]`,
    `edge_index[1, e]`. -/
theorem out_apply (K Q P : FVec Ideal S10000x128 .f32) (E : IVec S2x320000 32) (W1 : FVec Ideal S128x128 .f32)
    (b1 : FVec Ideal S128 .f32) (W2 : FVec Ideal S128x1 .f32) (b2 : FVec Ideal S1 .f32) (hE : EdgesOK E) (e : Fin 320000)
    (u : Fin 1) :
    out K Q P E W1 b1 W2 b2 (ix2 e u)
      = refScore K Q P W1 b1 W2 b2 (rowOf (E (ix2 (0 : Fin 2) e))) (rowOf (E (ix2 (1 : Fin 2) e))) := by
  obtain rfl : u = 0 := Subsingleton.elim _ _
  unfold out refScore
  rw [addf_apply, bias2_apply]
  refine congrArg (· + b2 (ix1 (0 : Fin 1))) ?_
  refine (dotGeneral_plain_apply (m := 320000) (n := 1) (k := 128) none _ W2 e 0).trans ?_
  refine Finset.sum_congr rfl fun c _ => ?_
  rw [maximumf_apply, hidden_apply K Q P E W1 b1 hE]
  show max _ (Ideal.ofBits .f32 0x00000000#32) * _ = _
  rw [Ideal.ofBits_zero_f32]

/-- … and so, as whole arrays, the reference's result is the specification's result array. -/
theorem out_eq_refResult (K Q P : FVec Ideal S10000x128 .f32) (E : IVec S2x320000 32) (W1 : FVec Ideal S128x128 .f32)
    (b1 : FVec Ideal S128 .f32) (W2 : FVec Ideal S128x1 .f32) (b2 : FVec Ideal S1 .f32) (hE : EdgesOK E) :
    out K Q P E W1 b1 W2 b2 = refResult K Q P E W1 b1 W2 b2 :=
  funext fun i => by
    obtain ⟨e, u, rfl⟩ : ∃ (e : Fin 320000) (u : Fin 1), i = ix2 e u := ⟨i 0, i 1, eq_ix2 i⟩
    exact out_apply K Q P E W1 b1 W2 b2 hE e u

end Cert.RefValue

end
-- ==== Proof.RefFrame.lean ====
/-
  The reference's two conjuncts' worth of facts, at the claim's own statement forms.

  * Its frame: the run with the value dropped. It runs from any memory (no precondition is used): every operation of a
    straight line of host operations is total.
  * Its run under the precondition, with the result named: the specification's reference result array of the arguments'
    launch contents. The precondition is used once, for the edge words' range, which makes the look-up's guards inert.
-/
import proofs.«211135_g34514357191071_cont_8to1_b_641_23_alg».proof.Defs
import proofs.«211135_g34514357191071_cont_8to1_b_641_23_alg».proof.Proof.Gen.Pre_input_domain
import proofs.«211135_g34514357191071_cont_8to1_b_641_23_alg».proof.Proof.PreProgs
import proofs.«211135_g34514357191071_cont_8to1_b_641_23_alg».proof.Proof.RefValue

noncomputable section

namespace Cert.RefFrame

open Idealize.ShloMosaic Idealize.SL.Sem Cert.EdgeScore

/-- The reference runs, faults nowhere, and leaves its eight arguments unchanged. -/
theorem frame : Cert.frame_ReferenceIdeal (hReferenceIdeal := Cert.ReferenceIdeal.Gen.facts)
    (hPre_input_domain := Cert.Pre_input_domain.Gen.facts) :=
  fun m g _ => (θ_run Cert.ReferenceIdeal.defs _ _).mono (fun _ h c => (h c).2) (Cert.RefRun.run (F := Ideal) m g)

/-- Under the precondition the reference ends with its result at the specification's reference result array of the
    launch contents, and its arguments unchanged. -/
theorem run_refResult (m : (ℓ : Loc Cert.ReferenceIdeal.nD Cert.ReferenceIdeal.τ Cert.ReferenceIdeal.sig) → Buf (Elt Ideal) ℓ)
    (g : Dev Cert.ReferenceIdeal.nD → PrngReg)
    (hpre : Cert.Pre_ReferenceIdeal (hPre_input_domain := Cert.Pre_input_domain.Gen.facts) m) :
    θ_run (Cert.ReferenceIdeal.defs (F := Ideal)) (onTc (τ := Cert.ReferenceIdeal.τ) (Cert.ReferenceIdeal.main (F := Ideal)))
      ⟨m, fun _ => 0, g⟩ fun r => ∀ c : Dev Cert.ReferenceIdeal.nD,
        r.2.mem ((c.tc : Thread Cert.ReferenceIdeal.nD Cert.ReferenceIdeal.τ).loc Cert.ReferenceIdeal.main_v18)
            = refResult (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7) :=
  (θ_run Cert.ReferenceIdeal.defs _ _).mono
    (fun _ h c => ⟨(h c).1.trans (Cert.RefValue.out_eq_refResult _ _ _ _ _ _ _ _ (Cert.PreDomain.of_pre_reference m hpre c).range3),
      (h c).2⟩)
    (Cert.RefRun.run (F := Ideal) m g)

end Cert.RefFrame

end
-- ==== Proof.RefAgree.lean ====
/-
  The reference run from a memory that agrees with the kernel's on the eight arguments: where the kernel's precondition
  holds of the kernel's memory, the reference ends with its result at the specification's reference result array OF THE
  KERNEL'S launch contents, its own arguments unchanged. (The precondition is a function of the eight argument arrays
  alone, so it passes along the agreement.)
-/
import proofs.«211135_g34514357191071_cont_8to1_b_641_23_alg».proof.Proof.RefFrame

noncomputable section

namespace Cert.RefFrame

open Idealize.ShloMosaic Idealize.SL.Sem Cert.EdgeScore

/-- The memories agree on the arguments, as the claim states it. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧
    m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧
    m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧
    m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧
    m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧
    m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧
    m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧
    m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

/-- The precondition passes from the kernel's memory to an agreeing reference memory. -/
theorem pre_of_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_input_domain := Cert.Pre_input_domain.Gen.facts) m) (hagree : Agree m m') :
    Cert.Pre_ReferenceIdeal (hPre_input_domain := Cert.Pre_input_domain.Gen.facts) m' := fun c => by
  obtain ⟨h0, h1, h2, h3, h4, h5, h6, h7⟩ := hagree c
  rw [h0, h1, h2, h3, h4, h5, h6, h7]
  exact hpre c

/-- The reference's run from an agreeing memory, its result named over the KERNEL's launch contents. -/
theorem run_of_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hpre : Cert.Pre_KernelIdeal (hPre_input_domain := Cert.Pre_input_domain.Gen.facts) m) (hagree : Agree m m') :
    θ_run (Cert.ReferenceIdeal.defs (F := Ideal)) (onTc (τ := Cert.ReferenceIdeal.τ) (Cert.ReferenceIdeal.main (F := Ideal)))
      ⟨m', fun _ => 0, g'⟩ fun r => ∀ c : Dev Cert.ReferenceIdeal.nD,
        r.2.mem ((c.tc : Thread Cert.ReferenceIdeal.nD Cert.ReferenceIdeal.τ).loc Cert.ReferenceIdeal.main_v18)
            = refResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
                (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7) :=
  (θ_run Cert.ReferenceIdeal.defs _ _).mono
    (fun _ h c => ⟨by
        obtain ⟨h0, h1, h2, h3, h4, h5, h6, h7⟩ := hagree c
        rw [(h c).1, h0, h1, h2, h3, h4, h5, h6, h7], (h c).2⟩)
    (run_refResult m' g' (pre_of_agree m m' hpre hagree))

end Cert.RefFrame

end
-- ==== Proof.lean ====
/-
  The certificate's claim, assembled.

  The kernel scores the edges of a graph network in three calls: a pipelined call on the TensorCore builds two node tables,
  A = (K_h + P_e)·W1 + b1 and B = Q_h·W1; a call on the 2 × 16 vector subcores of the two SparseCores gathers, for each of the 323 584
  padded edges e, row src[e] of A and row dst[e] of B; a second pipelined call computes max(GA[e] − GB[e], 0)·W2 + b2; the first 320 000 rows
  are the result. The reference computes max(((K_h[src] − Q_h[dst]) + P_e[src])·W1 + b1, 0)·W2 + b2.

  Frames. Each kernel program is the TensorCore's @main beside the SparseCores' 34 threads; every weakly fair execution of that family ends,
  faulting nowhere, with the eight arguments as they were: the launch theorem for a device with SparseCores, from the vector subcore's task
  (79 trips of fetch, gather, copy out, every copy waited for before its ends are touched again), the dealing of the call's operands to the
  tiles and back, and @main on the TensorCore entering its two pipelined calls around the SparseCore call. The reference's frame is its run,
  an @main of host operations only.

  The two idealized programs end with equal results. On the extended reals the kernel's score at edge e is
  Σ_j max(((Σ_k (K[s,k] + P[s,k])·W1[k,j]) + b1[j]) − (Σ_k Q[d,k]·W1[k,j]), 0)·W2[j] + b2 and the reference's is
  Σ_j max((Σ_k ((K[s,k] − Q[d,k]) + P[s,k])·W1[k,j]) + b1[j], 0)·W2[j] + b2, with s = src[e], d = dst[e]. They are one number when every
  entry is a real number — the product with W1 distributes over the row sum — and the precondition says every float input is finite; it also
  bounds the edge indices by the tables' 10 000 rows, which is what every indexed copy of the gather needs.

  The idealization rewrote nothing of the kernel, so that conjunct is trivial.
-/
import proofs.«211135_g34514357191071_cont_8to1_b_641_23_alg».proof.Defs
import proofs.«211135_g34514357191071_cont_8to1_b_641_23_alg».proof.Proof.Gen.Kernel
import proofs.«211135_g34514357191071_cont_8to1_b_641_23_alg».proof.Proof.Gen.KernelIdeal
import proofs.«211135_g34514357191071_cont_8to1_b_641_23_alg».proof.Proof.Gen.ReferenceIdeal
import proofs.«211135_g34514357191071_cont_8to1_b_641_23_alg».proof.Proof.Gen.Pre_input_domain
import proofs.«211135_g34514357191071_cont_8to1_b_641_23_alg».proof.Proof.KIFrames
import proofs.«211135_g34514357191071_cont_8to1_b_641_23_alg».proof.Proof.KBFrames
import proofs.«211135_g34514357191071_cont_8to1_b_641_23_alg».proof.Proof.KIFinal
import proofs.«211135_g34514357191071_cont_8to1_b_641_23_alg».proof.Proof.RefFrame
import proofs.«211135_g34514357191071_cont_8to1_b_641_23_alg».proof.Proof.RefAgree

noncomputable section

namespace Cert.Proof

open Idealize.ShloMosaic Idealize.SL.Sem

/-- Both idealized programs run, the kernel's result array ending at the reference's result of the same arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) :=
  fun m g m' g' hpre hagree =>
    ⟨fun c => Cert.EdgeScore.refResult
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)),
      (θ_run (Cert.KernelIdeal.defs (F := Ideal)) _ _).mono
        (fun r h c => ⟨(h c).1.trans (Cert.Proof.KI.out13_eq_refResult m hpre c), (h c).2⟩)
        (Cert.Proof.Frames.run_out13 m g hpre),
      Cert.RefFrame.run_of_agree m m' g' hpre hagree⟩

theorem claim : Cert.Claim :=
  ⟨Cert.Kernel.Gen.facts, Cert.KernelIdeal.Gen.facts, Cert.ReferenceIdeal.Gen.facts, Cert.Pre_input_domain.Gen.facts,
    Cert.Proof.Frames.frame_kernel, Cert.Proof.Frames.frame_kernelIdeal, Cert.RefFrame.frame, trivial, algebraic⟩

end Cert.Proof

end
